-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S23x128 : Shape := ⟨2, ![23, 128]⟩
abbrev S_ : Shape := ⟨0, ![]⟩

class Facts : Prop where
  bcast_S_S23x128 : S_.BroadcastsInDim S23x128 (![] : Fin 0 → Fin S23x128.rank)
  reducesTo_S23x128_S_d0_1 : S23x128.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S23x128 .f32) : IVec S_ 1 :=
  let main_v0 : FVec F S23x128 .f32 := Host.absf main_arg1
  let main_cst : FVec F S_ .f32 := constant S_ .f32 0x7F800000#32
  let main_v1 : FVec F S23x128 .f32 := broadcastInDim S23x128 ![] bcast_S_S23x128 main_cst
  let main_v2 : IVec S23x128 1 := cmpf .olt main_v0 main_v1
  let main_c : IVec S_ 1 := constantI S_ 1 1#1
  let main_v3 : IVec S_ 1 := (fun x v => Host.reduce IntOp.andi x v reducesTo_S23x128_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg0 main_v4
  let main_c_1 : IVec S_ 32 := constantI S_ 32 22#32
  let main_v6 : IVec S16384x200 32 := broadcastInDim S16384x200 ![] bcast_S_S16384x200 main_c_1
  let main_v7 : IVec S16384x200 1 := cmpi .sle main_arg0 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  main_v10
-- ==== Kernel.lean ====
abbrev S16384x200 : Shape := ⟨2, ![16384, 200]⟩
abbrev S23x128 : Shape := ⟨2, ![23, 128]⟩
abbrev S200x16384 : Shape := ⟨2, ![200, 16384]⟩
abbrev S24x16384 : Shape := ⟨2, ![24, 16384]⟩
abbrev S200x128 : Shape := ⟨2, ![200, 128]⟩
abbrev S24x128 : Shape := ⟨2, ![24, 128]⟩
abbrev S16 : Shape := ⟨1, ![16]⟩
abbrev S_ : Shape := ⟨0, ![]⟩
abbrev S1x16 : Shape := ⟨2, ![1, 16]⟩
abbrev S22x128 : Shape := ⟨2, ![22, 128]⟩
abbrev S1 : Shape := ⟨1, ![1]⟩
abbrev S16384x128 : Shape := ⟨2, ![16384, 128]⟩
abbrev S24x2048 : Shape := ⟨2, ![24, 2048]⟩
abbrev S2048x128 : Shape := ⟨2, ![2048, 128]⟩

abbrev nBuf : Table → Nat
  | .hbm => 11
  | .local .tc .vmem => 5
  | .local .scVector .vmem => 2
  | _ => 0

abbrev bufTy : (tb : Table) → Fin (nBuf tb) → BufTy
  | .hbm, ⟨0, _⟩ => ⟨S16384x200, .i32⟩
  | .hbm, ⟨1, _⟩ => ⟨S23x128, .f32⟩
  | .hbm, ⟨2, _⟩ => ⟨S200x16384, .i32⟩
  | .hbm, ⟨3, _⟩ => ⟨S24x16384, .f32⟩
  | .hbm, ⟨4, _⟩ => ⟨S_, .f32⟩
  | .hbm, ⟨5, _⟩ => ⟨S24x128, .f32⟩
  | .hbm, ⟨6, _⟩ => ⟨S22x128, .f32⟩
  | .hbm, ⟨7, _⟩ => ⟨S_, .i32⟩
  | .hbm, ⟨8, _⟩ => ⟨S1, .i32⟩
  | .hbm, ⟨9, _⟩ => ⟨S24x128, .f32⟩
  | .hbm, ⟨10, _⟩ => ⟨S16384x128, .f32⟩
  | .local .tc .vmem, ⟨0, _⟩ => ⟨S24x2048, .f32⟩
  | .local .tc .vmem, ⟨1, _⟩ => ⟨S24x2048, .f32⟩
  | .local .tc .vmem, ⟨2, _⟩ => ⟨S24x128, .f32⟩
  | .local .tc .vmem, ⟨3, _⟩ => ⟨S2048x128, .f32⟩
  | .local .tc .vmem, ⟨4, _⟩ => ⟨S2048x128, .f32⟩
  | .local .scVector .vmem, ⟨0, _⟩ => ⟨S200x128, .i32⟩
  | .local .scVector .vmem, ⟨1, _⟩ => ⟨S24x128, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c4_i32 : BitVec 32 := 4#32
  let v5 : BitVec 32 := Scalar.addi c0_i32_1 c4_i32
  let c1_i32 : BitVec 32 := 1#32
  ⟨c0_i32_1, v5, c1_i32⟩
def k0_off1 (i : grid0.Coords) (k0_t1 : Fin k0_t1_loop.trips) : Fin 2 → Nat :=
  let c0_i32_364_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v6 : BitVec 32 := Scalar.muli v1 c512_i32
  let c0_i32_1 : BitVec 32 := 0#32
  let c1_i32 : BitVec 32 := 1#32
  let arg6 : BitVec 32 := Scf.iv c0_i32_1 c1_i32 k0_t1
  let c128_i32 : BitVec 32 := 128#32
  let v7 : BitVec 32 := Scalar.muli arg6 c128_i32
  let v8 : BitVec 32 := Scalar.addi v6 v7
  ![0, v8.toNat]
@[reducible] def k0_t2_loop : Scf.Loop 32 :=
  let c0_i32_360 : BitVec 32 := 0#32
  let c8_i32_361 : BitVec 32 := 8#32
  let v393 : BitVec 32 := Scalar.addi c0_i32_360 c8_i32_361
  let c1_i32_362 : BitVec 32 := 1#32
  ⟨c0_i32_360, v393, c1_i32_362⟩
def k0_off2 (k0_t2 : Fin k0_t2_loop.trips) : Fin 2 → Nat :=
  let c0_i32_366 : BitVec 32 := 0#32
  let v398 : Index := Scalar.indexCast c0_i32_366
  let c0_i32_360 : BitVec 32 := 0#32
  let c1_i32_362 : BitVec 32 := 1#32
  let arg7 : BitVec 32 := Scf.iv c0_i32_360 c1_i32_362 k0_t2
  let c16_i32_365 : BitVec 32 := 16#32
  let v397 : BitVec 32 := Scalar.muli arg7 c16_i32_365
  let v399 : Index := Scalar.indexCast v397
  ![0, v399.toNat]
def k0_off3 (k0_t2 : Fin k0_t2_loop.trips) : Fin 2 → Nat :=
  let c1_i32_368 : BitVec 32 := 1#32
  let v402 : Index := Scalar.indexCast c1_i32_368
  let c0_i32_360 : BitVec 32 := 0#32
  let c1_i32_362 : BitVec 32 := 1#32
  let arg7 : BitVec 32 := Scf.iv c0_i32_360 c1_i32_362 k0_t2
  let c16_i32_367 : BitVec 32 := 16#32
  let v401 : BitVec 32 := Scalar.muli arg7 c16_i32_367
  let v403 : Index := Scalar.indexCast v401
  ![1, v403.toNat]
def k0_off4 (k0_t2 : Fin k0_t2_loop.trips) : Fin 2 → Nat :=
  let c2_i32_370 : BitVec 32 := 2#32
  let v406 : Index := Scalar.indexCast c2_i32_370
  let c0_i32_360 : BitVec 32 := 0#32
  let c1_i32_362 : BitVec 32 := 1#32
  let arg7 : BitVec 32 := Scf.iv c0_i32_360 c1_i32_362 k0_t2
  let c16_i32_369 : BitVec 32 := 16#32
  let v405 : BitVec 32 := Scalar.muli arg7 c16_i32_369
  let v407 : Index := Scalar.indexCast v405
  ![2, v407.toNat]
def k0_off5 (k0_t2 : Fin k0_t2_loop.trips) : Fin 2 → Nat :=
  let c3_i32_372 : BitVec 32 := 3#32
  let v410 : Index := Scalar.indexCast c3_i32_372
  let c0_i32_360 : BitVec 32 := 0#32
  let c1_i32_362 : BitVec 32 := 1#32
  let arg7 : BitVec 32 := Scf.iv c0_i32_360 c1_i32_362 k0_t2
  let c16_i32_371 : BitVec 32 := 16#32
  let v409 : BitVec 32 := Scalar.muli arg7 c16_i32_371
  let v411 : Index := Scalar.indexCast v409
  ![3, v411.toNat]
def k0_off6 (k0_t2 : Fin k0_t2_loop.trips) : Fin 2 → Nat :=
  let c4_i32_374 : BitVec 32 := 4#32
  let v414 : Index := Scalar.indexCast c4_i32_374
  let c0_i32_360 : BitVec 32 := 0#32
  let c1_i32_362 : BitVec 32 := 1#32
  let arg7 : BitVec 32 := Scf.iv c0_i32_360 c1_i32_362 k0_t2
  let c16_i32_373 : BitVec 32 := 16#32
  let v413 : BitVec 32 := Scalar.muli arg7 c16_i32_373
  let v415 : Index := Scalar.indexCast v413
  ![4, v415.toNat]
def k0_off7 (k0_t2 : Fin k0_t2_loop.trips) : Fin 2 → Nat :=
  let c5_i32_376 : BitVec 32 := 5#32
  let v418 : Index := Scalar.indexCast c5_i32_376
  let c0_i32_360 : BitVec 32 := 0#32
  let c1_i32_362 : BitVec 32 := 1#32
  let arg7 : BitVec 32 := Scf.iv c0_i32_360 c1_i32_362 k0_t2
  let c16_i32_375 : BitVec 32 := 16#32
  let v417 : BitVec 32 := Scalar.muli arg7 c16_i32_375
  let v419 : Index := Scalar.indexCast v417
  ![5, v419.toNat]
def k0_off8 (k0_t2 : Fin k0_t2_loop.trips) : Fin 2 → Nat :=
  let c6_i32_378 : BitVec 32 := 6#32
  let v422 : Index := Scalar.indexCast c6_i32_378
  let c0_i32_360 : BitVec 32 := 0#32
  let c1_i32_362 : BitVec 32 := 1#32
  let arg7 : BitVec 32 := Scf.iv c0_i32_360 c1_i32_362 k0_t2
  let c16_i32_377 : BitVec 32 := 16#32
  let v421 : BitVec 32 := Scalar.muli arg7 c16_i32_377
  let v423 : Index := Scalar.indexCast v421
  ![6, v423.toNat]
def k0_off9 (k0_t2 : Fin k0_t2_loop.trips) : Fin 2 → Nat :=
  let c7_i32_380 : BitVec 32 := 7#32
  let v426 : Index := Scalar.indexCast c7_i32_380
  let c0_i32_360 : BitVec 32 := 0#32
  let c1_i32_362 : BitVec 32 := 1#32
  let arg7 : BitVec 32 := Scf.iv c0_i32_360 c1_i32_362 k0_t2
  let c16_i32_379 : BitVec 32 := 16#32
  let v425 : BitVec 32 := Scalar.muli arg7 c16_i32_379
  let v427 : Index := Scalar.indexCast v425
  ![7, v427.toNat]
def k0_off10 (k0_t2 : Fin k0_t2_loop.trips) : Fin 2 → Nat :=
  let c8_i32_382 : BitVec 32 := 8#32
  let v430 : Index := Scalar.indexCast c8_i32_382
  let c0_i32_360 : BitVec 32 := 0#32
  let c1_i32_362 : BitVec 32 := 1#32
  let arg7 : BitVec 32 := Scf.iv c0_i32_360 c1_i32_362 k0_t2
  let c16_i32_381 : BitVec 32 := 16#32
  let v429 : BitVec 32 := Scalar.muli arg7 c16_i32_381
  let v431 : Index := Scalar.indexCast v429
  ![8, v431.toNat]
def k0_off11 (k0_t2 : Fin k0_t2_loop.trips) : Fin 2 → Nat :=
  let c9_i32_384 : BitVec 32 := 9#32
  let v434 : Index := Scalar.indexCast c9_i32_384
  let c0_i32_360 : BitVec 32 := 0#32
  let c1_i32_362 : BitVec 32 := 1#32
  let arg7 : BitVec 32 := Scf.iv c0_i32_360 c1_i32_362 k0_t2
  let c16_i32_383 : BitVec 32 := 16#32
  let v433 : BitVec 32 := Scalar.muli arg7 c16_i32_383
  let v435 : Index := Scalar.indexCast v433
  ![9, v435.toNat]
def k0_off12 (k0_t2 : Fin k0_t2_loop.trips) : Fin 2 → Nat :=
  let c10_i32_386 : BitVec 32 := 10#32
  let v438 : Index := Scalar.indexCast c10_i32_386
  let c0_i32_360 : BitVec 32 := 0#32
  let c1_i32_362 : BitVec 32 := 1#32
  let arg7 : BitVec 32 := Scf.iv c0_i32_360 c1_i32_362 k0_t2
  let c16_i32_385 : BitVec 32 := 16#32
  let v437 : BitVec 32 := Scalar.muli arg7 c16_i32_385
  let v439 : Index := Scalar.indexCast v437
  ![10, v439.toNat]
def k0_off13 (k0_t2 : Fin k0_t2_loop.trips) : Fin 2 → Nat :=
  let c11_i32_388 : BitVec 32 := 11#32
  let v442 : Index := Scalar.indexCast c11_i32_388
  let c0_i32_360 : BitVec 32 := 0#32
  let c1_i32_362 : BitVec 32 := 1#32
  let arg7 : BitVec 32 := Scf.iv c0_i32_360 c1_i32_362 k0_t2
  let c16_i32_387 : BitVec 32 := 16#32
  let v441 : BitVec 32 := Scalar.muli arg7 c16_i32_387
  let v443 : Index := Scalar.indexCast v441
  ![11, v443.toNat]
def k0_off14 (k0_t2 : Fin k0_t2_loop.trips) : Fin 2 → Nat :=
  let c12_i32_390 : BitVec 32 := 12#32
  let v446 : Index := Scalar.indexCast c12_i32_390
  let c0_i32_360 : BitVec 32 := 0#32
  let c1_i32_362 : BitVec 32 := 1#32
  let arg7 : BitVec 32 := Scf.iv c0_i32_360 c1_i32_362 k0_t2
  let c16_i32_389 : BitVec 32 := 16#32
  let v445 : BitVec 32 := Scalar.muli arg7 c16_i32_389
  let v447 : Index := Scalar.indexCast v445
  ![12, v447.toNat]
def k0_off15 (k0_t2 : Fin k0_t2_loop.trips) : Fin 2 → Nat :=
  let c13_i32_392 : BitVec 32 := 13#32
  let v450 : Index := Scalar.indexCast c13_i32_392
  let c0_i32_360 : BitVec 32 := 0#32
  let c1_i32_362 : BitVec 32 := 1#32
  let arg7 : BitVec 32 := Scf.iv c0_i32_360 c1_i32_362 k0_t2
  let c16_i32_391 : BitVec 32 := 16#32
  let v449 : BitVec 32 := Scalar.muli arg7 c16_i32_391
  let v451 : Index := Scalar.indexCast v449
  ![13, v451.toNat]
def k0_off16 (k0_t2 : Fin k0_t2_loop.trips) : Fin 2 → Nat :=
  let c14_i32_394 : BitVec 32 := 14#32
  let v454 : Index := Scalar.indexCast c14_i32_394
  let c0_i32_360 : BitVec 32 := 0#32
  let c1_i32_362 : BitVec 32 := 1#32
  let arg7 : BitVec 32 := Scf.iv c0_i32_360 c1_i32_362 k0_t2
  let c16_i32_393 : BitVec 32 := 16#32
  let v453 : BitVec 32 := Scalar.muli arg7 c16_i32_393
  let v455 : Index := Scalar.indexCast v453
  ![14, v455.toNat]
def k0_off17 (k0_t2 : Fin k0_t2_loop.trips) : Fin 2 → Nat :=
  let c15_i32_396 : BitVec 32 := 15#32
  let v458 : Index := Scalar.indexCast c15_i32_396
  let c0_i32_360 : BitVec 32 := 0#32
  let c1_i32_362 : BitVec 32 := 1#32
  let arg7 : BitVec 32 := Scf.iv c0_i32_360 c1_i32_362 k0_t2
  let c16_i32_395 : BitVec 32 := 16#32
  let v457 : BitVec 32 := Scalar.muli arg7 c16_i32_395
  let v459 : Index := Scalar.indexCast v457
  ![15, v459.toNat]
def k0_off18 (k0_t2 : Fin k0_t2_loop.trips) : Fin 2 → Nat :=
  let c16_i32_398 : BitVec 32 := 16#32
  let v462 : Index := Scalar.indexCast c16_i32_398
  let c0_i32_360 : BitVec 32 := 0#32
  let c1_i32_362 : BitVec 32 := 1#32
  let arg7 : BitVec 32 := Scf.iv c0_i32_360 c1_i32_362 k0_t2
  let c16_i32_397 : BitVec 32 := 16#32
  let v461 : BitVec 32 := Scalar.muli arg7 c16_i32_397
  let v463 : Index := Scalar.indexCast v461
  ![16, v463.toNat]
def k0_off19 (k0_t2 : Fin k0_t2_loop.trips) : Fin 2 → Nat :=
  let c17_i32_400 : BitVec 32 := 17#32
  let v466 : Index := Scalar.indexCast c17_i32_400
  let c0_i32_360 : BitVec 32 := 0#32
  let c1_i32_362 : BitVec 32 := 1#32
  let arg7 : BitVec 32 := Scf.iv c0_i32_360 c1_i32_362 k0_t2
  let c16_i32_399 : BitVec 32 := 16#32
  let v465 : BitVec 32 := Scalar.muli arg7 c16_i32_399
  let v467 : Index := Scalar.indexCast v465
  ![17, v467.toNat]
def k0_off20 (k0_t2 : Fin k0_t2_loop.trips) : Fin 2 → Nat :=
  let c18_i32_402 : BitVec 32 := 18#32
  let v470 : Index := Scalar.indexCast c18_i32_402
  let c0_i32_360 : BitVec 32 := 0#32
  let c1_i32_362 : BitVec 32 := 1#32
  let arg7 : BitVec 32 := Scf.iv c0_i32_360 c1_i32_362 k0_t2
  let c16_i32_401 : BitVec 32 := 16#32
  let v469 : BitVec 32 := Scalar.muli arg7 c16_i32_401
  let v471 : Index := Scalar.indexCast v469
  ![18, v471.toNat]
def k0_off21 (k0_t2 : Fin k0_t2_loop.trips) : Fin 2 → Nat :=
  let c19_i32_404 : BitVec 32 := 19#32
  let v474 : Index := Scalar.indexCast c19_i32_404
  let c0_i32_360 : BitVec 32 := 0#32
  let c1_i32_362 : BitVec 32 := 1#32
  let arg7 : BitVec 32 := Scf.iv c0_i32_360 c1_i32_362 k0_t2
  let c16_i32_403 : BitVec 32 := 16#32
  let v473 : BitVec 32 := Scalar.muli arg7 c16_i32_403
  let v475 : Index := Scalar.indexCast v473
  ![19, v475.toNat]
def k0_off22 (k0_t2 : Fin k0_t2_loop.trips) : Fin 2 → Nat :=
  let c20_i32_406 : BitVec 32 := 20#32
  let v478 : Index := Scalar.indexCast c20_i32_406
  let c0_i32_360 : BitVec 32 := 0#32
  let c1_i32_362 : BitVec 32 := 1#32
  let arg7 : BitVec 32 := Scf.iv c0_i32_360 c1_i32_362 k0_t2
  let c16_i32_405 : BitVec 32 := 16#32
  let v477 : BitVec 32 := Scalar.muli arg7 c16_i32_405
  let v479 : Index := Scalar.indexCast v477
  ![20, v479.toNat]
def k0_off23 (k0_t2 : Fin k0_t2_loop.trips) : Fin 2 → Nat :=
  let c21_i32_408 : BitVec 32 := 21#32
  let v482 : Index := Scalar.indexCast c21_i32_408
  let c0_i32_360 : BitVec 32 := 0#32
  let c1_i32_362 : BitVec 32 := 1#32
  let arg7 : BitVec 32 := Scf.iv c0_i32_360 c1_i32_362 k0_t2
  let c16_i32_407 : BitVec 32 := 16#32
  let v481 : BitVec 32 := Scalar.muli arg7 c16_i32_407
  let v483 : Index := Scalar.indexCast v481
  ![21, v483.toNat]
def k0_off24 (k0_t2 : Fin k0_t2_loop.trips) : Fin 2 → Nat :=
  let c22_i32_410 : BitVec 32 := 22#32
  let v486 : Index := Scalar.indexCast c22_i32_410
  let c0_i32_360 : BitVec 32 := 0#32
  let c1_i32_362 : BitVec 32 := 1#32
  let arg7 : BitVec 32 := Scf.iv c0_i32_360 c1_i32_362 k0_t2
  let c16_i32_409 : BitVec 32 := 16#32
  let v485 : BitVec 32 := Scalar.muli arg7 c16_i32_409
  let v487 : Index := Scalar.indexCast v485
  ![22, v487.toNat]
def k0_off25 (k0_t2 : Fin k0_t2_loop.trips) : Fin 2 → Nat :=
  let c23_i32_412 : BitVec 32 := 23#32
  let v490 : Index := Scalar.indexCast c23_i32_412
  let c0_i32_360 : BitVec 32 := 0#32
  let c1_i32_362 : BitVec 32 := 1#32
  let arg7 : BitVec 32 := Scf.iv c0_i32_360 c1_i32_362 k0_t2
  let c16_i32_411 : BitVec 32 := 16#32
  let v489 : BitVec 32 := Scalar.muli arg7 c16_i32_411
  let v491 : Index := Scalar.indexCast v489
  ![23, v491.toNat]
def k0_off26 (k0_t2 : Fin k0_t2_loop.trips) : Fin 2 → Nat :=
  let c24_i32 : BitVec 32 := 24#32
  let v494 : Index := Scalar.indexCast c24_i32
  let c0_i32_360 : BitVec 32 := 0#32
  let c1_i32_362 : BitVec 32 := 1#32
  let arg7 : BitVec 32 := Scf.iv c0_i32_360 c1_i32_362 k0_t2
  let c16_i32_413 : BitVec 32 := 16#32
  let v493 : BitVec 32 := Scalar.muli arg7 c16_i32_413
  let v495 : Index := Scalar.indexCast v493
  ![24, v495.toNat]
def k0_off27 (k0_t2 : Fin k0_t2_loop.trips) : Fin 2 → Nat :=
  let c25_i32 : BitVec 32 := 25#32
  let v498 : Index := Scalar.indexCast c25_i32
  let c0_i32_360 : BitVec 32 := 0#32
  let c1_i32_362 : BitVec 32 := 1#32
  let arg7 : BitVec 32 := Scf.iv c0_i32_360 c1_i32_362 k0_t2
  let c16_i32_414 : BitVec 32 := 16#32
  let v497 : BitVec 32 := Scalar.muli arg7 c16_i32_414
  let v499 : Index := Scalar.indexCast v497
  ![25, v499.toNat]

def k0_chk1 (v396 : IVec S16 32) (v400 : IVec S16 32) : Prop :=
  (∀ a x, ((![v400, v396] : Fin 2 → IVec S16 32) a x).toNat < S24x128.size a)
instance k0_chk1.dec : ∀ (v396 : IVec S16 32) (v400 : IVec S16 32), Decidable (k0_chk1 v396 v400) := fun v396 v400 => decidable_of_iff' _ (Iff.of_eq (k0_chk1.eq_1 v396 v400))
theorem k0_idx1_inb : ∀ (v396 : IVec S16 32) (v400 : IVec S16 32) (k0_hw1 : k0_chk1 v396 v400), ∀ a x, ((![v400, v396] : Fin 2 → IVec S16 32) a x).toNat < S24x128.size a := fun v396 v400 k0_hw1 => k0_hw1
def k0_off28 (k0_t2 : Fin k0_t2_loop.trips) : Fin 2 → Nat :=
  let c26_i32 : BitVec 32 := 26#32
  let v502 : Index := Scalar.indexCast c26_i32
  let c0_i32_360 : BitVec 32 := 0#32
  let c1_i32_362 : BitVec 32 := 1#32
  let arg7 : BitVec 32 := Scf.iv c0_i32_360 c1_i32_362 k0_t2
  let c16_i32_415 : BitVec 32 := 16#32
  let v501 : BitVec 32 := Scalar.muli arg7 c16_i32_415
  let v503 : Index := Scalar.indexCast v501
  ![26, v503.toNat]

def k0_chk2 (v396 : IVec S16 32) (v404 : IVec S16 32) : Prop :=
  (∀ a x, ((![v404, v396] : Fin 2 → IVec S16 32) a x).toNat < S24x128.size a)
instance k0_chk2.dec : ∀ (v396 : IVec S16 32) (v404 : IVec S16 32), Decidable (k0_chk2 v396 v404) := fun v396 v404 => decidable_of_iff' _ (Iff.of_eq (k0_chk2.eq_1 v396 v404))
theorem k0_idx2_inb : ∀ (v396 : IVec S16 32) (v404 : IVec S16 32) (k0_hw2 : k0_chk2 v396 v404), ∀ a x, ((![v404, v396] : Fin 2 → IVec S16 32) a x).toNat < S24x128.size a := fun v396 v404 k0_hw2 => k0_hw2
def k0_off29 (k0_t2 : Fin k0_t2_loop.trips) : Fin 2 → Nat :=
  let c27_i32 : BitVec 32 := 27#32
  let v506 : Index := Scalar.indexCast c27_i32
  let c0_i32_360 : BitVec 32 := 0#32
  let c1_i32_362 : BitVec 32 := 1#32
  let arg7 : BitVec 32 := Scf.iv c0_i32_360 c1_i32_362 k0_t2
  let c16_i32_416 : BitVec 32 := 16#32
  let v505 : BitVec 32 := Scalar.muli arg7 c16_i32_416
  let v507 : Index := Scalar.indexCast v505
  ![27, v507.toNat]

def k0_chk3 (v396 : IVec S16 32) (v408 : IVec S16 32) : Prop :=
  (∀ a x, ((![v408, v396] : Fin 2 → IVec S16 32) a x).toNat < S24x128.size a)
instance k0_chk3.dec : ∀ (v396 : IVec S16 32) (v408 : IVec S16 32), Decidable (k0_chk3 v396 v408) := fun v396 v408 => decidable_of_iff' _ (Iff.of_eq (k0_chk3.eq_1 v396 v408))
theorem k0_idx3_inb : ∀ (v396 : IVec S16 32) (v408 : IVec S16 32) (k0_hw3 : k0_chk3 v396 v408), ∀ a x, ((![v408, v396] : Fin 2 → IVec S16 32) a x).toNat < S24x128.size a := fun v396 v408 k0_hw3 => k0_hw3
def k0_off30 (k0_t2 : Fin k0_t2_loop.trips) : Fin 2 → Nat :=
  let c28_i32 : BitVec 32 := 28#32
  let v510 : Index := Scalar.indexCast c28_i32
  let c0_i32_360 : BitVec 32 := 0#32
  let c1_i32_362 : BitVec 32 := 1#32
  let arg7 : BitVec 32 := Scf.iv c0_i32_360 c1_i32_362 k0_t2
  let c16_i32_417 : BitVec 32 := 16#32
  let v509 : BitVec 32 := Scalar.muli arg7 c16_i32_417
  let v511 : Index := Scalar.indexCast v509
  ![28, v511.toNat]

def k0_chk4 (v396 : IVec S16 32) (v412 : IVec S16 32) : Prop :=
  (∀ a x, ((![v412, v396] : Fin 2 → IVec S16 32) a x).toNat < S24x128.size a)
instance k0_chk4.dec : ∀ (v396 : IVec S16 32) (v412 : IVec S16 32), Decidable (k0_chk4 v396 v412) := fun v396 v412 => decidable_of_iff' _ (Iff.of_eq (k0_chk4.eq_1 v396 v412))
theorem k0_idx4_inb : ∀ (v396 : IVec S16 32) (v412 : IVec S16 32) (k0_hw4 : k0_chk4 v396 v412), ∀ a x, ((![v412, v396] : Fin 2 → IVec S16 32) a x).toNat < S24x128.size a := fun v396 v412 k0_hw4 => k0_hw4
def k0_off31 (k0_t2 : Fin k0_t2_loop.trips) : Fin 2 → Nat :=
  let c29_i32 : BitVec 32 := 29#32
  let v514 : Index := Scalar.indexCast c29_i32
  let c0_i32_360 : BitVec 32 := 0#32
  let c1_i32_362 : BitVec 32 := 1#32
  let arg7 : BitVec 32 := Scf.iv c0_i32_360 c1_i32_362 k0_t2
  let c16_i32_418 : BitVec 32 := 16#32
  let v513 : BitVec 32 := Scalar.muli arg7 c16_i32_418
  let v515 : Index := Scalar.indexCast v513
  ![29, v515.toNat]

def k0_chk5 (v396 : IVec S16 32) (v416 : IVec S16 32) : Prop :=
  (∀ a x, ((![v416, v396] : Fin 2 → IVec S16 32) a x).toNat < S24x128.size a)
instance k0_chk5.dec : ∀ (v396 : IVec S16 32) (v416 : IVec S16 32), Decidable (k0_chk5 v396 v416) := fun v396 v416 => decidable_of_iff' _ (Iff.of_eq (k0_chk5.eq_1 v396 v416))
theorem k0_idx5_inb : ∀ (v396 : IVec S16 32) (v416 : IVec S16 32) (k0_hw5 : k0_chk5 v396 v416), ∀ a x, ((![v416, v396] : Fin 2 → IVec S16 32) a x).toNat < S24x128.size a := fun v396 v416 k0_hw5 => k0_hw5
def k0_off32 (k0_t2 : Fin k0_t2_loop.trips) : Fin 2 → Nat :=
  let c30_i32 : BitVec 32 := 30#32
  let v518 : Index := Scalar.indexCast c30_i32
  let c0_i32_360 : BitVec 32 := 0#32
  let c1_i32_362 : BitVec 32 := 1#32
  let arg7 : BitVec 32 := Scf.iv c0_i32_360 c1_i32_362 k0_t2
  let c16_i32_419 : BitVec 32 := 16#32
  let v517 : BitVec 32 := Scalar.muli arg7 c16_i32_419
  let v519 : Index := Scalar.indexCast v517
  ![30, v519.toNat]

def k0_chk6 (v396 : IVec S16 32) (v420 : IVec S16 32) : Prop :=
  (∀ a x, ((![v420, v396] : Fin 2 → IVec S16 32) a x).toNat < S24x128.size a)
instance k0_chk6.dec : ∀ (v396 : IVec S16 32) (v420 : IVec S16 32), Decidable (k0_chk6 v396 v420) := fun v396 v420 => decidable_of_iff' _ (Iff.of_eq (k0_chk6.eq_1 v396 v420))
theorem k0_idx6_inb : ∀ (v396 : IVec S16 32) (v420 : IVec S16 32) (k0_hw6 : k0_chk6 v396 v420), ∀ a x, ((![v420, v396] : Fin 2 → IVec S16 32) a x).toNat < S24x128.size a := fun v396 v420 k0_hw6 => k0_hw6
def k0_off33 (k0_t2 : Fin k0_t2_loop.trips) : Fin 2 → Nat :=
  let c31_i32 : BitVec 32 := 31#32
  let v522 : Index := Scalar.indexCast c31_i32
  let c0_i32_360 : BitVec 32 := 0#32
  let c1_i32_362 : BitVec 32 := 1#32
  let arg7 : BitVec 32 := Scf.iv c0_i32_360 c1_i32_362 k0_t2
  let c16_i32_420 : BitVec 32 := 16#32
  let v521 : BitVec 32 := Scalar.muli arg7 c16_i32_420
  let v523 : Index := Scalar.indexCast v521
  ![31, v523.toNat]

def k0_chk7 (v396 : IVec S16 32) (v424 : IVec S16 32) : Prop :=
  (∀ a x, ((![v424, v396] : Fin 2 → IVec S16 32) a x).toNat < S24x128.size a)
instance k0_chk7.dec : ∀ (v396 : IVec S16 32) (v424 : IVec S16 32), Decidable (k0_chk7 v396 v424) := fun v396 v424 => decidable_of_iff' _ (Iff.of_eq (k0_chk7.eq_1 v396 v424))
theorem k0_idx7_inb : ∀ (v396 : IVec S16 32) (v424 : IVec S16 32) (k0_hw7 : k0_chk7 v396 v424), ∀ a x, ((![v424, v396] : Fin 2 → IVec S16 32) a x).toNat < S24x128.size a := fun v396 v424 k0_hw7 => k0_hw7
def k0_off34 (k0_t2 : Fin k0_t2_loop.trips) : Fin 2 → Nat :=
  let c32_i32 : BitVec 32 := 32#32
  let v526 : Index := Scalar.indexCast c32_i32
  let c0_i32_360 : BitVec 32 := 0#32
  let c1_i32_362 : BitVec 32 := 1#32
  let arg7 : BitVec 32 := Scf.iv c0_i32_360 c1_i32_362 k0_t2
  let c16_i32_421 : BitVec 32 := 16#32
  let v525 : BitVec 32 := Scalar.muli arg7 c16_i32_421
  let v527 : Index := Scalar.indexCast v525
  ![32, v527.toNat]

def k0_chk8 (v396 : IVec S16 32) (v428 : IVec S16 32) : Prop :=
  (∀ a x, ((![v428, v396] : Fin 2 → IVec S16 32) a x).toNat < S24x128.size a)
instance k0_chk8.dec : ∀ (v396 : IVec S16 32) (v428 : IVec S16 32), Decidable (k0_chk8 v396 v428) := fun v396 v428 => decidable_of_iff' _ (Iff.of_eq (k0_chk8.eq_1 v396 v428))
theorem k0_idx8_inb : ∀ (v396 : IVec S16 32) (v428 : IVec S16 32) (k0_hw8 : k0_chk8 v396 v428), ∀ a x, ((![v428, v396] : Fin 2 → IVec S16 32) a x).toNat < S24x128.size a := fun v396 v428 k0_hw8 => k0_hw8
def k0_off35 (k0_t2 : Fin k0_t2_loop.trips) : Fin 2 → Nat :=
  let c33_i32 : BitVec 32 := 33#32
  let v530 : Index := Scalar.indexCast c33_i32
  let c0_i32_360 : BitVec 32 := 0#32
  let c1_i32_362 : BitVec 32 := 1#32
  let arg7 : BitVec 32 := Scf.iv c0_i32_360 c1_i32_362 k0_t2
  let c16_i32_422 : BitVec 32 := 16#32
  let v529 : BitVec 32 := Scalar.muli arg7 c16_i32_422
  let v531 : Index := Scalar.indexCast v529
  ![33, v531.toNat]

def k0_chk9 (v396 : IVec S16 32) (v432 : IVec S16 32) : Prop :=
  (∀ a x, ((![v432, v396] : Fin 2 → IVec S16 32) a x).toNat < S24x128.size a)
instance k0_chk9.dec : ∀ (v396 : IVec S16 32) (v432 : IVec S16 32), Decidable (k0_chk9 v396 v432) := fun v396 v432 => decidable_of_iff' _ (Iff.of_eq (k0_chk9.eq_1 v396 v432))
theorem k0_idx9_inb : ∀ (v396 : IVec S16 32) (v432 : IVec S16 32) (k0_hw9 : k0_chk9 v396 v432), ∀ a x, ((![v432, v396] : Fin 2 → IVec S16 32) a x).toNat < S24x128.size a := fun v396 v432 k0_hw9 => k0_hw9
def k0_off36 (k0_t2 : Fin k0_t2_loop.trips) : Fin 2 → Nat :=
  let c34_i32 : BitVec 32 := 34#32
  let v534 : Index := Scalar.indexCast c34_i32
  let c0_i32_360 : BitVec 32 := 0#32
  let c1_i32_362 : BitVec 32 := 1#32
  let arg7 : BitVec 32 := Scf.iv c0_i32_360 c1_i32_362 k0_t2
  let c16_i32_423 : BitVec 32 := 16#32
  let v533 : BitVec 32 := Scalar.muli arg7 c16_i32_423
  let v535 : Index := Scalar.indexCast v533
  ![34, v535.toNat]

def k0_chk10 (v396 : IVec S16 32) (v436 : IVec S16 32) : Prop :=
  (∀ a x, ((![v436, v396] : Fin 2 → IVec S16 32) a x).toNat < S24x128.size a)
instance k0_chk10.dec : ∀ (v396 : IVec S16 32) (v436 : IVec S16 32), Decidable (k0_chk10 v396 v436) := fun v396 v436 => decidable_of_iff' _ (Iff.of_eq (k0_chk10.eq_1 v396 v436))
theorem k0_idx10_inb : ∀ (v396 : IVec S16 32) (v436 : IVec S16 32) (k0_hw10 : k0_chk10 v396 v436), ∀ a x, ((![v436, v396] : Fin 2 → IVec S16 32) a x).toNat < S24x128.size a := fun v396 v436 k0_hw10 => k0_hw10
def k0_off37 (k0_t2 : Fin k0_t2_loop.trips) : Fin 2 → Nat :=
  let c35_i32 : BitVec 32 := 35#32
  let v538 : Index := Scalar.indexCast c35_i32
  let c0_i32_360 : BitVec 32 := 0#32
  let c1_i32_362 : BitVec 32 := 1#32
  let arg7 : BitVec 32 := Scf.iv c0_i32_360 c1_i32_362 k0_t2
  let c16_i32_424 : BitVec 32 := 16#32
  let v537 : BitVec 32 := Scalar.muli arg7 c16_i32_424
  let v539 : Index := Scalar.indexCast v537
  ![35, v539.toNat]

def k0_chk11 (v396 : IVec S16 32) (v440 : IVec S16 32) : Prop :=
  (∀ a x, ((![v440, v396] : Fin 2 → IVec S16 32) a x).toNat < S24x128.size a)
instance k0_chk11.dec : ∀ (v396 : IVec S16 32) (v440 : IVec S16 32), Decidable (k0_chk11 v396 v440) := fun v396 v440 => decidable_of_iff' _ (Iff.of_eq (k0_chk11.eq_1 v396 v440))
theorem k0_idx11_inb : ∀ (v396 : IVec S16 32) (v440 : IVec S16 32) (k0_hw11 : k0_chk11 v396 v440), ∀ a x, ((![v440, v396] : Fin 2 → IVec S16 32) a x).toNat < S24x128.size a := fun v396 v440 k0_hw11 => k0_hw11
def k0_off38 (k0_t2 : Fin k0_t2_loop.trips) : Fin 2 → Nat :=
  let c36_i32 : BitVec 32 := 36#32
  let v542 : Index := Scalar.indexCast c36_i32
  let c0_i32_360 : BitVec 32 := 0#32
  let c1_i32_362 : BitVec 32 := 1#32
  let arg7 : BitVec 32 := Scf.iv c0_i32_360 c1_i32_362 k0_t2
  let c16_i32_425 : BitVec 32 := 16#32
  let v541 : BitVec 32 := Scalar.muli arg7 c16_i32_425
  let v543 : Index := Scalar.indexCast v541
  ![36, v543.toNat]

def k0_chk12 (v396 : IVec S16 32) (v444 : IVec S16 32) : Prop :=
  (∀ a x, ((![v444, v396] : Fin 2 → IVec S16 32) a x).toNat < S24x128.size a)
instance k0_chk12.dec : ∀ (v396 : IVec S16 32) (v444 : IVec S16 32), Decidable (k0_chk12 v396 v444) := fun v396 v444 => decidable_of_iff' _ (Iff.of_eq (k0_chk12.eq_1 v396 v444))
theorem k0_idx12_inb : ∀ (v396 : IVec S16 32) (v444 : IVec S16 32) (k0_hw12 : k0_chk12 v396 v444), ∀ a x, ((![v444, v396] : Fin 2 → IVec S16 32) a x).toNat < S24x128.size a := fun v396 v444 k0_hw12 => k0_hw12
def k0_off39 (k0_t2 : Fin k0_t2_loop.trips) : Fin 2 → Nat :=
  let c37_i32 : BitVec 32 := 37#32
  let v546 : Index := Scalar.indexCast c37_i32
  let c0_i32_360 : BitVec 32 := 0#32
  let c1_i32_362 : BitVec 32 := 1#32
  let arg7 : BitVec 32 := Scf.iv c0_i32_360 c1_i32_362 k0_t2
  let c16_i32_426 : BitVec 32 := 16#32
  let v545 : BitVec 32 := Scalar.muli arg7 c16_i32_426
  let v547 : Index := Scalar.indexCast v545
  ![37, v547.toNat]

def k0_chk13 (v396 : IVec S16 32) (v448 : IVec S16 32) : Prop :=
  (∀ a x, ((![v448, v396] : Fin 2 → IVec S16 32) a x).toNat < S24x128.size a)
instance k0_chk13.dec : ∀ (v396 : IVec S16 32) (v448 : IVec S16 32), Decidable (k0_chk13 v396 v448) := fun v396 v448 => decidable_of_iff' _ (Iff.of_eq (k0_chk13.eq_1 v396 v448))
theorem k0_idx13_inb : ∀ (v396 : IVec S16 32) (v448 : IVec S16 32) (k0_hw13 : k0_chk13 v396 v448), ∀ a x, ((![v448, v396] : Fin 2 → IVec S16 32) a x).toNat < S24x128.size a := fun v396 v448 k0_hw13 => k0_hw13
def k0_off40 (k0_t2 : Fin k0_t2_loop.trips) : Fin 2 → Nat :=
  let c38_i32 : BitVec 32 := 38#32
  let v550 : Index := Scalar.indexCast c38_i32
  let c0_i32_360 : BitVec 32 := 0#32
  let c1_i32_362 : BitVec 32 := 1#32
  let arg7 : BitVec 32 := Scf.iv c0_i32_360 c1_i32_362 k0_t2
  let c16_i32_427 : BitVec 32 := 16#32
  let v549 : BitVec 32 := Scalar.muli arg7 c16_i32_427
  let v551 : Index := Scalar.indexCast v549
  ![38, v551.toNat]

def k0_chk14 (v396 : IVec S16 32) (v452 : IVec S16 32) : Prop :=
  (∀ a x, ((![v452, v396] : Fin 2 → IVec S16 32) a x).toNat < S24x128.size a)
instance k0_chk14.dec : ∀ (v396 : IVec S16 32) (v452 : IVec S16 32), Decidable (k0_chk14 v396 v452) := fun v396 v452 => decidable_of_iff' _ (Iff.of_eq (k0_chk14.eq_1 v396 v452))
theorem k0_idx14_inb : ∀ (v396 : IVec S16 32) (v452 : IVec S16 32) (k0_hw14 : k0_chk14 v396 v452), ∀ a x, ((![v452, v396] : Fin 2 → IVec S16 32) a x).toNat < S24x128.size a := fun v396 v452 k0_hw14 => k0_hw14
def k0_off41 (k0_t2 : Fin k0_t2_loop.trips) : Fin 2 → Nat :=
  let c39_i32 : BitVec 32 := 39#32
  let v554 : Index := Scalar.indexCast c39_i32
  let c0_i32_360 : BitVec 32 := 0#32
  let c1_i32_362 : BitVec 32 := 1#32
  let arg7 : BitVec 32 := Scf.iv c0_i32_360 c1_i32_362 k0_t2
  let c16_i32_428 : BitVec 32 := 16#32
  let v553 : BitVec 32 := Scalar.muli arg7 c16_i32_428
  let v555 : Index := Scalar.indexCast v553
  ![39, v555.toNat]

def k0_chk15 (v396 : IVec S16 32) (v456 : IVec S16 32) : Prop :=
  (∀ a x, ((![v456, v396] : Fin 2 → IVec S16 32) a x).toNat < S24x128.size a)
instance k0_chk15.dec : ∀ (v396 : IVec S16 32) (v456 : IVec S16 32), Decidable (k0_chk15 v396 v456) := fun v396 v456 => decidable_of_iff' _ (Iff.of_eq (k0_chk15.eq_1 v396 v456))
theorem k0_idx15_inb : ∀ (v396 : IVec S16 32) (v456 : IVec S16 32) (k0_hw15 : k0_chk15 v396 v456), ∀ a x, ((![v456, v396] : Fin 2 → IVec S16 32) a x).toNat < S24x128.size a := fun v396 v456 k0_hw15 => k0_hw15
def k0_off42 (k0_t2 : Fin k0_t2_loop.trips) : Fin 2 → Nat :=
  let c40_i32 : BitVec 32 := 40#32
  let v558 : Index := Scalar.indexCast c40_i32
  let c0_i32_360 : BitVec 32 := 0#32
  let c1_i32_362 : BitVec 32 := 1#32
  let arg7 : BitVec 32 := Scf.iv c0_i32_360 c1_i32_362 k0_t2
  let c16_i32_429 : BitVec 32 := 16#32
  let v557 : BitVec 32 := Scalar.muli arg7 c16_i32_429
  let v559 : Index := Scalar.indexCast v557
  ![40, v559.toNat]

def k0_chk16 (v396 : IVec S16 32) (v460 : IVec S16 32) : Prop :=
  (∀ a x, ((![v460, v396] : Fin 2 → IVec S16 32) a x).toNat < S24x128.size a)
instance k0_chk16.dec : ∀ (v396 : IVec S16 32) (v460 : IVec S16 32), Decidable (k0_chk16 v396 v460) := fun v396 v460 => decidable_of_iff' _ (Iff.of_eq (k0_chk16.eq_1 v396 v460))
theorem k0_idx16_inb : ∀ (v396 : IVec S16 32) (v460 : IVec S16 32) (k0_hw16 : k0_chk16 v396 v460), ∀ a x, ((![v460, v396] : Fin 2 → IVec S16 32) a x).toNat < S24x128.size a := fun v396 v460 k0_hw16 => k0_hw16
def k0_off43 (k0_t2 : Fin k0_t2_loop.trips) : Fin 2 → Nat :=
  let c41_i32 : BitVec 32 := 41#32
  let v562 : Index := Scalar.indexCast c41_i32
  let c0_i32_360 : BitVec 32 := 0#32
  let c1_i32_362 : BitVec 32 := 1#32
  let arg7 : BitVec 32 := Scf.iv c0_i32_360 c1_i32_362 k0_t2
  let c16_i32_430 : BitVec 32 := 16#32
  let v561 : BitVec 32 := Scalar.muli arg7 c16_i32_430
  let v563 : Index := Scalar.indexCast v561
  ![41, v563.toNat]

def k0_chk17 (v396 : IVec S16 32) (v464 : IVec S16 32) : Prop :=
  (∀ a x, ((![v464, v396] : Fin 2 → IVec S16 32) a x).toNat < S24x128.size a)
instance k0_chk17.dec : ∀ (v396 : IVec S16 32) (v464 : IVec S16 32), Decidable (k0_chk17 v396 v464) := fun v396 v464 => decidable_of_iff' _ (Iff.of_eq (k0_chk17.eq_1 v396 v464))
theorem k0_idx17_inb : ∀ (v396 : IVec S16 32) (v464 : IVec S16 32) (k0_hw17 : k0_chk17 v396 v464), ∀ a x, ((![v464, v396] : Fin 2 → IVec S16 32) a x).toNat < S24x128.size a := fun v396 v464 k0_hw17 => k0_hw17
def k0_off44 (k0_t2 : Fin k0_t2_loop.trips) : Fin 2 → Nat :=
  let c42_i32 : BitVec 32 := 42#32
  let v566 : Index := Scalar.indexCast c42_i32
  let c0_i32_360 : BitVec 32 := 0#32
  let c1_i32_362 : BitVec 32 := 1#32
  let arg7 : BitVec 32 := Scf.iv c0_i32_360 c1_i32_362 k0_t2
  let c16_i32_431 : BitVec 32 := 16#32
  let v565 : BitVec 32 := Scalar.muli arg7 c16_i32_431
  let v567 : Index := Scalar.indexCast v565
  ![42, v567.toNat]

def k0_chk18 (v396 : IVec S16 32) (v468 : IVec S16 32) : Prop :=
  (∀ a x, ((![v468, v396] : Fin 2 → IVec S16 32) a x).toNat < S24x128.size a)
instance k0_chk18.dec : ∀ (v396 : IVec S16 32) (v468 : IVec S16 32), Decidable (k0_chk18 v396 v468) := fun v396 v468 => decidable_of_iff' _ (Iff.of_eq (k0_chk18.eq_1 v396 v468))
theorem k0_idx18_inb : ∀ (v396 : IVec S16 32) (v468 : IVec S16 32) (k0_hw18 : k0_chk18 v396 v468), ∀ a x, ((![v468, v396] : Fin 2 → IVec S16 32) a x).toNat < S24x128.size a := fun v396 v468 k0_hw18 => k0_hw18
def k0_off45 (k0_t2 : Fin k0_t2_loop.trips) : Fin 2 → Nat :=
  let c43_i32 : BitVec 32 := 43#32
  let v570 : Index := Scalar.indexCast c43_i32
  let c0_i32_360 : BitVec 32 := 0#32
  let c1_i32_362 : BitVec 32 := 1#32
  let arg7 : BitVec 32 := Scf.iv c0_i32_360 c1_i32_362 k0_t2
  let c16_i32_432 : BitVec 32 := 16#32
  let v569 : BitVec 32 := Scalar.muli arg7 c16_i32_432
  let v571 : Index := Scalar.indexCast v569
  ![43, v571.toNat]

def k0_chk19 (v396 : IVec S16 32) (v472 : IVec S16 32) : Prop :=
  (∀ a x, ((![v472, v396] : Fin 2 → IVec S16 32) a x).toNat < S24x128.size a)
instance k0_chk19.dec : ∀ (v396 : IVec S16 32) (v472 : IVec S16 32), Decidable (k0_chk19 v396 v472) := fun v396 v472 => decidable_of_iff' _ (Iff.of_eq (k0_chk19.eq_1 v396 v472))
theorem k0_idx19_inb : ∀ (v396 : IVec S16 32) (v472 : IVec S16 32) (k0_hw19 : k0_chk19 v396 v472), ∀ a x, ((![v472, v396] : Fin 2 → IVec S16 32) a x).toNat < S24x128.size a := fun v396 v472 k0_hw19 => k0_hw19
def k0_off46 (k0_t2 : Fin k0_t2_loop.trips) : Fin 2 → Nat :=
  let c44_i32 : BitVec 32 := 44#32
  let v574 : Index := Scalar.indexCast c44_i32
  let c0_i32_360 : BitVec 32 := 0#32
  let c1_i32_362 : BitVec 32 := 1#32
  let arg7 : BitVec 32 := Scf.iv c0_i32_360 c1_i32_362 k0_t2
  let c16_i32_433 : BitVec 32 := 16#32
  let v573 : BitVec 32 := Scalar.muli arg7 c16_i32_433
  let v575 : Index := Scalar.indexCast v573
  ![44, v575.toNat]

def k0_chk20 (v396 : IVec S16 32) (v476 : IVec S16 32) : Prop :=
  (∀ a x, ((![v476, v396] : Fin 2 → IVec S16 32) a x).toNat < S24x128.size a)
instance k0_chk20.dec : ∀ (v396 : IVec S16 32) (v476 : IVec S16 32), Decidable (k0_chk20 v396 v476) := fun v396 v476 => decidable_of_iff' _ (Iff.of_eq (k0_chk20.eq_1 v396 v476))
theorem k0_idx20_inb : ∀ (v396 : IVec S16 32) (v476 : IVec S16 32) (k0_hw20 : k0_chk20 v396 v476), ∀ a x, ((![v476, v396] : Fin 2 → IVec S16 32) a x).toNat < S24x128.size a := fun v396 v476 k0_hw20 => k0_hw20
def k0_off47 (k0_t2 : Fin k0_t2_loop.trips) : Fin 2 → Nat :=
  let c45_i32 : BitVec 32 := 45#32
  let v578 : Index := Scalar.indexCast c45_i32
  let c0_i32_360 : BitVec 32 := 0#32
  let c1_i32_362 : BitVec 32 := 1#32
  let arg7 : BitVec 32 := Scf.iv c0_i32_360 c1_i32_362 k0_t2
  let c16_i32_434 : BitVec 32 := 16#32
  let v577 : BitVec 32 := Scalar.muli arg7 c16_i32_434
  let v579 : Index := Scalar.indexCast v577
  ![45, v579.toNat]

def k0_chk21 (v396 : IVec S16 32) (v480 : IVec S16 32) : Prop :=
  (∀ a x, ((![v480, v396] : Fin 2 → IVec S16 32) a x).toNat < S24x128.size a)
instance k0_chk21.dec : ∀ (v396 : IVec S16 32) (v480 : IVec S16 32), Decidable (k0_chk21 v396 v480) := fun v396 v480 => decidable_of_iff' _ (Iff.of_eq (k0_chk21.eq_1 v396 v480))
theorem k0_idx21_inb : ∀ (v396 : IVec S16 32) (v480 : IVec S16 32) (k0_hw21 : k0_chk21 v396 v480), ∀ a x, ((![v480, v396] : Fin 2 → IVec S16 32) a x).toNat < S24x128.size a := fun v396 v480 k0_hw21 => k0_hw21
def k0_off48 (k0_t2 : Fin k0_t2_loop.trips) : Fin 2 → Nat :=
  let c46_i32 : BitVec 32 := 46#32
  let v582 : Index := Scalar.indexCast c46_i32
  let c0_i32_360 : BitVec 32 := 0#32
  let c1_i32_362 : BitVec 32 := 1#32
  let arg7 : BitVec 32 := Scf.iv c0_i32_360 c1_i32_362 k0_t2
  let c16_i32_435 : BitVec 32 := 16#32
  let v581 : BitVec 32 := Scalar.muli arg7 c16_i32_435
  let v583 : Index := Scalar.indexCast v581
  ![46, v583.toNat]

def k0_chk22 (v396 : IVec S16 32) (v484 : IVec S16 32) : Prop :=
  (∀ a x, ((![v484, v396] : Fin 2 → IVec S16 32) a x).toNat < S24x128.size a)
instance k0_chk22.dec : ∀ (v396 : IVec S16 32) (v484 : IVec S16 32), Decidable (k0_chk22 v396 v484) := fun v396 v484 => decidable_of_iff' _ (Iff.of_eq (k0_chk22.eq_1 v396 v484))
theorem k0_idx22_inb : ∀ (v396 : IVec S16 32) (v484 : IVec S16 32) (k0_hw22 : k0_chk22 v396 v484), ∀ a x, ((![v484, v396] : Fin 2 → IVec S16 32) a x).toNat < S24x128.size a := fun v396 v484 k0_hw22 => k0_hw22
def k0_off49 (k0_t2 : Fin k0_t2_loop.trips) : Fin 2 → Nat :=
  let c47_i32 : BitVec 32 := 47#32
  let v586 : Index := Scalar.indexCast c47_i32
  let c0_i32_360 : BitVec 32 := 0#32
  let c1_i32_362 : BitVec 32 := 1#32
  let arg7 : BitVec 32 := Scf.iv c0_i32_360 c1_i32_362 k0_t2
  let c16_i32_436 : BitVec 32 := 16#32
  let v585 : BitVec 32 := Scalar.muli arg7 c16_i32_436
  let v587 : Index := Scalar.indexCast v585
  ![47, v587.toNat]

def k0_chk23 (v396 : IVec S16 32) (v488 : IVec S16 32) : Prop :=
  (∀ a x, ((![v488, v396] : Fin 2 → IVec S16 32) a x).toNat < S24x128.size a)
instance k0_chk23.dec : ∀ (v396 : IVec S16 32) (v488 : IVec S16 32), Decidable (k0_chk23 v396 v488) := fun v396 v488 => decidable_of_iff' _ (Iff.of_eq (k0_chk23.eq_1 v396 v488))
theorem k0_idx23_inb : ∀ (v396 : IVec S16 32) (v488 : IVec S16 32) (k0_hw23 : k0_chk23 v396 v488), ∀ a x, ((![v488, v396] : Fin 2 → IVec S16 32) a x).toNat < S24x128.size a := fun v396 v488 k0_hw23 => k0_hw23
def k0_off50 (k0_t2 : Fin k0_t2_loop.trips) : Fin 2 → Nat :=
  let c48_i32 : BitVec 32 := 48#32
  let v590 : Index := Scalar.indexCast c48_i32
  let c0_i32_360 : BitVec 32 := 0#32
  let c1_i32_362 : BitVec 32 := 1#32
  let arg7 : BitVec 32 := Scf.iv c0_i32_360 c1_i32_362 k0_t2
  let c16_i32_437 : BitVec 32 := 16#32
  let v589 : BitVec 32 := Scalar.muli arg7 c16_i32_437
  let v591 : Index := Scalar.indexCast v589
  ![48, v591.toNat]

def k0_chk24 (v396 : IVec S16 32) (v492 : IVec S16 32) : Prop :=
  (∀ a x, ((![v492, v396] : Fin 2 → IVec S16 32) a x).toNat < S24x128.size a)
instance k0_chk24.dec : ∀ (v396 : IVec S16 32) (v492 : IVec S16 32), Decidable (k0_chk24 v396 v492) := fun v396 v492 => decidable_of_iff' _ (Iff.of_eq (k0_chk24.eq_1 v396 v492))
theorem k0_idx24_inb : ∀ (v396 : IVec S16 32) (v492 : IVec S16 32) (k0_hw24 : k0_chk24 v396 v492), ∀ a x, ((![v492, v396] : Fin 2 → IVec S16 32) a x).toNat < S24x128.size a := fun v396 v492 k0_hw24 => k0_hw24
def k0_off51 (k0_t2 : Fin k0_t2_loop.trips) : Fin 2 → Nat :=
  let c49_i32 : BitVec 32 := 49#32
  let v594 : Index := Scalar.indexCast c49_i32
  let c0_i32_360 : BitVec 32 := 0#32
  let c1_i32_362 : BitVec 32 := 1#32
  let arg7 : BitVec 32 := Scf.iv c0_i32_360 c1_i32_362 k0_t2
  let c16_i32_438 : BitVec 32 := 16#32
  let v593 : BitVec 32 := Scalar.muli arg7 c16_i32_438
  let v595 : Index := Scalar.indexCast v593
  ![49, v595.toNat]

def k0_chk25 (v396 : IVec S16 32) (v496 : IVec S16 32) : Prop :=
  (∀ a x, ((![v496, v396] : Fin 2 → IVec S16 32) a x).toNat < S24x128.size a)
instance k0_chk25.dec : ∀ (v396 : IVec S16 32) (v496 : IVec S16 32), Decidable (k0_chk25 v396 v496) := fun v396 v496 => decidable_of_iff' _ (Iff.of_eq (k0_chk25.eq_1 v396 v496))
theorem k0_idx25_inb : ∀ (v396 : IVec S16 32) (v496 : IVec S16 32) (k0_hw25 : k0_chk25 v396 v496), ∀ a x, ((![v496, v396] : Fin 2 → IVec S16 32) a x).toNat < S24x128.size a := fun v396 v496 k0_hw25 => k0_hw25
def k0_off52 (k0_t2 : Fin k0_t2_loop.trips) : Fin 2 → Nat :=
  let c50_i32 : BitVec 32 := 50#32
  let v598 : Index := Scalar.indexCast c50_i32
  let c0_i32_360 : BitVec 32 := 0#32
  let c1_i32_362 : BitVec 32 := 1#32
  let arg7 : BitVec 32 := Scf.iv c0_i32_360 c1_i32_362 k0_t2
  let c16_i32_439 : BitVec 32 := 16#32
  let v597 : BitVec 32 := Scalar.muli arg7 c16_i32_439
  let v599 : Index := Scalar.indexCast v597
  ![50, v599.toNat]

def k0_chk26 (v396 : IVec S16 32) (v500 : IVec S16 32) : Prop :=
  (∀ a x, ((![v500, v396] : Fin 2 → IVec S16 32) a x).toNat < S24x128.size a)
instance k0_chk26.dec : ∀ (v396 : IVec S16 32) (v500 : IVec S16 32), Decidable (k0_chk26 v396 v500) := fun v396 v500 => decidable_of_iff' _ (Iff.of_eq (k0_chk26.eq_1 v396 v500))
theorem k0_idx26_inb : ∀ (v396 : IVec S16 32) (v500 : IVec S16 32) (k0_hw26 : k0_chk26 v396 v500), ∀ a x, ((![v500, v396] : Fin 2 → IVec S16 32) a x).toNat < S24x128.size a := fun v396 v500 k0_hw26 => k0_hw26
def k0_off53 (k0_t2 : Fin k0_t2_loop.trips) : Fin 2 → Nat :=
  let c51_i32 : BitVec 32 := 51#32
  let v602 : Index := Scalar.indexCast c51_i32
  let c0_i32_360 : BitVec 32 := 0#32
  let c1_i32_362 : BitVec 32 := 1#32
  let arg7 : BitVec 32 := Scf.iv c0_i32_360 c1_i32_362 k0_t2
  let c16_i32_440 : BitVec 32 := 16#32
  let v601 : BitVec 32 := Scalar.muli arg7 c16_i32_440
  let v603 : Index := Scalar.indexCast v601
  ![51, v603.toNat]

def k0_chk27 (v396 : IVec S16 32) (v504 : IVec S16 32) : Prop :=
  (∀ a x, ((![v504, v396] : Fin 2 → IVec S16 32) a x).toNat < S24x128.size a)
instance k0_chk27.dec : ∀ (v396 : IVec S16 32) (v504 : IVec S16 32), Decidable (k0_chk27 v396 v504) := fun v396 v504 => decidable_of_iff' _ (Iff.of_eq (k0_chk27.eq_1 v396 v504))
theorem k0_idx27_inb : ∀ (v396 : IVec S16 32) (v504 : IVec S16 32) (k0_hw27 : k0_chk27 v396 v504), ∀ a x, ((![v504, v396] : Fin 2 → IVec S16 32) a x).toNat < S24x128.size a := fun v396 v504 k0_hw27 => k0_hw27
def k0_off54 (k0_t2 : Fin k0_t2_loop.trips) : Fin 2 → Nat :=
  let c52_i32 : BitVec 32 := 52#32
  let v606 : Index := Scalar.indexCast c52_i32
  let c0_i32_360 : BitVec 32 := 0#32
  let c1_i32_362 : BitVec 32 := 1#32
  let arg7 : BitVec 32 := Scf.iv c0_i32_360 c1_i32_362 k0_t2
  let c16_i32_441 : BitVec 32 := 16#32
  let v605 : BitVec 32 := Scalar.muli arg7 c16_i32_441
  let v607 : Index := Scalar.indexCast v605
  ![52, v607.toNat]

def k0_chk28 (v396 : IVec S16 32) (v508 : IVec S16 32) : Prop :=
  (∀ a x, ((![v508, v396] : Fin 2 → IVec S16 32) a x).toNat < S24x128.size a)
instance k0_chk28.dec : ∀ (v396 : IVec S16 32) (v508 : IVec S16 32), Decidable (k0_chk28 v396 v508) := fun v396 v508 => decidable_of_iff' _ (Iff.of_eq (k0_chk28.eq_1 v396 v508))
theorem k0_idx28_inb : ∀ (v396 : IVec S16 32) (v508 : IVec S16 32) (k0_hw28 : k0_chk28 v396 v508), ∀ a x, ((![v508, v396] : Fin 2 → IVec S16 32) a x).toNat < S24x128.size a := fun v396 v508 k0_hw28 => k0_hw28
def k0_off55 (k0_t2 : Fin k0_t2_loop.trips) : Fin 2 → Nat :=
  let c53_i32 : BitVec 32 := 53#32
  let v610 : Index := Scalar.indexCast c53_i32
  let c0_i32_360 : BitVec 32 := 0#32
  let c1_i32_362 : BitVec 32 := 1#32
  let arg7 : BitVec 32 := Scf.iv c0_i32_360 c1_i32_362 k0_t2
  let c16_i32_442 : BitVec 32 := 16#32
  let v609 : BitVec 32 := Scalar.muli arg7 c16_i32_442
  let v611 : Index := Scalar.indexCast v609
  ![53, v611.toNat]

def k0_chk29 (v396 : IVec S16 32) (v512 : IVec S16 32) : Prop :=
  (∀ a x, ((![v512, v396] : Fin 2 → IVec S16 32) a x).toNat < S24x128.size a)
instance k0_chk29.dec : ∀ (v396 : IVec S16 32) (v512 : IVec S16 32), Decidable (k0_chk29 v396 v512) := fun v396 v512 => decidable_of_iff' _ (Iff.of_eq (k0_chk29.eq_1 v396 v512))
theorem k0_idx29_inb : ∀ (v396 : IVec S16 32) (v512 : IVec S16 32) (k0_hw29 : k0_chk29 v396 v512), ∀ a x, ((![v512, v396] : Fin 2 → IVec S16 32) a x).toNat < S24x128.size a := fun v396 v512 k0_hw29 => k0_hw29
def k0_off56 (k0_t2 : Fin k0_t2_loop.trips) : Fin 2 → Nat :=
  let c54_i32 : BitVec 32 := 54#32
  let v614 : Index := Scalar.indexCast c54_i32
  let c0_i32_360 : BitVec 32 := 0#32
  let c1_i32_362 : BitVec 32 := 1#32
  let arg7 : BitVec 32 := Scf.iv c0_i32_360 c1_i32_362 k0_t2
  let c16_i32_443 : BitVec 32 := 16#32
  let v613 : BitVec 32 := Scalar.muli arg7 c16_i32_443
  let v615 : Index := Scalar.indexCast v613
  ![54, v615.toNat]

def k0_chk30 (v396 : IVec S16 32) (v516 : IVec S16 32) : Prop :=
  (∀ a x, ((![v516, v396] : Fin 2 → IVec S16 32) a x).toNat < S24x128.size a)
instance k0_chk30.dec : ∀ (v396 : IVec S16 32) (v516 : IVec S16 32), Decidable (k0_chk30 v396 v516) := fun v396 v516 => decidable_of_iff' _ (Iff.of_eq (k0_chk30.eq_1 v396 v516))
theorem k0_idx30_inb : ∀ (v396 : IVec S16 32) (v516 : IVec S16 32) (k0_hw30 : k0_chk30 v396 v516), ∀ a x, ((![v516, v396] : Fin 2 → IVec S16 32) a x).toNat < S24x128.size a := fun v396 v516 k0_hw30 => k0_hw30
def k0_off57 (k0_t2 : Fin k0_t2_loop.trips) : Fin 2 → Nat :=
  let c55_i32 : BitVec 32 := 55#32
  let v618 : Index := Scalar.indexCast c55_i32
  let c0_i32_360 : BitVec 32 := 0#32
  let c1_i32_362 : BitVec 32 := 1#32
  let arg7 : BitVec 32 := Scf.iv c0_i32_360 c1_i32_362 k0_t2
  let c16_i32_444 : BitVec 32 := 16#32
  let v617 : BitVec 32 := Scalar.muli arg7 c16_i32_444
  let v619 : Index := Scalar.indexCast v617
  ![55, v619.toNat]

def k0_chk31 (v396 : IVec S16 32) (v520 : IVec S16 32) : Prop :=
  (∀ a x, ((![v520, v396] : Fin 2 → IVec S16 32) a x).toNat < S24x128.size a)
instance k0_chk31.dec : ∀ (v396 : IVec S16 32) (v520 : IVec S16 32), Decidable (k0_chk31 v396 v520) := fun v396 v520 => decidable_of_iff' _ (Iff.of_eq (k0_chk31.eq_1 v396 v520))
theorem k0_idx31_inb : ∀ (v396 : IVec S16 32) (v520 : IVec S16 32) (k0_hw31 : k0_chk31 v396 v520), ∀ a x, ((![v520, v396] : Fin 2 → IVec S16 32) a x).toNat < S24x128.size a := fun v396 v520 k0_hw31 => k0_hw31
def k0_off58 (k0_t2 : Fin k0_t2_loop.trips) : Fin 2 → Nat :=
  let c56_i32 : BitVec 32 := 56#32
  let v622 : Index := Scalar.indexCast c56_i32
  let c0_i32_360 : BitVec 32 := 0#32
  let c1_i32_362 : BitVec 32 := 1#32
  let arg7 : BitVec 32 := Scf.iv c0_i32_360 c1_i32_362 k0_t2
  let c16_i32_445 : BitVec 32 := 16#32
  let v621 : BitVec 32 := Scalar.muli arg7 c16_i32_445
  let v623 : Index := Scalar.indexCast v621
  ![56, v623.toNat]

def k0_chk32 (v396 : IVec S16 32) (v524 : IVec S16 32) : Prop :=
  (∀ a x, ((![v524, v396] : Fin 2 → IVec S16 32) a x).toNat < S24x128.size a)
instance k0_chk32.dec : ∀ (v396 : IVec S16 32) (v524 : IVec S16 32), Decidable (k0_chk32 v396 v524) := fun v396 v524 => decidable_of_iff' _ (Iff.of_eq (k0_chk32.eq_1 v396 v524))
theorem k0_idx32_inb : ∀ (v396 : IVec S16 32) (v524 : IVec S16 32) (k0_hw32 : k0_chk32 v396 v524), ∀ a x, ((![v524, v396] : Fin 2 → IVec S16 32) a x).toNat < S24x128.size a := fun v396 v524 k0_hw32 => k0_hw32
def k0_off59 (k0_t2 : Fin k0_t2_loop.trips) : Fin 2 → Nat :=
  let c57_i32 : BitVec 32 := 57#32
  let v626 : Index := Scalar.indexCast c57_i32
  let c0_i32_360 : BitVec 32 := 0#32
  let c1_i32_362 : BitVec 32 := 1#32
  let arg7 : BitVec 32 := Scf.iv c0_i32_360 c1_i32_362 k0_t2
  let c16_i32_446 : BitVec 32 := 16#32
  let v625 : BitVec 32 := Scalar.muli arg7 c16_i32_446
  let v627 : Index := Scalar.indexCast v625
  ![57, v627.toNat]

def k0_chk33 (v396 : IVec S16 32) (v528 : IVec S16 32) : Prop :=
  (∀ a x, ((![v528, v396] : Fin 2 → IVec S16 32) a x).toNat < S24x128.size a)
instance k0_chk33.dec : ∀ (v396 : IVec S16 32) (v528 : IVec S16 32), Decidable (k0_chk33 v396 v528) := fun v396 v528 => decidable_of_iff' _ (Iff.of_eq (k0_chk33.eq_1 v396 v528))
theorem k0_idx33_inb : ∀ (v396 : IVec S16 32) (v528 : IVec S16 32) (k0_hw33 : k0_chk33 v396 v528), ∀ a x, ((![v528, v396] : Fin 2 → IVec S16 32) a x).toNat < S24x128.size a := fun v396 v528 k0_hw33 => k0_hw33
def k0_off60 (k0_t2 : Fin k0_t2_loop.trips) : Fin 2 → Nat :=
  let c58_i32 : BitVec 32 := 58#32
  let v630 : Index := Scalar.indexCast c58_i32
  let c0_i32_360 : BitVec 32 := 0#32
  let c1_i32_362 : BitVec 32 := 1#32
  let arg7 : BitVec 32 := Scf.iv c0_i32_360 c1_i32_362 k0_t2
  let c16_i32_447 : BitVec 32 := 16#32
  let v629 : BitVec 32 := Scalar.muli arg7 c16_i32_447
  let v631 : Index := Scalar.indexCast v629
  ![58, v631.toNat]

def k0_chk34 (v396 : IVec S16 32) (v532 : IVec S16 32) : Prop :=
  (∀ a x, ((![v532, v396] : Fin 2 → IVec S16 32) a x).toNat < S24x128.size a)
instance k0_chk34.dec : ∀ (v396 : IVec S16 32) (v532 : IVec S16 32), Decidable (k0_chk34 v396 v532) := fun v396 v532 => decidable_of_iff' _ (Iff.of_eq (k0_chk34.eq_1 v396 v532))
theorem k0_idx34_inb : ∀ (v396 : IVec S16 32) (v532 : IVec S16 32) (k0_hw34 : k0_chk34 v396 v532), ∀ a x, ((![v532, v396] : Fin 2 → IVec S16 32) a x).toNat < S24x128.size a := fun v396 v532 k0_hw34 => k0_hw34
def k0_off61 (k0_t2 : Fin k0_t2_loop.trips) : Fin 2 → Nat :=
  let c59_i32 : BitVec 32 := 59#32
  let v634 : Index := Scalar.indexCast c59_i32
  let c0_i32_360 : BitVec 32 := 0#32
  let c1_i32_362 : BitVec 32 := 1#32
  let arg7 : BitVec 32 := Scf.iv c0_i32_360 c1_i32_362 k0_t2
  let c16_i32_448 : BitVec 32 := 16#32
  let v633 : BitVec 32 := Scalar.muli arg7 c16_i32_448
  let v635 : Index := Scalar.indexCast v633
  ![59, v635.toNat]

def k0_chk35 (v396 : IVec S16 32) (v536 : IVec S16 32) : Prop :=
  (∀ a x, ((![v536, v396] : Fin 2 → IVec S16 32) a x).toNat < S24x128.size a)
instance k0_chk35.dec : ∀ (v396 : IVec S16 32) (v536 : IVec S16 32), Decidable (k0_chk35 v396 v536) := fun v396 v536 => decidable_of_iff' _ (Iff.of_eq (k0_chk35.eq_1 v396 v536))
theorem k0_idx35_inb : ∀ (v396 : IVec S16 32) (v536 : IVec S16 32) (k0_hw35 : k0_chk35 v396 v536), ∀ a x, ((![v536, v396] : Fin 2 → IVec S16 32) a x).toNat < S24x128.size a := fun v396 v536 k0_hw35 => k0_hw35
def k0_off62 (k0_t2 : Fin k0_t2_loop.trips) : Fin 2 → Nat :=
  let c60_i32 : BitVec 32 := 60#32
  let v638 : Index := Scalar.indexCast c60_i32
  let c0_i32_360 : BitVec 32 := 0#32
  let c1_i32_362 : BitVec 32 := 1#32
  let arg7 : BitVec 32 := Scf.iv c0_i32_360 c1_i32_362 k0_t2
  let c16_i32_449 : BitVec 32 := 16#32
  let v637 : BitVec 32 := Scalar.muli arg7 c16_i32_449
  let v639 : Index := Scalar.indexCast v637
  ![60, v639.toNat]

def k0_chk36 (v396 : IVec S16 32) (v540 : IVec S16 32) : Prop :=
  (∀ a x, ((![v540, v396] : Fin 2 → IVec S16 32) a x).toNat < S24x128.size a)
instance k0_chk36.dec : ∀ (v396 : IVec S16 32) (v540 : IVec S16 32), Decidable (k0_chk36 v396 v540) := fun v396 v540 => decidable_of_iff' _ (Iff.of_eq (k0_chk36.eq_1 v396 v540))
theorem k0_idx36_inb : ∀ (v396 : IVec S16 32) (v540 : IVec S16 32) (k0_hw36 : k0_chk36 v396 v540), ∀ a x, ((![v540, v396] : Fin 2 → IVec S16 32) a x).toNat < S24x128.size a := fun v396 v540 k0_hw36 => k0_hw36
def k0_off63 (k0_t2 : Fin k0_t2_loop.trips) : Fin 2 → Nat :=
  let c61_i32 : BitVec 32 := 61#32
  let v642 : Index := Scalar.indexCast c61_i32
  let c0_i32_360 : BitVec 32 := 0#32
  let c1_i32_362 : BitVec 32 := 1#32
  let arg7 : BitVec 32 := Scf.iv c0_i32_360 c1_i32_362 k0_t2
  let c16_i32_450 : BitVec 32 := 16#32
  let v641 : BitVec 32 := Scalar.muli arg7 c16_i32_450
  let v643 : Index := Scalar.indexCast v641
  ![61, v643.toNat]

def k0_chk37 (v396 : IVec S16 32) (v544 : IVec S16 32) : Prop :=
  (∀ a x, ((![v544, v396] : Fin 2 → IVec S16 32) a x).toNat < S24x128.size a)
instance k0_chk37.dec : ∀ (v396 : IVec S16 32) (v544 : IVec S16 32), Decidable (k0_chk37 v396 v544) := fun v396 v544 => decidable_of_iff' _ (Iff.of_eq (k0_chk37.eq_1 v396 v544))
theorem k0_idx37_inb : ∀ (v396 : IVec S16 32) (v544 : IVec S16 32) (k0_hw37 : k0_chk37 v396 v544), ∀ a x, ((![v544, v396] : Fin 2 → IVec S16 32) a x).toNat < S24x128.size a := fun v396 v544 k0_hw37 => k0_hw37
def k0_off64 (k0_t2 : Fin k0_t2_loop.trips) : Fin 2 → Nat :=
  let c62_i32 : BitVec 32 := 62#32
  let v646 : Index := Scalar.indexCast c62_i32
  let c0_i32_360 : BitVec 32 := 0#32
  let c1_i32_362 : BitVec 32 := 1#32
  let arg7 : BitVec 32 := Scf.iv c0_i32_360 c1_i32_362 k0_t2
  let c16_i32_451 : BitVec 32 := 16#32
  let v645 : BitVec 32 := Scalar.muli arg7 c16_i32_451
  let v647 : Index := Scalar.indexCast v645
  ![62, v647.toNat]

def k0_chk38 (v396 : IVec S16 32) (v548 : IVec S16 32) : Prop :=
  (∀ a x, ((![v548, v396] : Fin 2 → IVec S16 32) a x).toNat < S24x128.size a)
instance k0_chk38.dec : ∀ (v396 : IVec S16 32) (v548 : IVec S16 32), Decidable (k0_chk38 v396 v548) := fun v396 v548 => decidable_of_iff' _ (Iff.of_eq (k0_chk38.eq_1 v396 v548))
theorem k0_idx38_inb : ∀ (v396 : IVec S16 32) (v548 : IVec S16 32) (k0_hw38 : k0_chk38 v396 v548), ∀ a x, ((![v548, v396] : Fin 2 → IVec S16 32) a x).toNat < S24x128.size a := fun v396 v548 k0_hw38 => k0_hw38
def k0_off65 (k0_t2 : Fin k0_t2_loop.trips) : Fin 2 → Nat :=
  let c63_i32 : BitVec 32 := 63#32
  let v650 : Index := Scalar.indexCast c63_i32
  let c0_i32_360 : BitVec 32 := 0#32
  let c1_i32_362 : BitVec 32 := 1#32
  let arg7 : BitVec 32 := Scf.iv c0_i32_360 c1_i32_362 k0_t2
  let c16_i32_452 : BitVec 32 := 16#32
  let v649 : BitVec 32 := Scalar.muli arg7 c16_i32_452
  let v651 : Index := Scalar.indexCast v649
  ![63, v651.toNat]

def k0_chk39 (v396 : IVec S16 32) (v552 : IVec S16 32) : Prop :=
  (∀ a x, ((![v552, v396] : Fin 2 → IVec S16 32) a x).toNat < S24x128.size a)
instance k0_chk39.dec : ∀ (v396 : IVec S16 32) (v552 : IVec S16 32), Decidable (k0_chk39 v396 v552) := fun v396 v552 => decidable_of_iff' _ (Iff.of_eq (k0_chk39.eq_1 v396 v552))
theorem k0_idx39_inb : ∀ (v396 : IVec S16 32) (v552 : IVec S16 32) (k0_hw39 : k0_chk39 v396 v552), ∀ a x, ((![v552, v396] : Fin 2 → IVec S16 32) a x).toNat < S24x128.size a := fun v396 v552 k0_hw39 => k0_hw39
def k0_off66 (k0_t2 : Fin k0_t2_loop.trips) : Fin 2 → Nat :=
  let c64_i32 : BitVec 32 := 64#32
  let v654 : Index := Scalar.indexCast c64_i32
  let c0_i32_360 : BitVec 32 := 0#32
  let c1_i32_362 : BitVec 32 := 1#32
  let arg7 : BitVec 32 := Scf.iv c0_i32_360 c1_i32_362 k0_t2
  let c16_i32_453 : BitVec 32 := 16#32
  let v653 : BitVec 32 := Scalar.muli arg7 c16_i32_453
  let v655 : Index := Scalar.indexCast v653
  ![64, v655.toNat]

def k0_chk40 (v396 : IVec S16 32) (v556 : IVec S16 32) : Prop :=
  (∀ a x, ((![v556, v396] : Fin 2 → IVec S16 32) a x).toNat < S24x128.size a)
instance k0_chk40.dec : ∀ (v396 : IVec S16 32) (v556 : IVec S16 32), Decidable (k0_chk40 v396 v556) := fun v396 v556 => decidable_of_iff' _ (Iff.of_eq (k0_chk40.eq_1 v396 v556))
theorem k0_idx40_inb : ∀ (v396 : IVec S16 32) (v556 : IVec S16 32) (k0_hw40 : k0_chk40 v396 v556), ∀ a x, ((![v556, v396] : Fin 2 → IVec S16 32) a x).toNat < S24x128.size a := fun v396 v556 k0_hw40 => k0_hw40
def k0_off67 (k0_t2 : Fin k0_t2_loop.trips) : Fin 2 → Nat :=
  let c65_i32 : BitVec 32 := 65#32
  let v658 : Index := Scalar.indexCast c65_i32
  let c0_i32_360 : BitVec 32 := 0#32
  let c1_i32_362 : BitVec 32 := 1#32
  let arg7 : BitVec 32 := Scf.iv c0_i32_360 c1_i32_362 k0_t2
  let c16_i32_454 : BitVec 32 := 16#32
  let v657 : BitVec 32 := Scalar.muli arg7 c16_i32_454
  let v659 : Index := Scalar.indexCast v657
  ![65, v659.toNat]

def k0_chk41 (v396 : IVec S16 32) (v560 : IVec S16 32) : Prop :=
  (∀ a x, ((![v560, v396] : Fin 2 → IVec S16 32) a x).toNat < S24x128.size a)
instance k0_chk41.dec : ∀ (v396 : IVec S16 32) (v560 : IVec S16 32), Decidable (k0_chk41 v396 v560) := fun v396 v560 => decidable_of_iff' _ (Iff.of_eq (k0_chk41.eq_1 v396 v560))
theorem k0_idx41_inb : ∀ (v396 : IVec S16 32) (v560 : IVec S16 32) (k0_hw41 : k0_chk41 v396 v560), ∀ a x, ((![v560, v396] : Fin 2 → IVec S16 32) a x).toNat < S24x128.size a := fun v396 v560 k0_hw41 => k0_hw41
def k0_off68 (k0_t2 : Fin k0_t2_loop.trips) : Fin 2 → Nat :=
  let c66_i32 : BitVec 32 := 66#32
  let v662 : Index := Scalar.indexCast c66_i32
  let c0_i32_360 : BitVec 32 := 0#32
  let c1_i32_362 : BitVec 32 := 1#32
  let arg7 : BitVec 32 := Scf.iv c0_i32_360 c1_i32_362 k0_t2
  let c16_i32_455 : BitVec 32 := 16#32
  let v661 : BitVec 32 := Scalar.muli arg7 c16_i32_455
  let v663 : Index := Scalar.indexCast v661
  ![66, v663.toNat]

def k0_chk42 (v396 : IVec S16 32) (v564 : IVec S16 32) : Prop :=
  (∀ a x, ((![v564, v396] : Fin 2 → IVec S16 32) a x).toNat < S24x128.size a)
instance k0_chk42.dec : ∀ (v396 : IVec S16 32) (v564 : IVec S16 32), Decidable (k0_chk42 v396 v564) := fun v396 v564 => decidable_of_iff' _ (Iff.of_eq (k0_chk42.eq_1 v396 v564))
theorem k0_idx42_inb : ∀ (v396 : IVec S16 32) (v564 : IVec S16 32) (k0_hw42 : k0_chk42 v396 v564), ∀ a x, ((![v564, v396] : Fin 2 → IVec S16 32) a x).toNat < S24x128.size a := fun v396 v564 k0_hw42 => k0_hw42
def k0_off69 (k0_t2 : Fin k0_t2_loop.trips) : Fin 2 → Nat :=
  let c67_i32 : BitVec 32 := 67#32
  let v666 : Index := Scalar.indexCast c67_i32
  let c0_i32_360 : BitVec 32 := 0#32
  let c1_i32_362 : BitVec 32 := 1#32
  let arg7 : BitVec 32 := Scf.iv c0_i32_360 c1_i32_362 k0_t2
  let c16_i32_456 : BitVec 32 := 16#32
  let v665 : BitVec 32 := Scalar.muli arg7 c16_i32_456
  let v667 : Index := Scalar.indexCast v665
  ![67, v667.toNat]

def k0_chk43 (v396 : IVec S16 32) (v568 : IVec S16 32) : Prop :=
  (∀ a x, ((![v568, v396] : Fin 2 → IVec S16 32) a x).toNat < S24x128.size a)
instance k0_chk43.dec : ∀ (v396 : IVec S16 32) (v568 : IVec S16 32), Decidable (k0_chk43 v396 v568) := fun v396 v568 => decidable_of_iff' _ (Iff.of_eq (k0_chk43.eq_1 v396 v568))
theorem k0_idx43_inb : ∀ (v396 : IVec S16 32) (v568 : IVec S16 32) (k0_hw43 : k0_chk43 v396 v568), ∀ a x, ((![v568, v396] : Fin 2 → IVec S16 32) a x).toNat < S24x128.size a := fun v396 v568 k0_hw43 => k0_hw43
def k0_off70 (k0_t2 : Fin k0_t2_loop.trips) : Fin 2 → Nat :=
  let c68_i32 : BitVec 32 := 68#32
  let v670 : Index := Scalar.indexCast c68_i32
  let c0_i32_360 : BitVec 32 := 0#32
  let c1_i32_362 : BitVec 32 := 1#32
  let arg7 : BitVec 32 := Scf.iv c0_i32_360 c1_i32_362 k0_t2
  let c16_i32_457 : BitVec 32 := 16#32
  let v669 : BitVec 32 := Scalar.muli arg7 c16_i32_457
  let v671 : Index := Scalar.indexCast v669
  ![68, v671.toNat]

def k0_chk44 (v396 : IVec S16 32) (v572 : IVec S16 32) : Prop :=
  (∀ a x, ((![v572, v396] : Fin 2 → IVec S16 32) a x).toNat < S24x128.size a)
instance k0_chk44.dec : ∀ (v396 : IVec S16 32) (v572 : IVec S16 32), Decidable (k0_chk44 v396 v572) := fun v396 v572 => decidable_of_iff' _ (Iff.of_eq (k0_chk44.eq_1 v396 v572))
theorem k0_idx44_inb : ∀ (v396 : IVec S16 32) (v572 : IVec S16 32) (k0_hw44 : k0_chk44 v396 v572), ∀ a x, ((![v572, v396] : Fin 2 → IVec S16 32) a x).toNat < S24x128.size a := fun v396 v572 k0_hw44 => k0_hw44
def k0_off71 (k0_t2 : Fin k0_t2_loop.trips) : Fin 2 → Nat :=
  let c69_i32 : BitVec 32 := 69#32
  let v674 : Index := Scalar.indexCast c69_i32
  let c0_i32_360 : BitVec 32 := 0#32
  let c1_i32_362 : BitVec 32 := 1#32
  let arg7 : BitVec 32 := Scf.iv c0_i32_360 c1_i32_362 k0_t2
  let c16_i32_458 : BitVec 32 := 16#32
  let v673 : BitVec 32 := Scalar.muli arg7 c16_i32_458
  let v675 : Index := Scalar.indexCast v673
  ![69, v675.toNat]

def k0_chk45 (v396 : IVec S16 32) (v576 : IVec S16 32) : Prop :=
  (∀ a x, ((![v576, v396] : Fin 2 → IVec S16 32) a x).toNat < S24x128.size a)
instance k0_chk45.dec : ∀ (v396 : IVec S16 32) (v576 : IVec S16 32), Decidable (k0_chk45 v396 v576) := fun v396 v576 => decidable_of_iff' _ (Iff.of_eq (k0_chk45.eq_1 v396 v576))
theorem k0_idx45_inb : ∀ (v396 : IVec S16 32) (v576 : IVec S16 32) (k0_hw45 : k0_chk45 v396 v576), ∀ a x, ((![v576, v396] : Fin 2 → IVec S16 32) a x).toNat < S24x128.size a := fun v396 v576 k0_hw45 => k0_hw45
def k0_off72 (k0_t2 : Fin k0_t2_loop.trips) : Fin 2 → Nat :=
  let c70_i32 : BitVec 32 := 70#32
  let v678 : Index := Scalar.indexCast c70_i32
  let c0_i32_360 : BitVec 32 := 0#32
  let c1_i32_362 : BitVec 32 := 1#32
  let arg7 : BitVec 32 := Scf.iv c0_i32_360 c1_i32_362 k0_t2
  let c16_i32_459 : BitVec 32 := 16#32
  let v677 : BitVec 32 := Scalar.muli arg7 c16_i32_459
  let v679 : Index := Scalar.indexCast v677
  ![70, v679.toNat]

def k0_chk46 (v396 : IVec S16 32) (v580 : IVec S16 32) : Prop :=
  (∀ a x, ((![v580, v396] : Fin 2 → IVec S16 32) a x).toNat < S24x128.size a)
instance k0_chk46.dec : ∀ (v396 : IVec S16 32) (v580 : IVec S16 32), Decidable (k0_chk46 v396 v580) := fun v396 v580 => decidable_of_iff' _ (Iff.of_eq (k0_chk46.eq_1 v396 v580))
theorem k0_idx46_inb : ∀ (v396 : IVec S16 32) (v580 : IVec S16 32) (k0_hw46 : k0_chk46 v396 v580), ∀ a x, ((![v580, v396] : Fin 2 → IVec S16 32) a x).toNat < S24x128.size a := fun v396 v580 k0_hw46 => k0_hw46
def k0_off73 (k0_t2 : Fin k0_t2_loop.trips) : Fin 2 → Nat :=
  let c71_i32 : BitVec 32 := 71#32
  let v682 : Index := Scalar.indexCast c71_i32
  let c0_i32_360 : BitVec 32 := 0#32
  let c1_i32_362 : BitVec 32 := 1#32
  let arg7 : BitVec 32 := Scf.iv c0_i32_360 c1_i32_362 k0_t2
  let c16_i32_460 : BitVec 32 := 16#32
  let v681 : BitVec 32 := Scalar.muli arg7 c16_i32_460
  let v683 : Index := Scalar.indexCast v681
  ![71, v683.toNat]

def k0_chk47 (v396 : IVec S16 32) (v584 : IVec S16 32) : Prop :=
  (∀ a x, ((![v584, v396] : Fin 2 → IVec S16 32) a x).toNat < S24x128.size a)
instance k0_chk47.dec : ∀ (v396 : IVec S16 32) (v584 : IVec S16 32), Decidable (k0_chk47 v396 v584) := fun v396 v584 => decidable_of_iff' _ (Iff.of_eq (k0_chk47.eq_1 v396 v584))
theorem k0_idx47_inb : ∀ (v396 : IVec S16 32) (v584 : IVec S16 32) (k0_hw47 : k0_chk47 v396 v584), ∀ a x, ((![v584, v396] : Fin 2 → IVec S16 32) a x).toNat < S24x128.size a := fun v396 v584 k0_hw47 => k0_hw47
def k0_off74 (k0_t2 : Fin k0_t2_loop.trips) : Fin 2 → Nat :=
  let c72_i32 : BitVec 32 := 72#32
  let v686 : Index := Scalar.indexCast c72_i32
  let c0_i32_360 : BitVec 32 := 0#32
  let c1_i32_362 : BitVec 32 := 1#32
  let arg7 : BitVec 32 := Scf.iv c0_i32_360 c1_i32_362 k0_t2
  let c16_i32_461 : BitVec 32 := 16#32
  let v685 : BitVec 32 := Scalar.muli arg7 c16_i32_461
  let v687 : Index := Scalar.indexCast v685
  ![72, v687.toNat]

def k0_chk48 (v396 : IVec S16 32) (v588 : IVec S16 32) : Prop :=
  (∀ a x, ((![v588, v396] : Fin 2 → IVec S16 32) a x).toNat < S24x128.size a)
instance k0_chk48.dec : ∀ (v396 : IVec S16 32) (v588 : IVec S16 32), Decidable (k0_chk48 v396 v588) := fun v396 v588 => decidable_of_iff' _ (Iff.of_eq (k0_chk48.eq_1 v396 v588))
theorem k0_idx48_inb : ∀ (v396 : IVec S16 32) (v588 : IVec S16 32) (k0_hw48 : k0_chk48 v396 v588), ∀ a x, ((![v588, v396] : Fin 2 → IVec S16 32) a x).toNat < S24x128.size a := fun v396 v588 k0_hw48 => k0_hw48
def k0_off75 (k0_t2 : Fin k0_t2_loop.trips) : Fin 2 → Nat :=
  let c73_i32 : BitVec 32 := 73#32
  let v690 : Index := Scalar.indexCast c73_i32
  let c0_i32_360 : BitVec 32 := 0#32
  let c1_i32_362 : BitVec 32 := 1#32
  let arg7 : BitVec 32 := Scf.iv c0_i32_360 c1_i32_362 k0_t2
  let c16_i32_462 : BitVec 32 := 16#32
  let v689 : BitVec 32 := Scalar.muli arg7 c16_i32_462
  let v691 : Index := Scalar.indexCast v689
  ![73, v691.toNat]

def k0_chk49 (v396 : IVec S16 32) (v592 : IVec S16 32) : Prop :=
  (∀ a x, ((![v592, v396] : Fin 2 → IVec S16 32) a x).toNat < S24x128.size a)
instance k0_chk49.dec : ∀ (v396 : IVec S16 32) (v592 : IVec S16 32), Decidable (k0_chk49 v396 v592) := fun v396 v592 => decidable_of_iff' _ (Iff.of_eq (k0_chk49.eq_1 v396 v592))
theorem k0_idx49_inb : ∀ (v396 : IVec S16 32) (v592 : IVec S16 32) (k0_hw49 : k0_chk49 v396 v592), ∀ a x, ((![v592, v396] : Fin 2 → IVec S16 32) a x).toNat < S24x128.size a := fun v396 v592 k0_hw49 => k0_hw49
def k0_off76 (k0_t2 : Fin k0_t2_loop.trips) : Fin 2 → Nat :=
  let c74_i32 : BitVec 32 := 74#32
  let v694 : Index := Scalar.indexCast c74_i32
  let c0_i32_360 : BitVec 32 := 0#32
  let c1_i32_362 : BitVec 32 := 1#32
  let arg7 : BitVec 32 := Scf.iv c0_i32_360 c1_i32_362 k0_t2
  let c16_i32_463 : BitVec 32 := 16#32
  let v693 : BitVec 32 := Scalar.muli arg7 c16_i32_463
  let v695 : Index := Scalar.indexCast v693
  ![74, v695.toNat]

def k0_chk50 (v396 : IVec S16 32) (v596 : IVec S16 32) : Prop :=
  (∀ a x, ((![v596, v396] : Fin 2 → IVec S16 32) a x).toNat < S24x128.size a)
instance k0_chk50.dec : ∀ (v396 : IVec S16 32) (v596 : IVec S16 32), Decidable (k0_chk50 v396 v596) := fun v396 v596 => decidable_of_iff' _ (Iff.of_eq (k0_chk50.eq_1 v396 v596))
theorem k0_idx50_inb : ∀ (v396 : IVec S16 32) (v596 : IVec S16 32) (k0_hw50 : k0_chk50 v396 v596), ∀ a x, ((![v596, v396] : Fin 2 → IVec S16 32) a x).toNat < S24x128.size a := fun v396 v596 k0_hw50 => k0_hw50
def k0_off77 (k0_t2 : Fin k0_t2_loop.trips) : Fin 2 → Nat :=
  let c75_i32 : BitVec 32 := 75#32
  let v698 : Index := Scalar.indexCast c75_i32
  let c0_i32_360 : BitVec 32 := 0#32
  let c1_i32_362 : BitVec 32 := 1#32
  let arg7 : BitVec 32 := Scf.iv c0_i32_360 c1_i32_362 k0_t2
  let c16_i32_464 : BitVec 32 := 16#32
  let v697 : BitVec 32 := Scalar.muli arg7 c16_i32_464
  let v699 : Index := Scalar.indexCast v697
  ![75, v699.toNat]

def k0_chk51 (v396 : IVec S16 32) (v600 : IVec S16 32) : Prop :=
  (∀ a x, ((![v600, v396] : Fin 2 → IVec S16 32) a x).toNat < S24x128.size a)
instance k0_chk51.dec : ∀ (v396 : IVec S16 32) (v600 : IVec S16 32), Decidable (k0_chk51 v396 v600) := fun v396 v600 => decidable_of_iff' _ (Iff.of_eq (k0_chk51.eq_1 v396 v600))
theorem k0_idx51_inb : ∀ (v396 : IVec S16 32) (v600 : IVec S16 32) (k0_hw51 : k0_chk51 v396 v600), ∀ a x, ((![v600, v396] : Fin 2 → IVec S16 32) a x).toNat < S24x128.size a := fun v396 v600 k0_hw51 => k0_hw51
def k0_off78 (k0_t2 : Fin k0_t2_loop.trips) : Fin 2 → Nat :=
  let c76_i32 : BitVec 32 := 76#32
  let v702 : Index := Scalar.indexCast c76_i32
  let c0_i32_360 : BitVec 32 := 0#32
  let c1_i32_362 : BitVec 32 := 1#32
  let arg7 : BitVec 32 := Scf.iv c0_i32_360 c1_i32_362 k0_t2
  let c16_i32_465 : BitVec 32 := 16#32
  let v701 : BitVec 32 := Scalar.muli arg7 c16_i32_465
  let v703 : Index := Scalar.indexCast v701
  ![76, v703.toNat]

def k0_chk52 (v396 : IVec S16 32) (v604 : IVec S16 32) : Prop :=
  (∀ a x, ((![v604, v396] : Fin 2 → IVec S16 32) a x).toNat < S24x128.size a)
instance k0_chk52.dec : ∀ (v396 : IVec S16 32) (v604 : IVec S16 32), Decidable (k0_chk52 v396 v604) := fun v396 v604 => decidable_of_iff' _ (Iff.of_eq (k0_chk52.eq_1 v396 v604))
theorem k0_idx52_inb : ∀ (v396 : IVec S16 32) (v604 : IVec S16 32) (k0_hw52 : k0_chk52 v396 v604), ∀ a x, ((![v604, v396] : Fin 2 → IVec S16 32) a x).toNat < S24x128.size a := fun v396 v604 k0_hw52 => k0_hw52
def k0_off79 (k0_t2 : Fin k0_t2_loop.trips) : Fin 2 → Nat :=
  let c77_i32 : BitVec 32 := 77#32
  let v706 : Index := Scalar.indexCast c77_i32
  let c0_i32_360 : BitVec 32 := 0#32
  let c1_i32_362 : BitVec 32 := 1#32
  let arg7 : BitVec 32 := Scf.iv c0_i32_360 c1_i32_362 k0_t2
  let c16_i32_466 : BitVec 32 := 16#32
  let v705 : BitVec 32 := Scalar.muli arg7 c16_i32_466
  let v707 : Index := Scalar.indexCast v705
  ![77, v707.toNat]

def k0_chk53 (v396 : IVec S16 32) (v608 : IVec S16 32) : Prop :=
  (∀ a x, ((![v608, v396] : Fin 2 → IVec S16 32) a x).toNat < S24x128.size a)
instance k0_chk53.dec : ∀ (v396 : IVec S16 32) (v608 : IVec S16 32), Decidable (k0_chk53 v396 v608) := fun v396 v608 => decidable_of_iff' _ (Iff.of_eq (k0_chk53.eq_1 v396 v608))
theorem k0_idx53_inb : ∀ (v396 : IVec S16 32) (v608 : IVec S16 32) (k0_hw53 : k0_chk53 v396 v608), ∀ a x, ((![v608, v396] : Fin 2 → IVec S16 32) a x).toNat < S24x128.size a := fun v396 v608 k0_hw53 => k0_hw53
def k0_off80 (k0_t2 : Fin k0_t2_loop.trips) : Fin 2 → Nat :=
  let c78_i32 : BitVec 32 := 78#32
  let v710 : Index := Scalar.indexCast c78_i32
  let c0_i32_360 : BitVec 32 := 0#32
  let c1_i32_362 : BitVec 32 := 1#32
  let arg7 : BitVec 32 := Scf.iv c0_i32_360 c1_i32_362 k0_t2
  let c16_i32_467 : BitVec 32 := 16#32
  let v709 : BitVec 32 := Scalar.muli arg7 c16_i32_467
  let v711 : Index := Scalar.indexCast v709
  ![78, v711.toNat]

def k0_chk54 (v396 : IVec S16 32) (v612 : IVec S16 32) : Prop :=
  (∀ a x, ((![v612, v396] : Fin 2 → IVec S16 32) a x).toNat < S24x128.size a)
instance k0_chk54.dec : ∀ (v396 : IVec S16 32) (v612 : IVec S16 32), Decidable (k0_chk54 v396 v612) := fun v396 v612 => decidable_of_iff' _ (Iff.of_eq (k0_chk54.eq_1 v396 v612))
theorem k0_idx54_inb : ∀ (v396 : IVec S16 32) (v612 : IVec S16 32) (k0_hw54 : k0_chk54 v396 v612), ∀ a x, ((![v612, v396] : Fin 2 → IVec S16 32) a x).toNat < S24x128.size a := fun v396 v612 k0_hw54 => k0_hw54
def k0_off81 (k0_t2 : Fin k0_t2_loop.trips) : Fin 2 → Nat :=
  let c79_i32 : BitVec 32 := 79#32
  let v714 : Index := Scalar.indexCast c79_i32
  let c0_i32_360 : BitVec 32 := 0#32
  let c1_i32_362 : BitVec 32 := 1#32
  let arg7 : BitVec 32 := Scf.iv c0_i32_360 c1_i32_362 k0_t2
  let c16_i32_468 : BitVec 32 := 16#32
  let v713 : BitVec 32 := Scalar.muli arg7 c16_i32_468
  let v715 : Index := Scalar.indexCast v713
  ![79, v715.toNat]

def k0_chk55 (v396 : IVec S16 32) (v616 : IVec S16 32) : Prop :=
  (∀ a x, ((![v616, v396] : Fin 2 → IVec S16 32) a x).toNat < S24x128.size a)
instance k0_chk55.dec : ∀ (v396 : IVec S16 32) (v616 : IVec S16 32), Decidable (k0_chk55 v396 v616) := fun v396 v616 => decidable_of_iff' _ (Iff.of_eq (k0_chk55.eq_1 v396 v616))
theorem k0_idx55_inb : ∀ (v396 : IVec S16 32) (v616 : IVec S16 32) (k0_hw55 : k0_chk55 v396 v616), ∀ a x, ((![v616, v396] : Fin 2 → IVec S16 32) a x).toNat < S24x128.size a := fun v396 v616 k0_hw55 => k0_hw55
def k0_off82 (k0_t2 : Fin k0_t2_loop.trips) : Fin 2 → Nat :=
  let c80_i32 : BitVec 32 := 80#32
  let v718 : Index := Scalar.indexCast c80_i32
  let c0_i32_360 : BitVec 32 := 0#32
  let c1_i32_362 : BitVec 32 := 1#32
  let arg7 : BitVec 32 := Scf.iv c0_i32_360 c1_i32_362 k0_t2
  let c16_i32_469 : BitVec 32 := 16#32
  let v717 : BitVec 32 := Scalar.muli arg7 c16_i32_469
  let v719 : Index := Scalar.indexCast v717
  ![80, v719.toNat]

def k0_chk56 (v396 : IVec S16 32) (v620 : IVec S16 32) : Prop :=
  (∀ a x, ((![v620, v396] : Fin 2 → IVec S16 32) a x).toNat < S24x128.size a)
instance k0_chk56.dec : ∀ (v396 : IVec S16 32) (v620 : IVec S16 32), Decidable (k0_chk56 v396 v620) := fun v396 v620 => decidable_of_iff' _ (Iff.of_eq (k0_chk56.eq_1 v396 v620))
theorem k0_idx56_inb : ∀ (v396 : IVec S16 32) (v620 : IVec S16 32) (k0_hw56 : k0_chk56 v396 v620), ∀ a x, ((![v620, v396] : Fin 2 → IVec S16 32) a x).toNat < S24x128.size a := fun v396 v620 k0_hw56 => k0_hw56
def k0_off83 (k0_t2 : Fin k0_t2_loop.trips) : Fin 2 → Nat :=
  let c81_i32 : BitVec 32 := 81#32
  let v722 : Index := Scalar.indexCast c81_i32
  let c0_i32_360 : BitVec 32 := 0#32
  let c1_i32_362 : BitVec 32 := 1#32
  let arg7 : BitVec 32 := Scf.iv c0_i32_360 c1_i32_362 k0_t2
  let c16_i32_470 : BitVec 32 := 16#32
  let v721 : BitVec 32 := Scalar.muli arg7 c16_i32_470
  let v723 : Index := Scalar.indexCast v721
  ![81, v723.toNat]

def k0_chk57 (v396 : IVec S16 32) (v624 : IVec S16 32) : Prop :=
  (∀ a x, ((![v624, v396] : Fin 2 → IVec S16 32) a x).toNat < S24x128.size a)
instance k0_chk57.dec : ∀ (v396 : IVec S16 32) (v624 : IVec S16 32), Decidable (k0_chk57 v396 v624) := fun v396 v624 => decidable_of_iff' _ (Iff.of_eq (k0_chk57.eq_1 v396 v624))
theorem k0_idx57_inb : ∀ (v396 : IVec S16 32) (v624 : IVec S16 32) (k0_hw57 : k0_chk57 v396 v624), ∀ a x, ((![v624, v396] : Fin 2 → IVec S16 32) a x).toNat < S24x128.size a := fun v396 v624 k0_hw57 => k0_hw57
def k0_off84 (k0_t2 : Fin k0_t2_loop.trips) : Fin 2 → Nat :=
  let c82_i32 : BitVec 32 := 82#32
  let v726 : Index := Scalar.indexCast c82_i32
  let c0_i32_360 : BitVec 32 := 0#32
  let c1_i32_362 : BitVec 32 := 1#32
  let arg7 : BitVec 32 := Scf.iv c0_i32_360 c1_i32_362 k0_t2
  let c16_i32_471 : BitVec 32 := 16#32
  let v725 : BitVec 32 := Scalar.muli arg7 c16_i32_471
  let v727 : Index := Scalar.indexCast v725
  ![82, v727.toNat]

def k0_chk58 (v396 : IVec S16 32) (v628 : IVec S16 32) : Prop :=
  (∀ a x, ((![v628, v396] : Fin 2 → IVec S16 32) a x).toNat < S24x128.size a)
instance k0_chk58.dec : ∀ (v396 : IVec S16 32) (v628 : IVec S16 32), Decidable (k0_chk58 v396 v628) := fun v396 v628 => decidable_of_iff' _ (Iff.of_eq (k0_chk58.eq_1 v396 v628))
theorem k0_idx58_inb : ∀ (v396 : IVec S16 32) (v628 : IVec S16 32) (k0_hw58 : k0_chk58 v396 v628), ∀ a x, ((![v628, v396] : Fin 2 → IVec S16 32) a x).toNat < S24x128.size a := fun v396 v628 k0_hw58 => k0_hw58
def k0_off85 (k0_t2 : Fin k0_t2_loop.trips) : Fin 2 → Nat :=
  let c83_i32 : BitVec 32 := 83#32
  let v730 : Index := Scalar.indexCast c83_i32
  let c0_i32_360 : BitVec 32 := 0#32
  let c1_i32_362 : BitVec 32 := 1#32
  let arg7 : BitVec 32 := Scf.iv c0_i32_360 c1_i32_362 k0_t2
  let c16_i32_472 : BitVec 32 := 16#32
  let v729 : BitVec 32 := Scalar.muli arg7 c16_i32_472
  let v731 : Index := Scalar.indexCast v729
  ![83, v731.toNat]

def k0_chk59 (v396 : IVec S16 32) (v632 : IVec S16 32) : Prop :=
  (∀ a x, ((![v632, v396] : Fin 2 → IVec S16 32) a x).toNat < S24x128.size a)
instance k0_chk59.dec : ∀ (v396 : IVec S16 32) (v632 : IVec S16 32), Decidable (k0_chk59 v396 v632) := fun v396 v632 => decidable_of_iff' _ (Iff.of_eq (k0_chk59.eq_1 v396 v632))
theorem k0_idx59_inb : ∀ (v396 : IVec S16 32) (v632 : IVec S16 32) (k0_hw59 : k0_chk59 v396 v632), ∀ a x, ((![v632, v396] : Fin 2 → IVec S16 32) a x).toNat < S24x128.size a := fun v396 v632 k0_hw59 => k0_hw59
def k0_off86 (k0_t2 : Fin k0_t2_loop.trips) : Fin 2 → Nat :=
  let c84_i32 : BitVec 32 := 84#32
  let v734 : Index := Scalar.indexCast c84_i32
  let c0_i32_360 : BitVec 32 := 0#32
  let c1_i32_362 : BitVec 32 := 1#32
  let arg7 : BitVec 32 := Scf.iv c0_i32_360 c1_i32_362 k0_t2
  let c16_i32_473 : BitVec 32 := 16#32
  let v733 : BitVec 32 := Scalar.muli arg7 c16_i32_473
  let v735 : Index := Scalar.indexCast v733
  ![84, v735.toNat]

def k0_chk60 (v396 : IVec S16 32) (v636 : IVec S16 32) : Prop :=
  (∀ a x, ((![v636, v396] : Fin 2 → IVec S16 32) a x).toNat < S24x128.size a)
instance k0_chk60.dec : ∀ (v396 : IVec S16 32) (v636 : IVec S16 32), Decidable (k0_chk60 v396 v636) := fun v396 v636 => decidable_of_iff' _ (Iff.of_eq (k0_chk60.eq_1 v396 v636))
theorem k0_idx60_inb : ∀ (v396 : IVec S16 32) (v636 : IVec S16 32) (k0_hw60 : k0_chk60 v396 v636), ∀ a x, ((![v636, v396] : Fin 2 → IVec S16 32) a x).toNat < S24x128.size a := fun v396 v636 k0_hw60 => k0_hw60
def k0_off87 (k0_t2 : Fin k0_t2_loop.trips) : Fin 2 → Nat :=
  let c85_i32 : BitVec 32 := 85#32
  let v738 : Index := Scalar.indexCast c85_i32
  let c0_i32_360 : BitVec 32 := 0#32
  let c1_i32_362 : BitVec 32 := 1#32
  let arg7 : BitVec 32 := Scf.iv c0_i32_360 c1_i32_362 k0_t2
  let c16_i32_474 : BitVec 32 := 16#32
  let v737 : BitVec 32 := Scalar.muli arg7 c16_i32_474
  let v739 : Index := Scalar.indexCast v737
  ![85, v739.toNat]

def k0_chk61 (v396 : IVec S16 32) (v640 : IVec S16 32) : Prop :=
  (∀ a x, ((![v640, v396] : Fin 2 → IVec S16 32) a x).toNat < S24x128.size a)
instance k0_chk61.dec : ∀ (v396 : IVec S16 32) (v640 : IVec S16 32), Decidable (k0_chk61 v396 v640) := fun v396 v640 => decidable_of_iff' _ (Iff.of_eq (k0_chk61.eq_1 v396 v640))
theorem k0_idx61_inb : ∀ (v396 : IVec S16 32) (v640 : IVec S16 32) (k0_hw61 : k0_chk61 v396 v640), ∀ a x, ((![v640, v396] : Fin 2 → IVec S16 32) a x).toNat < S24x128.size a := fun v396 v640 k0_hw61 => k0_hw61
def k0_off88 (k0_t2 : Fin k0_t2_loop.trips) : Fin 2 → Nat :=
  let c86_i32 : BitVec 32 := 86#32
  let v742 : Index := Scalar.indexCast c86_i32
  let c0_i32_360 : BitVec 32 := 0#32
  let c1_i32_362 : BitVec 32 := 1#32
  let arg7 : BitVec 32 := Scf.iv c0_i32_360 c1_i32_362 k0_t2
  let c16_i32_475 : BitVec 32 := 16#32
  let v741 : BitVec 32 := Scalar.muli arg7 c16_i32_475
  let v743 : Index := Scalar.indexCast v741
  ![86, v743.toNat]

def k0_chk62 (v396 : IVec S16 32) (v644 : IVec S16 32) : Prop :=
  (∀ a x, ((![v644, v396] : Fin 2 → IVec S16 32) a x).toNat < S24x128.size a)
instance k0_chk62.dec : ∀ (v396 : IVec S16 32) (v644 : IVec S16 32), Decidable (k0_chk62 v396 v644) := fun v396 v644 => decidable_of_iff' _ (Iff.of_eq (k0_chk62.eq_1 v396 v644))
theorem k0_idx62_inb : ∀ (v396 : IVec S16 32) (v644 : IVec S16 32) (k0_hw62 : k0_chk62 v396 v644), ∀ a x, ((![v644, v396] : Fin 2 → IVec S16 32) a x).toNat < S24x128.size a := fun v396 v644 k0_hw62 => k0_hw62
def k0_off89 (k0_t2 : Fin k0_t2_loop.trips) : Fin 2 → Nat :=
  let c87_i32 : BitVec 32 := 87#32
  let v746 : Index := Scalar.indexCast c87_i32
  let c0_i32_360 : BitVec 32 := 0#32
  let c1_i32_362 : BitVec 32 := 1#32
  let arg7 : BitVec 32 := Scf.iv c0_i32_360 c1_i32_362 k0_t2
  let c16_i32_476 : BitVec 32 := 16#32
  let v745 : BitVec 32 := Scalar.muli arg7 c16_i32_476
  let v747 : Index := Scalar.indexCast v745
  ![87, v747.toNat]

def k0_chk63 (v396 : IVec S16 32) (v648 : IVec S16 32) : Prop :=
  (∀ a x, ((![v648, v396] : Fin 2 → IVec S16 32) a x).toNat < S24x128.size a)
instance k0_chk63.dec : ∀ (v396 : IVec S16 32) (v648 : IVec S16 32), Decidable (k0_chk63 v396 v648) := fun v396 v648 => decidable_of_iff' _ (Iff.of_eq (k0_chk63.eq_1 v396 v648))
theorem k0_idx63_inb : ∀ (v396 : IVec S16 32) (v648 : IVec S16 32) (k0_hw63 : k0_chk63 v396 v648), ∀ a x, ((![v648, v396] : Fin 2 → IVec S16 32) a x).toNat < S24x128.size a := fun v396 v648 k0_hw63 => k0_hw63
def k0_off90 (k0_t2 : Fin k0_t2_loop.trips) : Fin 2 → Nat :=
  let c88_i32 : BitVec 32 := 88#32
  let v750 : Index := Scalar.indexCast c88_i32
  let c0_i32_360 : BitVec 32 := 0#32
  let c1_i32_362 : BitVec 32 := 1#32
  let arg7 : BitVec 32 := Scf.iv c0_i32_360 c1_i32_362 k0_t2
  let c16_i32_477 : BitVec 32 := 16#32
  let v749 : BitVec 32 := Scalar.muli arg7 c16_i32_477
  let v751 : Index := Scalar.indexCast v749
  ![88, v751.toNat]

def k0_chk64 (v396 : IVec S16 32) (v652 : IVec S16 32) : Prop :=
  (∀ a x, ((![v652, v396] : Fin 2 → IVec S16 32) a x).toNat < S24x128.size a)
instance k0_chk64.dec : ∀ (v396 : IVec S16 32) (v652 : IVec S16 32), Decidable (k0_chk64 v396 v652) := fun v396 v652 => decidable_of_iff' _ (Iff.of_eq (k0_chk64.eq_1 v396 v652))
theorem k0_idx64_inb : ∀ (v396 : IVec S16 32) (v652 : IVec S16 32) (k0_hw64 : k0_chk64 v396 v652), ∀ a x, ((![v652, v396] : Fin 2 → IVec S16 32) a x).toNat < S24x128.size a := fun v396 v652 k0_hw64 => k0_hw64
def k0_off91 (k0_t2 : Fin k0_t2_loop.trips) : Fin 2 → Nat :=
  let c89_i32 : BitVec 32 := 89#32
  let v754 : Index := Scalar.indexCast c89_i32
  let c0_i32_360 : BitVec 32 := 0#32
  let c1_i32_362 : BitVec 32 := 1#32
  let arg7 : BitVec 32 := Scf.iv c0_i32_360 c1_i32_362 k0_t2
  let c16_i32_478 : BitVec 32 := 16#32
  let v753 : BitVec 32 := Scalar.muli arg7 c16_i32_478
  let v755 : Index := Scalar.indexCast v753
  ![89, v755.toNat]

def k0_chk65 (v396 : IVec S16 32) (v656 : IVec S16 32) : Prop :=
  (∀ a x, ((![v656, v396] : Fin 2 → IVec S16 32) a x).toNat < S24x128.size a)
instance k0_chk65.dec : ∀ (v396 : IVec S16 32) (v656 : IVec S16 32), Decidable (k0_chk65 v396 v656) := fun v396 v656 => decidable_of_iff' _ (Iff.of_eq (k0_chk65.eq_1 v396 v656))
theorem k0_idx65_inb : ∀ (v396 : IVec S16 32) (v656 : IVec S16 32) (k0_hw65 : k0_chk65 v396 v656), ∀ a x, ((![v656, v396] : Fin 2 → IVec S16 32) a x).toNat < S24x128.size a := fun v396 v656 k0_hw65 => k0_hw65
def k0_off92 (k0_t2 : Fin k0_t2_loop.trips) : Fin 2 → Nat :=
  let c90_i32 : BitVec 32 := 90#32
  let v758 : Index := Scalar.indexCast c90_i32
  let c0_i32_360 : BitVec 32 := 0#32
  let c1_i32_362 : BitVec 32 := 1#32
  let arg7 : BitVec 32 := Scf.iv c0_i32_360 c1_i32_362 k0_t2
  let c16_i32_479 : BitVec 32 := 16#32
  let v757 : BitVec 32 := Scalar.muli arg7 c16_i32_479
  let v759 : Index := Scalar.indexCast v757
  ![90, v759.toNat]

def k0_chk66 (v396 : IVec S16 32) (v660 : IVec S16 32) : Prop :=
  (∀ a x, ((![v660, v396] : Fin 2 → IVec S16 32) a x).toNat < S24x128.size a)
instance k0_chk66.dec : ∀ (v396 : IVec S16 32) (v660 : IVec S16 32), Decidable (k0_chk66 v396 v660) := fun v396 v660 => decidable_of_iff' _ (Iff.of_eq (k0_chk66.eq_1 v396 v660))
theorem k0_idx66_inb : ∀ (v396 : IVec S16 32) (v660 : IVec S16 32) (k0_hw66 : k0_chk66 v396 v660), ∀ a x, ((![v660, v396] : Fin 2 → IVec S16 32) a x).toNat < S24x128.size a := fun v396 v660 k0_hw66 => k0_hw66
def k0_off93 (k0_t2 : Fin k0_t2_loop.trips) : Fin 2 → Nat :=
  let c91_i32 : BitVec 32 := 91#32
  let v762 : Index := Scalar.indexCast c91_i32
  let c0_i32_360 : BitVec 32 := 0#32
  let c1_i32_362 : BitVec 32 := 1#32
  let arg7 : BitVec 32 := Scf.iv c0_i32_360 c1_i32_362 k0_t2
  let c16_i32_480 : BitVec 32 := 16#32
  let v761 : BitVec 32 := Scalar.muli arg7 c16_i32_480
  let v763 : Index := Scalar.indexCast v761
  ![91, v763.toNat]

def k0_chk67 (v396 : IVec S16 32) (v664 : IVec S16 32) : Prop :=
  (∀ a x, ((![v664, v396] : Fin 2 → IVec S16 32) a x).toNat < S24x128.size a)
instance k0_chk67.dec : ∀ (v396 : IVec S16 32) (v664 : IVec S16 32), Decidable (k0_chk67 v396 v664) := fun v396 v664 => decidable_of_iff' _ (Iff.of_eq (k0_chk67.eq_1 v396 v664))
theorem k0_idx67_inb : ∀ (v396 : IVec S16 32) (v664 : IVec S16 32) (k0_hw67 : k0_chk67 v396 v664), ∀ a x, ((![v664, v396] : Fin 2 → IVec S16 32) a x).toNat < S24x128.size a := fun v396 v664 k0_hw67 => k0_hw67
def k0_off94 (k0_t2 : Fin k0_t2_loop.trips) : Fin 2 → Nat :=
  let c92_i32 : BitVec 32 := 92#32
  let v766 : Index := Scalar.indexCast c92_i32
  let c0_i32_360 : BitVec 32 := 0#32
  let c1_i32_362 : BitVec 32 := 1#32
  let arg7 : BitVec 32 := Scf.iv c0_i32_360 c1_i32_362 k0_t2
  let c16_i32_481 : BitVec 32 := 16#32
  let v765 : BitVec 32 := Scalar.muli arg7 c16_i32_481
  let v767 : Index := Scalar.indexCast v765
  ![92, v767.toNat]

def k0_chk68 (v396 : IVec S16 32) (v668 : IVec S16 32) : Prop :=
  (∀ a x, ((![v668, v396] : Fin 2 → IVec S16 32) a x).toNat < S24x128.size a)
instance k0_chk68.dec : ∀ (v396 : IVec S16 32) (v668 : IVec S16 32), Decidable (k0_chk68 v396 v668) := fun v396 v668 => decidable_of_iff' _ (Iff.of_eq (k0_chk68.eq_1 v396 v668))
theorem k0_idx68_inb : ∀ (v396 : IVec S16 32) (v668 : IVec S16 32) (k0_hw68 : k0_chk68 v396 v668), ∀ a x, ((![v668, v396] : Fin 2 → IVec S16 32) a x).toNat < S24x128.size a := fun v396 v668 k0_hw68 => k0_hw68
def k0_off95 (k0_t2 : Fin k0_t2_loop.trips) : Fin 2 → Nat :=
  let c93_i32 : BitVec 32 := 93#32
  let v770 : Index := Scalar.indexCast c93_i32
  let c0_i32_360 : BitVec 32 := 0#32
  let c1_i32_362 : BitVec 32 := 1#32
  let arg7 : BitVec 32 := Scf.iv c0_i32_360 c1_i32_362 k0_t2
  let c16_i32_482 : BitVec 32 := 16#32
  let v769 : BitVec 32 := Scalar.muli arg7 c16_i32_482
  let v771 : Index := Scalar.indexCast v769
  ![93, v771.toNat]

def k0_chk69 (v396 : IVec S16 32) (v672 : IVec S16 32) : Prop :=
  (∀ a x, ((![v672, v396] : Fin 2 → IVec S16 32) a x).toNat < S24x128.size a)
instance k0_chk69.dec : ∀ (v396 : IVec S16 32) (v672 : IVec S16 32), Decidable (k0_chk69 v396 v672) := fun v396 v672 => decidable_of_iff' _ (Iff.of_eq (k0_chk69.eq_1 v396 v672))
theorem k0_idx69_inb : ∀ (v396 : IVec S16 32) (v672 : IVec S16 32) (k0_hw69 : k0_chk69 v396 v672), ∀ a x, ((![v672, v396] : Fin 2 → IVec S16 32) a x).toNat < S24x128.size a := fun v396 v672 k0_hw69 => k0_hw69
def k0_off96 (k0_t2 : Fin k0_t2_loop.trips) : Fin 2 → Nat :=
  let c94_i32 : BitVec 32 := 94#32
  let v774 : Index := Scalar.indexCast c94_i32
  let c0_i32_360 : BitVec 32 := 0#32
  let c1_i32_362 : BitVec 32 := 1#32
  let arg7 : BitVec 32 := Scf.iv c0_i32_360 c1_i32_362 k0_t2
  let c16_i32_483 : BitVec 32 := 16#32
  let v773 : BitVec 32 := Scalar.muli arg7 c16_i32_483
  let v775 : Index := Scalar.indexCast v773
  ![94, v775.toNat]

def k0_chk70 (v396 : IVec S16 32) (v676 : IVec S16 32) : Prop :=
  (∀ a x, ((![v676, v396] : Fin 2 → IVec S16 32) a x).toNat < S24x128.size a)
instance k0_chk70.dec : ∀ (v396 : IVec S16 32) (v676 : IVec S16 32), Decidable (k0_chk70 v396 v676) := fun v396 v676 => decidable_of_iff' _ (Iff.of_eq (k0_chk70.eq_1 v396 v676))
theorem k0_idx70_inb : ∀ (v396 : IVec S16 32) (v676 : IVec S16 32) (k0_hw70 : k0_chk70 v396 v676), ∀ a x, ((![v676, v396] : Fin 2 → IVec S16 32) a x).toNat < S24x128.size a := fun v396 v676 k0_hw70 => k0_hw70
def k0_off97 (k0_t2 : Fin k0_t2_loop.trips) : Fin 2 → Nat :=
  let c95_i32 : BitVec 32 := 95#32
  let v778 : Index := Scalar.indexCast c95_i32
  let c0_i32_360 : BitVec 32 := 0#32
  let c1_i32_362 : BitVec 32 := 1#32
  let arg7 : BitVec 32 := Scf.iv c0_i32_360 c1_i32_362 k0_t2
  let c16_i32_484 : BitVec 32 := 16#32
  let v777 : BitVec 32 := Scalar.muli arg7 c16_i32_484
  let v779 : Index := Scalar.indexCast v777
  ![95, v779.toNat]

def k0_chk71 (v396 : IVec S16 32) (v680 : IVec S16 32) : Prop :=
  (∀ a x, ((![v680, v396] : Fin 2 → IVec S16 32) a x).toNat < S24x128.size a)
instance k0_chk71.dec : ∀ (v396 : IVec S16 32) (v680 : IVec S16 32), Decidable (k0_chk71 v396 v680) := fun v396 v680 => decidable_of_iff' _ (Iff.of_eq (k0_chk71.eq_1 v396 v680))
theorem k0_idx71_inb : ∀ (v396 : IVec S16 32) (v680 : IVec S16 32) (k0_hw71 : k0_chk71 v396 v680), ∀ a x, ((![v680, v396] : Fin 2 → IVec S16 32) a x).toNat < S24x128.size a := fun v396 v680 k0_hw71 => k0_hw71
def k0_off98 (k0_t2 : Fin k0_t2_loop.trips) : Fin 2 → Nat :=
  let c96_i32 : BitVec 32 := 96#32
  let v782 : Index := Scalar.indexCast c96_i32
  let c0_i32_360 : BitVec 32 := 0#32
  let c1_i32_362 : BitVec 32 := 1#32
  let arg7 : BitVec 32 := Scf.iv c0_i32_360 c1_i32_362 k0_t2
  let c16_i32_485 : BitVec 32 := 16#32
  let v781 : BitVec 32 := Scalar.muli arg7 c16_i32_485
  let v783 : Index := Scalar.indexCast v781
  ![96, v783.toNat]

def k0_chk72 (v396 : IVec S16 32) (v684 : IVec S16 32) : Prop :=
  (∀ a x, ((![v684, v396] : Fin 2 → IVec S16 32) a x).toNat < S24x128.size a)
instance k0_chk72.dec : ∀ (v396 : IVec S16 32) (v684 : IVec S16 32), Decidable (k0_chk72 v396 v684) := fun v396 v684 => decidable_of_iff' _ (Iff.of_eq (k0_chk72.eq_1 v396 v684))
theorem k0_idx72_inb : ∀ (v396 : IVec S16 32) (v684 : IVec S16 32) (k0_hw72 : k0_chk72 v396 v684), ∀ a x, ((![v684, v396] : Fin 2 → IVec S16 32) a x).toNat < S24x128.size a := fun v396 v684 k0_hw72 => k0_hw72
def k0_off99 (k0_t2 : Fin k0_t2_loop.trips) : Fin 2 → Nat :=
  let c97_i32 : BitVec 32 := 97#32
  let v786 : Index := Scalar.indexCast c97_i32
  let c0_i32_360 : BitVec 32 := 0#32
  let c1_i32_362 : BitVec 32 := 1#32
  let arg7 : BitVec 32 := Scf.iv c0_i32_360 c1_i32_362 k0_t2
  let c16_i32_486 : BitVec 32 := 16#32
  let v785 : BitVec 32 := Scalar.muli arg7 c16_i32_486
  let v787 : Index := Scalar.indexCast v785
  ![97, v787.toNat]

def k0_chk73 (v396 : IVec S16 32) (v688 : IVec S16 32) : Prop :=
  (∀ a x, ((![v688, v396] : Fin 2 → IVec S16 32) a x).toNat < S24x128.size a)
instance k0_chk73.dec : ∀ (v396 : IVec S16 32) (v688 : IVec S16 32), Decidable (k0_chk73 v396 v688) := fun v396 v688 => decidable_of_iff' _ (Iff.of_eq (k0_chk73.eq_1 v396 v688))
theorem k0_idx73_inb : ∀ (v396 : IVec S16 32) (v688 : IVec S16 32) (k0_hw73 : k0_chk73 v396 v688), ∀ a x, ((![v688, v396] : Fin 2 → IVec S16 32) a x).toNat < S24x128.size a := fun v396 v688 k0_hw73 => k0_hw73
def k0_off100 (k0_t2 : Fin k0_t2_loop.trips) : Fin 2 → Nat :=
  let c98_i32 : BitVec 32 := 98#32
  let v790 : Index := Scalar.indexCast c98_i32
  let c0_i32_360 : BitVec 32 := 0#32
  let c1_i32_362 : BitVec 32 := 1#32
  let arg7 : BitVec 32 := Scf.iv c0_i32_360 c1_i32_362 k0_t2
  let c16_i32_487 : BitVec 32 := 16#32
  let v789 : BitVec 32 := Scalar.muli arg7 c16_i32_487
  let v791 : Index := Scalar.indexCast v789
  ![98, v791.toNat]

def k0_chk74 (v396 : IVec S16 32) (v692 : IVec S16 32) : Prop :=
  (∀ a x, ((![v692, v396] : Fin 2 → IVec S16 32) a x).toNat < S24x128.size a)
instance k0_chk74.dec : ∀ (v396 : IVec S16 32) (v692 : IVec S16 32), Decidable (k0_chk74 v396 v692) := fun v396 v692 => decidable_of_iff' _ (Iff.of_eq (k0_chk74.eq_1 v396 v692))
theorem k0_idx74_inb : ∀ (v396 : IVec S16 32) (v692 : IVec S16 32) (k0_hw74 : k0_chk74 v396 v692), ∀ a x, ((![v692, v396] : Fin 2 → IVec S16 32) a x).toNat < S24x128.size a := fun v396 v692 k0_hw74 => k0_hw74
def k0_off101 (k0_t2 : Fin k0_t2_loop.trips) : Fin 2 → Nat :=
  let c99_i32 : BitVec 32 := 99#32
  let v794 : Index := Scalar.indexCast c99_i32
  let c0_i32_360 : BitVec 32 := 0#32
  let c1_i32_362 : BitVec 32 := 1#32
  let arg7 : BitVec 32 := Scf.iv c0_i32_360 c1_i32_362 k0_t2
  let c16_i32_488 : BitVec 32 := 16#32
  let v793 : BitVec 32 := Scalar.muli arg7 c16_i32_488
  let v795 : Index := Scalar.indexCast v793
  ![99, v795.toNat]

def k0_chk75 (v396 : IVec S16 32) (v696 : IVec S16 32) : Prop :=
  (∀ a x, ((![v696, v396] : Fin 2 → IVec S16 32) a x).toNat < S24x128.size a)
instance k0_chk75.dec : ∀ (v396 : IVec S16 32) (v696 : IVec S16 32), Decidable (k0_chk75 v396 v696) := fun v396 v696 => decidable_of_iff' _ (Iff.of_eq (k0_chk75.eq_1 v396 v696))
theorem k0_idx75_inb : ∀ (v396 : IVec S16 32) (v696 : IVec S16 32) (k0_hw75 : k0_chk75 v396 v696), ∀ a x, ((![v696, v396] : Fin 2 → IVec S16 32) a x).toNat < S24x128.size a := fun v396 v696 k0_hw75 => k0_hw75
def k0_off102 (k0_t2 : Fin k0_t2_loop.trips) : Fin 2 → Nat :=
  let c100_i32 : BitVec 32 := 100#32
  let v798 : Index := Scalar.indexCast c100_i32
  let c0_i32_360 : BitVec 32 := 0#32
  let c1_i32_362 : BitVec 32 := 1#32
  let arg7 : BitVec 32 := Scf.iv c0_i32_360 c1_i32_362 k0_t2
  let c16_i32_489 : BitVec 32 := 16#32
  let v797 : BitVec 32 := Scalar.muli arg7 c16_i32_489
  let v799 : Index := Scalar.indexCast v797
  ![100, v799.toNat]

def k0_chk76 (v396 : IVec S16 32) (v700 : IVec S16 32) : Prop :=
  (∀ a x, ((![v700, v396] : Fin 2 → IVec S16 32) a x).toNat < S24x128.size a)
instance k0_chk76.dec : ∀ (v396 : IVec S16 32) (v700 : IVec S16 32), Decidable (k0_chk76 v396 v700) := fun v396 v700 => decidable_of_iff' _ (Iff.of_eq (k0_chk76.eq_1 v396 v700))
theorem k0_idx76_inb : ∀ (v396 : IVec S16 32) (v700 : IVec S16 32) (k0_hw76 : k0_chk76 v396 v700), ∀ a x, ((![v700, v396] : Fin 2 → IVec S16 32) a x).toNat < S24x128.size a := fun v396 v700 k0_hw76 => k0_hw76
def k0_off103 (k0_t2 : Fin k0_t2_loop.trips) : Fin 2 → Nat :=
  let c101_i32 : BitVec 32 := 101#32
  let v802 : Index := Scalar.indexCast c101_i32
  let c0_i32_360 : BitVec 32 := 0#32
  let c1_i32_362 : BitVec 32 := 1#32
  let arg7 : BitVec 32 := Scf.iv c0_i32_360 c1_i32_362 k0_t2
  let c16_i32_490 : BitVec 32 := 16#32
  let v801 : BitVec 32 := Scalar.muli arg7 c16_i32_490
  let v803 : Index := Scalar.indexCast v801
  ![101, v803.toNat]

def k0_chk77 (v396 : IVec S16 32) (v704 : IVec S16 32) : Prop :=
  (∀ a x, ((![v704, v396] : Fin 2 → IVec S16 32) a x).toNat < S24x128.size a)
instance k0_chk77.dec : ∀ (v396 : IVec S16 32) (v704 : IVec S16 32), Decidable (k0_chk77 v396 v704) := fun v396 v704 => decidable_of_iff' _ (Iff.of_eq (k0_chk77.eq_1 v396 v704))
theorem k0_idx77_inb : ∀ (v396 : IVec S16 32) (v704 : IVec S16 32) (k0_hw77 : k0_chk77 v396 v704), ∀ a x, ((![v704, v396] : Fin 2 → IVec S16 32) a x).toNat < S24x128.size a := fun v396 v704 k0_hw77 => k0_hw77
def k0_off104 (k0_t2 : Fin k0_t2_loop.trips) : Fin 2 → Nat :=
  let c102_i32 : BitVec 32 := 102#32
  let v806 : Index := Scalar.indexCast c102_i32
  let c0_i32_360 : BitVec 32 := 0#32
  let c1_i32_362 : BitVec 32 := 1#32
  let arg7 : BitVec 32 := Scf.iv c0_i32_360 c1_i32_362 k0_t2
  let c16_i32_491 : BitVec 32 := 16#32
  let v805 : BitVec 32 := Scalar.muli arg7 c16_i32_491
  let v807 : Index := Scalar.indexCast v805
  ![102, v807.toNat]

def k0_chk78 (v396 : IVec S16 32) (v708 : IVec S16 32) : Prop :=
  (∀ a x, ((![v708, v396] : Fin 2 → IVec S16 32) a x).toNat < S24x128.size a)
instance k0_chk78.dec : ∀ (v396 : IVec S16 32) (v708 : IVec S16 32), Decidable (k0_chk78 v396 v708) := fun v396 v708 => decidable_of_iff' _ (Iff.of_eq (k0_chk78.eq_1 v396 v708))
theorem k0_idx78_inb : ∀ (v396 : IVec S16 32) (v708 : IVec S16 32) (k0_hw78 : k0_chk78 v396 v708), ∀ a x, ((![v708, v396] : Fin 2 → IVec S16 32) a x).toNat < S24x128.size a := fun v396 v708 k0_hw78 => k0_hw78
def k0_off105 (k0_t2 : Fin k0_t2_loop.trips) : Fin 2 → Nat :=
  let c103_i32 : BitVec 32 := 103#32
  let v810 : Index := Scalar.indexCast c103_i32
  let c0_i32_360 : BitVec 32 := 0#32
  let c1_i32_362 : BitVec 32 := 1#32
  let arg7 : BitVec 32 := Scf.iv c0_i32_360 c1_i32_362 k0_t2
  let c16_i32_492 : BitVec 32 := 16#32
  let v809 : BitVec 32 := Scalar.muli arg7 c16_i32_492
  let v811 : Index := Scalar.indexCast v809
  ![103, v811.toNat]

def k0_chk79 (v396 : IVec S16 32) (v712 : IVec S16 32) : Prop :=
  (∀ a x, ((![v712, v396] : Fin 2 → IVec S16 32) a x).toNat < S24x128.size a)
instance k0_chk79.dec : ∀ (v396 : IVec S16 32) (v712 : IVec S16 32), Decidable (k0_chk79 v396 v712) := fun v396 v712 => decidable_of_iff' _ (Iff.of_eq (k0_chk79.eq_1 v396 v712))
theorem k0_idx79_inb : ∀ (v396 : IVec S16 32) (v712 : IVec S16 32) (k0_hw79 : k0_chk79 v396 v712), ∀ a x, ((![v712, v396] : Fin 2 → IVec S16 32) a x).toNat < S24x128.size a := fun v396 v712 k0_hw79 => k0_hw79
def k0_off106 (k0_t2 : Fin k0_t2_loop.trips) : Fin 2 → Nat :=
  let c104_i32 : BitVec 32 := 104#32
  let v814 : Index := Scalar.indexCast c104_i32
  let c0_i32_360 : BitVec 32 := 0#32
  let c1_i32_362 : BitVec 32 := 1#32
  let arg7 : BitVec 32 := Scf.iv c0_i32_360 c1_i32_362 k0_t2
  let c16_i32_493 : BitVec 32 := 16#32
  let v813 : BitVec 32 := Scalar.muli arg7 c16_i32_493
  let v815 : Index := Scalar.indexCast v813
  ![104, v815.toNat]

def k0_chk80 (v396 : IVec S16 32) (v716 : IVec S16 32) : Prop :=
  (∀ a x, ((![v716, v396] : Fin 2 → IVec S16 32) a x).toNat < S24x128.size a)
instance k0_chk80.dec : ∀ (v396 : IVec S16 32) (v716 : IVec S16 32), Decidable (k0_chk80 v396 v716) := fun v396 v716 => decidable_of_iff' _ (Iff.of_eq (k0_chk80.eq_1 v396 v716))
theorem k0_idx80_inb : ∀ (v396 : IVec S16 32) (v716 : IVec S16 32) (k0_hw80 : k0_chk80 v396 v716), ∀ a x, ((![v716, v396] : Fin 2 → IVec S16 32) a x).toNat < S24x128.size a := fun v396 v716 k0_hw80 => k0_hw80
def k0_off107 (k0_t2 : Fin k0_t2_loop.trips) : Fin 2 → Nat :=
  let c105_i32 : BitVec 32 := 105#32
  let v818 : Index := Scalar.indexCast c105_i32
  let c0_i32_360 : BitVec 32 := 0#32
  let c1_i32_362 : BitVec 32 := 1#32
  let arg7 : BitVec 32 := Scf.iv c0_i32_360 c1_i32_362 k0_t2
  let c16_i32_494 : BitVec 32 := 16#32
  let v817 : BitVec 32 := Scalar.muli arg7 c16_i32_494
  let v819 : Index := Scalar.indexCast v817
  ![105, v819.toNat]

def k0_chk81 (v396 : IVec S16 32) (v720 : IVec S16 32) : Prop :=
  (∀ a x, ((![v720, v396] : Fin 2 → IVec S16 32) a x).toNat < S24x128.size a)
instance k0_chk81.dec : ∀ (v396 : IVec S16 32) (v720 : IVec S16 32), Decidable (k0_chk81 v396 v720) := fun v396 v720 => decidable_of_iff' _ (Iff.of_eq (k0_chk81.eq_1 v396 v720))
theorem k0_idx81_inb : ∀ (v396 : IVec S16 32) (v720 : IVec S16 32) (k0_hw81 : k0_chk81 v396 v720), ∀ a x, ((![v720, v396] : Fin 2 → IVec S16 32) a x).toNat < S24x128.size a := fun v396 v720 k0_hw81 => k0_hw81
def k0_off108 (k0_t2 : Fin k0_t2_loop.trips) : Fin 2 → Nat :=
  let c106_i32 : BitVec 32 := 106#32
  let v822 : Index := Scalar.indexCast c106_i32
  let c0_i32_360 : BitVec 32 := 0#32
  let c1_i32_362 : BitVec 32 := 1#32
  let arg7 : BitVec 32 := Scf.iv c0_i32_360 c1_i32_362 k0_t2
  let c16_i32_495 : BitVec 32 := 16#32
  let v821 : BitVec 32 := Scalar.muli arg7 c16_i32_495
  let v823 : Index := Scalar.indexCast v821
  ![106, v823.toNat]

def k0_chk82 (v396 : IVec S16 32) (v724 : IVec S16 32) : Prop :=
  (∀ a x, ((![v724, v396] : Fin 2 → IVec S16 32) a x).toNat < S24x128.size a)
instance k0_chk82.dec : ∀ (v396 : IVec S16 32) (v724 : IVec S16 32), Decidable (k0_chk82 v396 v724) := fun v396 v724 => decidable_of_iff' _ (Iff.of_eq (k0_chk82.eq_1 v396 v724))
theorem k0_idx82_inb : ∀ (v396 : IVec S16 32) (v724 : IVec S16 32) (k0_hw82 : k0_chk82 v396 v724), ∀ a x, ((![v724, v396] : Fin 2 → IVec S16 32) a x).toNat < S24x128.size a := fun v396 v724 k0_hw82 => k0_hw82
def k0_off109 (k0_t2 : Fin k0_t2_loop.trips) : Fin 2 → Nat :=
  let c107_i32 : BitVec 32 := 107#32
  let v826 : Index := Scalar.indexCast c107_i32
  let c0_i32_360 : BitVec 32 := 0#32
  let c1_i32_362 : BitVec 32 := 1#32
  let arg7 : BitVec 32 := Scf.iv c0_i32_360 c1_i32_362 k0_t2
  let c16_i32_496 : BitVec 32 := 16#32
  let v825 : BitVec 32 := Scalar.muli arg7 c16_i32_496
  let v827 : Index := Scalar.indexCast v825
  ![107, v827.toNat]

def k0_chk83 (v396 : IVec S16 32) (v728 : IVec S16 32) : Prop :=
  (∀ a x, ((![v728, v396] : Fin 2 → IVec S16 32) a x).toNat < S24x128.size a)
instance k0_chk83.dec : ∀ (v396 : IVec S16 32) (v728 : IVec S16 32), Decidable (k0_chk83 v396 v728) := fun v396 v728 => decidable_of_iff' _ (Iff.of_eq (k0_chk83.eq_1 v396 v728))
theorem k0_idx83_inb : ∀ (v396 : IVec S16 32) (v728 : IVec S16 32) (k0_hw83 : k0_chk83 v396 v728), ∀ a x, ((![v728, v396] : Fin 2 → IVec S16 32) a x).toNat < S24x128.size a := fun v396 v728 k0_hw83 => k0_hw83
def k0_off110 (k0_t2 : Fin k0_t2_loop.trips) : Fin 2 → Nat :=
  let c108_i32 : BitVec 32 := 108#32
  let v830 : Index := Scalar.indexCast c108_i32
  let c0_i32_360 : BitVec 32 := 0#32
  let c1_i32_362 : BitVec 32 := 1#32
  let arg7 : BitVec 32 := Scf.iv c0_i32_360 c1_i32_362 k0_t2
  let c16_i32_497 : BitVec 32 := 16#32
  let v829 : BitVec 32 := Scalar.muli arg7 c16_i32_497
  let v831 : Index := Scalar.indexCast v829
  ![108, v831.toNat]

def k0_chk84 (v396 : IVec S16 32) (v732 : IVec S16 32) : Prop :=
  (∀ a x, ((![v732, v396] : Fin 2 → IVec S16 32) a x).toNat < S24x128.size a)
instance k0_chk84.dec : ∀ (v396 : IVec S16 32) (v732 : IVec S16 32), Decidable (k0_chk84 v396 v732) := fun v396 v732 => decidable_of_iff' _ (Iff.of_eq (k0_chk84.eq_1 v396 v732))
theorem k0_idx84_inb : ∀ (v396 : IVec S16 32) (v732 : IVec S16 32) (k0_hw84 : k0_chk84 v396 v732), ∀ a x, ((![v732, v396] : Fin 2 → IVec S16 32) a x).toNat < S24x128.size a := fun v396 v732 k0_hw84 => k0_hw84
def k0_off111 (k0_t2 : Fin k0_t2_loop.trips) : Fin 2 → Nat :=
  let c109_i32 : BitVec 32 := 109#32
  let v834 : Index := Scalar.indexCast c109_i32
  let c0_i32_360 : BitVec 32 := 0#32
  let c1_i32_362 : BitVec 32 := 1#32
  let arg7 : BitVec 32 := Scf.iv c0_i32_360 c1_i32_362 k0_t2
  let c16_i32_498 : BitVec 32 := 16#32
  let v833 : BitVec 32 := Scalar.muli arg7 c16_i32_498
  let v835 : Index := Scalar.indexCast v833
  ![109, v835.toNat]

def k0_chk85 (v396 : IVec S16 32) (v736 : IVec S16 32) : Prop :=
  (∀ a x, ((![v736, v396] : Fin 2 → IVec S16 32) a x).toNat < S24x128.size a)
instance k0_chk85.dec : ∀ (v396 : IVec S16 32) (v736 : IVec S16 32), Decidable (k0_chk85 v396 v736) := fun v396 v736 => decidable_of_iff' _ (Iff.of_eq (k0_chk85.eq_1 v396 v736))
theorem k0_idx85_inb : ∀ (v396 : IVec S16 32) (v736 : IVec S16 32) (k0_hw85 : k0_chk85 v396 v736), ∀ a x, ((![v736, v396] : Fin 2 → IVec S16 32) a x).toNat < S24x128.size a := fun v396 v736 k0_hw85 => k0_hw85
def k0_off112 (k0_t2 : Fin k0_t2_loop.trips) : Fin 2 → Nat :=
  let c110_i32 : BitVec 32 := 110#32
  let v838 : Index := Scalar.indexCast c110_i32
  let c0_i32_360 : BitVec 32 := 0#32
  let c1_i32_362 : BitVec 32 := 1#32
  let arg7 : BitVec 32 := Scf.iv c0_i32_360 c1_i32_362 k0_t2
  let c16_i32_499 : BitVec 32 := 16#32
  let v837 : BitVec 32 := Scalar.muli arg7 c16_i32_499
  let v839 : Index := Scalar.indexCast v837
  ![110, v839.toNat]

def k0_chk86 (v396 : IVec S16 32) (v740 : IVec S16 32) : Prop :=
  (∀ a x, ((![v740, v396] : Fin 2 → IVec S16 32) a x).toNat < S24x128.size a)
instance k0_chk86.dec : ∀ (v396 : IVec S16 32) (v740 : IVec S16 32), Decidable (k0_chk86 v396 v740) := fun v396 v740 => decidable_of_iff' _ (Iff.of_eq (k0_chk86.eq_1 v396 v740))
theorem k0_idx86_inb : ∀ (v396 : IVec S16 32) (v740 : IVec S16 32) (k0_hw86 : k0_chk86 v396 v740), ∀ a x, ((![v740, v396] : Fin 2 → IVec S16 32) a x).toNat < S24x128.size a := fun v396 v740 k0_hw86 => k0_hw86
def k0_off113 (k0_t2 : Fin k0_t2_loop.trips) : Fin 2 → Nat :=
  let c111_i32 : BitVec 32 := 111#32
  let v842 : Index := Scalar.indexCast c111_i32
  let c0_i32_360 : BitVec 32 := 0#32
  let c1_i32_362 : BitVec 32 := 1#32
  let arg7 : BitVec 32 := Scf.iv c0_i32_360 c1_i32_362 k0_t2
  let c16_i32_500 : BitVec 32 := 16#32
  let v841 : BitVec 32 := Scalar.muli arg7 c16_i32_500
  let v843 : Index := Scalar.indexCast v841
  ![111, v843.toNat]

def k0_chk87 (v396 : IVec S16 32) (v744 : IVec S16 32) : Prop :=
  (∀ a x, ((![v744, v396] : Fin 2 → IVec S16 32) a x).toNat < S24x128.size a)
instance k0_chk87.dec : ∀ (v396 : IVec S16 32) (v744 : IVec S16 32), Decidable (k0_chk87 v396 v744) := fun v396 v744 => decidable_of_iff' _ (Iff.of_eq (k0_chk87.eq_1 v396 v744))
theorem k0_idx87_inb : ∀ (v396 : IVec S16 32) (v744 : IVec S16 32) (k0_hw87 : k0_chk87 v396 v744), ∀ a x, ((![v744, v396] : Fin 2 → IVec S16 32) a x).toNat < S24x128.size a := fun v396 v744 k0_hw87 => k0_hw87
def k0_off114 (k0_t2 : Fin k0_t2_loop.trips) : Fin 2 → Nat :=
  let c112_i32 : BitVec 32 := 112#32
  let v846 : Index := Scalar.indexCast c112_i32
  let c0_i32_360 : BitVec 32 := 0#32
  let c1_i32_362 : BitVec 32 := 1#32
  let arg7 : BitVec 32 := Scf.iv c0_i32_360 c1_i32_362 k0_t2
  let c16_i32_501 : BitVec 32 := 16#32
  let v845 : BitVec 32 := Scalar.muli arg7 c16_i32_501
  let v847 : Index := Scalar.indexCast v845
  ![112, v847.toNat]

def k0_chk88 (v396 : IVec S16 32) (v748 : IVec S16 32) : Prop :=
  (∀ a x, ((![v748, v396] : Fin 2 → IVec S16 32) a x).toNat < S24x128.size a)
instance k0_chk88.dec : ∀ (v396 : IVec S16 32) (v748 : IVec S16 32), Decidable (k0_chk88 v396 v748) := fun v396 v748 => decidable_of_iff' _ (Iff.of_eq (k0_chk88.eq_1 v396 v748))
theorem k0_idx88_inb : ∀ (v396 : IVec S16 32) (v748 : IVec S16 32) (k0_hw88 : k0_chk88 v396 v748), ∀ a x, ((![v748, v396] : Fin 2 → IVec S16 32) a x).toNat < S24x128.size a := fun v396 v748 k0_hw88 => k0_hw88
def k0_off115 (k0_t2 : Fin k0_t2_loop.trips) : Fin 2 → Nat :=
  let c113_i32 : BitVec 32 := 113#32
  let v850 : Index := Scalar.indexCast c113_i32
  let c0_i32_360 : BitVec 32 := 0#32
  let c1_i32_362 : BitVec 32 := 1#32
  let arg7 : BitVec 32 := Scf.iv c0_i32_360 c1_i32_362 k0_t2
  let c16_i32_502 : BitVec 32 := 16#32
  let v849 : BitVec 32 := Scalar.muli arg7 c16_i32_502
  let v851 : Index := Scalar.indexCast v849
  ![113, v851.toNat]

def k0_chk89 (v396 : IVec S16 32) (v752 : IVec S16 32) : Prop :=
  (∀ a x, ((![v752, v396] : Fin 2 → IVec S16 32) a x).toNat < S24x128.size a)
instance k0_chk89.dec : ∀ (v396 : IVec S16 32) (v752 : IVec S16 32), Decidable (k0_chk89 v396 v752) := fun v396 v752 => decidable_of_iff' _ (Iff.of_eq (k0_chk89.eq_1 v396 v752))
theorem k0_idx89_inb : ∀ (v396 : IVec S16 32) (v752 : IVec S16 32) (k0_hw89 : k0_chk89 v396 v752), ∀ a x, ((![v752, v396] : Fin 2 → IVec S16 32) a x).toNat < S24x128.size a := fun v396 v752 k0_hw89 => k0_hw89
def k0_off116 (k0_t2 : Fin k0_t2_loop.trips) : Fin 2 → Nat :=
  let c114_i32 : BitVec 32 := 114#32
  let v854 : Index := Scalar.indexCast c114_i32
  let c0_i32_360 : BitVec 32 := 0#32
  let c1_i32_362 : BitVec 32 := 1#32
  let arg7 : BitVec 32 := Scf.iv c0_i32_360 c1_i32_362 k0_t2
  let c16_i32_503 : BitVec 32 := 16#32
  let v853 : BitVec 32 := Scalar.muli arg7 c16_i32_503
  let v855 : Index := Scalar.indexCast v853
  ![114, v855.toNat]

def k0_chk90 (v396 : IVec S16 32) (v756 : IVec S16 32) : Prop :=
  (∀ a x, ((![v756, v396] : Fin 2 → IVec S16 32) a x).toNat < S24x128.size a)
instance k0_chk90.dec : ∀ (v396 : IVec S16 32) (v756 : IVec S16 32), Decidable (k0_chk90 v396 v756) := fun v396 v756 => decidable_of_iff' _ (Iff.of_eq (k0_chk90.eq_1 v396 v756))
theorem k0_idx90_inb : ∀ (v396 : IVec S16 32) (v756 : IVec S16 32) (k0_hw90 : k0_chk90 v396 v756), ∀ a x, ((![v756, v396] : Fin 2 → IVec S16 32) a x).toNat < S24x128.size a := fun v396 v756 k0_hw90 => k0_hw90
def k0_off117 (k0_t2 : Fin k0_t2_loop.trips) : Fin 2 → Nat :=
  let c115_i32 : BitVec 32 := 115#32
  let v858 : Index := Scalar.indexCast c115_i32
  let c0_i32_360 : BitVec 32 := 0#32
  let c1_i32_362 : BitVec 32 := 1#32
  let arg7 : BitVec 32 := Scf.iv c0_i32_360 c1_i32_362 k0_t2
  let c16_i32_504 : BitVec 32 := 16#32
  let v857 : BitVec 32 := Scalar.muli arg7 c16_i32_504
  let v859 : Index := Scalar.indexCast v857
  ![115, v859.toNat]

def k0_chk91 (v396 : IVec S16 32) (v760 : IVec S16 32) : Prop :=
  (∀ a x, ((![v760, v396] : Fin 2 → IVec S16 32) a x).toNat < S24x128.size a)
instance k0_chk91.dec : ∀ (v396 : IVec S16 32) (v760 : IVec S16 32), Decidable (k0_chk91 v396 v760) := fun v396 v760 => decidable_of_iff' _ (Iff.of_eq (k0_chk91.eq_1 v396 v760))
theorem k0_idx91_inb : ∀ (v396 : IVec S16 32) (v760 : IVec S16 32) (k0_hw91 : k0_chk91 v396 v760), ∀ a x, ((![v760, v396] : Fin 2 → IVec S16 32) a x).toNat < S24x128.size a := fun v396 v760 k0_hw91 => k0_hw91
def k0_off118 (k0_t2 : Fin k0_t2_loop.trips) : Fin 2 → Nat :=
  let c116_i32 : BitVec 32 := 116#32
  let v862 : Index := Scalar.indexCast c116_i32
  let c0_i32_360 : BitVec 32 := 0#32
  let c1_i32_362 : BitVec 32 := 1#32
  let arg7 : BitVec 32 := Scf.iv c0_i32_360 c1_i32_362 k0_t2
  let c16_i32_505 : BitVec 32 := 16#32
  let v861 : BitVec 32 := Scalar.muli arg7 c16_i32_505
  let v863 : Index := Scalar.indexCast v861
  ![116, v863.toNat]

def k0_chk92 (v396 : IVec S16 32) (v764 : IVec S16 32) : Prop :=
  (∀ a x, ((![v764, v396] : Fin 2 → IVec S16 32) a x).toNat < S24x128.size a)
instance k0_chk92.dec : ∀ (v396 : IVec S16 32) (v764 : IVec S16 32), Decidable (k0_chk92 v396 v764) := fun v396 v764 => decidable_of_iff' _ (Iff.of_eq (k0_chk92.eq_1 v396 v764))
theorem k0_idx92_inb : ∀ (v396 : IVec S16 32) (v764 : IVec S16 32) (k0_hw92 : k0_chk92 v396 v764), ∀ a x, ((![v764, v396] : Fin 2 → IVec S16 32) a x).toNat < S24x128.size a := fun v396 v764 k0_hw92 => k0_hw92
def k0_off119 (k0_t2 : Fin k0_t2_loop.trips) : Fin 2 → Nat :=
  let c117_i32 : BitVec 32 := 117#32
  let v866 : Index := Scalar.indexCast c117_i32
  let c0_i32_360 : BitVec 32 := 0#32
  let c1_i32_362 : BitVec 32 := 1#32
  let arg7 : BitVec 32 := Scf.iv c0_i32_360 c1_i32_362 k0_t2
  let c16_i32_506 : BitVec 32 := 16#32
  let v865 : BitVec 32 := Scalar.muli arg7 c16_i32_506
  let v867 : Index := Scalar.indexCast v865
  ![117, v867.toNat]

def k0_chk93 (v396 : IVec S16 32) (v768 : IVec S16 32) : Prop :=
  (∀ a x, ((![v768, v396] : Fin 2 → IVec S16 32) a x).toNat < S24x128.size a)
instance k0_chk93.dec : ∀ (v396 : IVec S16 32) (v768 : IVec S16 32), Decidable (k0_chk93 v396 v768) := fun v396 v768 => decidable_of_iff' _ (Iff.of_eq (k0_chk93.eq_1 v396 v768))
theorem k0_idx93_inb : ∀ (v396 : IVec S16 32) (v768 : IVec S16 32) (k0_hw93 : k0_chk93 v396 v768), ∀ a x, ((![v768, v396] : Fin 2 → IVec S16 32) a x).toNat < S24x128.size a := fun v396 v768 k0_hw93 => k0_hw93
def k0_off120 (k0_t2 : Fin k0_t2_loop.trips) : Fin 2 → Nat :=
  let c118_i32 : BitVec 32 := 118#32
  let v870 : Index := Scalar.indexCast c118_i32
  let c0_i32_360 : BitVec 32 := 0#32
  let c1_i32_362 : BitVec 32 := 1#32
  let arg7 : BitVec 32 := Scf.iv c0_i32_360 c1_i32_362 k0_t2
  let c16_i32_507 : BitVec 32 := 16#32
  let v869 : BitVec 32 := Scalar.muli arg7 c16_i32_507
  let v871 : Index := Scalar.indexCast v869
  ![118, v871.toNat]

def k0_chk94 (v396 : IVec S16 32) (v772 : IVec S16 32) : Prop :=
  (∀ a x, ((![v772, v396] : Fin 2 → IVec S16 32) a x).toNat < S24x128.size a)
instance k0_chk94.dec : ∀ (v396 : IVec S16 32) (v772 : IVec S16 32), Decidable (k0_chk94 v396 v772) := fun v396 v772 => decidable_of_iff' _ (Iff.of_eq (k0_chk94.eq_1 v396 v772))
theorem k0_idx94_inb : ∀ (v396 : IVec S16 32) (v772 : IVec S16 32) (k0_hw94 : k0_chk94 v396 v772), ∀ a x, ((![v772, v396] : Fin 2 → IVec S16 32) a x).toNat < S24x128.size a := fun v396 v772 k0_hw94 => k0_hw94
def k0_off121 (k0_t2 : Fin k0_t2_loop.trips) : Fin 2 → Nat :=
  let c119_i32 : BitVec 32 := 119#32
  let v874 : Index := Scalar.indexCast c119_i32
  let c0_i32_360 : BitVec 32 := 0#32
  let c1_i32_362 : BitVec 32 := 1#32
  let arg7 : BitVec 32 := Scf.iv c0_i32_360 c1_i32_362 k0_t2
  let c16_i32_508 : BitVec 32 := 16#32
  let v873 : BitVec 32 := Scalar.muli arg7 c16_i32_508
  let v875 : Index := Scalar.indexCast v873
  ![119, v875.toNat]

def k0_chk95 (v396 : IVec S16 32) (v776 : IVec S16 32) : Prop :=
  (∀ a x, ((![v776, v396] : Fin 2 → IVec S16 32) a x).toNat < S24x128.size a)
instance k0_chk95.dec : ∀ (v396 : IVec S16 32) (v776 : IVec S16 32), Decidable (k0_chk95 v396 v776) := fun v396 v776 => decidable_of_iff' _ (Iff.of_eq (k0_chk95.eq_1 v396 v776))
theorem k0_idx95_inb : ∀ (v396 : IVec S16 32) (v776 : IVec S16 32) (k0_hw95 : k0_chk95 v396 v776), ∀ a x, ((![v776, v396] : Fin 2 → IVec S16 32) a x).toNat < S24x128.size a := fun v396 v776 k0_hw95 => k0_hw95
def k0_off122 (k0_t2 : Fin k0_t2_loop.trips) : Fin 2 → Nat :=
  let c120_i32 : BitVec 32 := 120#32
  let v878 : Index := Scalar.indexCast c120_i32
  let c0_i32_360 : BitVec 32 := 0#32
  let c1_i32_362 : BitVec 32 := 1#32
  let arg7 : BitVec 32 := Scf.iv c0_i32_360 c1_i32_362 k0_t2
  let c16_i32_509 : BitVec 32 := 16#32
  let v877 : BitVec 32 := Scalar.muli arg7 c16_i32_509
  let v879 : Index := Scalar.indexCast v877
  ![120, v879.toNat]

def k0_chk96 (v396 : IVec S16 32) (v780 : IVec S16 32) : Prop :=
  (∀ a x, ((![v780, v396] : Fin 2 → IVec S16 32) a x).toNat < S24x128.size a)
instance k0_chk96.dec : ∀ (v396 : IVec S16 32) (v780 : IVec S16 32), Decidable (k0_chk96 v396 v780) := fun v396 v780 => decidable_of_iff' _ (Iff.of_eq (k0_chk96.eq_1 v396 v780))
theorem k0_idx96_inb : ∀ (v396 : IVec S16 32) (v780 : IVec S16 32) (k0_hw96 : k0_chk96 v396 v780), ∀ a x, ((![v780, v396] : Fin 2 → IVec S16 32) a x).toNat < S24x128.size a := fun v396 v780 k0_hw96 => k0_hw96
def k0_off123 (k0_t2 : Fin k0_t2_loop.trips) : Fin 2 → Nat :=
  let c121_i32 : BitVec 32 := 121#32
  let v882 : Index := Scalar.indexCast c121_i32
  let c0_i32_360 : BitVec 32 := 0#32
  let c1_i32_362 : BitVec 32 := 1#32
  let arg7 : BitVec 32 := Scf.iv c0_i32_360 c1_i32_362 k0_t2
  let c16_i32_510 : BitVec 32 := 16#32
  let v881 : BitVec 32 := Scalar.muli arg7 c16_i32_510
  let v883 : Index := Scalar.indexCast v881
  ![121, v883.toNat]

def k0_chk97 (v396 : IVec S16 32) (v784 : IVec S16 32) : Prop :=
  (∀ a x, ((![v784, v396] : Fin 2 → IVec S16 32) a x).toNat < S24x128.size a)
instance k0_chk97.dec : ∀ (v396 : IVec S16 32) (v784 : IVec S16 32), Decidable (k0_chk97 v396 v784) := fun v396 v784 => decidable_of_iff' _ (Iff.of_eq (k0_chk97.eq_1 v396 v784))
theorem k0_idx97_inb : ∀ (v396 : IVec S16 32) (v784 : IVec S16 32) (k0_hw97 : k0_chk97 v396 v784), ∀ a x, ((![v784, v396] : Fin 2 → IVec S16 32) a x).toNat < S24x128.size a := fun v396 v784 k0_hw97 => k0_hw97
def k0_off124 (k0_t2 : Fin k0_t2_loop.trips) : Fin 2 → Nat :=
  let c122_i32 : BitVec 32 := 122#32
  let v886 : Index := Scalar.indexCast c122_i32
  let c0_i32_360 : BitVec 32 := 0#32
  let c1_i32_362 : BitVec 32 := 1#32
  let arg7 : BitVec 32 := Scf.iv c0_i32_360 c1_i32_362 k0_t2
  let c16_i32_511 : BitVec 32 := 16#32
  let v885 : BitVec 32 := Scalar.muli arg7 c16_i32_511
  let v887 : Index := Scalar.indexCast v885
  ![122, v887.toNat]

def k0_chk98 (v396 : IVec S16 32) (v788 : IVec S16 32) : Prop :=
  (∀ a x, ((![v788, v396] : Fin 2 → IVec S16 32) a x).toNat < S24x128.size a)
instance k0_chk98.dec : ∀ (v396 : IVec S16 32) (v788 : IVec S16 32), Decidable (k0_chk98 v396 v788) := fun v396 v788 => decidable_of_iff' _ (Iff.of_eq (k0_chk98.eq_1 v396 v788))
theorem k0_idx98_inb : ∀ (v396 : IVec S16 32) (v788 : IVec S16 32) (k0_hw98 : k0_chk98 v396 v788), ∀ a x, ((![v788, v396] : Fin 2 → IVec S16 32) a x).toNat < S24x128.size a := fun v396 v788 k0_hw98 => k0_hw98
def k0_off125 (k0_t2 : Fin k0_t2_loop.trips) : Fin 2 → Nat :=
  let c123_i32 : BitVec 32 := 123#32
  let v890 : Index := Scalar.indexCast c123_i32
  let c0_i32_360 : BitVec 32 := 0#32
  let c1_i32_362 : BitVec 32 := 1#32
  let arg7 : BitVec 32 := Scf.iv c0_i32_360 c1_i32_362 k0_t2
  let c16_i32_512 : BitVec 32 := 16#32
  let v889 : BitVec 32 := Scalar.muli arg7 c16_i32_512
  let v891 : Index := Scalar.indexCast v889
  ![123, v891.toNat]

def k0_chk99 (v396 : IVec S16 32) (v792 : IVec S16 32) : Prop :=
  (∀ a x, ((![v792, v396] : Fin 2 → IVec S16 32) a x).toNat < S24x128.size a)
instance k0_chk99.dec : ∀ (v396 : IVec S16 32) (v792 : IVec S16 32), Decidable (k0_chk99 v396 v792) := fun v396 v792 => decidable_of_iff' _ (Iff.of_eq (k0_chk99.eq_1 v396 v792))
theorem k0_idx99_inb : ∀ (v396 : IVec S16 32) (v792 : IVec S16 32) (k0_hw99 : k0_chk99 v396 v792), ∀ a x, ((![v792, v396] : Fin 2 → IVec S16 32) a x).toNat < S24x128.size a := fun v396 v792 k0_hw99 => k0_hw99
def k0_off126 (k0_t2 : Fin k0_t2_loop.trips) : Fin 2 → Nat :=
  let c124_i32 : BitVec 32 := 124#32
  let v894 : Index := Scalar.indexCast c124_i32
  let c0_i32_360 : BitVec 32 := 0#32
  let c1_i32_362 : BitVec 32 := 1#32
  let arg7 : BitVec 32 := Scf.iv c0_i32_360 c1_i32_362 k0_t2
  let c16_i32_513 : BitVec 32 := 16#32
  let v893 : BitVec 32 := Scalar.muli arg7 c16_i32_513
  let v895 : Index := Scalar.indexCast v893
  ![124, v895.toNat]

def k0_chk100 (v396 : IVec S16 32) (v796 : IVec S16 32) : Prop :=
  (∀ a x, ((![v796, v396] : Fin 2 → IVec S16 32) a x).toNat < S24x128.size a)
instance k0_chk100.dec : ∀ (v396 : IVec S16 32) (v796 : IVec S16 32), Decidable (k0_chk100 v396 v796) := fun v396 v796 => decidable_of_iff' _ (Iff.of_eq (k0_chk100.eq_1 v396 v796))
theorem k0_idx100_inb : ∀ (v396 : IVec S16 32) (v796 : IVec S16 32) (k0_hw100 : k0_chk100 v396 v796), ∀ a x, ((![v796, v396] : Fin 2 → IVec S16 32) a x).toNat < S24x128.size a := fun v396 v796 k0_hw100 => k0_hw100
def k0_off127 (k0_t2 : Fin k0_t2_loop.trips) : Fin 2 → Nat :=
  let c125_i32 : BitVec 32 := 125#32
  let v898 : Index := Scalar.indexCast c125_i32
  let c0_i32_360 : BitVec 32 := 0#32
  let c1_i32_362 : BitVec 32 := 1#32
  let arg7 : BitVec 32 := Scf.iv c0_i32_360 c1_i32_362 k0_t2
  let c16_i32_514 : BitVec 32 := 16#32
  let v897 : BitVec 32 := Scalar.muli arg7 c16_i32_514
  let v899 : Index := Scalar.indexCast v897
  ![125, v899.toNat]

def k0_chk101 (v396 : IVec S16 32) (v800 : IVec S16 32) : Prop :=
  (∀ a x, ((![v800, v396] : Fin 2 → IVec S16 32) a x).toNat < S24x128.size a)
instance k0_chk101.dec : ∀ (v396 : IVec S16 32) (v800 : IVec S16 32), Decidable (k0_chk101 v396 v800) := fun v396 v800 => decidable_of_iff' _ (Iff.of_eq (k0_chk101.eq_1 v396 v800))
theorem k0_idx101_inb : ∀ (v396 : IVec S16 32) (v800 : IVec S16 32) (k0_hw101 : k0_chk101 v396 v800), ∀ a x, ((![v800, v396] : Fin 2 → IVec S16 32) a x).toNat < S24x128.size a := fun v396 v800 k0_hw101 => k0_hw101
def k0_off128 (k0_t2 : Fin k0_t2_loop.trips) : Fin 2 → Nat :=
  let c126_i32 : BitVec 32 := 126#32
  let v902 : Index := Scalar.indexCast c126_i32
  let c0_i32_360 : BitVec 32 := 0#32
  let c1_i32_362 : BitVec 32 := 1#32
  let arg7 : BitVec 32 := Scf.iv c0_i32_360 c1_i32_362 k0_t2
  let c16_i32_515 : BitVec 32 := 16#32
  let v901 : BitVec 32 := Scalar.muli arg7 c16_i32_515
  let v903 : Index := Scalar.indexCast v901
  ![126, v903.toNat]

def k0_chk102 (v396 : IVec S16 32) (v804 : IVec S16 32) : Prop :=
  (∀ a x, ((![v804, v396] : Fin 2 → IVec S16 32) a x).toNat < S24x128.size a)
instance k0_chk102.dec : ∀ (v396 : IVec S16 32) (v804 : IVec S16 32), Decidable (k0_chk102 v396 v804) := fun v396 v804 => decidable_of_iff' _ (Iff.of_eq (k0_chk102.eq_1 v396 v804))
theorem k0_idx102_inb : ∀ (v396 : IVec S16 32) (v804 : IVec S16 32) (k0_hw102 : k0_chk102 v396 v804), ∀ a x, ((![v804, v396] : Fin 2 → IVec S16 32) a x).toNat < S24x128.size a := fun v396 v804 k0_hw102 => k0_hw102
def k0_off129 (k0_t2 : Fin k0_t2_loop.trips) : Fin 2 → Nat :=
  let c127_i32 : BitVec 32 := 127#32
  let v906 : Index := Scalar.indexCast c127_i32
  let c0_i32_360 : BitVec 32 := 0#32
  let c1_i32_362 : BitVec 32 := 1#32
  let arg7 : BitVec 32 := Scf.iv c0_i32_360 c1_i32_362 k0_t2
  let c16_i32_516 : BitVec 32 := 16#32
  let v905 : BitVec 32 := Scalar.muli arg7 c16_i32_516
  let v907 : Index := Scalar.indexCast v905
  ![127, v907.toNat]

def k0_chk103 (v396 : IVec S16 32) (v808 : IVec S16 32) : Prop :=
  (∀ a x, ((![v808, v396] : Fin 2 → IVec S16 32) a x).toNat < S24x128.size a)
instance k0_chk103.dec : ∀ (v396 : IVec S16 32) (v808 : IVec S16 32), Decidable (k0_chk103 v396 v808) := fun v396 v808 => decidable_of_iff' _ (Iff.of_eq (k0_chk103.eq_1 v396 v808))
theorem k0_idx103_inb : ∀ (v396 : IVec S16 32) (v808 : IVec S16 32) (k0_hw103 : k0_chk103 v396 v808), ∀ a x, ((![v808, v396] : Fin 2 → IVec S16 32) a x).toNat < S24x128.size a := fun v396 v808 k0_hw103 => k0_hw103
def k0_off130 (k0_t2 : Fin k0_t2_loop.trips) : Fin 2 → Nat :=
  let c128_i32_518 : BitVec 32 := 128#32
  let v910 : Index := Scalar.indexCast c128_i32_518
  let c0_i32_360 : BitVec 32 := 0#32
  let c1_i32_362 : BitVec 32 := 1#32
  let arg7 : BitVec 32 := Scf.iv c0_i32_360 c1_i32_362 k0_t2
  let c16_i32_517 : BitVec 32 := 16#32
  let v909 : BitVec 32 := Scalar.muli arg7 c16_i32_517
  let v911 : Index := Scalar.indexCast v909
  ![128, v911.toNat]

def k0_chk104 (v396 : IVec S16 32) (v812 : IVec S16 32) : Prop :=
  (∀ a x, ((![v812, v396] : Fin 2 → IVec S16 32) a x).toNat < S24x128.size a)
instance k0_chk104.dec : ∀ (v396 : IVec S16 32) (v812 : IVec S16 32), Decidable (k0_chk104 v396 v812) := fun v396 v812 => decidable_of_iff' _ (Iff.of_eq (k0_chk104.eq_1 v396 v812))
theorem k0_idx104_inb : ∀ (v396 : IVec S16 32) (v812 : IVec S16 32) (k0_hw104 : k0_chk104 v396 v812), ∀ a x, ((![v812, v396] : Fin 2 → IVec S16 32) a x).toNat < S24x128.size a := fun v396 v812 k0_hw104 => k0_hw104
def k0_off131 (k0_t2 : Fin k0_t2_loop.trips) : Fin 2 → Nat :=
  let c129_i32 : BitVec 32 := 129#32
  let v914 : Index := Scalar.indexCast c129_i32
  let c0_i32_360 : BitVec 32 := 0#32
  let c1_i32_362 : BitVec 32 := 1#32
  let arg7 : BitVec 32 := Scf.iv c0_i32_360 c1_i32_362 k0_t2
  let c16_i32_519 : BitVec 32 := 16#32
  let v913 : BitVec 32 := Scalar.muli arg7 c16_i32_519
  let v915 : Index := Scalar.indexCast v913
  ![129, v915.toNat]

def k0_chk105 (v396 : IVec S16 32) (v816 : IVec S16 32) : Prop :=
  (∀ a x, ((![v816, v396] : Fin 2 → IVec S16 32) a x).toNat < S24x128.size a)
instance k0_chk105.dec : ∀ (v396 : IVec S16 32) (v816 : IVec S16 32), Decidable (k0_chk105 v396 v816) := fun v396 v816 => decidable_of_iff' _ (Iff.of_eq (k0_chk105.eq_1 v396 v816))
theorem k0_idx105_inb : ∀ (v396 : IVec S16 32) (v816 : IVec S16 32) (k0_hw105 : k0_chk105 v396 v816), ∀ a x, ((![v816, v396] : Fin 2 → IVec S16 32) a x).toNat < S24x128.size a := fun v396 v816 k0_hw105 => k0_hw105
def k0_off132 (k0_t2 : Fin k0_t2_loop.trips) : Fin 2 → Nat :=
  let c130_i32 : BitVec 32 := 130#32
  let v918 : Index := Scalar.indexCast c130_i32
  let c0_i32_360 : BitVec 32 := 0#32
  let c1_i32_362 : BitVec 32 := 1#32
  let arg7 : BitVec 32 := Scf.iv c0_i32_360 c1_i32_362 k0_t2
  let c16_i32_520 : BitVec 32 := 16#32
  let v917 : BitVec 32 := Scalar.muli arg7 c16_i32_520
  let v919 : Index := Scalar.indexCast v917
  ![130, v919.toNat]

def k0_chk106 (v396 : IVec S16 32) (v820 : IVec S16 32) : Prop :=
  (∀ a x, ((![v820, v396] : Fin 2 → IVec S16 32) a x).toNat < S24x128.size a)
instance k0_chk106.dec : ∀ (v396 : IVec S16 32) (v820 : IVec S16 32), Decidable (k0_chk106 v396 v820) := fun v396 v820 => decidable_of_iff' _ (Iff.of_eq (k0_chk106.eq_1 v396 v820))
theorem k0_idx106_inb : ∀ (v396 : IVec S16 32) (v820 : IVec S16 32) (k0_hw106 : k0_chk106 v396 v820), ∀ a x, ((![v820, v396] : Fin 2 → IVec S16 32) a x).toNat < S24x128.size a := fun v396 v820 k0_hw106 => k0_hw106
def k0_off133 (k0_t2 : Fin k0_t2_loop.trips) : Fin 2 → Nat :=
  let c131_i32 : BitVec 32 := 131#32
  let v922 : Index := Scalar.indexCast c131_i32
  let c0_i32_360 : BitVec 32 := 0#32
  let c1_i32_362 : BitVec 32 := 1#32
  let arg7 : BitVec 32 := Scf.iv c0_i32_360 c1_i32_362 k0_t2
  let c16_i32_521 : BitVec 32 := 16#32
  let v921 : BitVec 32 := Scalar.muli arg7 c16_i32_521
  let v923 : Index := Scalar.indexCast v921
  ![131, v923.toNat]

def k0_chk107 (v396 : IVec S16 32) (v824 : IVec S16 32) : Prop :=
  (∀ a x, ((![v824, v396] : Fin 2 → IVec S16 32) a x).toNat < S24x128.size a)
instance k0_chk107.dec : ∀ (v396 : IVec S16 32) (v824 : IVec S16 32), Decidable (k0_chk107 v396 v824) := fun v396 v824 => decidable_of_iff' _ (Iff.of_eq (k0_chk107.eq_1 v396 v824))
theorem k0_idx107_inb : ∀ (v396 : IVec S16 32) (v824 : IVec S16 32) (k0_hw107 : k0_chk107 v396 v824), ∀ a x, ((![v824, v396] : Fin 2 → IVec S16 32) a x).toNat < S24x128.size a := fun v396 v824 k0_hw107 => k0_hw107
def k0_off134 (k0_t2 : Fin k0_t2_loop.trips) : Fin 2 → Nat :=
  let c132_i32 : BitVec 32 := 132#32
  let v926 : Index := Scalar.indexCast c132_i32
  let c0_i32_360 : BitVec 32 := 0#32
  let c1_i32_362 : BitVec 32 := 1#32
  let arg7 : BitVec 32 := Scf.iv c0_i32_360 c1_i32_362 k0_t2
  let c16_i32_522 : BitVec 32 := 16#32
  let v925 : BitVec 32 := Scalar.muli arg7 c16_i32_522
  let v927 : Index := Scalar.indexCast v925
  ![132, v927.toNat]

def k0_chk108 (v396 : IVec S16 32) (v828 : IVec S16 32) : Prop :=
  (∀ a x, ((![v828, v396] : Fin 2 → IVec S16 32) a x).toNat < S24x128.size a)
instance k0_chk108.dec : ∀ (v396 : IVec S16 32) (v828 : IVec S16 32), Decidable (k0_chk108 v396 v828) := fun v396 v828 => decidable_of_iff' _ (Iff.of_eq (k0_chk108.eq_1 v396 v828))
theorem k0_idx108_inb : ∀ (v396 : IVec S16 32) (v828 : IVec S16 32) (k0_hw108 : k0_chk108 v396 v828), ∀ a x, ((![v828, v396] : Fin 2 → IVec S16 32) a x).toNat < S24x128.size a := fun v396 v828 k0_hw108 => k0_hw108
def k0_off135 (k0_t2 : Fin k0_t2_loop.trips) : Fin 2 → Nat :=
  let c133_i32 : BitVec 32 := 133#32
  let v930 : Index := Scalar.indexCast c133_i32
  let c0_i32_360 : BitVec 32 := 0#32
  let c1_i32_362 : BitVec 32 := 1#32
  let arg7 : BitVec 32 := Scf.iv c0_i32_360 c1_i32_362 k0_t2
  let c16_i32_523 : BitVec 32 := 16#32
  let v929 : BitVec 32 := Scalar.muli arg7 c16_i32_523
  let v931 : Index := Scalar.indexCast v929
  ![133, v931.toNat]

def k0_chk109 (v396 : IVec S16 32) (v832 : IVec S16 32) : Prop :=
  (∀ a x, ((![v832, v396] : Fin 2 → IVec S16 32) a x).toNat < S24x128.size a)
instance k0_chk109.dec : ∀ (v396 : IVec S16 32) (v832 : IVec S16 32), Decidable (k0_chk109 v396 v832) := fun v396 v832 => decidable_of_iff' _ (Iff.of_eq (k0_chk109.eq_1 v396 v832))
theorem k0_idx109_inb : ∀ (v396 : IVec S16 32) (v832 : IVec S16 32) (k0_hw109 : k0_chk109 v396 v832), ∀ a x, ((![v832, v396] : Fin 2 → IVec S16 32) a x).toNat < S24x128.size a := fun v396 v832 k0_hw109 => k0_hw109
def k0_off136 (k0_t2 : Fin k0_t2_loop.trips) : Fin 2 → Nat :=
  let c134_i32 : BitVec 32 := 134#32
  let v934 : Index := Scalar.indexCast c134_i32
  let c0_i32_360 : BitVec 32 := 0#32
  let c1_i32_362 : BitVec 32 := 1#32
  let arg7 : BitVec 32 := Scf.iv c0_i32_360 c1_i32_362 k0_t2
  let c16_i32_524 : BitVec 32 := 16#32
  let v933 : BitVec 32 := Scalar.muli arg7 c16_i32_524
  let v935 : Index := Scalar.indexCast v933
  ![134, v935.toNat]

def k0_chk110 (v396 : IVec S16 32) (v836 : IVec S16 32) : Prop :=
  (∀ a x, ((![v836, v396] : Fin 2 → IVec S16 32) a x).toNat < S24x128.size a)
instance k0_chk110.dec : ∀ (v396 : IVec S16 32) (v836 : IVec S16 32), Decidable (k0_chk110 v396 v836) := fun v396 v836 => decidable_of_iff' _ (Iff.of_eq (k0_chk110.eq_1 v396 v836))
theorem k0_idx110_inb : ∀ (v396 : IVec S16 32) (v836 : IVec S16 32) (k0_hw110 : k0_chk110 v396 v836), ∀ a x, ((![v836, v396] : Fin 2 → IVec S16 32) a x).toNat < S24x128.size a := fun v396 v836 k0_hw110 => k0_hw110
def k0_off137 (k0_t2 : Fin k0_t2_loop.trips) : Fin 2 → Nat :=
  let c135_i32 : BitVec 32 := 135#32
  let v938 : Index := Scalar.indexCast c135_i32
  let c0_i32_360 : BitVec 32 := 0#32
  let c1_i32_362 : BitVec 32 := 1#32
  let arg7 : BitVec 32 := Scf.iv c0_i32_360 c1_i32_362 k0_t2
  let c16_i32_525 : BitVec 32 := 16#32
  let v937 : BitVec 32 := Scalar.muli arg7 c16_i32_525
  let v939 : Index := Scalar.indexCast v937
  ![135, v939.toNat]

def k0_chk111 (v396 : IVec S16 32) (v840 : IVec S16 32) : Prop :=
  (∀ a x, ((![v840, v396] : Fin 2 → IVec S16 32) a x).toNat < S24x128.size a)
instance k0_chk111.dec : ∀ (v396 : IVec S16 32) (v840 : IVec S16 32), Decidable (k0_chk111 v396 v840) := fun v396 v840 => decidable_of_iff' _ (Iff.of_eq (k0_chk111.eq_1 v396 v840))
theorem k0_idx111_inb : ∀ (v396 : IVec S16 32) (v840 : IVec S16 32) (k0_hw111 : k0_chk111 v396 v840), ∀ a x, ((![v840, v396] : Fin 2 → IVec S16 32) a x).toNat < S24x128.size a := fun v396 v840 k0_hw111 => k0_hw111
def k0_off138 (k0_t2 : Fin k0_t2_loop.trips) : Fin 2 → Nat :=
  let c136_i32 : BitVec 32 := 136#32
  let v942 : Index := Scalar.indexCast c136_i32
  let c0_i32_360 : BitVec 32 := 0#32
  let c1_i32_362 : BitVec 32 := 1#32
  let arg7 : BitVec 32 := Scf.iv c0_i32_360 c1_i32_362 k0_t2
  let c16_i32_526 : BitVec 32 := 16#32
  let v941 : BitVec 32 := Scalar.muli arg7 c16_i32_526
  let v943 : Index := Scalar.indexCast v941
  ![136, v943.toNat]

def k0_chk112 (v396 : IVec S16 32) (v844 : IVec S16 32) : Prop :=
  (∀ a x, ((![v844, v396] : Fin 2 → IVec S16 32) a x).toNat < S24x128.size a)
instance k0_chk112.dec : ∀ (v396 : IVec S16 32) (v844 : IVec S16 32), Decidable (k0_chk112 v396 v844) := fun v396 v844 => decidable_of_iff' _ (Iff.of_eq (k0_chk112.eq_1 v396 v844))
theorem k0_idx112_inb : ∀ (v396 : IVec S16 32) (v844 : IVec S16 32) (k0_hw112 : k0_chk112 v396 v844), ∀ a x, ((![v844, v396] : Fin 2 → IVec S16 32) a x).toNat < S24x128.size a := fun v396 v844 k0_hw112 => k0_hw112
def k0_off139 (k0_t2 : Fin k0_t2_loop.trips) : Fin 2 → Nat :=
  let c137_i32 : BitVec 32 := 137#32
  let v946 : Index := Scalar.indexCast c137_i32
  let c0_i32_360 : BitVec 32 := 0#32
  let c1_i32_362 : BitVec 32 := 1#32
  let arg7 : BitVec 32 := Scf.iv c0_i32_360 c1_i32_362 k0_t2
  let c16_i32_527 : BitVec 32 := 16#32
  let v945 : BitVec 32 := Scalar.muli arg7 c16_i32_527
  let v947 : Index := Scalar.indexCast v945
  ![137, v947.toNat]

def k0_chk113 (v396 : IVec S16 32) (v848 : IVec S16 32) : Prop :=
  (∀ a x, ((![v848, v396] : Fin 2 → IVec S16 32) a x).toNat < S24x128.size a)
instance k0_chk113.dec : ∀ (v396 : IVec S16 32) (v848 : IVec S16 32), Decidable (k0_chk113 v396 v848) := fun v396 v848 => decidable_of_iff' _ (Iff.of_eq (k0_chk113.eq_1 v396 v848))
theorem k0_idx113_inb : ∀ (v396 : IVec S16 32) (v848 : IVec S16 32) (k0_hw113 : k0_chk113 v396 v848), ∀ a x, ((![v848, v396] : Fin 2 → IVec S16 32) a x).toNat < S24x128.size a := fun v396 v848 k0_hw113 => k0_hw113
def k0_off140 (k0_t2 : Fin k0_t2_loop.trips) : Fin 2 → Nat :=
  let c138_i32 : BitVec 32 := 138#32
  let v950 : Index := Scalar.indexCast c138_i32
  let c0_i32_360 : BitVec 32 := 0#32
  let c1_i32_362 : BitVec 32 := 1#32
  let arg7 : BitVec 32 := Scf.iv c0_i32_360 c1_i32_362 k0_t2
  let c16_i32_528 : BitVec 32 := 16#32
  let v949 : BitVec 32 := Scalar.muli arg7 c16_i32_528
  let v951 : Index := Scalar.indexCast v949
  ![138, v951.toNat]

def k0_chk114 (v396 : IVec S16 32) (v852 : IVec S16 32) : Prop :=
  (∀ a x, ((![v852, v396] : Fin 2 → IVec S16 32) a x).toNat < S24x128.size a)
instance k0_chk114.dec : ∀ (v396 : IVec S16 32) (v852 : IVec S16 32), Decidable (k0_chk114 v396 v852) := fun v396 v852 => decidable_of_iff' _ (Iff.of_eq (k0_chk114.eq_1 v396 v852))
theorem k0_idx114_inb : ∀ (v396 : IVec S16 32) (v852 : IVec S16 32) (k0_hw114 : k0_chk114 v396 v852), ∀ a x, ((![v852, v396] : Fin 2 → IVec S16 32) a x).toNat < S24x128.size a := fun v396 v852 k0_hw114 => k0_hw114
def k0_off141 (k0_t2 : Fin k0_t2_loop.trips) : Fin 2 → Nat :=
  let c139_i32 : BitVec 32 := 139#32
  let v954 : Index := Scalar.indexCast c139_i32
  let c0_i32_360 : BitVec 32 := 0#32
  let c1_i32_362 : BitVec 32 := 1#32
  let arg7 : BitVec 32 := Scf.iv c0_i32_360 c1_i32_362 k0_t2
  let c16_i32_529 : BitVec 32 := 16#32
  let v953 : BitVec 32 := Scalar.muli arg7 c16_i32_529
  let v955 : Index := Scalar.indexCast v953
  ![139, v955.toNat]

def k0_chk115 (v396 : IVec S16 32) (v856 : IVec S16 32) : Prop :=
  (∀ a x, ((![v856, v396] : Fin 2 → IVec S16 32) a x).toNat < S24x128.size a)
instance k0_chk115.dec : ∀ (v396 : IVec S16 32) (v856 : IVec S16 32), Decidable (k0_chk115 v396 v856) := fun v396 v856 => decidable_of_iff' _ (Iff.of_eq (k0_chk115.eq_1 v396 v856))
theorem k0_idx115_inb : ∀ (v396 : IVec S16 32) (v856 : IVec S16 32) (k0_hw115 : k0_chk115 v396 v856), ∀ a x, ((![v856, v396] : Fin 2 → IVec S16 32) a x).toNat < S24x128.size a := fun v396 v856 k0_hw115 => k0_hw115
def k0_off142 (k0_t2 : Fin k0_t2_loop.trips) : Fin 2 → Nat :=
  let c140_i32 : BitVec 32 := 140#32
  let v958 : Index := Scalar.indexCast c140_i32
  let c0_i32_360 : BitVec 32 := 0#32
  let c1_i32_362 : BitVec 32 := 1#32
  let arg7 : BitVec 32 := Scf.iv c0_i32_360 c1_i32_362 k0_t2
  let c16_i32_530 : BitVec 32 := 16#32
  let v957 : BitVec 32 := Scalar.muli arg7 c16_i32_530
  let v959 : Index := Scalar.indexCast v957
  ![140, v959.toNat]

def k0_chk116 (v396 : IVec S16 32) (v860 : IVec S16 32) : Prop :=
  (∀ a x, ((![v860, v396] : Fin 2 → IVec S16 32) a x).toNat < S24x128.size a)
instance k0_chk116.dec : ∀ (v396 : IVec S16 32) (v860 : IVec S16 32), Decidable (k0_chk116 v396 v860) := fun v396 v860 => decidable_of_iff' _ (Iff.of_eq (k0_chk116.eq_1 v396 v860))
theorem k0_idx116_inb : ∀ (v396 : IVec S16 32) (v860 : IVec S16 32) (k0_hw116 : k0_chk116 v396 v860), ∀ a x, ((![v860, v396] : Fin 2 → IVec S16 32) a x).toNat < S24x128.size a := fun v396 v860 k0_hw116 => k0_hw116
def k0_off143 (k0_t2 : Fin k0_t2_loop.trips) : Fin 2 → Nat :=
  let c141_i32 : BitVec 32 := 141#32
  let v962 : Index := Scalar.indexCast c141_i32
  let c0_i32_360 : BitVec 32 := 0#32
  let c1_i32_362 : BitVec 32 := 1#32
  let arg7 : BitVec 32 := Scf.iv c0_i32_360 c1_i32_362 k0_t2
  let c16_i32_531 : BitVec 32 := 16#32
  let v961 : BitVec 32 := Scalar.muli arg7 c16_i32_531
  let v963 : Index := Scalar.indexCast v961
  ![141, v963.toNat]

def k0_chk117 (v396 : IVec S16 32) (v864 : IVec S16 32) : Prop :=
  (∀ a x, ((![v864, v396] : Fin 2 → IVec S16 32) a x).toNat < S24x128.size a)
instance k0_chk117.dec : ∀ (v396 : IVec S16 32) (v864 : IVec S16 32), Decidable (k0_chk117 v396 v864) := fun v396 v864 => decidable_of_iff' _ (Iff.of_eq (k0_chk117.eq_1 v396 v864))
theorem k0_idx117_inb : ∀ (v396 : IVec S16 32) (v864 : IVec S16 32) (k0_hw117 : k0_chk117 v396 v864), ∀ a x, ((![v864, v396] : Fin 2 → IVec S16 32) a x).toNat < S24x128.size a := fun v396 v864 k0_hw117 => k0_hw117
def k0_off144 (k0_t2 : Fin k0_t2_loop.trips) : Fin 2 → Nat :=
  let c142_i32 : BitVec 32 := 142#32
  let v966 : Index := Scalar.indexCast c142_i32
  let c0_i32_360 : BitVec 32 := 0#32
  let c1_i32_362 : BitVec 32 := 1#32
  let arg7 : BitVec 32 := Scf.iv c0_i32_360 c1_i32_362 k0_t2
  let c16_i32_532 : BitVec 32 := 16#32
  let v965 : BitVec 32 := Scalar.muli arg7 c16_i32_532
  let v967 : Index := Scalar.indexCast v965
  ![142, v967.toNat]

def k0_chk118 (v396 : IVec S16 32) (v868 : IVec S16 32) : Prop :=
  (∀ a x, ((![v868, v396] : Fin 2 → IVec S16 32) a x).toNat < S24x128.size a)
instance k0_chk118.dec : ∀ (v396 : IVec S16 32) (v868 : IVec S16 32), Decidable (k0_chk118 v396 v868) := fun v396 v868 => decidable_of_iff' _ (Iff.of_eq (k0_chk118.eq_1 v396 v868))
theorem k0_idx118_inb : ∀ (v396 : IVec S16 32) (v868 : IVec S16 32) (k0_hw118 : k0_chk118 v396 v868), ∀ a x, ((![v868, v396] : Fin 2 → IVec S16 32) a x).toNat < S24x128.size a := fun v396 v868 k0_hw118 => k0_hw118
def k0_off145 (k0_t2 : Fin k0_t2_loop.trips) : Fin 2 → Nat :=
  let c143_i32 : BitVec 32 := 143#32
  let v970 : Index := Scalar.indexCast c143_i32
  let c0_i32_360 : BitVec 32 := 0#32
  let c1_i32_362 : BitVec 32 := 1#32
  let arg7 : BitVec 32 := Scf.iv c0_i32_360 c1_i32_362 k0_t2
  let c16_i32_533 : BitVec 32 := 16#32
  let v969 : BitVec 32 := Scalar.muli arg7 c16_i32_533
  let v971 : Index := Scalar.indexCast v969
  ![143, v971.toNat]

def k0_chk119 (v396 : IVec S16 32) (v872 : IVec S16 32) : Prop :=
  (∀ a x, ((![v872, v396] : Fin 2 → IVec S16 32) a x).toNat < S24x128.size a)
instance k0_chk119.dec : ∀ (v396 : IVec S16 32) (v872 : IVec S16 32), Decidable (k0_chk119 v396 v872) := fun v396 v872 => decidable_of_iff' _ (Iff.of_eq (k0_chk119.eq_1 v396 v872))
theorem k0_idx119_inb : ∀ (v396 : IVec S16 32) (v872 : IVec S16 32) (k0_hw119 : k0_chk119 v396 v872), ∀ a x, ((![v872, v396] : Fin 2 → IVec S16 32) a x).toNat < S24x128.size a := fun v396 v872 k0_hw119 => k0_hw119
def k0_off146 (k0_t2 : Fin k0_t2_loop.trips) : Fin 2 → Nat :=
  let c144_i32 : BitVec 32 := 144#32
  let v974 : Index := Scalar.indexCast c144_i32
  let c0_i32_360 : BitVec 32 := 0#32
  let c1_i32_362 : BitVec 32 := 1#32
  let arg7 : BitVec 32 := Scf.iv c0_i32_360 c1_i32_362 k0_t2
  let c16_i32_534 : BitVec 32 := 16#32
  let v973 : BitVec 32 := Scalar.muli arg7 c16_i32_534
  let v975 : Index := Scalar.indexCast v973
  ![144, v975.toNat]

def k0_chk120 (v396 : IVec S16 32) (v876 : IVec S16 32) : Prop :=
  (∀ a x, ((![v876, v396] : Fin 2 → IVec S16 32) a x).toNat < S24x128.size a)
instance k0_chk120.dec : ∀ (v396 : IVec S16 32) (v876 : IVec S16 32), Decidable (k0_chk120 v396 v876) := fun v396 v876 => decidable_of_iff' _ (Iff.of_eq (k0_chk120.eq_1 v396 v876))
theorem k0_idx120_inb : ∀ (v396 : IVec S16 32) (v876 : IVec S16 32) (k0_hw120 : k0_chk120 v396 v876), ∀ a x, ((![v876, v396] : Fin 2 → IVec S16 32) a x).toNat < S24x128.size a := fun v396 v876 k0_hw120 => k0_hw120
def k0_off147 (k0_t2 : Fin k0_t2_loop.trips) : Fin 2 → Nat :=
  let c145_i32 : BitVec 32 := 145#32
  let v978 : Index := Scalar.indexCast c145_i32
  let c0_i32_360 : BitVec 32 := 0#32
  let c1_i32_362 : BitVec 32 := 1#32
  let arg7 : BitVec 32 := Scf.iv c0_i32_360 c1_i32_362 k0_t2
  let c16_i32_535 : BitVec 32 := 16#32
  let v977 : BitVec 32 := Scalar.muli arg7 c16_i32_535
  let v979 : Index := Scalar.indexCast v977
  ![145, v979.toNat]

def k0_chk121 (v396 : IVec S16 32) (v880 : IVec S16 32) : Prop :=
  (∀ a x, ((![v880, v396] : Fin 2 → IVec S16 32) a x).toNat < S24x128.size a)
instance k0_chk121.dec : ∀ (v396 : IVec S16 32) (v880 : IVec S16 32), Decidable (k0_chk121 v396 v880) := fun v396 v880 => decidable_of_iff' _ (Iff.of_eq (k0_chk121.eq_1 v396 v880))
theorem k0_idx121_inb : ∀ (v396 : IVec S16 32) (v880 : IVec S16 32) (k0_hw121 : k0_chk121 v396 v880), ∀ a x, ((![v880, v396] : Fin 2 → IVec S16 32) a x).toNat < S24x128.size a := fun v396 v880 k0_hw121 => k0_hw121
def k0_off148 (k0_t2 : Fin k0_t2_loop.trips) : Fin 2 → Nat :=
  let c146_i32 : BitVec 32 := 146#32
  let v982 : Index := Scalar.indexCast c146_i32
  let c0_i32_360 : BitVec 32 := 0#32
  let c1_i32_362 : BitVec 32 := 1#32
  let arg7 : BitVec 32 := Scf.iv c0_i32_360 c1_i32_362 k0_t2
  let c16_i32_536 : BitVec 32 := 16#32
  let v981 : BitVec 32 := Scalar.muli arg7 c16_i32_536
  let v983 : Index := Scalar.indexCast v981
  ![146, v983.toNat]

def k0_chk122 (v396 : IVec S16 32) (v884 : IVec S16 32) : Prop :=
  (∀ a x, ((![v884, v396] : Fin 2 → IVec S16 32) a x).toNat < S24x128.size a)
instance k0_chk122.dec : ∀ (v396 : IVec S16 32) (v884 : IVec S16 32), Decidable (k0_chk122 v396 v884) := fun v396 v884 => decidable_of_iff' _ (Iff.of_eq (k0_chk122.eq_1 v396 v884))
theorem k0_idx122_inb : ∀ (v396 : IVec S16 32) (v884 : IVec S16 32) (k0_hw122 : k0_chk122 v396 v884), ∀ a x, ((![v884, v396] : Fin 2 → IVec S16 32) a x).toNat < S24x128.size a := fun v396 v884 k0_hw122 => k0_hw122
def k0_off149 (k0_t2 : Fin k0_t2_loop.trips) : Fin 2 → Nat :=
  let c147_i32 : BitVec 32 := 147#32
  let v986 : Index := Scalar.indexCast c147_i32
  let c0_i32_360 : BitVec 32 := 0#32
  let c1_i32_362 : BitVec 32 := 1#32
  let arg7 : BitVec 32 := Scf.iv c0_i32_360 c1_i32_362 k0_t2
  let c16_i32_537 : BitVec 32 := 16#32
  let v985 : BitVec 32 := Scalar.muli arg7 c16_i32_537
  let v987 : Index := Scalar.indexCast v985
  ![147, v987.toNat]

def k0_chk123 (v396 : IVec S16 32) (v888 : IVec S16 32) : Prop :=
  (∀ a x, ((![v888, v396] : Fin 2 → IVec S16 32) a x).toNat < S24x128.size a)
instance k0_chk123.dec : ∀ (v396 : IVec S16 32) (v888 : IVec S16 32), Decidable (k0_chk123 v396 v888) := fun v396 v888 => decidable_of_iff' _ (Iff.of_eq (k0_chk123.eq_1 v396 v888))
theorem k0_idx123_inb : ∀ (v396 : IVec S16 32) (v888 : IVec S16 32) (k0_hw123 : k0_chk123 v396 v888), ∀ a x, ((![v888, v396] : Fin 2 → IVec S16 32) a x).toNat < S24x128.size a := fun v396 v888 k0_hw123 => k0_hw123
def k0_off150 (k0_t2 : Fin k0_t2_loop.trips) : Fin 2 → Nat :=
  let c148_i32 : BitVec 32 := 148#32
  let v990 : Index := Scalar.indexCast c148_i32
  let c0_i32_360 : BitVec 32 := 0#32
  let c1_i32_362 : BitVec 32 := 1#32
  let arg7 : BitVec 32 := Scf.iv c0_i32_360 c1_i32_362 k0_t2
  let c16_i32_538 : BitVec 32 := 16#32
  let v989 : BitVec 32 := Scalar.muli arg7 c16_i32_538
  let v991 : Index := Scalar.indexCast v989
  ![148, v991.toNat]

def k0_chk124 (v396 : IVec S16 32) (v892 : IVec S16 32) : Prop :=
  (∀ a x, ((![v892, v396] : Fin 2 → IVec S16 32) a x).toNat < S24x128.size a)
instance k0_chk124.dec : ∀ (v396 : IVec S16 32) (v892 : IVec S16 32), Decidable (k0_chk124 v396 v892) := fun v396 v892 => decidable_of_iff' _ (Iff.of_eq (k0_chk124.eq_1 v396 v892))
theorem k0_idx124_inb : ∀ (v396 : IVec S16 32) (v892 : IVec S16 32) (k0_hw124 : k0_chk124 v396 v892), ∀ a x, ((![v892, v396] : Fin 2 → IVec S16 32) a x).toNat < S24x128.size a := fun v396 v892 k0_hw124 => k0_hw124
def k0_off151 (k0_t2 : Fin k0_t2_loop.trips) : Fin 2 → Nat :=
  let c149_i32 : BitVec 32 := 149#32
  let v994 : Index := Scalar.indexCast c149_i32
  let c0_i32_360 : BitVec 32 := 0#32
  let c1_i32_362 : BitVec 32 := 1#32
  let arg7 : BitVec 32 := Scf.iv c0_i32_360 c1_i32_362 k0_t2
  let c16_i32_539 : BitVec 32 := 16#32
  let v993 : BitVec 32 := Scalar.muli arg7 c16_i32_539
  let v995 : Index := Scalar.indexCast v993
  ![149, v995.toNat]

def k0_chk125 (v396 : IVec S16 32) (v896 : IVec S16 32) : Prop :=
  (∀ a x, ((![v896, v396] : Fin 2 → IVec S16 32) a x).toNat < S24x128.size a)
instance k0_chk125.dec : ∀ (v396 : IVec S16 32) (v896 : IVec S16 32), Decidable (k0_chk125 v396 v896) := fun v396 v896 => decidable_of_iff' _ (Iff.of_eq (k0_chk125.eq_1 v396 v896))
theorem k0_idx125_inb : ∀ (v396 : IVec S16 32) (v896 : IVec S16 32) (k0_hw125 : k0_chk125 v396 v896), ∀ a x, ((![v896, v396] : Fin 2 → IVec S16 32) a x).toNat < S24x128.size a := fun v396 v896 k0_hw125 => k0_hw125
def k0_off152 (k0_t2 : Fin k0_t2_loop.trips) : Fin 2 → Nat :=
  let c150_i32 : BitVec 32 := 150#32
  let v998 : Index := Scalar.indexCast c150_i32
  let c0_i32_360 : BitVec 32 := 0#32
  let c1_i32_362 : BitVec 32 := 1#32
  let arg7 : BitVec 32 := Scf.iv c0_i32_360 c1_i32_362 k0_t2
  let c16_i32_540 : BitVec 32 := 16#32
  let v997 : BitVec 32 := Scalar.muli arg7 c16_i32_540
  let v999 : Index := Scalar.indexCast v997
  ![150, v999.toNat]

def k0_chk126 (v396 : IVec S16 32) (v900 : IVec S16 32) : Prop :=
  (∀ a x, ((![v900, v396] : Fin 2 → IVec S16 32) a x).toNat < S24x128.size a)
instance k0_chk126.dec : ∀ (v396 : IVec S16 32) (v900 : IVec S16 32), Decidable (k0_chk126 v396 v900) := fun v396 v900 => decidable_of_iff' _ (Iff.of_eq (k0_chk126.eq_1 v396 v900))
theorem k0_idx126_inb : ∀ (v396 : IVec S16 32) (v900 : IVec S16 32) (k0_hw126 : k0_chk126 v396 v900), ∀ a x, ((![v900, v396] : Fin 2 → IVec S16 32) a x).toNat < S24x128.size a := fun v396 v900 k0_hw126 => k0_hw126
def k0_off153 (k0_t2 : Fin k0_t2_loop.trips) : Fin 2 → Nat :=
  let c151_i32 : BitVec 32 := 151#32
  let v1002 : Index := Scalar.indexCast c151_i32
  let c0_i32_360 : BitVec 32 := 0#32
  let c1_i32_362 : BitVec 32 := 1#32
  let arg7 : BitVec 32 := Scf.iv c0_i32_360 c1_i32_362 k0_t2
  let c16_i32_541 : BitVec 32 := 16#32
  let v1001 : BitVec 32 := Scalar.muli arg7 c16_i32_541
  let v1003 : Index := Scalar.indexCast v1001
  ![151, v1003.toNat]

def k0_chk127 (v396 : IVec S16 32) (v904 : IVec S16 32) : Prop :=
  (∀ a x, ((![v904, v396] : Fin 2 → IVec S16 32) a x).toNat < S24x128.size a)
instance k0_chk127.dec : ∀ (v396 : IVec S16 32) (v904 : IVec S16 32), Decidable (k0_chk127 v396 v904) := fun v396 v904 => decidable_of_iff' _ (Iff.of_eq (k0_chk127.eq_1 v396 v904))
theorem k0_idx127_inb : ∀ (v396 : IVec S16 32) (v904 : IVec S16 32) (k0_hw127 : k0_chk127 v396 v904), ∀ a x, ((![v904, v396] : Fin 2 → IVec S16 32) a x).toNat < S24x128.size a := fun v396 v904 k0_hw127 => k0_hw127
def k0_off154 (k0_t2 : Fin k0_t2_loop.trips) : Fin 2 → Nat :=
  let c152_i32 : BitVec 32 := 152#32
  let v1006 : Index := Scalar.indexCast c152_i32
  let c0_i32_360 : BitVec 32 := 0#32
  let c1_i32_362 : BitVec 32 := 1#32
  let arg7 : BitVec 32 := Scf.iv c0_i32_360 c1_i32_362 k0_t2
  let c16_i32_542 : BitVec 32 := 16#32
  let v1005 : BitVec 32 := Scalar.muli arg7 c16_i32_542
  let v1007 : Index := Scalar.indexCast v1005
  ![152, v1007.toNat]

def k0_chk128 (v396 : IVec S16 32) (v908 : IVec S16 32) : Prop :=
  (∀ a x, ((![v908, v396] : Fin 2 → IVec S16 32) a x).toNat < S24x128.size a)
instance k0_chk128.dec : ∀ (v396 : IVec S16 32) (v908 : IVec S16 32), Decidable (k0_chk128 v396 v908) := fun v396 v908 => decidable_of_iff' _ (Iff.of_eq (k0_chk128.eq_1 v396 v908))
theorem k0_idx128_inb : ∀ (v396 : IVec S16 32) (v908 : IVec S16 32) (k0_hw128 : k0_chk128 v396 v908), ∀ a x, ((![v908, v396] : Fin 2 → IVec S16 32) a x).toNat < S24x128.size a := fun v396 v908 k0_hw128 => k0_hw128
def k0_off155 (k0_t2 : Fin k0_t2_loop.trips) : Fin 2 → Nat :=
  let c153_i32 : BitVec 32 := 153#32
  let v1010 : Index := Scalar.indexCast c153_i32
  let c0_i32_360 : BitVec 32 := 0#32
  let c1_i32_362 : BitVec 32 := 1#32
  let arg7 : BitVec 32 := Scf.iv c0_i32_360 c1_i32_362 k0_t2
  let c16_i32_543 : BitVec 32 := 16#32
  let v1009 : BitVec 32 := Scalar.muli arg7 c16_i32_543
  let v1011 : Index := Scalar.indexCast v1009
  ![153, v1011.toNat]

def k0_chk129 (v396 : IVec S16 32) (v912 : IVec S16 32) : Prop :=
  (∀ a x, ((![v912, v396] : Fin 2 → IVec S16 32) a x).toNat < S24x128.size a)
instance k0_chk129.dec : ∀ (v396 : IVec S16 32) (v912 : IVec S16 32), Decidable (k0_chk129 v396 v912) := fun v396 v912 => decidable_of_iff' _ (Iff.of_eq (k0_chk129.eq_1 v396 v912))
theorem k0_idx129_inb : ∀ (v396 : IVec S16 32) (v912 : IVec S16 32) (k0_hw129 : k0_chk129 v396 v912), ∀ a x, ((![v912, v396] : Fin 2 → IVec S16 32) a x).toNat < S24x128.size a := fun v396 v912 k0_hw129 => k0_hw129
def k0_off156 (k0_t2 : Fin k0_t2_loop.trips) : Fin 2 → Nat :=
  let c154_i32 : BitVec 32 := 154#32
  let v1014 : Index := Scalar.indexCast c154_i32
  let c0_i32_360 : BitVec 32 := 0#32
  let c1_i32_362 : BitVec 32 := 1#32
  let arg7 : BitVec 32 := Scf.iv c0_i32_360 c1_i32_362 k0_t2
  let c16_i32_544 : BitVec 32 := 16#32
  let v1013 : BitVec 32 := Scalar.muli arg7 c16_i32_544
  let v1015 : Index := Scalar.indexCast v1013
  ![154, v1015.toNat]

def k0_chk130 (v396 : IVec S16 32) (v916 : IVec S16 32) : Prop :=
  (∀ a x, ((![v916, v396] : Fin 2 → IVec S16 32) a x).toNat < S24x128.size a)
instance k0_chk130.dec : ∀ (v396 : IVec S16 32) (v916 : IVec S16 32), Decidable (k0_chk130 v396 v916) := fun v396 v916 => decidable_of_iff' _ (Iff.of_eq (k0_chk130.eq_1 v396 v916))
theorem k0_idx130_inb : ∀ (v396 : IVec S16 32) (v916 : IVec S16 32) (k0_hw130 : k0_chk130 v396 v916), ∀ a x, ((![v916, v396] : Fin 2 → IVec S16 32) a x).toNat < S24x128.size a := fun v396 v916 k0_hw130 => k0_hw130
def k0_off157 (k0_t2 : Fin k0_t2_loop.trips) : Fin 2 → Nat :=
  let c155_i32 : BitVec 32 := 155#32
  let v1018 : Index := Scalar.indexCast c155_i32
  let c0_i32_360 : BitVec 32 := 0#32
  let c1_i32_362 : BitVec 32 := 1#32
  let arg7 : BitVec 32 := Scf.iv c0_i32_360 c1_i32_362 k0_t2
  let c16_i32_545 : BitVec 32 := 16#32
  let v1017 : BitVec 32 := Scalar.muli arg7 c16_i32_545
  let v1019 : Index := Scalar.indexCast v1017
  ![155, v1019.toNat]

def k0_chk131 (v396 : IVec S16 32) (v920 : IVec S16 32) : Prop :=
  (∀ a x, ((![v920, v396] : Fin 2 → IVec S16 32) a x).toNat < S24x128.size a)
instance k0_chk131.dec : ∀ (v396 : IVec S16 32) (v920 : IVec S16 32), Decidable (k0_chk131 v396 v920) := fun v396 v920 => decidable_of_iff' _ (Iff.of_eq (k0_chk131.eq_1 v396 v920))
theorem k0_idx131_inb : ∀ (v396 : IVec S16 32) (v920 : IVec S16 32) (k0_hw131 : k0_chk131 v396 v920), ∀ a x, ((![v920, v396] : Fin 2 → IVec S16 32) a x).toNat < S24x128.size a := fun v396 v920 k0_hw131 => k0_hw131
def k0_off158 (k0_t2 : Fin k0_t2_loop.trips) : Fin 2 → Nat :=
  let c156_i32 : BitVec 32 := 156#32
  let v1022 : Index := Scalar.indexCast c156_i32
  let c0_i32_360 : BitVec 32 := 0#32
  let c1_i32_362 : BitVec 32 := 1#32
  let arg7 : BitVec 32 := Scf.iv c0_i32_360 c1_i32_362 k0_t2
  let c16_i32_546 : BitVec 32 := 16#32
  let v1021 : BitVec 32 := Scalar.muli arg7 c16_i32_546
  let v1023 : Index := Scalar.indexCast v1021
  ![156, v1023.toNat]

def k0_chk132 (v396 : IVec S16 32) (v924 : IVec S16 32) : Prop :=
  (∀ a x, ((![v924, v396] : Fin 2 → IVec S16 32) a x).toNat < S24x128.size a)
instance k0_chk132.dec : ∀ (v396 : IVec S16 32) (v924 : IVec S16 32), Decidable (k0_chk132 v396 v924) := fun v396 v924 => decidable_of_iff' _ (Iff.of_eq (k0_chk132.eq_1 v396 v924))
theorem k0_idx132_inb : ∀ (v396 : IVec S16 32) (v924 : IVec S16 32) (k0_hw132 : k0_chk132 v396 v924), ∀ a x, ((![v924, v396] : Fin 2 → IVec S16 32) a x).toNat < S24x128.size a := fun v396 v924 k0_hw132 => k0_hw132
def k0_off159 (k0_t2 : Fin k0_t2_loop.trips) : Fin 2 → Nat :=
  let c157_i32 : BitVec 32 := 157#32
  let v1026 : Index := Scalar.indexCast c157_i32
  let c0_i32_360 : BitVec 32 := 0#32
  let c1_i32_362 : BitVec 32 := 1#32
  let arg7 : BitVec 32 := Scf.iv c0_i32_360 c1_i32_362 k0_t2
  let c16_i32_547 : BitVec 32 := 16#32
  let v1025 : BitVec 32 := Scalar.muli arg7 c16_i32_547
  let v1027 : Index := Scalar.indexCast v1025
  ![157, v1027.toNat]

def k0_chk133 (v396 : IVec S16 32) (v928 : IVec S16 32) : Prop :=
  (∀ a x, ((![v928, v396] : Fin 2 → IVec S16 32) a x).toNat < S24x128.size a)
instance k0_chk133.dec : ∀ (v396 : IVec S16 32) (v928 : IVec S16 32), Decidable (k0_chk133 v396 v928) := fun v396 v928 => decidable_of_iff' _ (Iff.of_eq (k0_chk133.eq_1 v396 v928))
theorem k0_idx133_inb : ∀ (v396 : IVec S16 32) (v928 : IVec S16 32) (k0_hw133 : k0_chk133 v396 v928), ∀ a x, ((![v928, v396] : Fin 2 → IVec S16 32) a x).toNat < S24x128.size a := fun v396 v928 k0_hw133 => k0_hw133
def k0_off160 (k0_t2 : Fin k0_t2_loop.trips) : Fin 2 → Nat :=
  let c158_i32 : BitVec 32 := 158#32
  let v1030 : Index := Scalar.indexCast c158_i32
  let c0_i32_360 : BitVec 32 := 0#32
  let c1_i32_362 : BitVec 32 := 1#32
  let arg7 : BitVec 32 := Scf.iv c0_i32_360 c1_i32_362 k0_t2
  let c16_i32_548 : BitVec 32 := 16#32
  let v1029 : BitVec 32 := Scalar.muli arg7 c16_i32_548
  let v1031 : Index := Scalar.indexCast v1029
  ![158, v1031.toNat]

def k0_chk134 (v396 : IVec S16 32) (v932 : IVec S16 32) : Prop :=
  (∀ a x, ((![v932, v396] : Fin 2 → IVec S16 32) a x).toNat < S24x128.size a)
instance k0_chk134.dec : ∀ (v396 : IVec S16 32) (v932 : IVec S16 32), Decidable (k0_chk134 v396 v932) := fun v396 v932 => decidable_of_iff' _ (Iff.of_eq (k0_chk134.eq_1 v396 v932))
theorem k0_idx134_inb : ∀ (v396 : IVec S16 32) (v932 : IVec S16 32) (k0_hw134 : k0_chk134 v396 v932), ∀ a x, ((![v932, v396] : Fin 2 → IVec S16 32) a x).toNat < S24x128.size a := fun v396 v932 k0_hw134 => k0_hw134
def k0_off161 (k0_t2 : Fin k0_t2_loop.trips) : Fin 2 → Nat :=
  let c159_i32 : BitVec 32 := 159#32
  let v1034 : Index := Scalar.indexCast c159_i32
  let c0_i32_360 : BitVec 32 := 0#32
  let c1_i32_362 : BitVec 32 := 1#32
  let arg7 : BitVec 32 := Scf.iv c0_i32_360 c1_i32_362 k0_t2
  let c16_i32_549 : BitVec 32 := 16#32
  let v1033 : BitVec 32 := Scalar.muli arg7 c16_i32_549
  let v1035 : Index := Scalar.indexCast v1033
  ![159, v1035.toNat]

def k0_chk135 (v396 : IVec S16 32) (v936 : IVec S16 32) : Prop :=
  (∀ a x, ((![v936, v396] : Fin 2 → IVec S16 32) a x).toNat < S24x128.size a)
instance k0_chk135.dec : ∀ (v396 : IVec S16 32) (v936 : IVec S16 32), Decidable (k0_chk135 v396 v936) := fun v396 v936 => decidable_of_iff' _ (Iff.of_eq (k0_chk135.eq_1 v396 v936))
theorem k0_idx135_inb : ∀ (v396 : IVec S16 32) (v936 : IVec S16 32) (k0_hw135 : k0_chk135 v396 v936), ∀ a x, ((![v936, v396] : Fin 2 → IVec S16 32) a x).toNat < S24x128.size a := fun v396 v936 k0_hw135 => k0_hw135
def k0_off162 (k0_t2 : Fin k0_t2_loop.trips) : Fin 2 → Nat :=
  let c160_i32 : BitVec 32 := 160#32
  let v1038 : Index := Scalar.indexCast c160_i32
  let c0_i32_360 : BitVec 32 := 0#32
  let c1_i32_362 : BitVec 32 := 1#32
  let arg7 : BitVec 32 := Scf.iv c0_i32_360 c1_i32_362 k0_t2
  let c16_i32_550 : BitVec 32 := 16#32
  let v1037 : BitVec 32 := Scalar.muli arg7 c16_i32_550
  let v1039 : Index := Scalar.indexCast v1037
  ![160, v1039.toNat]

def k0_chk136 (v396 : IVec S16 32) (v940 : IVec S16 32) : Prop :=
  (∀ a x, ((![v940, v396] : Fin 2 → IVec S16 32) a x).toNat < S24x128.size a)
instance k0_chk136.dec : ∀ (v396 : IVec S16 32) (v940 : IVec S16 32), Decidable (k0_chk136 v396 v940) := fun v396 v940 => decidable_of_iff' _ (Iff.of_eq (k0_chk136.eq_1 v396 v940))
theorem k0_idx136_inb : ∀ (v396 : IVec S16 32) (v940 : IVec S16 32) (k0_hw136 : k0_chk136 v396 v940), ∀ a x, ((![v940, v396] : Fin 2 → IVec S16 32) a x).toNat < S24x128.size a := fun v396 v940 k0_hw136 => k0_hw136
def k0_off163 (k0_t2 : Fin k0_t2_loop.trips) : Fin 2 → Nat :=
  let c161_i32 : BitVec 32 := 161#32
  let v1042 : Index := Scalar.indexCast c161_i32
  let c0_i32_360 : BitVec 32 := 0#32
  let c1_i32_362 : BitVec 32 := 1#32
  let arg7 : BitVec 32 := Scf.iv c0_i32_360 c1_i32_362 k0_t2
  let c16_i32_551 : BitVec 32 := 16#32
  let v1041 : BitVec 32 := Scalar.muli arg7 c16_i32_551
  let v1043 : Index := Scalar.indexCast v1041
  ![161, v1043.toNat]

def k0_chk137 (v396 : IVec S16 32) (v944 : IVec S16 32) : Prop :=
  (∀ a x, ((![v944, v396] : Fin 2 → IVec S16 32) a x).toNat < S24x128.size a)
instance k0_chk137.dec : ∀ (v396 : IVec S16 32) (v944 : IVec S16 32), Decidable (k0_chk137 v396 v944) := fun v396 v944 => decidable_of_iff' _ (Iff.of_eq (k0_chk137.eq_1 v396 v944))
theorem k0_idx137_inb : ∀ (v396 : IVec S16 32) (v944 : IVec S16 32) (k0_hw137 : k0_chk137 v396 v944), ∀ a x, ((![v944, v396] : Fin 2 → IVec S16 32) a x).toNat < S24x128.size a := fun v396 v944 k0_hw137 => k0_hw137
def k0_off164 (k0_t2 : Fin k0_t2_loop.trips) : Fin 2 → Nat :=
  let c162_i32 : BitVec 32 := 162#32
  let v1046 : Index := Scalar.indexCast c162_i32
  let c0_i32_360 : BitVec 32 := 0#32
  let c1_i32_362 : BitVec 32 := 1#32
  let arg7 : BitVec 32 := Scf.iv c0_i32_360 c1_i32_362 k0_t2
  let c16_i32_552 : BitVec 32 := 16#32
  let v1045 : BitVec 32 := Scalar.muli arg7 c16_i32_552
  let v1047 : Index := Scalar.indexCast v1045
  ![162, v1047.toNat]

def k0_chk138 (v396 : IVec S16 32) (v948 : IVec S16 32) : Prop :=
  (∀ a x, ((![v948, v396] : Fin 2 → IVec S16 32) a x).toNat < S24x128.size a)
instance k0_chk138.dec : ∀ (v396 : IVec S16 32) (v948 : IVec S16 32), Decidable (k0_chk138 v396 v948) := fun v396 v948 => decidable_of_iff' _ (Iff.of_eq (k0_chk138.eq_1 v396 v948))
theorem k0_idx138_inb : ∀ (v396 : IVec S16 32) (v948 : IVec S16 32) (k0_hw138 : k0_chk138 v396 v948), ∀ a x, ((![v948, v396] : Fin 2 → IVec S16 32) a x).toNat < S24x128.size a := fun v396 v948 k0_hw138 => k0_hw138
def k0_off165 (k0_t2 : Fin k0_t2_loop.trips) : Fin 2 → Nat :=
  let c163_i32 : BitVec 32 := 163#32
  let v1050 : Index := Scalar.indexCast c163_i32
  let c0_i32_360 : BitVec 32 := 0#32
  let c1_i32_362 : BitVec 32 := 1#32
  let arg7 : BitVec 32 := Scf.iv c0_i32_360 c1_i32_362 k0_t2
  let c16_i32_553 : BitVec 32 := 16#32
  let v1049 : BitVec 32 := Scalar.muli arg7 c16_i32_553
  let v1051 : Index := Scalar.indexCast v1049
  ![163, v1051.toNat]

def k0_chk139 (v396 : IVec S16 32) (v952 : IVec S16 32) : Prop :=
  (∀ a x, ((![v952, v396] : Fin 2 → IVec S16 32) a x).toNat < S24x128.size a)
instance k0_chk139.dec : ∀ (v396 : IVec S16 32) (v952 : IVec S16 32), Decidable (k0_chk139 v396 v952) := fun v396 v952 => decidable_of_iff' _ (Iff.of_eq (k0_chk139.eq_1 v396 v952))
theorem k0_idx139_inb : ∀ (v396 : IVec S16 32) (v952 : IVec S16 32) (k0_hw139 : k0_chk139 v396 v952), ∀ a x, ((![v952, v396] : Fin 2 → IVec S16 32) a x).toNat < S24x128.size a := fun v396 v952 k0_hw139 => k0_hw139
def k0_off166 (k0_t2 : Fin k0_t2_loop.trips) : Fin 2 → Nat :=
  let c164_i32 : BitVec 32 := 164#32
  let v1054 : Index := Scalar.indexCast c164_i32
  let c0_i32_360 : BitVec 32 := 0#32
  let c1_i32_362 : BitVec 32 := 1#32
  let arg7 : BitVec 32 := Scf.iv c0_i32_360 c1_i32_362 k0_t2
  let c16_i32_554 : BitVec 32 := 16#32
  let v1053 : BitVec 32 := Scalar.muli arg7 c16_i32_554
  let v1055 : Index := Scalar.indexCast v1053
  ![164, v1055.toNat]

def k0_chk140 (v396 : IVec S16 32) (v956 : IVec S16 32) : Prop :=
  (∀ a x, ((![v956, v396] : Fin 2 → IVec S16 32) a x).toNat < S24x128.size a)
instance k0_chk140.dec : ∀ (v396 : IVec S16 32) (v956 : IVec S16 32), Decidable (k0_chk140 v396 v956) := fun v396 v956 => decidable_of_iff' _ (Iff.of_eq (k0_chk140.eq_1 v396 v956))
theorem k0_idx140_inb : ∀ (v396 : IVec S16 32) (v956 : IVec S16 32) (k0_hw140 : k0_chk140 v396 v956), ∀ a x, ((![v956, v396] : Fin 2 → IVec S16 32) a x).toNat < S24x128.size a := fun v396 v956 k0_hw140 => k0_hw140
def k0_off167 (k0_t2 : Fin k0_t2_loop.trips) : Fin 2 → Nat :=
  let c165_i32 : BitVec 32 := 165#32
  let v1058 : Index := Scalar.indexCast c165_i32
  let c0_i32_360 : BitVec 32 := 0#32
  let c1_i32_362 : BitVec 32 := 1#32
  let arg7 : BitVec 32 := Scf.iv c0_i32_360 c1_i32_362 k0_t2
  let c16_i32_555 : BitVec 32 := 16#32
  let v1057 : BitVec 32 := Scalar.muli arg7 c16_i32_555
  let v1059 : Index := Scalar.indexCast v1057
  ![165, v1059.toNat]

def k0_chk141 (v396 : IVec S16 32) (v960 : IVec S16 32) : Prop :=
  (∀ a x, ((![v960, v396] : Fin 2 → IVec S16 32) a x).toNat < S24x128.size a)
instance k0_chk141.dec : ∀ (v396 : IVec S16 32) (v960 : IVec S16 32), Decidable (k0_chk141 v396 v960) := fun v396 v960 => decidable_of_iff' _ (Iff.of_eq (k0_chk141.eq_1 v396 v960))
theorem k0_idx141_inb : ∀ (v396 : IVec S16 32) (v960 : IVec S16 32) (k0_hw141 : k0_chk141 v396 v960), ∀ a x, ((![v960, v396] : Fin 2 → IVec S16 32) a x).toNat < S24x128.size a := fun v396 v960 k0_hw141 => k0_hw141
def k0_off168 (k0_t2 : Fin k0_t2_loop.trips) : Fin 2 → Nat :=
  let c166_i32 : BitVec 32 := 166#32
  let v1062 : Index := Scalar.indexCast c166_i32
  let c0_i32_360 : BitVec 32 := 0#32
  let c1_i32_362 : BitVec 32 := 1#32
  let arg7 : BitVec 32 := Scf.iv c0_i32_360 c1_i32_362 k0_t2
  let c16_i32_556 : BitVec 32 := 16#32
  let v1061 : BitVec 32 := Scalar.muli arg7 c16_i32_556
  let v1063 : Index := Scalar.indexCast v1061
  ![166, v1063.toNat]

def k0_chk142 (v396 : IVec S16 32) (v964 : IVec S16 32) : Prop :=
  (∀ a x, ((![v964, v396] : Fin 2 → IVec S16 32) a x).toNat < S24x128.size a)
instance k0_chk142.dec : ∀ (v396 : IVec S16 32) (v964 : IVec S16 32), Decidable (k0_chk142 v396 v964) := fun v396 v964 => decidable_of_iff' _ (Iff.of_eq (k0_chk142.eq_1 v396 v964))
theorem k0_idx142_inb : ∀ (v396 : IVec S16 32) (v964 : IVec S16 32) (k0_hw142 : k0_chk142 v396 v964), ∀ a x, ((![v964, v396] : Fin 2 → IVec S16 32) a x).toNat < S24x128.size a := fun v396 v964 k0_hw142 => k0_hw142
def k0_off169 (k0_t2 : Fin k0_t2_loop.trips) : Fin 2 → Nat :=
  let c167_i32 : BitVec 32 := 167#32
  let v1066 : Index := Scalar.indexCast c167_i32
  let c0_i32_360 : BitVec 32 := 0#32
  let c1_i32_362 : BitVec 32 := 1#32
  let arg7 : BitVec 32 := Scf.iv c0_i32_360 c1_i32_362 k0_t2
  let c16_i32_557 : BitVec 32 := 16#32
  let v1065 : BitVec 32 := Scalar.muli arg7 c16_i32_557
  let v1067 : Index := Scalar.indexCast v1065
  ![167, v1067.toNat]

def k0_chk143 (v396 : IVec S16 32) (v968 : IVec S16 32) : Prop :=
  (∀ a x, ((![v968, v396] : Fin 2 → IVec S16 32) a x).toNat < S24x128.size a)
instance k0_chk143.dec : ∀ (v396 : IVec S16 32) (v968 : IVec S16 32), Decidable (k0_chk143 v396 v968) := fun v396 v968 => decidable_of_iff' _ (Iff.of_eq (k0_chk143.eq_1 v396 v968))
theorem k0_idx143_inb : ∀ (v396 : IVec S16 32) (v968 : IVec S16 32) (k0_hw143 : k0_chk143 v396 v968), ∀ a x, ((![v968, v396] : Fin 2 → IVec S16 32) a x).toNat < S24x128.size a := fun v396 v968 k0_hw143 => k0_hw143
def k0_off170 (k0_t2 : Fin k0_t2_loop.trips) : Fin 2 → Nat :=
  let c168_i32 : BitVec 32 := 168#32
  let v1070 : Index := Scalar.indexCast c168_i32
  let c0_i32_360 : BitVec 32 := 0#32
  let c1_i32_362 : BitVec 32 := 1#32
  let arg7 : BitVec 32 := Scf.iv c0_i32_360 c1_i32_362 k0_t2
  let c16_i32_558 : BitVec 32 := 16#32
  let v1069 : BitVec 32 := Scalar.muli arg7 c16_i32_558
  let v1071 : Index := Scalar.indexCast v1069
  ![168, v1071.toNat]

def k0_chk144 (v396 : IVec S16 32) (v972 : IVec S16 32) : Prop :=
  (∀ a x, ((![v972, v396] : Fin 2 → IVec S16 32) a x).toNat < S24x128.size a)
instance k0_chk144.dec : ∀ (v396 : IVec S16 32) (v972 : IVec S16 32), Decidable (k0_chk144 v396 v972) := fun v396 v972 => decidable_of_iff' _ (Iff.of_eq (k0_chk144.eq_1 v396 v972))
theorem k0_idx144_inb : ∀ (v396 : IVec S16 32) (v972 : IVec S16 32) (k0_hw144 : k0_chk144 v396 v972), ∀ a x, ((![v972, v396] : Fin 2 → IVec S16 32) a x).toNat < S24x128.size a := fun v396 v972 k0_hw144 => k0_hw144
def k0_off171 (k0_t2 : Fin k0_t2_loop.trips) : Fin 2 → Nat :=
  let c169_i32 : BitVec 32 := 169#32
  let v1074 : Index := Scalar.indexCast c169_i32
  let c0_i32_360 : BitVec 32 := 0#32
  let c1_i32_362 : BitVec 32 := 1#32
  let arg7 : BitVec 32 := Scf.iv c0_i32_360 c1_i32_362 k0_t2
  let c16_i32_559 : BitVec 32 := 16#32
  let v1073 : BitVec 32 := Scalar.muli arg7 c16_i32_559
  let v1075 : Index := Scalar.indexCast v1073
  ![169, v1075.toNat]

def k0_chk145 (v396 : IVec S16 32) (v976 : IVec S16 32) : Prop :=
  (∀ a x, ((![v976, v396] : Fin 2 → IVec S16 32) a x).toNat < S24x128.size a)
instance k0_chk145.dec : ∀ (v396 : IVec S16 32) (v976 : IVec S16 32), Decidable (k0_chk145 v396 v976) := fun v396 v976 => decidable_of_iff' _ (Iff.of_eq (k0_chk145.eq_1 v396 v976))
theorem k0_idx145_inb : ∀ (v396 : IVec S16 32) (v976 : IVec S16 32) (k0_hw145 : k0_chk145 v396 v976), ∀ a x, ((![v976, v396] : Fin 2 → IVec S16 32) a x).toNat < S24x128.size a := fun v396 v976 k0_hw145 => k0_hw145
def k0_off172 (k0_t2 : Fin k0_t2_loop.trips) : Fin 2 → Nat :=
  let c170_i32 : BitVec 32 := 170#32
  let v1078 : Index := Scalar.indexCast c170_i32
  let c0_i32_360 : BitVec 32 := 0#32
  let c1_i32_362 : BitVec 32 := 1#32
  let arg7 : BitVec 32 := Scf.iv c0_i32_360 c1_i32_362 k0_t2
  let c16_i32_560 : BitVec 32 := 16#32
  let v1077 : BitVec 32 := Scalar.muli arg7 c16_i32_560
  let v1079 : Index := Scalar.indexCast v1077
  ![170, v1079.toNat]

def k0_chk146 (v396 : IVec S16 32) (v980 : IVec S16 32) : Prop :=
  (∀ a x, ((![v980, v396] : Fin 2 → IVec S16 32) a x).toNat < S24x128.size a)
instance k0_chk146.dec : ∀ (v396 : IVec S16 32) (v980 : IVec S16 32), Decidable (k0_chk146 v396 v980) := fun v396 v980 => decidable_of_iff' _ (Iff.of_eq (k0_chk146.eq_1 v396 v980))
theorem k0_idx146_inb : ∀ (v396 : IVec S16 32) (v980 : IVec S16 32) (k0_hw146 : k0_chk146 v396 v980), ∀ a x, ((![v980, v396] : Fin 2 → IVec S16 32) a x).toNat < S24x128.size a := fun v396 v980 k0_hw146 => k0_hw146
def k0_off173 (k0_t2 : Fin k0_t2_loop.trips) : Fin 2 → Nat :=
  let c171_i32 : BitVec 32 := 171#32
  let v1082 : Index := Scalar.indexCast c171_i32
  let c0_i32_360 : BitVec 32 := 0#32
  let c1_i32_362 : BitVec 32 := 1#32
  let arg7 : BitVec 32 := Scf.iv c0_i32_360 c1_i32_362 k0_t2
  let c16_i32_561 : BitVec 32 := 16#32
  let v1081 : BitVec 32 := Scalar.muli arg7 c16_i32_561
  let v1083 : Index := Scalar.indexCast v1081
  ![171, v1083.toNat]

def k0_chk147 (v396 : IVec S16 32) (v984 : IVec S16 32) : Prop :=
  (∀ a x, ((![v984, v396] : Fin 2 → IVec S16 32) a x).toNat < S24x128.size a)
instance k0_chk147.dec : ∀ (v396 : IVec S16 32) (v984 : IVec S16 32), Decidable (k0_chk147 v396 v984) := fun v396 v984 => decidable_of_iff' _ (Iff.of_eq (k0_chk147.eq_1 v396 v984))
theorem k0_idx147_inb : ∀ (v396 : IVec S16 32) (v984 : IVec S16 32) (k0_hw147 : k0_chk147 v396 v984), ∀ a x, ((![v984, v396] : Fin 2 → IVec S16 32) a x).toNat < S24x128.size a := fun v396 v984 k0_hw147 => k0_hw147
def k0_off174 (k0_t2 : Fin k0_t2_loop.trips) : Fin 2 → Nat :=
  let c172_i32 : BitVec 32 := 172#32
  let v1086 : Index := Scalar.indexCast c172_i32
  let c0_i32_360 : BitVec 32 := 0#32
  let c1_i32_362 : BitVec 32 := 1#32
  let arg7 : BitVec 32 := Scf.iv c0_i32_360 c1_i32_362 k0_t2
  let c16_i32_562 : BitVec 32 := 16#32
  let v1085 : BitVec 32 := Scalar.muli arg7 c16_i32_562
  let v1087 : Index := Scalar.indexCast v1085
  ![172, v1087.toNat]

def k0_chk148 (v396 : IVec S16 32) (v988 : IVec S16 32) : Prop :=
  (∀ a x, ((![v988, v396] : Fin 2 → IVec S16 32) a x).toNat < S24x128.size a)
instance k0_chk148.dec : ∀ (v396 : IVec S16 32) (v988 : IVec S16 32), Decidable (k0_chk148 v396 v988) := fun v396 v988 => decidable_of_iff' _ (Iff.of_eq (k0_chk148.eq_1 v396 v988))
theorem k0_idx148_inb : ∀ (v396 : IVec S16 32) (v988 : IVec S16 32) (k0_hw148 : k0_chk148 v396 v988), ∀ a x, ((![v988, v396] : Fin 2 → IVec S16 32) a x).toNat < S24x128.size a := fun v396 v988 k0_hw148 => k0_hw148
def k0_off175 (k0_t2 : Fin k0_t2_loop.trips) : Fin 2 → Nat :=
  let c173_i32 : BitVec 32 := 173#32
  let v1090 : Index := Scalar.indexCast c173_i32
  let c0_i32_360 : BitVec 32 := 0#32
  let c1_i32_362 : BitVec 32 := 1#32
  let arg7 : BitVec 32 := Scf.iv c0_i32_360 c1_i32_362 k0_t2
  let c16_i32_563 : BitVec 32 := 16#32
  let v1089 : BitVec 32 := Scalar.muli arg7 c16_i32_563
  let v1091 : Index := Scalar.indexCast v1089
  ![173, v1091.toNat]

def k0_chk149 (v396 : IVec S16 32) (v992 : IVec S16 32) : Prop :=
  (∀ a x, ((![v992, v396] : Fin 2 → IVec S16 32) a x).toNat < S24x128.size a)
instance k0_chk149.dec : ∀ (v396 : IVec S16 32) (v992 : IVec S16 32), Decidable (k0_chk149 v396 v992) := fun v396 v992 => decidable_of_iff' _ (Iff.of_eq (k0_chk149.eq_1 v396 v992))
theorem k0_idx149_inb : ∀ (v396 : IVec S16 32) (v992 : IVec S16 32) (k0_hw149 : k0_chk149 v396 v992), ∀ a x, ((![v992, v396] : Fin 2 → IVec S16 32) a x).toNat < S24x128.size a := fun v396 v992 k0_hw149 => k0_hw149
def k0_off176 (k0_t2 : Fin k0_t2_loop.trips) : Fin 2 → Nat :=
  let c174_i32 : BitVec 32 := 174#32
  let v1094 : Index := Scalar.indexCast c174_i32
  let c0_i32_360 : BitVec 32 := 0#32
  let c1_i32_362 : BitVec 32 := 1#32
  let arg7 : BitVec 32 := Scf.iv c0_i32_360 c1_i32_362 k0_t2
  let c16_i32_564 : BitVec 32 := 16#32
  let v1093 : BitVec 32 := Scalar.muli arg7 c16_i32_564
  let v1095 : Index := Scalar.indexCast v1093
  ![174, v1095.toNat]

def k0_chk150 (v396 : IVec S16 32) (v996 : IVec S16 32) : Prop :=
  (∀ a x, ((![v996, v396] : Fin 2 → IVec S16 32) a x).toNat < S24x128.size a)
instance k0_chk150.dec : ∀ (v396 : IVec S16 32) (v996 : IVec S16 32), Decidable (k0_chk150 v396 v996) := fun v396 v996 => decidable_of_iff' _ (Iff.of_eq (k0_chk150.eq_1 v396 v996))
theorem k0_idx150_inb : ∀ (v396 : IVec S16 32) (v996 : IVec S16 32) (k0_hw150 : k0_chk150 v396 v996), ∀ a x, ((![v996, v396] : Fin 2 → IVec S16 32) a x).toNat < S24x128.size a := fun v396 v996 k0_hw150 => k0_hw150
def k0_off177 (k0_t2 : Fin k0_t2_loop.trips) : Fin 2 → Nat :=
  let c175_i32 : BitVec 32 := 175#32
  let v1098 : Index := Scalar.indexCast c175_i32
  let c0_i32_360 : BitVec 32 := 0#32
  let c1_i32_362 : BitVec 32 := 1#32
  let arg7 : BitVec 32 := Scf.iv c0_i32_360 c1_i32_362 k0_t2
  let c16_i32_565 : BitVec 32 := 16#32
  let v1097 : BitVec 32 := Scalar.muli arg7 c16_i32_565
  let v1099 : Index := Scalar.indexCast v1097
  ![175, v1099.toNat]

def k0_chk151 (v396 : IVec S16 32) (v1000 : IVec S16 32) : Prop :=
  (∀ a x, ((![v1000, v396] : Fin 2 → IVec S16 32) a x).toNat < S24x128.size a)
instance k0_chk151.dec : ∀ (v396 : IVec S16 32) (v1000 : IVec S16 32), Decidable (k0_chk151 v396 v1000) := fun v396 v1000 => decidable_of_iff' _ (Iff.of_eq (k0_chk151.eq_1 v396 v1000))
theorem k0_idx151_inb : ∀ (v396 : IVec S16 32) (v1000 : IVec S16 32) (k0_hw151 : k0_chk151 v396 v1000), ∀ a x, ((![v1000, v396] : Fin 2 → IVec S16 32) a x).toNat < S24x128.size a := fun v396 v1000 k0_hw151 => k0_hw151
def k0_off178 (k0_t2 : Fin k0_t2_loop.trips) : Fin 2 → Nat :=
  let c176_i32 : BitVec 32 := 176#32
  let v1102 : Index := Scalar.indexCast c176_i32
  let c0_i32_360 : BitVec 32 := 0#32
  let c1_i32_362 : BitVec 32 := 1#32
  let arg7 : BitVec 32 := Scf.iv c0_i32_360 c1_i32_362 k0_t2
  let c16_i32_566 : BitVec 32 := 16#32
  let v1101 : BitVec 32 := Scalar.muli arg7 c16_i32_566
  let v1103 : Index := Scalar.indexCast v1101
  ![176, v1103.toNat]

def k0_chk152 (v396 : IVec S16 32) (v1004 : IVec S16 32) : Prop :=
  (∀ a x, ((![v1004, v396] : Fin 2 → IVec S16 32) a x).toNat < S24x128.size a)
instance k0_chk152.dec : ∀ (v396 : IVec S16 32) (v1004 : IVec S16 32), Decidable (k0_chk152 v396 v1004) := fun v396 v1004 => decidable_of_iff' _ (Iff.of_eq (k0_chk152.eq_1 v396 v1004))
theorem k0_idx152_inb : ∀ (v396 : IVec S16 32) (v1004 : IVec S16 32) (k0_hw152 : k0_chk152 v396 v1004), ∀ a x, ((![v1004, v396] : Fin 2 → IVec S16 32) a x).toNat < S24x128.size a := fun v396 v1004 k0_hw152 => k0_hw152
def k0_off179 (k0_t2 : Fin k0_t2_loop.trips) : Fin 2 → Nat :=
  let c177_i32 : BitVec 32 := 177#32
  let v1106 : Index := Scalar.indexCast c177_i32
  let c0_i32_360 : BitVec 32 := 0#32
  let c1_i32_362 : BitVec 32 := 1#32
  let arg7 : BitVec 32 := Scf.iv c0_i32_360 c1_i32_362 k0_t2
  let c16_i32_567 : BitVec 32 := 16#32
  let v1105 : BitVec 32 := Scalar.muli arg7 c16_i32_567
  let v1107 : Index := Scalar.indexCast v1105
  ![177, v1107.toNat]

def k0_chk153 (v396 : IVec S16 32) (v1008 : IVec S16 32) : Prop :=
  (∀ a x, ((![v1008, v396] : Fin 2 → IVec S16 32) a x).toNat < S24x128.size a)
instance k0_chk153.dec : ∀ (v396 : IVec S16 32) (v1008 : IVec S16 32), Decidable (k0_chk153 v396 v1008) := fun v396 v1008 => decidable_of_iff' _ (Iff.of_eq (k0_chk153.eq_1 v396 v1008))
theorem k0_idx153_inb : ∀ (v396 : IVec S16 32) (v1008 : IVec S16 32) (k0_hw153 : k0_chk153 v396 v1008), ∀ a x, ((![v1008, v396] : Fin 2 → IVec S16 32) a x).toNat < S24x128.size a := fun v396 v1008 k0_hw153 => k0_hw153
def k0_off180 (k0_t2 : Fin k0_t2_loop.trips) : Fin 2 → Nat :=
  let c178_i32 : BitVec 32 := 178#32
  let v1110 : Index := Scalar.indexCast c178_i32
  let c0_i32_360 : BitVec 32 := 0#32
  let c1_i32_362 : BitVec 32 := 1#32
  let arg7 : BitVec 32 := Scf.iv c0_i32_360 c1_i32_362 k0_t2
  let c16_i32_568 : BitVec 32 := 16#32
  let v1109 : BitVec 32 := Scalar.muli arg7 c16_i32_568
  let v1111 : Index := Scalar.indexCast v1109
  ![178, v1111.toNat]

def k0_chk154 (v396 : IVec S16 32) (v1012 : IVec S16 32) : Prop :=
  (∀ a x, ((![v1012, v396] : Fin 2 → IVec S16 32) a x).toNat < S24x128.size a)
instance k0_chk154.dec : ∀ (v396 : IVec S16 32) (v1012 : IVec S16 32), Decidable (k0_chk154 v396 v1012) := fun v396 v1012 => decidable_of_iff' _ (Iff.of_eq (k0_chk154.eq_1 v396 v1012))
theorem k0_idx154_inb : ∀ (v396 : IVec S16 32) (v1012 : IVec S16 32) (k0_hw154 : k0_chk154 v396 v1012), ∀ a x, ((![v1012, v396] : Fin 2 → IVec S16 32) a x).toNat < S24x128.size a := fun v396 v1012 k0_hw154 => k0_hw154
def k0_off181 (k0_t2 : Fin k0_t2_loop.trips) : Fin 2 → Nat :=
  let c179_i32 : BitVec 32 := 179#32
  let v1114 : Index := Scalar.indexCast c179_i32
  let c0_i32_360 : BitVec 32 := 0#32
  let c1_i32_362 : BitVec 32 := 1#32
  let arg7 : BitVec 32 := Scf.iv c0_i32_360 c1_i32_362 k0_t2
  let c16_i32_569 : BitVec 32 := 16#32
  let v1113 : BitVec 32 := Scalar.muli arg7 c16_i32_569
  let v1115 : Index := Scalar.indexCast v1113
  ![179, v1115.toNat]

def k0_chk155 (v396 : IVec S16 32) (v1016 : IVec S16 32) : Prop :=
  (∀ a x, ((![v1016, v396] : Fin 2 → IVec S16 32) a x).toNat < S24x128.size a)
instance k0_chk155.dec : ∀ (v396 : IVec S16 32) (v1016 : IVec S16 32), Decidable (k0_chk155 v396 v1016) := fun v396 v1016 => decidable_of_iff' _ (Iff.of_eq (k0_chk155.eq_1 v396 v1016))
theorem k0_idx155_inb : ∀ (v396 : IVec S16 32) (v1016 : IVec S16 32) (k0_hw155 : k0_chk155 v396 v1016), ∀ a x, ((![v1016, v396] : Fin 2 → IVec S16 32) a x).toNat < S24x128.size a := fun v396 v1016 k0_hw155 => k0_hw155
def k0_off182 (k0_t2 : Fin k0_t2_loop.trips) : Fin 2 → Nat :=
  let c180_i32 : BitVec 32 := 180#32
  let v1118 : Index := Scalar.indexCast c180_i32
  let c0_i32_360 : BitVec 32 := 0#32
  let c1_i32_362 : BitVec 32 := 1#32
  let arg7 : BitVec 32 := Scf.iv c0_i32_360 c1_i32_362 k0_t2
  let c16_i32_570 : BitVec 32 := 16#32
  let v1117 : BitVec 32 := Scalar.muli arg7 c16_i32_570
  let v1119 : Index := Scalar.indexCast v1117
  ![180, v1119.toNat]

def k0_chk156 (v396 : IVec S16 32) (v1020 : IVec S16 32) : Prop :=
  (∀ a x, ((![v1020, v396] : Fin 2 → IVec S16 32) a x).toNat < S24x128.size a)
instance k0_chk156.dec : ∀ (v396 : IVec S16 32) (v1020 : IVec S16 32), Decidable (k0_chk156 v396 v1020) := fun v396 v1020 => decidable_of_iff' _ (Iff.of_eq (k0_chk156.eq_1 v396 v1020))
theorem k0_idx156_inb : ∀ (v396 : IVec S16 32) (v1020 : IVec S16 32) (k0_hw156 : k0_chk156 v396 v1020), ∀ a x, ((![v1020, v396] : Fin 2 → IVec S16 32) a x).toNat < S24x128.size a := fun v396 v1020 k0_hw156 => k0_hw156
def k0_off183 (k0_t2 : Fin k0_t2_loop.trips) : Fin 2 → Nat :=
  let c181_i32 : BitVec 32 := 181#32
  let v1122 : Index := Scalar.indexCast c181_i32
  let c0_i32_360 : BitVec 32 := 0#32
  let c1_i32_362 : BitVec 32 := 1#32
  let arg7 : BitVec 32 := Scf.iv c0_i32_360 c1_i32_362 k0_t2
  let c16_i32_571 : BitVec 32 := 16#32
  let v1121 : BitVec 32 := Scalar.muli arg7 c16_i32_571
  let v1123 : Index := Scalar.indexCast v1121
  ![181, v1123.toNat]

def k0_chk157 (v396 : IVec S16 32) (v1024 : IVec S16 32) : Prop :=
  (∀ a x, ((![v1024, v396] : Fin 2 → IVec S16 32) a x).toNat < S24x128.size a)
instance k0_chk157.dec : ∀ (v396 : IVec S16 32) (v1024 : IVec S16 32), Decidable (k0_chk157 v396 v1024) := fun v396 v1024 => decidable_of_iff' _ (Iff.of_eq (k0_chk157.eq_1 v396 v1024))
theorem k0_idx157_inb : ∀ (v396 : IVec S16 32) (v1024 : IVec S16 32) (k0_hw157 : k0_chk157 v396 v1024), ∀ a x, ((![v1024, v396] : Fin 2 → IVec S16 32) a x).toNat < S24x128.size a := fun v396 v1024 k0_hw157 => k0_hw157
def k0_off184 (k0_t2 : Fin k0_t2_loop.trips) : Fin 2 → Nat :=
  let c182_i32 : BitVec 32 := 182#32
  let v1126 : Index := Scalar.indexCast c182_i32
  let c0_i32_360 : BitVec 32 := 0#32
  let c1_i32_362 : BitVec 32 := 1#32
  let arg7 : BitVec 32 := Scf.iv c0_i32_360 c1_i32_362 k0_t2
  let c16_i32_572 : BitVec 32 := 16#32
  let v1125 : BitVec 32 := Scalar.muli arg7 c16_i32_572
  let v1127 : Index := Scalar.indexCast v1125
  ![182, v1127.toNat]

def k0_chk158 (v396 : IVec S16 32) (v1028 : IVec S16 32) : Prop :=
  (∀ a x, ((![v1028, v396] : Fin 2 → IVec S16 32) a x).toNat < S24x128.size a)
instance k0_chk158.dec : ∀ (v396 : IVec S16 32) (v1028 : IVec S16 32), Decidable (k0_chk158 v396 v1028) := fun v396 v1028 => decidable_of_iff' _ (Iff.of_eq (k0_chk158.eq_1 v396 v1028))
theorem k0_idx158_inb : ∀ (v396 : IVec S16 32) (v1028 : IVec S16 32) (k0_hw158 : k0_chk158 v396 v1028), ∀ a x, ((![v1028, v396] : Fin 2 → IVec S16 32) a x).toNat < S24x128.size a := fun v396 v1028 k0_hw158 => k0_hw158
def k0_off185 (k0_t2 : Fin k0_t2_loop.trips) : Fin 2 → Nat :=
  let c183_i32 : BitVec 32 := 183#32
  let v1130 : Index := Scalar.indexCast c183_i32
  let c0_i32_360 : BitVec 32 := 0#32
  let c1_i32_362 : BitVec 32 := 1#32
  let arg7 : BitVec 32 := Scf.iv c0_i32_360 c1_i32_362 k0_t2
  let c16_i32_573 : BitVec 32 := 16#32
  let v1129 : BitVec 32 := Scalar.muli arg7 c16_i32_573
  let v1131 : Index := Scalar.indexCast v1129
  ![183, v1131.toNat]

def k0_chk159 (v396 : IVec S16 32) (v1032 : IVec S16 32) : Prop :=
  (∀ a x, ((![v1032, v396] : Fin 2 → IVec S16 32) a x).toNat < S24x128.size a)
instance k0_chk159.dec : ∀ (v396 : IVec S16 32) (v1032 : IVec S16 32), Decidable (k0_chk159 v396 v1032) := fun v396 v1032 => decidable_of_iff' _ (Iff.of_eq (k0_chk159.eq_1 v396 v1032))
theorem k0_idx159_inb : ∀ (v396 : IVec S16 32) (v1032 : IVec S16 32) (k0_hw159 : k0_chk159 v396 v1032), ∀ a x, ((![v1032, v396] : Fin 2 → IVec S16 32) a x).toNat < S24x128.size a := fun v396 v1032 k0_hw159 => k0_hw159
def k0_off186 (k0_t2 : Fin k0_t2_loop.trips) : Fin 2 → Nat :=
  let c184_i32 : BitVec 32 := 184#32
  let v1134 : Index := Scalar.indexCast c184_i32
  let c0_i32_360 : BitVec 32 := 0#32
  let c1_i32_362 : BitVec 32 := 1#32
  let arg7 : BitVec 32 := Scf.iv c0_i32_360 c1_i32_362 k0_t2
  let c16_i32_574 : BitVec 32 := 16#32
  let v1133 : BitVec 32 := Scalar.muli arg7 c16_i32_574
  let v1135 : Index := Scalar.indexCast v1133
  ![184, v1135.toNat]

def k0_chk160 (v396 : IVec S16 32) (v1036 : IVec S16 32) : Prop :=
  (∀ a x, ((![v1036, v396] : Fin 2 → IVec S16 32) a x).toNat < S24x128.size a)
instance k0_chk160.dec : ∀ (v396 : IVec S16 32) (v1036 : IVec S16 32), Decidable (k0_chk160 v396 v1036) := fun v396 v1036 => decidable_of_iff' _ (Iff.of_eq (k0_chk160.eq_1 v396 v1036))
theorem k0_idx160_inb : ∀ (v396 : IVec S16 32) (v1036 : IVec S16 32) (k0_hw160 : k0_chk160 v396 v1036), ∀ a x, ((![v1036, v396] : Fin 2 → IVec S16 32) a x).toNat < S24x128.size a := fun v396 v1036 k0_hw160 => k0_hw160
def k0_off187 (k0_t2 : Fin k0_t2_loop.trips) : Fin 2 → Nat :=
  let c185_i32 : BitVec 32 := 185#32
  let v1138 : Index := Scalar.indexCast c185_i32
  let c0_i32_360 : BitVec 32 := 0#32
  let c1_i32_362 : BitVec 32 := 1#32
  let arg7 : BitVec 32 := Scf.iv c0_i32_360 c1_i32_362 k0_t2
  let c16_i32_575 : BitVec 32 := 16#32
  let v1137 : BitVec 32 := Scalar.muli arg7 c16_i32_575
  let v1139 : Index := Scalar.indexCast v1137
  ![185, v1139.toNat]

def k0_chk161 (v396 : IVec S16 32) (v1040 : IVec S16 32) : Prop :=
  (∀ a x, ((![v1040, v396] : Fin 2 → IVec S16 32) a x).toNat < S24x128.size a)
instance k0_chk161.dec : ∀ (v396 : IVec S16 32) (v1040 : IVec S16 32), Decidable (k0_chk161 v396 v1040) := fun v396 v1040 => decidable_of_iff' _ (Iff.of_eq (k0_chk161.eq_1 v396 v1040))
theorem k0_idx161_inb : ∀ (v396 : IVec S16 32) (v1040 : IVec S16 32) (k0_hw161 : k0_chk161 v396 v1040), ∀ a x, ((![v1040, v396] : Fin 2 → IVec S16 32) a x).toNat < S24x128.size a := fun v396 v1040 k0_hw161 => k0_hw161
def k0_off188 (k0_t2 : Fin k0_t2_loop.trips) : Fin 2 → Nat :=
  let c186_i32 : BitVec 32 := 186#32
  let v1142 : Index := Scalar.indexCast c186_i32
  let c0_i32_360 : BitVec 32 := 0#32
  let c1_i32_362 : BitVec 32 := 1#32
  let arg7 : BitVec 32 := Scf.iv c0_i32_360 c1_i32_362 k0_t2
  let c16_i32_576 : BitVec 32 := 16#32
  let v1141 : BitVec 32 := Scalar.muli arg7 c16_i32_576
  let v1143 : Index := Scalar.indexCast v1141
  ![186, v1143.toNat]

def k0_chk162 (v396 : IVec S16 32) (v1044 : IVec S16 32) : Prop :=
  (∀ a x, ((![v1044, v396] : Fin 2 → IVec S16 32) a x).toNat < S24x128.size a)
instance k0_chk162.dec : ∀ (v396 : IVec S16 32) (v1044 : IVec S16 32), Decidable (k0_chk162 v396 v1044) := fun v396 v1044 => decidable_of_iff' _ (Iff.of_eq (k0_chk162.eq_1 v396 v1044))
theorem k0_idx162_inb : ∀ (v396 : IVec S16 32) (v1044 : IVec S16 32) (k0_hw162 : k0_chk162 v396 v1044), ∀ a x, ((![v1044, v396] : Fin 2 → IVec S16 32) a x).toNat < S24x128.size a := fun v396 v1044 k0_hw162 => k0_hw162
def k0_off189 (k0_t2 : Fin k0_t2_loop.trips) : Fin 2 → Nat :=
  let c187_i32 : BitVec 32 := 187#32
  let v1146 : Index := Scalar.indexCast c187_i32
  let c0_i32_360 : BitVec 32 := 0#32
  let c1_i32_362 : BitVec 32 := 1#32
  let arg7 : BitVec 32 := Scf.iv c0_i32_360 c1_i32_362 k0_t2
  let c16_i32_577 : BitVec 32 := 16#32
  let v1145 : BitVec 32 := Scalar.muli arg7 c16_i32_577
  let v1147 : Index := Scalar.indexCast v1145
  ![187, v1147.toNat]

def k0_chk163 (v396 : IVec S16 32) (v1048 : IVec S16 32) : Prop :=
  (∀ a x, ((![v1048, v396] : Fin 2 → IVec S16 32) a x).toNat < S24x128.size a)
instance k0_chk163.dec : ∀ (v396 : IVec S16 32) (v1048 : IVec S16 32), Decidable (k0_chk163 v396 v1048) := fun v396 v1048 => decidable_of_iff' _ (Iff.of_eq (k0_chk163.eq_1 v396 v1048))
theorem k0_idx163_inb : ∀ (v396 : IVec S16 32) (v1048 : IVec S16 32) (k0_hw163 : k0_chk163 v396 v1048), ∀ a x, ((![v1048, v396] : Fin 2 → IVec S16 32) a x).toNat < S24x128.size a := fun v396 v1048 k0_hw163 => k0_hw163
def k0_off190 (k0_t2 : Fin k0_t2_loop.trips) : Fin 2 → Nat :=
  let c188_i32 : BitVec 32 := 188#32
  let v1150 : Index := Scalar.indexCast c188_i32
  let c0_i32_360 : BitVec 32 := 0#32
  let c1_i32_362 : BitVec 32 := 1#32
  let arg7 : BitVec 32 := Scf.iv c0_i32_360 c1_i32_362 k0_t2
  let c16_i32_578 : BitVec 32 := 16#32
  let v1149 : BitVec 32 := Scalar.muli arg7 c16_i32_578
  let v1151 : Index := Scalar.indexCast v1149
  ![188, v1151.toNat]

def k0_chk164 (v396 : IVec S16 32) (v1052 : IVec S16 32) : Prop :=
  (∀ a x, ((![v1052, v396] : Fin 2 → IVec S16 32) a x).toNat < S24x128.size a)
instance k0_chk164.dec : ∀ (v396 : IVec S16 32) (v1052 : IVec S16 32), Decidable (k0_chk164 v396 v1052) := fun v396 v1052 => decidable_of_iff' _ (Iff.of_eq (k0_chk164.eq_1 v396 v1052))
theorem k0_idx164_inb : ∀ (v396 : IVec S16 32) (v1052 : IVec S16 32) (k0_hw164 : k0_chk164 v396 v1052), ∀ a x, ((![v1052, v396] : Fin 2 → IVec S16 32) a x).toNat < S24x128.size a := fun v396 v1052 k0_hw164 => k0_hw164
def k0_off191 (k0_t2 : Fin k0_t2_loop.trips) : Fin 2 → Nat :=
  let c189_i32 : BitVec 32 := 189#32
  let v1154 : Index := Scalar.indexCast c189_i32
  let c0_i32_360 : BitVec 32 := 0#32
  let c1_i32_362 : BitVec 32 := 1#32
  let arg7 : BitVec 32 := Scf.iv c0_i32_360 c1_i32_362 k0_t2
  let c16_i32_579 : BitVec 32 := 16#32
  let v1153 : BitVec 32 := Scalar.muli arg7 c16_i32_579
  let v1155 : Index := Scalar.indexCast v1153
  ![189, v1155.toNat]

def k0_chk165 (v396 : IVec S16 32) (v1056 : IVec S16 32) : Prop :=
  (∀ a x, ((![v1056, v396] : Fin 2 → IVec S16 32) a x).toNat < S24x128.size a)
instance k0_chk165.dec : ∀ (v396 : IVec S16 32) (v1056 : IVec S16 32), Decidable (k0_chk165 v396 v1056) := fun v396 v1056 => decidable_of_iff' _ (Iff.of_eq (k0_chk165.eq_1 v396 v1056))
theorem k0_idx165_inb : ∀ (v396 : IVec S16 32) (v1056 : IVec S16 32) (k0_hw165 : k0_chk165 v396 v1056), ∀ a x, ((![v1056, v396] : Fin 2 → IVec S16 32) a x).toNat < S24x128.size a := fun v396 v1056 k0_hw165 => k0_hw165
def k0_off192 (k0_t2 : Fin k0_t2_loop.trips) : Fin 2 → Nat :=
  let c190_i32 : BitVec 32 := 190#32
  let v1158 : Index := Scalar.indexCast c190_i32
  let c0_i32_360 : BitVec 32 := 0#32
  let c1_i32_362 : BitVec 32 := 1#32
  let arg7 : BitVec 32 := Scf.iv c0_i32_360 c1_i32_362 k0_t2
  let c16_i32_580 : BitVec 32 := 16#32
  let v1157 : BitVec 32 := Scalar.muli arg7 c16_i32_580
  let v1159 : Index := Scalar.indexCast v1157
  ![190, v1159.toNat]

def k0_chk166 (v396 : IVec S16 32) (v1060 : IVec S16 32) : Prop :=
  (∀ a x, ((![v1060, v396] : Fin 2 → IVec S16 32) a x).toNat < S24x128.size a)
instance k0_chk166.dec : ∀ (v396 : IVec S16 32) (v1060 : IVec S16 32), Decidable (k0_chk166 v396 v1060) := fun v396 v1060 => decidable_of_iff' _ (Iff.of_eq (k0_chk166.eq_1 v396 v1060))
theorem k0_idx166_inb : ∀ (v396 : IVec S16 32) (v1060 : IVec S16 32) (k0_hw166 : k0_chk166 v396 v1060), ∀ a x, ((![v1060, v396] : Fin 2 → IVec S16 32) a x).toNat < S24x128.size a := fun v396 v1060 k0_hw166 => k0_hw166
def k0_off193 (k0_t2 : Fin k0_t2_loop.trips) : Fin 2 → Nat :=
  let c191_i32 : BitVec 32 := 191#32
  let v1162 : Index := Scalar.indexCast c191_i32
  let c0_i32_360 : BitVec 32 := 0#32
  let c1_i32_362 : BitVec 32 := 1#32
  let arg7 : BitVec 32 := Scf.iv c0_i32_360 c1_i32_362 k0_t2
  let c16_i32_581 : BitVec 32 := 16#32
  let v1161 : BitVec 32 := Scalar.muli arg7 c16_i32_581
  let v1163 : Index := Scalar.indexCast v1161
  ![191, v1163.toNat]

def k0_chk167 (v396 : IVec S16 32) (v1064 : IVec S16 32) : Prop :=
  (∀ a x, ((![v1064, v396] : Fin 2 → IVec S16 32) a x).toNat < S24x128.size a)
instance k0_chk167.dec : ∀ (v396 : IVec S16 32) (v1064 : IVec S16 32), Decidable (k0_chk167 v396 v1064) := fun v396 v1064 => decidable_of_iff' _ (Iff.of_eq (k0_chk167.eq_1 v396 v1064))
theorem k0_idx167_inb : ∀ (v396 : IVec S16 32) (v1064 : IVec S16 32) (k0_hw167 : k0_chk167 v396 v1064), ∀ a x, ((![v1064, v396] : Fin 2 → IVec S16 32) a x).toNat < S24x128.size a := fun v396 v1064 k0_hw167 => k0_hw167
def k0_off194 (k0_t2 : Fin k0_t2_loop.trips) : Fin 2 → Nat :=
  let c192_i32 : BitVec 32 := 192#32
  let v1166 : Index := Scalar.indexCast c192_i32
  let c0_i32_360 : BitVec 32 := 0#32
  let c1_i32_362 : BitVec 32 := 1#32
  let arg7 : BitVec 32 := Scf.iv c0_i32_360 c1_i32_362 k0_t2
  let c16_i32_582 : BitVec 32 := 16#32
  let v1165 : BitVec 32 := Scalar.muli arg7 c16_i32_582
  let v1167 : Index := Scalar.indexCast v1165
  ![192, v1167.toNat]

def k0_chk168 (v396 : IVec S16 32) (v1068 : IVec S16 32) : Prop :=
  (∀ a x, ((![v1068, v396] : Fin 2 → IVec S16 32) a x).toNat < S24x128.size a)
instance k0_chk168.dec : ∀ (v396 : IVec S16 32) (v1068 : IVec S16 32), Decidable (k0_chk168 v396 v1068) := fun v396 v1068 => decidable_of_iff' _ (Iff.of_eq (k0_chk168.eq_1 v396 v1068))
theorem k0_idx168_inb : ∀ (v396 : IVec S16 32) (v1068 : IVec S16 32) (k0_hw168 : k0_chk168 v396 v1068), ∀ a x, ((![v1068, v396] : Fin 2 → IVec S16 32) a x).toNat < S24x128.size a := fun v396 v1068 k0_hw168 => k0_hw168
def k0_off195 (k0_t2 : Fin k0_t2_loop.trips) : Fin 2 → Nat :=
  let c193_i32 : BitVec 32 := 193#32
  let v1170 : Index := Scalar.indexCast c193_i32
  let c0_i32_360 : BitVec 32 := 0#32
  let c1_i32_362 : BitVec 32 := 1#32
  let arg7 : BitVec 32 := Scf.iv c0_i32_360 c1_i32_362 k0_t2
  let c16_i32_583 : BitVec 32 := 16#32
  let v1169 : BitVec 32 := Scalar.muli arg7 c16_i32_583
  let v1171 : Index := Scalar.indexCast v1169
  ![193, v1171.toNat]

def k0_chk169 (v396 : IVec S16 32) (v1072 : IVec S16 32) : Prop :=
  (∀ a x, ((![v1072, v396] : Fin 2 → IVec S16 32) a x).toNat < S24x128.size a)
instance k0_chk169.dec : ∀ (v396 : IVec S16 32) (v1072 : IVec S16 32), Decidable (k0_chk169 v396 v1072) := fun v396 v1072 => decidable_of_iff' _ (Iff.of_eq (k0_chk169.eq_1 v396 v1072))
theorem k0_idx169_inb : ∀ (v396 : IVec S16 32) (v1072 : IVec S16 32) (k0_hw169 : k0_chk169 v396 v1072), ∀ a x, ((![v1072, v396] : Fin 2 → IVec S16 32) a x).toNat < S24x128.size a := fun v396 v1072 k0_hw169 => k0_hw169
def k0_off196 (k0_t2 : Fin k0_t2_loop.trips) : Fin 2 → Nat :=
  let c194_i32 : BitVec 32 := 194#32
  let v1174 : Index := Scalar.indexCast c194_i32
  let c0_i32_360 : BitVec 32 := 0#32
  let c1_i32_362 : BitVec 32 := 1#32
  let arg7 : BitVec 32 := Scf.iv c0_i32_360 c1_i32_362 k0_t2
  let c16_i32_584 : BitVec 32 := 16#32
  let v1173 : BitVec 32 := Scalar.muli arg7 c16_i32_584
  let v1175 : Index := Scalar.indexCast v1173
  ![194, v1175.toNat]

def k0_chk170 (v396 : IVec S16 32) (v1076 : IVec S16 32) : Prop :=
  (∀ a x, ((![v1076, v396] : Fin 2 → IVec S16 32) a x).toNat < S24x128.size a)
instance k0_chk170.dec : ∀ (v396 : IVec S16 32) (v1076 : IVec S16 32), Decidable (k0_chk170 v396 v1076) := fun v396 v1076 => decidable_of_iff' _ (Iff.of_eq (k0_chk170.eq_1 v396 v1076))
theorem k0_idx170_inb : ∀ (v396 : IVec S16 32) (v1076 : IVec S16 32) (k0_hw170 : k0_chk170 v396 v1076), ∀ a x, ((![v1076, v396] : Fin 2 → IVec S16 32) a x).toNat < S24x128.size a := fun v396 v1076 k0_hw170 => k0_hw170
def k0_off197 (k0_t2 : Fin k0_t2_loop.trips) : Fin 2 → Nat :=
  let c195_i32 : BitVec 32 := 195#32
  let v1178 : Index := Scalar.indexCast c195_i32
  let c0_i32_360 : BitVec 32 := 0#32
  let c1_i32_362 : BitVec 32 := 1#32
  let arg7 : BitVec 32 := Scf.iv c0_i32_360 c1_i32_362 k0_t2
  let c16_i32_585 : BitVec 32 := 16#32
  let v1177 : BitVec 32 := Scalar.muli arg7 c16_i32_585
  let v1179 : Index := Scalar.indexCast v1177
  ![195, v1179.toNat]

def k0_chk171 (v396 : IVec S16 32) (v1080 : IVec S16 32) : Prop :=
  (∀ a x, ((![v1080, v396] : Fin 2 → IVec S16 32) a x).toNat < S24x128.size a)
instance k0_chk171.dec : ∀ (v396 : IVec S16 32) (v1080 : IVec S16 32), Decidable (k0_chk171 v396 v1080) := fun v396 v1080 => decidable_of_iff' _ (Iff.of_eq (k0_chk171.eq_1 v396 v1080))
theorem k0_idx171_inb : ∀ (v396 : IVec S16 32) (v1080 : IVec S16 32) (k0_hw171 : k0_chk171 v396 v1080), ∀ a x, ((![v1080, v396] : Fin 2 → IVec S16 32) a x).toNat < S24x128.size a := fun v396 v1080 k0_hw171 => k0_hw171
def k0_off198 (k0_t2 : Fin k0_t2_loop.trips) : Fin 2 → Nat :=
  let c196_i32 : BitVec 32 := 196#32
  let v1182 : Index := Scalar.indexCast c196_i32
  let c0_i32_360 : BitVec 32 := 0#32
  let c1_i32_362 : BitVec 32 := 1#32
  let arg7 : BitVec 32 := Scf.iv c0_i32_360 c1_i32_362 k0_t2
  let c16_i32_586 : BitVec 32 := 16#32
  let v1181 : BitVec 32 := Scalar.muli arg7 c16_i32_586
  let v1183 : Index := Scalar.indexCast v1181
  ![196, v1183.toNat]

def k0_chk172 (v396 : IVec S16 32) (v1084 : IVec S16 32) : Prop :=
  (∀ a x, ((![v1084, v396] : Fin 2 → IVec S16 32) a x).toNat < S24x128.size a)
instance k0_chk172.dec : ∀ (v396 : IVec S16 32) (v1084 : IVec S16 32), Decidable (k0_chk172 v396 v1084) := fun v396 v1084 => decidable_of_iff' _ (Iff.of_eq (k0_chk172.eq_1 v396 v1084))
theorem k0_idx172_inb : ∀ (v396 : IVec S16 32) (v1084 : IVec S16 32) (k0_hw172 : k0_chk172 v396 v1084), ∀ a x, ((![v1084, v396] : Fin 2 → IVec S16 32) a x).toNat < S24x128.size a := fun v396 v1084 k0_hw172 => k0_hw172
def k0_off199 (k0_t2 : Fin k0_t2_loop.trips) : Fin 2 → Nat :=
  let c197_i32 : BitVec 32 := 197#32
  let v1186 : Index := Scalar.indexCast c197_i32
  let c0_i32_360 : BitVec 32 := 0#32
  let c1_i32_362 : BitVec 32 := 1#32
  let arg7 : BitVec 32 := Scf.iv c0_i32_360 c1_i32_362 k0_t2
  let c16_i32_587 : BitVec 32 := 16#32
  let v1185 : BitVec 32 := Scalar.muli arg7 c16_i32_587
  let v1187 : Index := Scalar.indexCast v1185
  ![197, v1187.toNat]

def k0_chk173 (v396 : IVec S16 32) (v1088 : IVec S16 32) : Prop :=
  (∀ a x, ((![v1088, v396] : Fin 2 → IVec S16 32) a x).toNat < S24x128.size a)
instance k0_chk173.dec : ∀ (v396 : IVec S16 32) (v1088 : IVec S16 32), Decidable (k0_chk173 v396 v1088) := fun v396 v1088 => decidable_of_iff' _ (Iff.of_eq (k0_chk173.eq_1 v396 v1088))
theorem k0_idx173_inb : ∀ (v396 : IVec S16 32) (v1088 : IVec S16 32) (k0_hw173 : k0_chk173 v396 v1088), ∀ a x, ((![v1088, v396] : Fin 2 → IVec S16 32) a x).toNat < S24x128.size a := fun v396 v1088 k0_hw173 => k0_hw173
def k0_off200 (k0_t2 : Fin k0_t2_loop.trips) : Fin 2 → Nat :=
  let c198_i32 : BitVec 32 := 198#32
  let v1190 : Index := Scalar.indexCast c198_i32
  let c0_i32_360 : BitVec 32 := 0#32
  let c1_i32_362 : BitVec 32 := 1#32
  let arg7 : BitVec 32 := Scf.iv c0_i32_360 c1_i32_362 k0_t2
  let c16_i32_588 : BitVec 32 := 16#32
  let v1189 : BitVec 32 := Scalar.muli arg7 c16_i32_588
  let v1191 : Index := Scalar.indexCast v1189
  ![198, v1191.toNat]

def k0_chk174 (v396 : IVec S16 32) (v1092 : IVec S16 32) : Prop :=
  (∀ a x, ((![v1092, v396] : Fin 2 → IVec S16 32) a x).toNat < S24x128.size a)
instance k0_chk174.dec : ∀ (v396 : IVec S16 32) (v1092 : IVec S16 32), Decidable (k0_chk174 v396 v1092) := fun v396 v1092 => decidable_of_iff' _ (Iff.of_eq (k0_chk174.eq_1 v396 v1092))
theorem k0_idx174_inb : ∀ (v396 : IVec S16 32) (v1092 : IVec S16 32) (k0_hw174 : k0_chk174 v396 v1092), ∀ a x, ((![v1092, v396] : Fin 2 → IVec S16 32) a x).toNat < S24x128.size a := fun v396 v1092 k0_hw174 => k0_hw174
def k0_off201 (k0_t2 : Fin k0_t2_loop.trips) : Fin 2 → Nat :=
  let c199_i32 : BitVec 32 := 199#32
  let v1194 : Index := Scalar.indexCast c199_i32
  let c0_i32_360 : BitVec 32 := 0#32
  let c1_i32_362 : BitVec 32 := 1#32
  let arg7 : BitVec 32 := Scf.iv c0_i32_360 c1_i32_362 k0_t2
  let c16_i32_589 : BitVec 32 := 16#32
  let v1193 : BitVec 32 := Scalar.muli arg7 c16_i32_589
  let v1195 : Index := Scalar.indexCast v1193
  ![199, v1195.toNat]

def k0_chk175 (v396 : IVec S16 32) (v1096 : IVec S16 32) : Prop :=
  (∀ a x, ((![v1096, v396] : Fin 2 → IVec S16 32) a x).toNat < S24x128.size a)
instance k0_chk175.dec : ∀ (v396 : IVec S16 32) (v1096 : IVec S16 32), Decidable (k0_chk175 v396 v1096) := fun v396 v1096 => decidable_of_iff' _ (Iff.of_eq (k0_chk175.eq_1 v396 v1096))
theorem k0_idx175_inb : ∀ (v396 : IVec S16 32) (v1096 : IVec S16 32) (k0_hw175 : k0_chk175 v396 v1096), ∀ a x, ((![v1096, v396] : Fin 2 → IVec S16 32) a x).toNat < S24x128.size a := fun v396 v1096 k0_hw175 => k0_hw175

def k0_chk176 (v396 : IVec S16 32) (v1100 : IVec S16 32) : Prop :=
  (∀ a x, ((![v1100, v396] : Fin 2 → IVec S16 32) a x).toNat < S24x128.size a)
instance k0_chk176.dec : ∀ (v396 : IVec S16 32) (v1100 : IVec S16 32), Decidable (k0_chk176 v396 v1100) := fun v396 v1100 => decidable_of_iff' _ (Iff.of_eq (k0_chk176.eq_1 v396 v1100))
theorem k0_idx176_inb : ∀ (v396 : IVec S16 32) (v1100 : IVec S16 32) (k0_hw176 : k0_chk176 v396 v1100), ∀ a x, ((![v1100, v396] : Fin 2 → IVec S16 32) a x).toNat < S24x128.size a := fun v396 v1100 k0_hw176 => k0_hw176

def k0_chk177 (v396 : IVec S16 32) (v1104 : IVec S16 32) : Prop :=
  (∀ a x, ((![v1104, v396] : Fin 2 → IVec S16 32) a x).toNat < S24x128.size a)
instance k0_chk177.dec : ∀ (v396 : IVec S16 32) (v1104 : IVec S16 32), Decidable (k0_chk177 v396 v1104) := fun v396 v1104 => decidable_of_iff' _ (Iff.of_eq (k0_chk177.eq_1 v396 v1104))
theorem k0_idx177_inb : ∀ (v396 : IVec S16 32) (v1104 : IVec S16 32) (k0_hw177 : k0_chk177 v396 v1104), ∀ a x, ((![v1104, v396] : Fin 2 → IVec S16 32) a x).toNat < S24x128.size a := fun v396 v1104 k0_hw177 => k0_hw177

def k0_chk178 (v396 : IVec S16 32) (v1108 : IVec S16 32) : Prop :=
  (∀ a x, ((![v1108, v396] : Fin 2 → IVec S16 32) a x).toNat < S24x128.size a)
instance k0_chk178.dec : ∀ (v396 : IVec S16 32) (v1108 : IVec S16 32), Decidable (k0_chk178 v396 v1108) := fun v396 v1108 => decidable_of_iff' _ (Iff.of_eq (k0_chk178.eq_1 v396 v1108))
theorem k0_idx178_inb : ∀ (v396 : IVec S16 32) (v1108 : IVec S16 32) (k0_hw178 : k0_chk178 v396 v1108), ∀ a x, ((![v1108, v396] : Fin 2 → IVec S16 32) a x).toNat < S24x128.size a := fun v396 v1108 k0_hw178 => k0_hw178

def k0_chk179 (v396 : IVec S16 32) (v1112 : IVec S16 32) : Prop :=
  (∀ a x, ((![v1112, v396] : Fin 2 → IVec S16 32) a x).toNat < S24x128.size a)
instance k0_chk179.dec : ∀ (v396 : IVec S16 32) (v1112 : IVec S16 32), Decidable (k0_chk179 v396 v1112) := fun v396 v1112 => decidable_of_iff' _ (Iff.of_eq (k0_chk179.eq_1 v396 v1112))
theorem k0_idx179_inb : ∀ (v396 : IVec S16 32) (v1112 : IVec S16 32) (k0_hw179 : k0_chk179 v396 v1112), ∀ a x, ((![v1112, v396] : Fin 2 → IVec S16 32) a x).toNat < S24x128.size a := fun v396 v1112 k0_hw179 => k0_hw179

def k0_chk180 (v396 : IVec S16 32) (v1116 : IVec S16 32) : Prop :=
  (∀ a x, ((![v1116, v396] : Fin 2 → IVec S16 32) a x).toNat < S24x128.size a)
instance k0_chk180.dec : ∀ (v396 : IVec S16 32) (v1116 : IVec S16 32), Decidable (k0_chk180 v396 v1116) := fun v396 v1116 => decidable_of_iff' _ (Iff.of_eq (k0_chk180.eq_1 v396 v1116))
theorem k0_idx180_inb : ∀ (v396 : IVec S16 32) (v1116 : IVec S16 32) (k0_hw180 : k0_chk180 v396 v1116), ∀ a x, ((![v1116, v396] : Fin 2 → IVec S16 32) a x).toNat < S24x128.size a := fun v396 v1116 k0_hw180 => k0_hw180

def k0_chk181 (v396 : IVec S16 32) (v1120 : IVec S16 32) : Prop :=
  (∀ a x, ((![v1120, v396] : Fin 2 → IVec S16 32) a x).toNat < S24x128.size a)
instance k0_chk181.dec : ∀ (v396 : IVec S16 32) (v1120 : IVec S16 32), Decidable (k0_chk181 v396 v1120) := fun v396 v1120 => decidable_of_iff' _ (Iff.of_eq (k0_chk181.eq_1 v396 v1120))
theorem k0_idx181_inb : ∀ (v396 : IVec S16 32) (v1120 : IVec S16 32) (k0_hw181 : k0_chk181 v396 v1120), ∀ a x, ((![v1120, v396] : Fin 2 → IVec S16 32) a x).toNat < S24x128.size a := fun v396 v1120 k0_hw181 => k0_hw181

def k0_chk182 (v396 : IVec S16 32) (v1124 : IVec S16 32) : Prop :=
  (∀ a x, ((![v1124, v396] : Fin 2 → IVec S16 32) a x).toNat < S24x128.size a)
instance k0_chk182.dec : ∀ (v396 : IVec S16 32) (v1124 : IVec S16 32), Decidable (k0_chk182 v396 v1124) := fun v396 v1124 => decidable_of_iff' _ (Iff.of_eq (k0_chk182.eq_1 v396 v1124))
theorem k0_idx182_inb : ∀ (v396 : IVec S16 32) (v1124 : IVec S16 32) (k0_hw182 : k0_chk182 v396 v1124), ∀ a x, ((![v1124, v396] : Fin 2 → IVec S16 32) a x).toNat < S24x128.size a := fun v396 v1124 k0_hw182 => k0_hw182

def k0_chk183 (v396 : IVec S16 32) (v1128 : IVec S16 32) : Prop :=
  (∀ a x, ((![v1128, v396] : Fin 2 → IVec S16 32) a x).toNat < S24x128.size a)
instance k0_chk183.dec : ∀ (v396 : IVec S16 32) (v1128 : IVec S16 32), Decidable (k0_chk183 v396 v1128) := fun v396 v1128 => decidable_of_iff' _ (Iff.of_eq (k0_chk183.eq_1 v396 v1128))
theorem k0_idx183_inb : ∀ (v396 : IVec S16 32) (v1128 : IVec S16 32) (k0_hw183 : k0_chk183 v396 v1128), ∀ a x, ((![v1128, v396] : Fin 2 → IVec S16 32) a x).toNat < S24x128.size a := fun v396 v1128 k0_hw183 => k0_hw183

def k0_chk184 (v396 : IVec S16 32) (v1132 : IVec S16 32) : Prop :=
  (∀ a x, ((![v1132, v396] : Fin 2 → IVec S16 32) a x).toNat < S24x128.size a)
instance k0_chk184.dec : ∀ (v396 : IVec S16 32) (v1132 : IVec S16 32), Decidable (k0_chk184 v396 v1132) := fun v396 v1132 => decidable_of_iff' _ (Iff.of_eq (k0_chk184.eq_1 v396 v1132))
theorem k0_idx184_inb : ∀ (v396 : IVec S16 32) (v1132 : IVec S16 32) (k0_hw184 : k0_chk184 v396 v1132), ∀ a x, ((![v1132, v396] : Fin 2 → IVec S16 32) a x).toNat < S24x128.size a := fun v396 v1132 k0_hw184 => k0_hw184

def k0_chk185 (v396 : IVec S16 32) (v1136 : IVec S16 32) : Prop :=
  (∀ a x, ((![v1136, v396] : Fin 2 → IVec S16 32) a x).toNat < S24x128.size a)
instance k0_chk185.dec : ∀ (v396 : IVec S16 32) (v1136 : IVec S16 32), Decidable (k0_chk185 v396 v1136) := fun v396 v1136 => decidable_of_iff' _ (Iff.of_eq (k0_chk185.eq_1 v396 v1136))
theorem k0_idx185_inb : ∀ (v396 : IVec S16 32) (v1136 : IVec S16 32) (k0_hw185 : k0_chk185 v396 v1136), ∀ a x, ((![v1136, v396] : Fin 2 → IVec S16 32) a x).toNat < S24x128.size a := fun v396 v1136 k0_hw185 => k0_hw185

def k0_chk186 (v396 : IVec S16 32) (v1140 : IVec S16 32) : Prop :=
  (∀ a x, ((![v1140, v396] : Fin 2 → IVec S16 32) a x).toNat < S24x128.size a)
instance k0_chk186.dec : ∀ (v396 : IVec S16 32) (v1140 : IVec S16 32), Decidable (k0_chk186 v396 v1140) := fun v396 v1140 => decidable_of_iff' _ (Iff.of_eq (k0_chk186.eq_1 v396 v1140))
theorem k0_idx186_inb : ∀ (v396 : IVec S16 32) (v1140 : IVec S16 32) (k0_hw186 : k0_chk186 v396 v1140), ∀ a x, ((![v1140, v396] : Fin 2 → IVec S16 32) a x).toNat < S24x128.size a := fun v396 v1140 k0_hw186 => k0_hw186

def k0_chk187 (v396 : IVec S16 32) (v1144 : IVec S16 32) : Prop :=
  (∀ a x, ((![v1144, v396] : Fin 2 → IVec S16 32) a x).toNat < S24x128.size a)
instance k0_chk187.dec : ∀ (v396 : IVec S16 32) (v1144 : IVec S16 32), Decidable (k0_chk187 v396 v1144) := fun v396 v1144 => decidable_of_iff' _ (Iff.of_eq (k0_chk187.eq_1 v396 v1144))
theorem k0_idx187_inb : ∀ (v396 : IVec S16 32) (v1144 : IVec S16 32) (k0_hw187 : k0_chk187 v396 v1144), ∀ a x, ((![v1144, v396] : Fin 2 → IVec S16 32) a x).toNat < S24x128.size a := fun v396 v1144 k0_hw187 => k0_hw187

def k0_chk188 (v396 : IVec S16 32) (v1148 : IVec S16 32) : Prop :=
  (∀ a x, ((![v1148, v396] : Fin 2 → IVec S16 32) a x).toNat < S24x128.size a)
instance k0_chk188.dec : ∀ (v396 : IVec S16 32) (v1148 : IVec S16 32), Decidable (k0_chk188 v396 v1148) := fun v396 v1148 => decidable_of_iff' _ (Iff.of_eq (k0_chk188.eq_1 v396 v1148))
theorem k0_idx188_inb : ∀ (v396 : IVec S16 32) (v1148 : IVec S16 32) (k0_hw188 : k0_chk188 v396 v1148), ∀ a x, ((![v1148, v396] : Fin 2 → IVec S16 32) a x).toNat < S24x128.size a := fun v396 v1148 k0_hw188 => k0_hw188

def k0_chk189 (v396 : IVec S16 32) (v1152 : IVec S16 32) : Prop :=
  (∀ a x, ((![v1152, v396] : Fin 2 → IVec S16 32) a x).toNat < S24x128.size a)
instance k0_chk189.dec : ∀ (v396 : IVec S16 32) (v1152 : IVec S16 32), Decidable (k0_chk189 v396 v1152) := fun v396 v1152 => decidable_of_iff' _ (Iff.of_eq (k0_chk189.eq_1 v396 v1152))
theorem k0_idx189_inb : ∀ (v396 : IVec S16 32) (v1152 : IVec S16 32) (k0_hw189 : k0_chk189 v396 v1152), ∀ a x, ((![v1152, v396] : Fin 2 → IVec S16 32) a x).toNat < S24x128.size a := fun v396 v1152 k0_hw189 => k0_hw189

def k0_chk190 (v396 : IVec S16 32) (v1156 : IVec S16 32) : Prop :=
  (∀ a x, ((![v1156, v396] : Fin 2 → IVec S16 32) a x).toNat < S24x128.size a)
instance k0_chk190.dec : ∀ (v396 : IVec S16 32) (v1156 : IVec S16 32), Decidable (k0_chk190 v396 v1156) := fun v396 v1156 => decidable_of_iff' _ (Iff.of_eq (k0_chk190.eq_1 v396 v1156))
theorem k0_idx190_inb : ∀ (v396 : IVec S16 32) (v1156 : IVec S16 32) (k0_hw190 : k0_chk190 v396 v1156), ∀ a x, ((![v1156, v396] : Fin 2 → IVec S16 32) a x).toNat < S24x128.size a := fun v396 v1156 k0_hw190 => k0_hw190

def k0_chk191 (v396 : IVec S16 32) (v1160 : IVec S16 32) : Prop :=
  (∀ a x, ((![v1160, v396] : Fin 2 → IVec S16 32) a x).toNat < S24x128.size a)
instance k0_chk191.dec : ∀ (v396 : IVec S16 32) (v1160 : IVec S16 32), Decidable (k0_chk191 v396 v1160) := fun v396 v1160 => decidable_of_iff' _ (Iff.of_eq (k0_chk191.eq_1 v396 v1160))
theorem k0_idx191_inb : ∀ (v396 : IVec S16 32) (v1160 : IVec S16 32) (k0_hw191 : k0_chk191 v396 v1160), ∀ a x, ((![v1160, v396] : Fin 2 → IVec S16 32) a x).toNat < S24x128.size a := fun v396 v1160 k0_hw191 => k0_hw191

def k0_chk192 (v396 : IVec S16 32) (v1164 : IVec S16 32) : Prop :=
  (∀ a x, ((![v1164, v396] : Fin 2 → IVec S16 32) a x).toNat < S24x128.size a)
instance k0_chk192.dec : ∀ (v396 : IVec S16 32) (v1164 : IVec S16 32), Decidable (k0_chk192 v396 v1164) := fun v396 v1164 => decidable_of_iff' _ (Iff.of_eq (k0_chk192.eq_1 v396 v1164))
theorem k0_idx192_inb : ∀ (v396 : IVec S16 32) (v1164 : IVec S16 32) (k0_hw192 : k0_chk192 v396 v1164), ∀ a x, ((![v1164, v396] : Fin 2 → IVec S16 32) a x).toNat < S24x128.size a := fun v396 v1164 k0_hw192 => k0_hw192

def k0_chk193 (v396 : IVec S16 32) (v1168 : IVec S16 32) : Prop :=
  (∀ a x, ((![v1168, v396] : Fin 2 → IVec S16 32) a x).toNat < S24x128.size a)
instance k0_chk193.dec : ∀ (v396 : IVec S16 32) (v1168 : IVec S16 32), Decidable (k0_chk193 v396 v1168) := fun v396 v1168 => decidable_of_iff' _ (Iff.of_eq (k0_chk193.eq_1 v396 v1168))
theorem k0_idx193_inb : ∀ (v396 : IVec S16 32) (v1168 : IVec S16 32) (k0_hw193 : k0_chk193 v396 v1168), ∀ a x, ((![v1168, v396] : Fin 2 → IVec S16 32) a x).toNat < S24x128.size a := fun v396 v1168 k0_hw193 => k0_hw193

def k0_chk194 (v396 : IVec S16 32) (v1172 : IVec S16 32) : Prop :=
  (∀ a x, ((![v1172, v396] : Fin 2 → IVec S16 32) a x).toNat < S24x128.size a)
instance k0_chk194.dec : ∀ (v396 : IVec S16 32) (v1172 : IVec S16 32), Decidable (k0_chk194 v396 v1172) := fun v396 v1172 => decidable_of_iff' _ (Iff.of_eq (k0_chk194.eq_1 v396 v1172))
theorem k0_idx194_inb : ∀ (v396 : IVec S16 32) (v1172 : IVec S16 32) (k0_hw194 : k0_chk194 v396 v1172), ∀ a x, ((![v1172, v396] : Fin 2 → IVec S16 32) a x).toNat < S24x128.size a := fun v396 v1172 k0_hw194 => k0_hw194

def k0_chk195 (v396 : IVec S16 32) (v1176 : IVec S16 32) : Prop :=
  (∀ a x, ((![v1176, v396] : Fin 2 → IVec S16 32) a x).toNat < S24x128.size a)
instance k0_chk195.dec : ∀ (v396 : IVec S16 32) (v1176 : IVec S16 32), Decidable (k0_chk195 v396 v1176) := fun v396 v1176 => decidable_of_iff' _ (Iff.of_eq (k0_chk195.eq_1 v396 v1176))
theorem k0_idx195_inb : ∀ (v396 : IVec S16 32) (v1176 : IVec S16 32) (k0_hw195 : k0_chk195 v396 v1176), ∀ a x, ((![v1176, v396] : Fin 2 → IVec S16 32) a x).toNat < S24x128.size a := fun v396 v1176 k0_hw195 => k0_hw195

def k0_chk196 (v396 : IVec S16 32) (v1180 : IVec S16 32) : Prop :=
  (∀ a x, ((![v1180, v396] : Fin 2 → IVec S16 32) a x).toNat < S24x128.size a)
instance k0_chk196.dec : ∀ (v396 : IVec S16 32) (v1180 : IVec S16 32), Decidable (k0_chk196 v396 v1180) := fun v396 v1180 => decidable_of_iff' _ (Iff.of_eq (k0_chk196.eq_1 v396 v1180))
theorem k0_idx196_inb : ∀ (v396 : IVec S16 32) (v1180 : IVec S16 32) (k0_hw196 : k0_chk196 v396 v1180), ∀ a x, ((![v1180, v396] : Fin 2 → IVec S16 32) a x).toNat < S24x128.size a := fun v396 v1180 k0_hw196 => k0_hw196

def k0_chk197 (v396 : IVec S16 32) (v1184 : IVec S16 32) : Prop :=
  (∀ a x, ((![v1184, v396] : Fin 2 → IVec S16 32) a x).toNat < S24x128.size a)
instance k0_chk197.dec : ∀ (v396 : IVec S16 32) (v1184 : IVec S16 32), Decidable (k0_chk197 v396 v1184) := fun v396 v1184 => decidable_of_iff' _ (Iff.of_eq (k0_chk197.eq_1 v396 v1184))
theorem k0_idx197_inb : ∀ (v396 : IVec S16 32) (v1184 : IVec S16 32) (k0_hw197 : k0_chk197 v396 v1184), ∀ a x, ((![v1184, v396] : Fin 2 → IVec S16 32) a x).toNat < S24x128.size a := fun v396 v1184 k0_hw197 => k0_hw197

def k0_chk198 (v396 : IVec S16 32) (v1188 : IVec S16 32) : Prop :=
  (∀ a x, ((![v1188, v396] : Fin 2 → IVec S16 32) a x).toNat < S24x128.size a)
instance k0_chk198.dec : ∀ (v396 : IVec S16 32) (v1188 : IVec S16 32), Decidable (k0_chk198 v396 v1188) := fun v396 v1188 => decidable_of_iff' _ (Iff.of_eq (k0_chk198.eq_1 v396 v1188))
theorem k0_idx198_inb : ∀ (v396 : IVec S16 32) (v1188 : IVec S16 32) (k0_hw198 : k0_chk198 v396 v1188), ∀ a x, ((![v1188, v396] : Fin 2 → IVec S16 32) a x).toNat < S24x128.size a := fun v396 v1188 k0_hw198 => k0_hw198

def k0_chk199 (v396 : IVec S16 32) (v1192 : IVec S16 32) : Prop :=
  (∀ a x, ((![v1192, v396] : Fin 2 → IVec S16 32) a x).toNat < S24x128.size a)
instance k0_chk199.dec : ∀ (v396 : IVec S16 32) (v1192 : IVec S16 32), Decidable (k0_chk199 v396 v1192) := fun v396 v1192 => decidable_of_iff' _ (Iff.of_eq (k0_chk199.eq_1 v396 v1192))
theorem k0_idx199_inb : ∀ (v396 : IVec S16 32) (v1192 : IVec S16 32) (k0_hw199 : k0_chk199 v396 v1192), ∀ a x, ((![v1192, v396] : Fin 2 → IVec S16 32) a x).toNat < S24x128.size a := fun v396 v1192 k0_hw199 => k0_hw199

def k0_chk200 (v396 : IVec S16 32) (v1196 : IVec S16 32) : Prop :=
  (∀ a x, ((![v1196, v396] : Fin 2 → IVec S16 32) a x).toNat < S24x128.size a)
instance k0_chk200.dec : ∀ (v396 : IVec S16 32) (v1196 : IVec S16 32), Decidable (k0_chk200 v396 v1196) := fun v396 v1196 => decidable_of_iff' _ (Iff.of_eq (k0_chk200.eq_1 v396 v1196))
theorem k0_idx200_inb : ∀ (v396 : IVec S16 32) (v1196 : IVec S16 32) (k0_hw200 : k0_chk200 v396 v1196), ∀ a x, ((![v1196, v396] : Fin 2 → IVec S16 32) a x).toNat < S24x128.size a := fun v396 v1196 k0_hw200 => k0_hw200
def k0_off202 (i : grid0.Coords) (k0_t1 : Fin k0_t1_loop.trips) : Fin 2 → Nat :=
  let c0_i32_364_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v6 : BitVec 32 := Scalar.muli v1 c512_i32
  let c0_i32_1 : BitVec 32 := 0#32
  let c1_i32 : BitVec 32 := 1#32
  let arg6 : BitVec 32 := Scf.iv c0_i32_1 c1_i32 k0_t1
  let c128_i32 : BitVec 32 := 128#32
  let v7 : BitVec 32 := Scalar.muli arg6 c128_i32
  let v8 : BitVec 32 := Scalar.addi v6 v7
  ![0, v8.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S24x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S24x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x200_S200x16384_1_0 : S16384x200.Transposes [1, 0] S200x16384
  iota_S16_d0_w32_scVector : S16.Iotas .scVector 32 [0]
  inb_S24x128_S1x16_0_0 : ∀ a, (![0, 0] : Fin 2 → Nat) a + S1x16.size a ≤ S24x128.size a
  h_S1x16 : 0 < S1x16.numel
  shapeCasts_S1x16_S16 : S1x16.ShapeCasts S16
  shapeCasts_S16_S1x16 : S16.ShapeCasts S1x16
  inb_S24x128_S1x16_0_16 : ∀ a, (![0, 16] : Fin 2 → Nat) a + S1x16.size a ≤ S24x128.size a
  inb_S24x128_S1x16_0_32 : ∀ a, (![0, 32] : Fin 2 → Nat) a + S1x16.size a ≤ S24x128.size a
  inb_S24x128_S1x16_0_48 : ∀ a, (![0, 48] : Fin 2 → Nat) a + S1x16.size a ≤ S24x128.size a
  inb_S24x128_S1x16_0_64 : ∀ a, (![0, 64] : Fin 2 → Nat) a + S1x16.size a ≤ S24x128.size a
  inb_S24x128_S1x16_0_80 : ∀ a, (![0, 80] : Fin 2 → Nat) a + S1x16.size a ≤ S24x128.size a
  inb_S24x128_S1x16_0_96 : ∀ a, (![0, 96] : Fin 2 → Nat) a + S1x16.size a ≤ S24x128.size a
  inb_S24x128_S1x16_0_112 : ∀ a, (![0, 112] : Fin 2 → Nat) a + S1x16.size a ≤ S24x128.size a
  inb_S24x128_S1x16_1_0 : ∀ a, (![1, 0] : Fin 2 → Nat) a + S1x16.size a ≤ S24x128.size a
  inb_S24x128_S1x16_1_16 : ∀ a, (![1, 16] : Fin 2 → Nat) a + S1x16.size a ≤ S24x128.size a
  inb_S24x128_S1x16_1_32 : ∀ a, (![1, 32] : Fin 2 → Nat) a + S1x16.size a ≤ S24x128.size a
  inb_S24x128_S1x16_1_48 : ∀ a, (![1, 48] : Fin 2 → Nat) a + S1x16.size a ≤ S24x128.size a
  inb_S24x128_S1x16_1_64 : ∀ a, (![1, 64] : Fin 2 → Nat) a + S1x16.size a ≤ S24x128.size a
  inb_S24x128_S1x16_1_80 : ∀ a, (![1, 80] : Fin 2 → Nat) a + S1x16.size a ≤ S24x128.size a
  inb_S24x128_S1x16_1_96 : ∀ a, (![1, 96] : Fin 2 → Nat) a + S1x16.size a ≤ S24x128.size a
  inb_S24x128_S1x16_1_112 : ∀ a, (![1, 112] : Fin 2 → Nat) a + S1x16.size a ≤ S24x128.size a
  inb_S24x128_S1x16_2_0 : ∀ a, (![2, 0] : Fin 2 → Nat) a + S1x16.size a ≤ S24x128.size a
  inb_S24x128_S1x16_2_16 : ∀ a, (![2, 16] : Fin 2 → Nat) a + S1x16.size a ≤ S24x128.size a
  inb_S24x128_S1x16_2_32 : ∀ a, (![2, 32] : Fin 2 → Nat) a + S1x16.size a ≤ S24x128.size a
  inb_S24x128_S1x16_2_48 : ∀ a, (![2, 48] : Fin 2 → Nat) a + S1x16.size a ≤ S24x128.size a
  inb_S24x128_S1x16_2_64 : ∀ a, (![2, 64] : Fin 2 → Nat) a + S1x16.size a ≤ S24x128.size a
  inb_S24x128_S1x16_2_80 : ∀ a, (![2, 80] : Fin 2 → Nat) a + S1x16.size a ≤ S24x128.size a
  inb_S24x128_S1x16_2_96 : ∀ a, (![2, 96] : Fin 2 → Nat) a + S1x16.size a ≤ S24x128.size a
  inb_S24x128_S1x16_2_112 : ∀ a, (![2, 112] : Fin 2 → Nat) a + S1x16.size a ≤ S24x128.size a
  inb_S24x128_S1x16_3_0 : ∀ a, (![3, 0] : Fin 2 → Nat) a + S1x16.size a ≤ S24x128.size a
  inb_S24x128_S1x16_3_16 : ∀ a, (![3, 16] : Fin 2 → Nat) a + S1x16.size a ≤ S24x128.size a
  inb_S24x128_S1x16_3_32 : ∀ a, (![3, 32] : Fin 2 → Nat) a + S1x16.size a ≤ S24x128.size a
  inb_S24x128_S1x16_3_48 : ∀ a, (![3, 48] : Fin 2 → Nat) a + S1x16.size a ≤ S24x128.size a
  inb_S24x128_S1x16_3_64 : ∀ a, (![3, 64] : Fin 2 → Nat) a + S1x16.size a ≤ S24x128.size a
  inb_S24x128_S1x16_3_80 : ∀ a, (![3, 80] : Fin 2 → Nat) a + S1x16.size a ≤ S24x128.size a
  inb_S24x128_S1x16_3_96 : ∀ a, (![3, 96] : Fin 2 → Nat) a + S1x16.size a ≤ S24x128.size a
  inb_S24x128_S1x16_3_112 : ∀ a, (![3, 112] : Fin 2 → Nat) a + S1x16.size a ≤ S24x128.size a
  inb_S24x128_S1x16_4_0 : ∀ a, (![4, 0] : Fin 2 → Nat) a + S1x16.size a ≤ S24x128.size a
  inb_S24x128_S1x16_4_16 : ∀ a, (![4, 16] : Fin 2 → Nat) a + S1x16.size a ≤ S24x128.size a
  inb_S24x128_S1x16_4_32 : ∀ a, (![4, 32] : Fin 2 → Nat) a + S1x16.size a ≤ S24x128.size a
  inb_S24x128_S1x16_4_48 : ∀ a, (![4, 48] : Fin 2 → Nat) a + S1x16.size a ≤ S24x128.size a
  inb_S24x128_S1x16_4_64 : ∀ a, (![4, 64] : Fin 2 → Nat) a + S1x16.size a ≤ S24x128.size a
  inb_S24x128_S1x16_4_80 : ∀ a, (![4, 80] : Fin 2 → Nat) a + S1x16.size a ≤ S24x128.size a
  inb_S24x128_S1x16_4_96 : ∀ a, (![4, 96] : Fin 2 → Nat) a + S1x16.size a ≤ S24x128.size a
  inb_S24x128_S1x16_4_112 : ∀ a, (![4, 112] : Fin 2 → Nat) a + S1x16.size a ≤ S24x128.size a
  inb_S24x128_S1x16_5_0 : ∀ a, (![5, 0] : Fin 2 → Nat) a + S1x16.size a ≤ S24x128.size a
  inb_S24x128_S1x16_5_16 : ∀ a, (![5, 16] : Fin 2 → Nat) a + S1x16.size a ≤ S24x128.size a
  inb_S24x128_S1x16_5_32 : ∀ a, (![5, 32] : Fin 2 → Nat) a + S1x16.size a ≤ S24x128.size a
  inb_S24x128_S1x16_5_48 : ∀ a, (![5, 48] : Fin 2 → Nat) a + S1x16.size a ≤ S24x128.size a
  inb_S24x128_S1x16_5_64 : ∀ a, (![5, 64] : Fin 2 → Nat) a + S1x16.size a ≤ S24x128.size a
  inb_S24x128_S1x16_5_80 : ∀ a, (![5, 80] : Fin 2 → Nat) a + S1x16.size a ≤ S24x128.size a
  inb_S24x128_S1x16_5_96 : ∀ a, (![5, 96] : Fin 2 → Nat) a + S1x16.size a ≤ S24x128.size a
  inb_S24x128_S1x16_5_112 : ∀ a, (![5, 112] : Fin 2 → Nat) a + S1x16.size a ≤ S24x128.size a
  inb_S24x128_S1x16_6_0 : ∀ a, (![6, 0] : Fin 2 → Nat) a + S1x16.size a ≤ S24x128.size a
  inb_S24x128_S1x16_6_16 : ∀ a, (![6, 16] : Fin 2 → Nat) a + S1x16.size a ≤ S24x128.size a
  inb_S24x128_S1x16_6_32 : ∀ a, (![6, 32] : Fin 2 → Nat) a + S1x16.size a ≤ S24x128.size a
  inb_S24x128_S1x16_6_48 : ∀ a, (![6, 48] : Fin 2 → Nat) a + S1x16.size a ≤ S24x128.size a
  inb_S24x128_S1x16_6_64 : ∀ a, (![6, 64] : Fin 2 → Nat) a + S1x16.size a ≤ S24x128.size a
  inb_S24x128_S1x16_6_80 : ∀ a, (![6, 80] : Fin 2 → Nat) a + S1x16.size a ≤ S24x128.size a
  inb_S24x128_S1x16_6_96 : ∀ a, (![6, 96] : Fin 2 → Nat) a + S1x16.size a ≤ S24x128.size a
  inb_S24x128_S1x16_6_112 : ∀ a, (![6, 112] : Fin 2 → Nat) a + S1x16.size a ≤ S24x128.size a
  inb_S24x128_S1x16_7_0 : ∀ a, (![7, 0] : Fin 2 → Nat) a + S1x16.size a ≤ S24x128.size a
  inb_S24x128_S1x16_7_16 : ∀ a, (![7, 16] : Fin 2 → Nat) a + S1x16.size a ≤ S24x128.size a
  inb_S24x128_S1x16_7_32 : ∀ a, (![7, 32] : Fin 2 → Nat) a + S1x16.size a ≤ S24x128.size a
  inb_S24x128_S1x16_7_48 : ∀ a, (![7, 48] : Fin 2 → Nat) a + S1x16.size a ≤ S24x128.size a
  inb_S24x128_S1x16_7_64 : ∀ a, (![7, 64] : Fin 2 → Nat) a + S1x16.size a ≤ S24x128.size a
  inb_S24x128_S1x16_7_80 : ∀ a, (![7, 80] : Fin 2 → Nat) a + S1x16.size a ≤ S24x128.size a
  inb_S24x128_S1x16_7_96 : ∀ a, (![7, 96] : Fin 2 → Nat) a + S1x16.size a ≤ S24x128.size a
  inb_S24x128_S1x16_7_112 : ∀ a, (![7, 112] : Fin 2 → Nat) a + S1x16.size a ≤ S24x128.size a
  inb_S24x128_S1x16_8_0 : ∀ a, (![8, 0] : Fin 2 → Nat) a + S1x16.size a ≤ S24x128.size a
  inb_S24x128_S1x16_8_16 : ∀ a, (![8, 16] : Fin 2 → Nat) a + S1x16.size a ≤ S24x128.size a
  inb_S24x128_S1x16_8_32 : ∀ a, (![8, 32] : Fin 2 → Nat) a + S1x16.size a ≤ S24x128.size a
  inb_S24x128_S1x16_8_48 : ∀ a, (![8, 48] : Fin 2 → Nat) a + S1x16.size a ≤ S24x128.size a
  inb_S24x128_S1x16_8_64 : ∀ a, (![8, 64] : Fin 2 → Nat) a + S1x16.size a ≤ S24x128.size a
  inb_S24x128_S1x16_8_80 : ∀ a, (![8, 80] : Fin 2 → Nat) a + S1x16.size a ≤ S24x128.size a
  inb_S24x128_S1x16_8_96 : ∀ a, (![8, 96] : Fin 2 → Nat) a + S1x16.size a ≤ S24x128.size a
  inb_S24x128_S1x16_8_112 : ∀ a, (![8, 112] : Fin 2 → Nat) a + S1x16.size a ≤ S24x128.size a
  inb_S24x128_S1x16_9_0 : ∀ a, (![9, 0] : Fin 2 → Nat) a + S1x16.size a ≤ S24x128.size a
  inb_S24x128_S1x16_9_16 : ∀ a, (![9, 16] : Fin 2 → Nat) a + S1x16.size a ≤ S24x128.size a
  inb_S24x128_S1x16_9_32 : ∀ a, (![9, 32] : Fin 2 → Nat) a + S1x16.size a ≤ S24x128.size a
  inb_S24x128_S1x16_9_48 : ∀ a, (![9, 48] : Fin 2 → Nat) a + S1x16.size a ≤ S24x128.size a
  inb_S24x128_S1x16_9_64 : ∀ a, (![9, 64] : Fin 2 → Nat) a + S1x16.size a ≤ S24x128.size a
  inb_S24x128_S1x16_9_80 : ∀ a, (![9, 80] : Fin 2 → Nat) a + S1x16.size a ≤ S24x128.size a
  inb_S24x128_S1x16_9_96 : ∀ a, (![9, 96] : Fin 2 → Nat) a + S1x16.size a ≤ S24x128.size a
  inb_S24x128_S1x16_9_112 : ∀ a, (![9, 112] : Fin 2 → Nat) a + S1x16.size a ≤ S24x128.size a
  inb_S24x128_S1x16_10_0 : ∀ a, (![10, 0] : Fin 2 → Nat) a + S1x16.size a ≤ S24x128.size a
  inb_S24x128_S1x16_10_16 : ∀ a, (![10, 16] : Fin 2 → Nat) a + S1x16.size a ≤ S24x128.size a
  inb_S24x128_S1x16_10_32 : ∀ a, (![10, 32] : Fin 2 → Nat) a + S1x16.size a ≤ S24x128.size a
  inb_S24x128_S1x16_10_48 : ∀ a, (![10, 48] : Fin 2 → Nat) a + S1x16.size a ≤ S24x128.size a
  inb_S24x128_S1x16_10_64 : ∀ a, (![10, 64] : Fin 2 → Nat) a + S1x16.size a ≤ S24x128.size a
  inb_S24x128_S1x16_10_80 : ∀ a, (![10, 80] : Fin 2 → Nat) a + S1x16.size a ≤ S24x128.size a
  inb_S24x128_S1x16_10_96 : ∀ a, (![10, 96] : Fin 2 → Nat) a + S1x16.size a ≤ S24x128.size a
  inb_S24x128_S1x16_10_112 : ∀ a, (![10, 112] : Fin 2 → Nat) a + S1x16.size a ≤ S24x128.size a
  inb_S24x128_S1x16_11_0 : ∀ a, (![11, 0] : Fin 2 → Nat) a + S1x16.size a ≤ S24x128.size a
  inb_S24x128_S1x16_11_16 : ∀ a, (![11, 16] : Fin 2 → Nat) a + S1x16.size a ≤ S24x128.size a
  inb_S24x128_S1x16_11_32 : ∀ a, (![11, 32] : Fin 2 → Nat) a + S1x16.size a ≤ S24x128.size a
  inb_S24x128_S1x16_11_48 : ∀ a, (![11, 48] : Fin 2 → Nat) a + S1x16.size a ≤ S24x128.size a
  inb_S24x128_S1x16_11_64 : ∀ a, (![11, 64] : Fin 2 → Nat) a + S1x16.size a ≤ S24x128.size a
  inb_S24x128_S1x16_11_80 : ∀ a, (![11, 80] : Fin 2 → Nat) a + S1x16.size a ≤ S24x128.size a
  inb_S24x128_S1x16_11_96 : ∀ a, (![11, 96] : Fin 2 → Nat) a + S1x16.size a ≤ S24x128.size a
  inb_S24x128_S1x16_11_112 : ∀ a, (![11, 112] : Fin 2 → Nat) a + S1x16.size a ≤ S24x128.size a
  inb_S24x128_S1x16_12_0 : ∀ a, (![12, 0] : Fin 2 → Nat) a + S1x16.size a ≤ S24x128.size a
  inb_S24x128_S1x16_12_16 : ∀ a, (![12, 16] : Fin 2 → Nat) a + S1x16.size a ≤ S24x128.size a
  inb_S24x128_S1x16_12_32 : ∀ a, (![12, 32] : Fin 2 → Nat) a + S1x16.size a ≤ S24x128.size a
  inb_S24x128_S1x16_12_48 : ∀ a, (![12, 48] : Fin 2 → Nat) a + S1x16.size a ≤ S24x128.size a
  inb_S24x128_S1x16_12_64 : ∀ a, (![12, 64] : Fin 2 → Nat) a + S1x16.size a ≤ S24x128.size a
  inb_S24x128_S1x16_12_80 : ∀ a, (![12, 80] : Fin 2 → Nat) a + S1x16.size a ≤ S24x128.size a
  inb_S24x128_S1x16_12_96 : ∀ a, (![12, 96] : Fin 2 → Nat) a + S1x16.size a ≤ S24x128.size a
  inb_S24x128_S1x16_12_112 : ∀ a, (![12, 112] : Fin 2 → Nat) a + S1x16.size a ≤ S24x128.size a
  inb_S24x128_S1x16_13_0 : ∀ a, (![13, 0] : Fin 2 → Nat) a + S1x16.size a ≤ S24x128.size a
  inb_S24x128_S1x16_13_16 : ∀ a, (![13, 16] : Fin 2 → Nat) a + S1x16.size a ≤ S24x128.size a
  inb_S24x128_S1x16_13_32 : ∀ a, (![13, 32] : Fin 2 → Nat) a + S1x16.size a ≤ S24x128.size a
  inb_S24x128_S1x16_13_48 : ∀ a, (![13, 48] : Fin 2 → Nat) a + S1x16.size a ≤ S24x128.size a
  inb_S24x128_S1x16_13_64 : ∀ a, (![13, 64] : Fin 2 → Nat) a + S1x16.size a ≤ S24x128.size a
  inb_S24x128_S1x16_13_80 : ∀ a, (![13, 80] : Fin 2 → Nat) a + S1x16.size a ≤ S24x128.size a
  inb_S24x128_S1x16_13_96 : ∀ a, (![13, 96] : Fin 2 → Nat) a + S1x16.size a ≤ S24x128.size a
  inb_S24x128_S1x16_13_112 : ∀ a, (![13, 112] : Fin 2 → Nat) a + S1x16.size a ≤ S24x128.size a
  inb_S24x128_S1x16_14_0 : ∀ a, (![14, 0] : Fin 2 → Nat) a + S1x16.size a ≤ S24x128.size a
  inb_S24x128_S1x16_14_16 : ∀ a, (![14, 16] : Fin 2 → Nat) a + S1x16.size a ≤ S24x128.size a
  inb_S24x128_S1x16_14_32 : ∀ a, (![14, 32] : Fin 2 → Nat) a + S1x16.size a ≤ S24x128.size a
  inb_S24x128_S1x16_14_48 : ∀ a, (![14, 48] : Fin 2 → Nat) a + S1x16.size a ≤ S24x128.size a
  inb_S24x128_S1x16_14_64 : ∀ a, (![14, 64] : Fin 2 → Nat) a + S1x16.size a ≤ S24x128.size a
  inb_S24x128_S1x16_14_80 : ∀ a, (![14, 80] : Fin 2 → Nat) a + S1x16.size a ≤ S24x128.size a
  inb_S24x128_S1x16_14_96 : ∀ a, (![14, 96] : Fin 2 → Nat) a + S1x16.size a ≤ S24x128.size a
  inb_S24x128_S1x16_14_112 : ∀ a, (![14, 112] : Fin 2 → Nat) a + S1x16.size a ≤ S24x128.size a
  inb_S24x128_S1x16_15_0 : ∀ a, (![15, 0] : Fin 2 → Nat) a + S1x16.size a ≤ S24x128.size a
  inb_S24x128_S1x16_15_16 : ∀ a, (![15, 16] : Fin 2 → Nat) a + S1x16.size a ≤ S24x128.size a
  inb_S24x128_S1x16_15_32 : ∀ a, (![15, 32] : Fin 2 → Nat) a + S1x16.size a ≤ S24x128.size a
  inb_S24x128_S1x16_15_48 : ∀ a, (![15, 48] : Fin 2 → Nat) a + S1x16.size a ≤ S24x128.size a
  inb_S24x128_S1x16_15_64 : ∀ a, (![15, 64] : Fin 2 → Nat) a + S1x16.size a ≤ S24x128.size a
  inb_S24x128_S1x16_15_80 : ∀ a, (![15, 80] : Fin 2 → Nat) a + S1x16.size a ≤ S24x128.size a
  inb_S24x128_S1x16_15_96 : ∀ a, (![15, 96] : Fin 2 → Nat) a + S1x16.size a ≤ S24x128.size a
  inb_S24x128_S1x16_15_112 : ∀ a, (![15, 112] : Fin 2 → Nat) a + S1x16.size a ≤ S24x128.size a
  inb_S24x128_S1x16_16_0 : ∀ a, (![16, 0] : Fin 2 → Nat) a + S1x16.size a ≤ S24x128.size a
  inb_S24x128_S1x16_16_16 : ∀ a, (![16, 16] : Fin 2 → Nat) a + S1x16.size a ≤ S24x128.size a
  inb_S24x128_S1x16_16_32 : ∀ a, (![16, 32] : Fin 2 → Nat) a + S1x16.size a ≤ S24x128.size a
  inb_S24x128_S1x16_16_48 : ∀ a, (![16, 48] : Fin 2 → Nat) a + S1x16.size a ≤ S24x128.size a
  inb_S24x128_S1x16_16_64 : ∀ a, (![16, 64] : Fin 2 → Nat) a + S1x16.size a ≤ S24x128.size a
  inb_S24x128_S1x16_16_80 : ∀ a, (![16, 80] : Fin 2 → Nat) a + S1x16.size a ≤ S24x128.size a
  inb_S24x128_S1x16_16_96 : ∀ a, (![16, 96] : Fin 2 → Nat) a + S1x16.size a ≤ S24x128.size a
  inb_S24x128_S1x16_16_112 : ∀ a, (![16, 112] : Fin 2 → Nat) a + S1x16.size a ≤ S24x128.size a
  inb_S24x128_S1x16_17_0 : ∀ a, (![17, 0] : Fin 2 → Nat) a + S1x16.size a ≤ S24x128.size a
  inb_S24x128_S1x16_17_16 : ∀ a, (![17, 16] : Fin 2 → Nat) a + S1x16.size a ≤ S24x128.size a
  inb_S24x128_S1x16_17_32 : ∀ a, (![17, 32] : Fin 2 → Nat) a + S1x16.size a ≤ S24x128.size a
  inb_S24x128_S1x16_17_48 : ∀ a, (![17, 48] : Fin 2 → Nat) a + S1x16.size a ≤ S24x128.size a
  inb_S24x128_S1x16_17_64 : ∀ a, (![17, 64] : Fin 2 → Nat) a + S1x16.size a ≤ S24x128.size a
  inb_S24x128_S1x16_17_80 : ∀ a, (![17, 80] : Fin 2 → Nat) a + S1x16.size a ≤ S24x128.size a
  inb_S24x128_S1x16_17_96 : ∀ a, (![17, 96] : Fin 2 → Nat) a + S1x16.size a ≤ S24x128.size a
  inb_S24x128_S1x16_17_112 : ∀ a, (![17, 112] : Fin 2 → Nat) a + S1x16.size a ≤ S24x128.size a
  inb_S24x128_S1x16_18_0 : ∀ a, (![18, 0] : Fin 2 → Nat) a + S1x16.size a ≤ S24x128.size a
  inb_S24x128_S1x16_18_16 : ∀ a, (![18, 16] : Fin 2 → Nat) a + S1x16.size a ≤ S24x128.size a
  inb_S24x128_S1x16_18_32 : ∀ a, (![18, 32] : Fin 2 → Nat) a + S1x16.size a ≤ S24x128.size a
  inb_S24x128_S1x16_18_48 : ∀ a, (![18, 48] : Fin 2 → Nat) a + S1x16.size a ≤ S24x128.size a
  inb_S24x128_S1x16_18_64 : ∀ a, (![18, 64] : Fin 2 → Nat) a + S1x16.size a ≤ S24x128.size a
  inb_S24x128_S1x16_18_80 : ∀ a, (![18, 80] : Fin 2 → Nat) a + S1x16.size a ≤ S24x128.size a
  inb_S24x128_S1x16_18_96 : ∀ a, (![18, 96] : Fin 2 → Nat) a + S1x16.size a ≤ S24x128.size a
  inb_S24x128_S1x16_18_112 : ∀ a, (![18, 112] : Fin 2 → Nat) a + S1x16.size a ≤ S24x128.size a
  inb_S24x128_S1x16_19_0 : ∀ a, (![19, 0] : Fin 2 → Nat) a + S1x16.size a ≤ S24x128.size a
  inb_S24x128_S1x16_19_16 : ∀ a, (![19, 16] : Fin 2 → Nat) a + S1x16.size a ≤ S24x128.size a
  inb_S24x128_S1x16_19_32 : ∀ a, (![19, 32] : Fin 2 → Nat) a + S1x16.size a ≤ S24x128.size a
  inb_S24x128_S1x16_19_48 : ∀ a, (![19, 48] : Fin 2 → Nat) a + S1x16.size a ≤ S24x128.size a
  inb_S24x128_S1x16_19_64 : ∀ a, (![19, 64] : Fin 2 → Nat) a + S1x16.size a ≤ S24x128.size a
  inb_S24x128_S1x16_19_80 : ∀ a, (![19, 80] : Fin 2 → Nat) a + S1x16.size a ≤ S24x128.size a
  inb_S24x128_S1x16_19_96 : ∀ a, (![19, 96] : Fin 2 → Nat) a + S1x16.size a ≤ S24x128.size a
  inb_S24x128_S1x16_19_112 : ∀ a, (![19, 112] : Fin 2 → Nat) a + S1x16.size a ≤ S24x128.size a
  inb_S24x128_S1x16_20_0 : ∀ a, (![20, 0] : Fin 2 → Nat) a + S1x16.size a ≤ S24x128.size a
  inb_S24x128_S1x16_20_16 : ∀ a, (![20, 16] : Fin 2 → Nat) a + S1x16.size a ≤ S24x128.size a
  inb_S24x128_S1x16_20_32 : ∀ a, (![20, 32] : Fin 2 → Nat) a + S1x16.size a ≤ S24x128.size a
  inb_S24x128_S1x16_20_48 : ∀ a, (![20, 48] : Fin 2 → Nat) a + S1x16.size a ≤ S24x128.size a
  inb_S24x128_S1x16_20_64 : ∀ a, (![20, 64] : Fin 2 → Nat) a + S1x16.size a ≤ S24x128.size a
  inb_S24x128_S1x16_20_80 : ∀ a, (![20, 80] : Fin 2 → Nat) a + S1x16.size a ≤ S24x128.size a
  inb_S24x128_S1x16_20_96 : ∀ a, (![20, 96] : Fin 2 → Nat) a + S1x16.size a ≤ S24x128.size a
  inb_S24x128_S1x16_20_112 : ∀ a, (![20, 112] : Fin 2 → Nat) a + S1x16.size a ≤ S24x128.size a
  inb_S24x128_S1x16_21_0 : ∀ a, (![21, 0] : Fin 2 → Nat) a + S1x16.size a ≤ S24x128.size a
  inb_S24x128_S1x16_21_16 : ∀ a, (![21, 16] : Fin 2 → Nat) a + S1x16.size a ≤ S24x128.size a
  inb_S24x128_S1x16_21_32 : ∀ a, (![21, 32] : Fin 2 → Nat) a + S1x16.size a ≤ S24x128.size a
  inb_S24x128_S1x16_21_48 : ∀ a, (![21, 48] : Fin 2 → Nat) a + S1x16.size a ≤ S24x128.size a
  inb_S24x128_S1x16_21_64 : ∀ a, (![21, 64] : Fin 2 → Nat) a + S1x16.size a ≤ S24x128.size a
  inb_S24x128_S1x16_21_80 : ∀ a, (![21, 80] : Fin 2 → Nat) a + S1x16.size a ≤ S24x128.size a
  inb_S24x128_S1x16_21_96 : ∀ a, (![21, 96] : Fin 2 → Nat) a + S1x16.size a ≤ S24x128.size a
  inb_S24x128_S1x16_21_112 : ∀ a, (![21, 112] : Fin 2 → Nat) a + S1x16.size a ≤ S24x128.size a
  inb_S24x128_S1x16_22_0 : ∀ a, (![22, 0] : Fin 2 → Nat) a + S1x16.size a ≤ S24x128.size a
  inb_S24x128_S1x16_22_16 : ∀ a, (![22, 16] : Fin 2 → Nat) a + S1x16.size a ≤ S24x128.size a
  inb_S24x128_S1x16_22_32 : ∀ a, (![22, 32] : Fin 2 → Nat) a + S1x16.size a ≤ S24x128.size a
  inb_S24x128_S1x16_22_48 : ∀ a, (![22, 48] : Fin 2 → Nat) a + S1x16.size a ≤ S24x128.size a
  inb_S24x128_S1x16_22_64 : ∀ a, (![22, 64] : Fin 2 → Nat) a + S1x16.size a ≤ S24x128.size a
  inb_S24x128_S1x16_22_80 : ∀ a, (![22, 80] : Fin 2 → Nat) a + S1x16.size a ≤ S24x128.size a
  inb_S24x128_S1x16_22_96 : ∀ a, (![22, 96] : Fin 2 → Nat) a + S1x16.size a ≤ S24x128.size a
  inb_S24x128_S1x16_22_112 : ∀ a, (![22, 112] : Fin 2 → Nat) a + S1x16.size a ≤ S24x128.size a
  inb_S24x128_S1x16_23_0 : ∀ a, (![23, 0] : Fin 2 → Nat) a + S1x16.size a ≤ S24x128.size a
  inb_S24x128_S1x16_23_16 : ∀ a, (![23, 16] : Fin 2 → Nat) a + S1x16.size a ≤ S24x128.size a
  inb_S24x128_S1x16_23_32 : ∀ a, (![23, 32] : Fin 2 → Nat) a + S1x16.size a ≤ S24x128.size a
  inb_S24x128_S1x16_23_48 : ∀ a, (![23, 48] : Fin 2 → Nat) a + S1x16.size a ≤ S24x128.size a
  inb_S24x128_S1x16_23_64 : ∀ a, (![23, 64] : Fin 2 → Nat) a + S1x16.size a ≤ S24x128.size a
  inb_S24x128_S1x16_23_80 : ∀ a, (![23, 80] : Fin 2 → Nat) a + S1x16.size a ≤ S24x128.size a
  inb_S24x128_S1x16_23_96 : ∀ a, (![23, 96] : Fin 2 → Nat) a + S1x16.size a ≤ S24x128.size a
  inb_S24x128_S1x16_23_112 : ∀ a, (![23, 112] : Fin 2 → Nat) a + S1x16.size a ≤ S24x128.size a
  h_S24x128 : 0 < S24x128.numel
  bcast_S_S24x128 : S_.BroadcastsInDim S24x128 (![] : Fin 0 → Fin S24x128.rank)
  slices_S23x128_S22x128_1_0 : S23x128.Slices ![1, 0] S22x128
  bcast_S_S1 : S_.BroadcastsInDim S1 (![] : Fin 0 → Fin S1.rank)
  inb_S24x2048_S24x2048_0_0 : ∀ a, (![0, 0] : Fin 2 → Nat) a + S24x2048.size a ≤ S24x2048.size a
  h_S24x2048 : 0 < S24x2048.numel
  shapeCasts_S24x2048_S24x2048 : S24x2048.ShapeCasts S24x2048
  inb_S24x128_S24x128_0_0 : ∀ a, (![0, 0] : Fin 2 → Nat) a + S24x128.size a ≤ S24x128.size a
  shapeCasts_S24x128_S24x128 : S24x128.ShapeCasts S24x128
  inb_S2048x128_S2048x128_0_0 : ∀ a, (![0, 0] : Fin 2 → Nat) a + S2048x128.size a ≤ S2048x128.size a
  h_S2048x128 : 0 < S2048x128.numel
  scatter_S24x128_S1_S22x128_01_n_0_0_wf : ScatterDims.WF S24x128 S1 S22x128 [0, 1] [] [0] 0
  dot_S24x2048_S24x128_S2048x128_0_0_1_1_n_n_wf : DotDims.WF S24x2048 S24x128 S2048x128 [0] [0] [1] [1] [] []
  hcc0_scoped0 : 0 + S_.numel ≤ 7
  hcc0_scoped1 : 1 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S200x128.size a ≤ S200x16384.size a
  k0_t2_ok : k0_t2_loop.OK
  k0_off2_inb : ∀ k0_t2 : Fin k0_t2_loop.trips, ∀ a, (k0_off2 k0_t2) a + S1x16.size a ≤ S200x128.size a
  k0_off3_inb : ∀ k0_t2 : Fin k0_t2_loop.trips, ∀ a, (k0_off3 k0_t2) a + S1x16.size a ≤ S200x128.size a
  k0_off4_inb : ∀ k0_t2 : Fin k0_t2_loop.trips, ∀ a, (k0_off4 k0_t2) a + S1x16.size a ≤ S200x128.size a
  k0_off5_inb : ∀ k0_t2 : Fin k0_t2_loop.trips, ∀ a, (k0_off5 k0_t2) a + S1x16.size a ≤ S200x128.size a
  k0_off6_inb : ∀ k0_t2 : Fin k0_t2_loop.trips, ∀ a, (k0_off6 k0_t2) a + S1x16.size a ≤ S200x128.size a
  k0_off7_inb : ∀ k0_t2 : Fin k0_t2_loop.trips, ∀ a, (k0_off7 k0_t2) a + S1x16.size a ≤ S200x128.size a
  k0_off8_inb : ∀ k0_t2 : Fin k0_t2_loop.trips, ∀ a, (k0_off8 k0_t2) a + S1x16.size a ≤ S200x128.size a
  k0_off9_inb : ∀ k0_t2 : Fin k0_t2_loop.trips, ∀ a, (k0_off9 k0_t2) a + S1x16.size a ≤ S200x128.size a
  k0_off10_inb : ∀ k0_t2 : Fin k0_t2_loop.trips, ∀ a, (k0_off10 k0_t2) a + S1x16.size a ≤ S200x128.size a
  k0_off11_inb : ∀ k0_t2 : Fin k0_t2_loop.trips, ∀ a, (k0_off11 k0_t2) a + S1x16.size a ≤ S200x128.size a
  k0_off12_inb : ∀ k0_t2 : Fin k0_t2_loop.trips, ∀ a, (k0_off12 k0_t2) a + S1x16.size a ≤ S200x128.size a
  k0_off13_inb : ∀ k0_t2 : Fin k0_t2_loop.trips, ∀ a, (k0_off13 k0_t2) a + S1x16.size a ≤ S200x128.size a
  k0_off14_inb : ∀ k0_t2 : Fin k0_t2_loop.trips, ∀ a, (k0_off14 k0_t2) a + S1x16.size a ≤ S200x128.size a
  k0_off15_inb : ∀ k0_t2 : Fin k0_t2_loop.trips, ∀ a, (k0_off15 k0_t2) a + S1x16.size a ≤ S200x128.size a
  k0_off16_inb : ∀ k0_t2 : Fin k0_t2_loop.trips, ∀ a, (k0_off16 k0_t2) a + S1x16.size a ≤ S200x128.size a
  k0_off17_inb : ∀ k0_t2 : Fin k0_t2_loop.trips, ∀ a, (k0_off17 k0_t2) a + S1x16.size a ≤ S200x128.size a
  k0_off18_inb : ∀ k0_t2 : Fin k0_t2_loop.trips, ∀ a, (k0_off18 k0_t2) a + S1x16.size a ≤ S200x128.size a
  k0_off19_inb : ∀ k0_t2 : Fin k0_t2_loop.trips, ∀ a, (k0_off19 k0_t2) a + S1x16.size a ≤ S200x128.size a
  k0_off20_inb : ∀ k0_t2 : Fin k0_t2_loop.trips, ∀ a, (k0_off20 k0_t2) a + S1x16.size a ≤ S200x128.size a
  k0_off21_inb : ∀ k0_t2 : Fin k0_t2_loop.trips, ∀ a, (k0_off21 k0_t2) a + S1x16.size a ≤ S200x128.size a
  k0_off22_inb : ∀ k0_t2 : Fin k0_t2_loop.trips, ∀ a, (k0_off22 k0_t2) a + S1x16.size a ≤ S200x128.size a
  k0_off23_inb : ∀ k0_t2 : Fin k0_t2_loop.trips, ∀ a, (k0_off23 k0_t2) a + S1x16.size a ≤ S200x128.size a
  k0_off24_inb : ∀ k0_t2 : Fin k0_t2_loop.trips, ∀ a, (k0_off24 k0_t2) a + S1x16.size a ≤ S200x128.size a
  k0_off25_inb : ∀ k0_t2 : Fin k0_t2_loop.trips, ∀ a, (k0_off25 k0_t2) a + S1x16.size a ≤ S200x128.size a
  k0_off26_inb : ∀ k0_t2 : Fin k0_t2_loop.trips, ∀ a, (k0_off26 k0_t2) a + S1x16.size a ≤ S200x128.size a
  k0_off27_inb : ∀ k0_t2 : Fin k0_t2_loop.trips, ∀ a, (k0_off27 k0_t2) a + S1x16.size a ≤ S200x128.size a
  k0_off28_inb : ∀ k0_t2 : Fin k0_t2_loop.trips, ∀ a, (k0_off28 k0_t2) a + S1x16.size a ≤ S200x128.size a
  k0_off29_inb : ∀ k0_t2 : Fin k0_t2_loop.trips, ∀ a, (k0_off29 k0_t2) a + S1x16.size a ≤ S200x128.size a
  k0_off30_inb : ∀ k0_t2 : Fin k0_t2_loop.trips, ∀ a, (k0_off30 k0_t2) a + S1x16.size a ≤ S200x128.size a
  k0_off31_inb : ∀ k0_t2 : Fin k0_t2_loop.trips, ∀ a, (k0_off31 k0_t2) a + S1x16.size a ≤ S200x128.size a
  k0_off32_inb : ∀ k0_t2 : Fin k0_t2_loop.trips, ∀ a, (k0_off32 k0_t2) a + S1x16.size a ≤ S200x128.size a
  k0_off33_inb : ∀ k0_t2 : Fin k0_t2_loop.trips, ∀ a, (k0_off33 k0_t2) a + S1x16.size a ≤ S200x128.size a
  k0_off34_inb : ∀ k0_t2 : Fin k0_t2_loop.trips, ∀ a, (k0_off34 k0_t2) a + S1x16.size a ≤ S200x128.size a
  k0_off35_inb : ∀ k0_t2 : Fin k0_t2_loop.trips, ∀ a, (k0_off35 k0_t2) a + S1x16.size a ≤ S200x128.size a
  k0_off36_inb : ∀ k0_t2 : Fin k0_t2_loop.trips, ∀ a, (k0_off36 k0_t2) a + S1x16.size a ≤ S200x128.size a
  k0_off37_inb : ∀ k0_t2 : Fin k0_t2_loop.trips, ∀ a, (k0_off37 k0_t2) a + S1x16.size a ≤ S200x128.size a
  k0_off38_inb : ∀ k0_t2 : Fin k0_t2_loop.trips, ∀ a, (k0_off38 k0_t2) a + S1x16.size a ≤ S200x128.size a
  k0_off39_inb : ∀ k0_t2 : Fin k0_t2_loop.trips, ∀ a, (k0_off39 k0_t2) a + S1x16.size a ≤ S200x128.size a
  k0_off40_inb : ∀ k0_t2 : Fin k0_t2_loop.trips, ∀ a, (k0_off40 k0_t2) a + S1x16.size a ≤ S200x128.size a
  k0_off41_inb : ∀ k0_t2 : Fin k0_t2_loop.trips, ∀ a, (k0_off41 k0_t2) a + S1x16.size a ≤ S200x128.size a
  k0_off42_inb : ∀ k0_t2 : Fin k0_t2_loop.trips, ∀ a, (k0_off42 k0_t2) a + S1x16.size a ≤ S200x128.size a
  k0_off43_inb : ∀ k0_t2 : Fin k0_t2_loop.trips, ∀ a, (k0_off43 k0_t2) a + S1x16.size a ≤ S200x128.size a
  k0_off44_inb : ∀ k0_t2 : Fin k0_t2_loop.trips, ∀ a, (k0_off44 k0_t2) a + S1x16.size a ≤ S200x128.size a
  k0_off45_inb : ∀ k0_t2 : Fin k0_t2_loop.trips, ∀ a, (k0_off45 k0_t2) a + S1x16.size a ≤ S200x128.size a
  k0_off46_inb : ∀ k0_t2 : Fin k0_t2_loop.trips, ∀ a, (k0_off46 k0_t2) a + S1x16.size a ≤ S200x128.size a
  k0_off47_inb : ∀ k0_t2 : Fin k0_t2_loop.trips, ∀ a, (k0_off47 k0_t2) a + S1x16.size a ≤ S200x128.size a
  k0_off48_inb : ∀ k0_t2 : Fin k0_t2_loop.trips, ∀ a, (k0_off48 k0_t2) a + S1x16.size a ≤ S200x128.size a
  k0_off49_inb : ∀ k0_t2 : Fin k0_t2_loop.trips, ∀ a, (k0_off49 k0_t2) a + S1x16.size a ≤ S200x128.size a
  k0_off50_inb : ∀ k0_t2 : Fin k0_t2_loop.trips, ∀ a, (k0_off50 k0_t2) a + S1x16.size a ≤ S200x128.size a
  k0_off51_inb : ∀ k0_t2 : Fin k0_t2_loop.trips, ∀ a, (k0_off51 k0_t2) a + S1x16.size a ≤ S200x128.size a
  k0_off52_inb : ∀ k0_t2 : Fin k0_t2_loop.trips, ∀ a, (k0_off52 k0_t2) a + S1x16.size a ≤ S200x128.size a
  k0_off53_inb : ∀ k0_t2 : Fin k0_t2_loop.trips, ∀ a, (k0_off53 k0_t2) a + S1x16.size a ≤ S200x128.size a
  k0_off54_inb : ∀ k0_t2 : Fin k0_t2_loop.trips, ∀ a, (k0_off54 k0_t2) a + S1x16.size a ≤ S200x128.size a
  k0_off55_inb : ∀ k0_t2 : Fin k0_t2_loop.trips, ∀ a, (k0_off55 k0_t2) a + S1x16.size a ≤ S200x128.size a
  k0_off56_inb : ∀ k0_t2 : Fin k0_t2_loop.trips, ∀ a, (k0_off56 k0_t2) a + S1x16.size a ≤ S200x128.size a
  k0_off57_inb : ∀ k0_t2 : Fin k0_t2_loop.trips, ∀ a, (k0_off57 k0_t2) a + S1x16.size a ≤ S200x128.size a
  k0_off58_inb : ∀ k0_t2 : Fin k0_t2_loop.trips, ∀ a, (k0_off58 k0_t2) a + S1x16.size a ≤ S200x128.size a
  k0_off59_inb : ∀ k0_t2 : Fin k0_t2_loop.trips, ∀ a, (k0_off59 k0_t2) a + S1x16.size a ≤ S200x128.size a
  k0_off60_inb : ∀ k0_t2 : Fin k0_t2_loop.trips, ∀ a, (k0_off60 k0_t2) a + S1x16.size a ≤ S200x128.size a
  k0_off61_inb : ∀ k0_t2 : Fin k0_t2_loop.trips, ∀ a, (k0_off61 k0_t2) a + S1x16.size a ≤ S200x128.size a
  k0_off62_inb : ∀ k0_t2 : Fin k0_t2_loop.trips, ∀ a, (k0_off62 k0_t2) a + S1x16.size a ≤ S200x128.size a
  k0_off63_inb : ∀ k0_t2 : Fin k0_t2_loop.trips, ∀ a, (k0_off63 k0_t2) a + S1x16.size a ≤ S200x128.size a
  k0_off64_inb : ∀ k0_t2 : Fin k0_t2_loop.trips, ∀ a, (k0_off64 k0_t2) a + S1x16.size a ≤ S200x128.size a
  k0_off65_inb : ∀ k0_t2 : Fin k0_t2_loop.trips, ∀ a, (k0_off65 k0_t2) a + S1x16.size a ≤ S200x128.size a
  k0_off66_inb : ∀ k0_t2 : Fin k0_t2_loop.trips, ∀ a, (k0_off66 k0_t2) a + S1x16.size a ≤ S200x128.size a
  k0_off67_inb : ∀ k0_t2 : Fin k0_t2_loop.trips, ∀ a, (k0_off67 k0_t2) a + S1x16.size a ≤ S200x128.size a
  k0_off68_inb : ∀ k0_t2 : Fin k0_t2_loop.trips, ∀ a, (k0_off68 k0_t2) a + S1x16.size a ≤ S200x128.size a
  k0_off69_inb : ∀ k0_t2 : Fin k0_t2_loop.trips, ∀ a, (k0_off69 k0_t2) a + S1x16.size a ≤ S200x128.size a
  k0_off70_inb : ∀ k0_t2 : Fin k0_t2_loop.trips, ∀ a, (k0_off70 k0_t2) a + S1x16.size a ≤ S200x128.size a
  k0_off71_inb : ∀ k0_t2 : Fin k0_t2_loop.trips, ∀ a, (k0_off71 k0_t2) a + S1x16.size a ≤ S200x128.size a
  k0_off72_inb : ∀ k0_t2 : Fin k0_t2_loop.trips, ∀ a, (k0_off72 k0_t2) a + S1x16.size a ≤ S200x128.size a
  k0_off73_inb : ∀ k0_t2 : Fin k0_t2_loop.trips, ∀ a, (k0_off73 k0_t2) a + S1x16.size a ≤ S200x128.size a
  k0_off74_inb : ∀ k0_t2 : Fin k0_t2_loop.trips, ∀ a, (k0_off74 k0_t2) a + S1x16.size a ≤ S200x128.size a
  k0_off75_inb : ∀ k0_t2 : Fin k0_t2_loop.trips, ∀ a, (k0_off75 k0_t2) a + S1x16.size a ≤ S200x128.size a
  k0_off76_inb : ∀ k0_t2 : Fin k0_t2_loop.trips, ∀ a, (k0_off76 k0_t2) a + S1x16.size a ≤ S200x128.size a
  k0_off77_inb : ∀ k0_t2 : Fin k0_t2_loop.trips, ∀ a, (k0_off77 k0_t2) a + S1x16.size a ≤ S200x128.size a
  k0_off78_inb : ∀ k0_t2 : Fin k0_t2_loop.trips, ∀ a, (k0_off78 k0_t2) a + S1x16.size a ≤ S200x128.size a
  k0_off79_inb : ∀ k0_t2 : Fin k0_t2_loop.trips, ∀ a, (k0_off79 k0_t2) a + S1x16.size a ≤ S200x128.size a
  k0_off80_inb : ∀ k0_t2 : Fin k0_t2_loop.trips, ∀ a, (k0_off80 k0_t2) a + S1x16.size a ≤ S200x128.size a
  k0_off81_inb : ∀ k0_t2 : Fin k0_t2_loop.trips, ∀ a, (k0_off81 k0_t2) a + S1x16.size a ≤ S200x128.size a
  k0_off82_inb : ∀ k0_t2 : Fin k0_t2_loop.trips, ∀ a, (k0_off82 k0_t2) a + S1x16.size a ≤ S200x128.size a
  k0_off83_inb : ∀ k0_t2 : Fin k0_t2_loop.trips, ∀ a, (k0_off83 k0_t2) a + S1x16.size a ≤ S200x128.size a
  k0_off84_inb : ∀ k0_t2 : Fin k0_t2_loop.trips, ∀ a, (k0_off84 k0_t2) a + S1x16.size a ≤ S200x128.size a
  k0_off85_inb : ∀ k0_t2 : Fin k0_t2_loop.trips, ∀ a, (k0_off85 k0_t2) a + S1x16.size a ≤ S200x128.size a
  k0_off86_inb : ∀ k0_t2 : Fin k0_t2_loop.trips, ∀ a, (k0_off86 k0_t2) a + S1x16.size a ≤ S200x128.size a
  k0_off87_inb : ∀ k0_t2 : Fin k0_t2_loop.trips, ∀ a, (k0_off87 k0_t2) a + S1x16.size a ≤ S200x128.size a
  k0_off88_inb : ∀ k0_t2 : Fin k0_t2_loop.trips, ∀ a, (k0_off88 k0_t2) a + S1x16.size a ≤ S200x128.size a
  k0_off89_inb : ∀ k0_t2 : Fin k0_t2_loop.trips, ∀ a, (k0_off89 k0_t2) a + S1x16.size a ≤ S200x128.size a
  k0_off90_inb : ∀ k0_t2 : Fin k0_t2_loop.trips, ∀ a, (k0_off90 k0_t2) a + S1x16.size a ≤ S200x128.size a
  k0_off91_inb : ∀ k0_t2 : Fin k0_t2_loop.trips, ∀ a, (k0_off91 k0_t2) a + S1x16.size a ≤ S200x128.size a
  k0_off92_inb : ∀ k0_t2 : Fin k0_t2_loop.trips, ∀ a, (k0_off92 k0_t2) a + S1x16.size a ≤ S200x128.size a
  k0_off93_inb : ∀ k0_t2 : Fin k0_t2_loop.trips, ∀ a, (k0_off93 k0_t2) a + S1x16.size a ≤ S200x128.size a
  k0_off94_inb : ∀ k0_t2 : Fin k0_t2_loop.trips, ∀ a, (k0_off94 k0_t2) a + S1x16.size a ≤ S200x128.size a
  k0_off95_inb : ∀ k0_t2 : Fin k0_t2_loop.trips, ∀ a, (k0_off95 k0_t2) a + S1x16.size a ≤ S200x128.size a
  k0_off96_inb : ∀ k0_t2 : Fin k0_t2_loop.trips, ∀ a, (k0_off96 k0_t2) a + S1x16.size a ≤ S200x128.size a
  k0_off97_inb : ∀ k0_t2 : Fin k0_t2_loop.trips, ∀ a, (k0_off97 k0_t2) a + S1x16.size a ≤ S200x128.size a
  k0_off98_inb : ∀ k0_t2 : Fin k0_t2_loop.trips, ∀ a, (k0_off98 k0_t2) a + S1x16.size a ≤ S200x128.size a
  k0_off99_inb : ∀ k0_t2 : Fin k0_t2_loop.trips, ∀ a, (k0_off99 k0_t2) a + S1x16.size a ≤ S200x128.size a
  k0_off100_inb : ∀ k0_t2 : Fin k0_t2_loop.trips, ∀ a, (k0_off100 k0_t2) a + S1x16.size a ≤ S200x128.size a
  k0_off101_inb : ∀ k0_t2 : Fin k0_t2_loop.trips, ∀ a, (k0_off101 k0_t2) a + S1x16.size a ≤ S200x128.size a
  k0_off102_inb : ∀ k0_t2 : Fin k0_t2_loop.trips, ∀ a, (k0_off102 k0_t2) a + S1x16.size a ≤ S200x128.size a
  k0_off103_inb : ∀ k0_t2 : Fin k0_t2_loop.trips, ∀ a, (k0_off103 k0_t2) a + S1x16.size a ≤ S200x128.size a
  k0_off104_inb : ∀ k0_t2 : Fin k0_t2_loop.trips, ∀ a, (k0_off104 k0_t2) a + S1x16.size a ≤ S200x128.size a
  k0_off105_inb : ∀ k0_t2 : Fin k0_t2_loop.trips, ∀ a, (k0_off105 k0_t2) a + S1x16.size a ≤ S200x128.size a
  k0_off106_inb : ∀ k0_t2 : Fin k0_t2_loop.trips, ∀ a, (k0_off106 k0_t2) a + S1x16.size a ≤ S200x128.size a
  k0_off107_inb : ∀ k0_t2 : Fin k0_t2_loop.trips, ∀ a, (k0_off107 k0_t2) a + S1x16.size a ≤ S200x128.size a
  k0_off108_inb : ∀ k0_t2 : Fin k0_t2_loop.trips, ∀ a, (k0_off108 k0_t2) a + S1x16.size a ≤ S200x128.size a
  k0_off109_inb : ∀ k0_t2 : Fin k0_t2_loop.trips, ∀ a, (k0_off109 k0_t2) a + S1x16.size a ≤ S200x128.size a
  k0_off110_inb : ∀ k0_t2 : Fin k0_t2_loop.trips, ∀ a, (k0_off110 k0_t2) a + S1x16.size a ≤ S200x128.size a
  k0_off111_inb : ∀ k0_t2 : Fin k0_t2_loop.trips, ∀ a, (k0_off111 k0_t2) a + S1x16.size a ≤ S200x128.size a
  k0_off112_inb : ∀ k0_t2 : Fin k0_t2_loop.trips, ∀ a, (k0_off112 k0_t2) a + S1x16.size a ≤ S200x128.size a
  k0_off113_inb : ∀ k0_t2 : Fin k0_t2_loop.trips, ∀ a, (k0_off113 k0_t2) a + S1x16.size a ≤ S200x128.size a
  k0_off114_inb : ∀ k0_t2 : Fin k0_t2_loop.trips, ∀ a, (k0_off114 k0_t2) a + S1x16.size a ≤ S200x128.size a
  k0_off115_inb : ∀ k0_t2 : Fin k0_t2_loop.trips, ∀ a, (k0_off115 k0_t2) a + S1x16.size a ≤ S200x128.size a
  k0_off116_inb : ∀ k0_t2 : Fin k0_t2_loop.trips, ∀ a, (k0_off116 k0_t2) a + S1x16.size a ≤ S200x128.size a
  k0_off117_inb : ∀ k0_t2 : Fin k0_t2_loop.trips, ∀ a, (k0_off117 k0_t2) a + S1x16.size a ≤ S200x128.size a
  k0_off118_inb : ∀ k0_t2 : Fin k0_t2_loop.trips, ∀ a, (k0_off118 k0_t2) a + S1x16.size a ≤ S200x128.size a
  k0_off119_inb : ∀ k0_t2 : Fin k0_t2_loop.trips, ∀ a, (k0_off119 k0_t2) a + S1x16.size a ≤ S200x128.size a
  k0_off120_inb : ∀ k0_t2 : Fin k0_t2_loop.trips, ∀ a, (k0_off120 k0_t2) a + S1x16.size a ≤ S200x128.size a
  k0_off121_inb : ∀ k0_t2 : Fin k0_t2_loop.trips, ∀ a, (k0_off121 k0_t2) a + S1x16.size a ≤ S200x128.size a
  k0_off122_inb : ∀ k0_t2 : Fin k0_t2_loop.trips, ∀ a, (k0_off122 k0_t2) a + S1x16.size a ≤ S200x128.size a
  k0_off123_inb : ∀ k0_t2 : Fin k0_t2_loop.trips, ∀ a, (k0_off123 k0_t2) a + S1x16.size a ≤ S200x128.size a
  k0_off124_inb : ∀ k0_t2 : Fin k0_t2_loop.trips, ∀ a, (k0_off124 k0_t2) a + S1x16.size a ≤ S200x128.size a
  k0_off125_inb : ∀ k0_t2 : Fin k0_t2_loop.trips, ∀ a, (k0_off125 k0_t2) a + S1x16.size a ≤ S200x128.size a
  k0_off126_inb : ∀ k0_t2 : Fin k0_t2_loop.trips, ∀ a, (k0_off126 k0_t2) a + S1x16.size a ≤ S200x128.size a
  k0_off127_inb : ∀ k0_t2 : Fin k0_t2_loop.trips, ∀ a, (k0_off127 k0_t2) a + S1x16.size a ≤ S200x128.size a
  k0_off128_inb : ∀ k0_t2 : Fin k0_t2_loop.trips, ∀ a, (k0_off128 k0_t2) a + S1x16.size a ≤ S200x128.size a
  k0_off129_inb : ∀ k0_t2 : Fin k0_t2_loop.trips, ∀ a, (k0_off129 k0_t2) a + S1x16.size a ≤ S200x128.size a
  k0_off130_inb : ∀ k0_t2 : Fin k0_t2_loop.trips, ∀ a, (k0_off130 k0_t2) a + S1x16.size a ≤ S200x128.size a
  k0_off131_inb : ∀ k0_t2 : Fin k0_t2_loop.trips, ∀ a, (k0_off131 k0_t2) a + S1x16.size a ≤ S200x128.size a
  k0_off132_inb : ∀ k0_t2 : Fin k0_t2_loop.trips, ∀ a, (k0_off132 k0_t2) a + S1x16.size a ≤ S200x128.size a
  k0_off133_inb : ∀ k0_t2 : Fin k0_t2_loop.trips, ∀ a, (k0_off133 k0_t2) a + S1x16.size a ≤ S200x128.size a
  k0_off134_inb : ∀ k0_t2 : Fin k0_t2_loop.trips, ∀ a, (k0_off134 k0_t2) a + S1x16.size a ≤ S200x128.size a
  k0_off135_inb : ∀ k0_t2 : Fin k0_t2_loop.trips, ∀ a, (k0_off135 k0_t2) a + S1x16.size a ≤ S200x128.size a
  k0_off136_inb : ∀ k0_t2 : Fin k0_t2_loop.trips, ∀ a, (k0_off136 k0_t2) a + S1x16.size a ≤ S200x128.size a
  k0_off137_inb : ∀ k0_t2 : Fin k0_t2_loop.trips, ∀ a, (k0_off137 k0_t2) a + S1x16.size a ≤ S200x128.size a
  k0_off138_inb : ∀ k0_t2 : Fin k0_t2_loop.trips, ∀ a, (k0_off138 k0_t2) a + S1x16.size a ≤ S200x128.size a
  k0_off139_inb : ∀ k0_t2 : Fin k0_t2_loop.trips, ∀ a, (k0_off139 k0_t2) a + S1x16.size a ≤ S200x128.size a
  k0_off140_inb : ∀ k0_t2 : Fin k0_t2_loop.trips, ∀ a, (k0_off140 k0_t2) a + S1x16.size a ≤ S200x128.size a
  k0_off141_inb : ∀ k0_t2 : Fin k0_t2_loop.trips, ∀ a, (k0_off141 k0_t2) a + S1x16.size a ≤ S200x128.size a
  k0_off142_inb : ∀ k0_t2 : Fin k0_t2_loop.trips, ∀ a, (k0_off142 k0_t2) a + S1x16.size a ≤ S200x128.size a
  k0_off143_inb : ∀ k0_t2 : Fin k0_t2_loop.trips, ∀ a, (k0_off143 k0_t2) a + S1x16.size a ≤ S200x128.size a
  k0_off144_inb : ∀ k0_t2 : Fin k0_t2_loop.trips, ∀ a, (k0_off144 k0_t2) a + S1x16.size a ≤ S200x128.size a
  k0_off145_inb : ∀ k0_t2 : Fin k0_t2_loop.trips, ∀ a, (k0_off145 k0_t2) a + S1x16.size a ≤ S200x128.size a
  k0_off146_inb : ∀ k0_t2 : Fin k0_t2_loop.trips, ∀ a, (k0_off146 k0_t2) a + S1x16.size a ≤ S200x128.size a
  k0_off147_inb : ∀ k0_t2 : Fin k0_t2_loop.trips, ∀ a, (k0_off147 k0_t2) a + S1x16.size a ≤ S200x128.size a
  k0_off148_inb : ∀ k0_t2 : Fin k0_t2_loop.trips, ∀ a, (k0_off148 k0_t2) a + S1x16.size a ≤ S200x128.size a
  k0_off149_inb : ∀ k0_t2 : Fin k0_t2_loop.trips, ∀ a, (k0_off149 k0_t2) a + S1x16.size a ≤ S200x128.size a
  k0_off150_inb : ∀ k0_t2 : Fin k0_t2_loop.trips, ∀ a, (k0_off150 k0_t2) a + S1x16.size a ≤ S200x128.size a
  k0_off151_inb : ∀ k0_t2 : Fin k0_t2_loop.trips, ∀ a, (k0_off151 k0_t2) a + S1x16.size a ≤ S200x128.size a
  k0_off152_inb : ∀ k0_t2 : Fin k0_t2_loop.trips, ∀ a, (k0_off152 k0_t2) a + S1x16.size a ≤ S200x128.size a
  k0_off153_inb : ∀ k0_t2 : Fin k0_t2_loop.trips, ∀ a, (k0_off153 k0_t2) a + S1x16.size a ≤ S200x128.size a
  k0_off154_inb : ∀ k0_t2 : Fin k0_t2_loop.trips, ∀ a, (k0_off154 k0_t2) a + S1x16.size a ≤ S200x128.size a
  k0_off155_inb : ∀ k0_t2 : Fin k0_t2_loop.trips, ∀ a, (k0_off155 k0_t2) a + S1x16.size a ≤ S200x128.size a
  k0_off156_inb : ∀ k0_t2 : Fin k0_t2_loop.trips, ∀ a, (k0_off156 k0_t2) a + S1x16.size a ≤ S200x128.size a
  k0_off157_inb : ∀ k0_t2 : Fin k0_t2_loop.trips, ∀ a, (k0_off157 k0_t2) a + S1x16.size a ≤ S200x128.size a
  k0_off158_inb : ∀ k0_t2 : Fin k0_t2_loop.trips, ∀ a, (k0_off158 k0_t2) a + S1x16.size a ≤ S200x128.size a
  k0_off159_inb : ∀ k0_t2 : Fin k0_t2_loop.trips, ∀ a, (k0_off159 k0_t2) a + S1x16.size a ≤ S200x128.size a
  k0_off160_inb : ∀ k0_t2 : Fin k0_t2_loop.trips, ∀ a, (k0_off160 k0_t2) a + S1x16.size a ≤ S200x128.size a
  k0_off161_inb : ∀ k0_t2 : Fin k0_t2_loop.trips, ∀ a, (k0_off161 k0_t2) a + S1x16.size a ≤ S200x128.size a
  k0_off162_inb : ∀ k0_t2 : Fin k0_t2_loop.trips, ∀ a, (k0_off162 k0_t2) a + S1x16.size a ≤ S200x128.size a
  k0_off163_inb : ∀ k0_t2 : Fin k0_t2_loop.trips, ∀ a, (k0_off163 k0_t2) a + S1x16.size a ≤ S200x128.size a
  k0_off164_inb : ∀ k0_t2 : Fin k0_t2_loop.trips, ∀ a, (k0_off164 k0_t2) a + S1x16.size a ≤ S200x128.size a
  k0_off165_inb : ∀ k0_t2 : Fin k0_t2_loop.trips, ∀ a, (k0_off165 k0_t2) a + S1x16.size a ≤ S200x128.size a
  k0_off166_inb : ∀ k0_t2 : Fin k0_t2_loop.trips, ∀ a, (k0_off166 k0_t2) a + S1x16.size a ≤ S200x128.size a
  k0_off167_inb : ∀ k0_t2 : Fin k0_t2_loop.trips, ∀ a, (k0_off167 k0_t2) a + S1x16.size a ≤ S200x128.size a
  k0_off168_inb : ∀ k0_t2 : Fin k0_t2_loop.trips, ∀ a, (k0_off168 k0_t2) a + S1x16.size a ≤ S200x128.size a
  k0_off169_inb : ∀ k0_t2 : Fin k0_t2_loop.trips, ∀ a, (k0_off169 k0_t2) a + S1x16.size a ≤ S200x128.size a
  k0_off170_inb : ∀ k0_t2 : Fin k0_t2_loop.trips, ∀ a, (k0_off170 k0_t2) a + S1x16.size a ≤ S200x128.size a
  k0_off171_inb : ∀ k0_t2 : Fin k0_t2_loop.trips, ∀ a, (k0_off171 k0_t2) a + S1x16.size a ≤ S200x128.size a
  k0_off172_inb : ∀ k0_t2 : Fin k0_t2_loop.trips, ∀ a, (k0_off172 k0_t2) a + S1x16.size a ≤ S200x128.size a
  k0_off173_inb : ∀ k0_t2 : Fin k0_t2_loop.trips, ∀ a, (k0_off173 k0_t2) a + S1x16.size a ≤ S200x128.size a
  k0_off174_inb : ∀ k0_t2 : Fin k0_t2_loop.trips, ∀ a, (k0_off174 k0_t2) a + S1x16.size a ≤ S200x128.size a
  k0_off175_inb : ∀ k0_t2 : Fin k0_t2_loop.trips, ∀ a, (k0_off175 k0_t2) a + S1x16.size a ≤ S200x128.size a
  k0_off176_inb : ∀ k0_t2 : Fin k0_t2_loop.trips, ∀ a, (k0_off176 k0_t2) a + S1x16.size a ≤ S200x128.size a
  k0_off177_inb : ∀ k0_t2 : Fin k0_t2_loop.trips, ∀ a, (k0_off177 k0_t2) a + S1x16.size a ≤ S200x128.size a
  k0_off178_inb : ∀ k0_t2 : Fin k0_t2_loop.trips, ∀ a, (k0_off178 k0_t2) a + S1x16.size a ≤ S200x128.size a
  k0_off179_inb : ∀ k0_t2 : Fin k0_t2_loop.trips, ∀ a, (k0_off179 k0_t2) a + S1x16.size a ≤ S200x128.size a
  k0_off180_inb : ∀ k0_t2 : Fin k0_t2_loop.trips, ∀ a, (k0_off180 k0_t2) a + S1x16.size a ≤ S200x128.size a
  k0_off181_inb : ∀ k0_t2 : Fin k0_t2_loop.trips, ∀ a, (k0_off181 k0_t2) a + S1x16.size a ≤ S200x128.size a
  k0_off182_inb : ∀ k0_t2 : Fin k0_t2_loop.trips, ∀ a, (k0_off182 k0_t2) a + S1x16.size a ≤ S200x128.size a
  k0_off183_inb : ∀ k0_t2 : Fin k0_t2_loop.trips, ∀ a, (k0_off183 k0_t2) a + S1x16.size a ≤ S200x128.size a
  k0_off184_inb : ∀ k0_t2 : Fin k0_t2_loop.trips, ∀ a, (k0_off184 k0_t2) a + S1x16.size a ≤ S200x128.size a
  k0_off185_inb : ∀ k0_t2 : Fin k0_t2_loop.trips, ∀ a, (k0_off185 k0_t2) a + S1x16.size a ≤ S200x128.size a
  k0_off186_inb : ∀ k0_t2 : Fin k0_t2_loop.trips, ∀ a, (k0_off186 k0_t2) a + S1x16.size a ≤ S200x128.size a
  k0_off187_inb : ∀ k0_t2 : Fin k0_t2_loop.trips, ∀ a, (k0_off187 k0_t2) a + S1x16.size a ≤ S200x128.size a
  k0_off188_inb : ∀ k0_t2 : Fin k0_t2_loop.trips, ∀ a, (k0_off188 k0_t2) a + S1x16.size a ≤ S200x128.size a
  k0_off189_inb : ∀ k0_t2 : Fin k0_t2_loop.trips, ∀ a, (k0_off189 k0_t2) a + S1x16.size a ≤ S200x128.size a
  k0_off190_inb : ∀ k0_t2 : Fin k0_t2_loop.trips, ∀ a, (k0_off190 k0_t2) a + S1x16.size a ≤ S200x128.size a
  k0_off191_inb : ∀ k0_t2 : Fin k0_t2_loop.trips, ∀ a, (k0_off191 k0_t2) a + S1x16.size a ≤ S200x128.size a
  k0_off192_inb : ∀ k0_t2 : Fin k0_t2_loop.trips, ∀ a, (k0_off192 k0_t2) a + S1x16.size a ≤ S200x128.size a
  k0_off193_inb : ∀ k0_t2 : Fin k0_t2_loop.trips, ∀ a, (k0_off193 k0_t2) a + S1x16.size a ≤ S200x128.size a
  k0_off194_inb : ∀ k0_t2 : Fin k0_t2_loop.trips, ∀ a, (k0_off194 k0_t2) a + S1x16.size a ≤ S200x128.size a
  k0_off195_inb : ∀ k0_t2 : Fin k0_t2_loop.trips, ∀ a, (k0_off195 k0_t2) a + S1x16.size a ≤ S200x128.size a
  k0_off196_inb : ∀ k0_t2 : Fin k0_t2_loop.trips, ∀ a, (k0_off196 k0_t2) a + S1x16.size a ≤ S200x128.size a
  k0_off197_inb : ∀ k0_t2 : Fin k0_t2_loop.trips, ∀ a, (k0_off197 k0_t2) a + S1x16.size a ≤ S200x128.size a
  k0_off198_inb : ∀ k0_t2 : Fin k0_t2_loop.trips, ∀ a, (k0_off198 k0_t2) a + S1x16.size a ≤ S200x128.size a
  k0_off199_inb : ∀ k0_t2 : Fin k0_t2_loop.trips, ∀ a, (k0_off199 k0_t2) a + S1x16.size a ≤ S200x128.size a
  k0_off200_inb : ∀ k0_t2 : Fin k0_t2_loop.trips, ∀ a, (k0_off200 k0_t2) a + S1x16.size a ≤ S200x128.size a
  k0_off201_inb : ∀ k0_t2 : Fin k0_t2_loop.trips, ∀ a, (k0_off201 k0_t2) a + S1x16.size a ≤ S200x128.size a
  k0_off202_inb : ∀ (i : grid0.Coords) (k0_t1 : Fin k0_t1_loop.trips), ∀ a, (k0_off202 i k0_t1) a + S24x128.size a ≤ S24x16384.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S24x2048.size a ≤ S24x16384.size a
  hwx1_0 : ∀ i : grid1.Coords, EltTy.bits .f32 = 32 ∨ (Rect.block (s := S24x16384) S24x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S24x128.size a ≤ S24x128.size a
  hwx1_1 : ∀ i : grid1.Coords, EltTy.bits .f32 = 32 ∨ (Rect.block (s := S24x128) S24x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
def scatter_S24x128_S1_S22x128_01_n_0_0 : ScatterDims S24x128 S1 S22x128 where
  updateWindowDims := [0, 1]
  insertedWindowDims := []
  scatterDimsToOperandDims := [0]
  indexVectorDim := 0
  wf := scatter_S24x128_S1_S22x128_01_n_0_0_wf
def dot_S24x2048_S24x128_S2048x128_0_0_1_1_n_n : DotDims S24x2048 S24x128 S2048x128 where
  lhsContracting := [0]
  rhsContracting := [0]
  lhsNonContracting := [1]
  rhsNonContracting := [1]
  lhsBatch := []
  rhsBatch := []
  wf := dot_S24x2048_S24x128_S2048x128_0_0_1_1_n_n_wf

abbrev win1_0 : Pipeline.Window sig grid1 :=
  Pipeline.Window.ofSpec (Memref.whole main_v1) S24x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S24x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x200 : Shape := ⟨2, ![16384, 200]⟩
abbrev S23x128 : Shape := ⟨2, ![23, 128]⟩
abbrev S_ : Shape := ⟨0, ![]⟩
abbrev S1 : Shape := ⟨1, ![1]⟩
abbrev S128 : Shape := ⟨1, ![128]⟩
abbrev S16384x200x1 : Shape := ⟨3, ![16384, 200, 1]⟩
abbrev S1x1x1 : Shape := ⟨3, ![1, 1, 1]⟩
abbrev S16384x200x128 : Shape := ⟨3, ![16384, 200, 128]⟩
abbrev S16384x128 : Shape := ⟨2, ![16384, 128]⟩

abbrev nBuf : Space → Nat
  | .hbm => 33
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S23x128, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S128, .f32⟩
  | .hbm, ⟨6, _⟩ => ⟨S23x128, .f32⟩
  | .hbm, ⟨7, _⟩ => ⟨S_, .i32⟩
  | .hbm, ⟨8, _⟩ => ⟨S16384x200, .i32⟩
  | .hbm, ⟨9, _⟩ => ⟨S16384x200, .i1⟩
  | .hbm, ⟨10, _⟩ => ⟨S_, .i32⟩
  | .hbm, ⟨11, _⟩ => ⟨S16384x200, .i32⟩
  | .hbm, ⟨12, _⟩ => ⟨S16384x200, .i32⟩
  | .hbm, ⟨13, _⟩ => ⟨S16384x200, .i32⟩
  | .hbm, ⟨14, _⟩ => ⟨S16384x200x1, .i32⟩
  | .hbm, ⟨15, _⟩ => ⟨S1, .i32⟩
  | .hbm, ⟨16, _⟩ => ⟨S_, .i32⟩
  | .hbm, ⟨17, _⟩ => ⟨S16384x200x1, .i32⟩
  | .hbm, ⟨18, _⟩ => ⟨S16384x200x1, .i1⟩
  | .hbm, ⟨19, _⟩ => ⟨S1x1x1, .i32⟩
  | .hbm, ⟨20, _⟩ => ⟨S16384x200x1, .i32⟩
  | .hbm, ⟨21, _⟩ => ⟨S16384x200x1, .i1⟩
  | .hbm, ⟨22, _⟩ => ⟨S16384x200x1, .i1⟩
  | .hbm, ⟨23, _⟩ => ⟨S_, .i1⟩
  | .hbm, ⟨24, _⟩ => ⟨S16384x200, .i1⟩
  | .hbm, ⟨25, _⟩ => ⟨S16384x200x128, .f32⟩
  | .hbm, ⟨26, _⟩ => ⟨S16384x200x128, .i1⟩
  | .hbm, ⟨27, _⟩ => ⟨S_, .f32⟩
  | .hbm, ⟨28, _⟩ => ⟨S16384x200x128, .f32⟩
  | .hbm, ⟨29, _⟩ => ⟨S16384x200x128, .f32⟩
  | .hbm, ⟨30, _⟩ => ⟨S_, .f32⟩
  | .hbm, ⟨31, _⟩ => ⟨S16384x128, .f32⟩
  | .hbm, ⟨32, _⟩ => ⟨S16384x128, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S128 : S_.BroadcastsInDim S128 (![] : Fin 0 → Fin S128.rank)
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x128_0_1 : S16384x200.BroadcastsInDim S16384x200x128 (![0, 1] : Fin 2 → Fin S16384x200x128.rank)
  bcast_S_S16384x200x128 : S_.BroadcastsInDim S16384x200x128 (![] : Fin 0 → Fin S16384x200x128.rank)
  reducesTo_S16384x200x128_S16384x128_d1 : S16384x200x128.ReducesTo [1] S16384x128
  scatter_S23x128_S1_S128_0_0_0_0_wf : ScatterDims.WF S23x128 S1 S128 [0] [0] [0] 0
  gather_S23x128_S16384x200x1_S16384x200x128_2_0_n_n_0_2_1128_wf : GatherDims.WF S23x128 S16384x200x1 S16384x200x128 [2] [0] [] [0] [] 2 ![1, 128]

variable [Facts₀]

def scatter_S23x128_S1_S128_0_0_0_0 : ScatterDims S23x128 S1 S128 where
  updateWindowDims := [0]
  insertedWindowDims := [0]
  scatterDimsToOperandDims := [0]
  indexVectorDim := 0
  wf := scatter_S23x128_S1_S128_0_0_0_0_wf
def gather_S23x128_S16384x200x1_S16384x200x128_2_0_n_n_0_2_1128 : GatherDims S23x128 S16384x200x1 S16384x200x128 where
  offsetDims := [2]
  collapsedSliceDims := [0]
  operandBatchingDims := []
  startIndicesBatchingDims := []
  startIndexMap := [0]
  indexVectorDim := 2
  sliceSizes := ![1, 128]
  wf := gather_S23x128_S16384x200x1_S16384x200x128_2_0_n_n_0_2_1128_wf

class Facts : Prop extends Facts₀ where

variable [Facts]
-- ==== Proof.Common.lean ====
/-
  The kernel program as the launch theorem sees it, generic in the float instance: the SparseCore configuration and its
  facts, the resource algebra (the handshakes' rounds, the TensorCore region's staging cells, the counters of the tiles'
  local copies), the arrays the SparseCore call reads and writes, and what the call's handshakes carry.

  The call reads the transposed index array (200 rows, 16384 columns) and writes the count array (24 rows, 16384 columns).
  The 16384 columns are cut into 128 chunks of 128 columns; tile `(c, s)` works on the four chunks `8 s + 4 c + k`,
  `k < 4`: it copies the chunk of the index array into its scratch, builds the chunk's counts in a second scratch and
  copies them out. So a tile is handed, per chunk, the chunk's columns of the index array (read) and of the count array
  (written), and hands them back with the count columns reading as the chunk's count vector.
-/
import proofs.«205141_g56023553409622_cont_9to1c4b_756_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205141_g56023553409622_cont_9to1c4b_756_25_alg».proof.Proof.Gen.KernelIdeal
import proofs.«205141_g56023553409622_cont_9to1c4b_756_25_alg».proof.Proof.Gen.KernelIdeal.Skeleton

noncomputable section

namespace Cert.Proof.Common

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the local copies' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore region's staging cells' rounds: the left factor of the right factor. -/
def ER : Emb UR (MT nD τ sig (HIx 1) (Elt F) ℕ UU ℕ) :=
  (Emb.inl : Emb UR (UR × Counters)).trans (embR : Emb (UR × Counters) (MT nD τ sig (HIx 1) (Elt F) ℕ UU ℕ))

instance ER_landsIn : (ER (F := F)).LandsIn (upEmb : UEmb _ (MT nD τ sig (HIx 1) (Elt F) ℕ UU ℕ)) := by
  unfold ER; infer_instance

/-! ## The arrays of the SparseCore call -/

/-- The transposed index array and the count array, as locations of device `d`. -/
abbrev xtLoc (d : Dev nD) : Loc nD τ sig := (SparseCore.T d).loc main_v0
abbrev cntLoc (d : Dev nD) : Loc nD τ sig := (SparseCore.T d).loc main_v1

/-- The two arrays as a tile's kernel addresses them, and its two scratch buffers. -/
abbrev xtW : Memref sig .scVector .hbm S200x16384 .i32 := Memref.whole main_v0_scv
abbrev cntW : Memref sig .scVector .hbm S24x16384 .f32 := Memref.whole main_v1_scv
abbrev sX : Memref sig .scVector .vmem S200x128 .i32 := Memref.whole cc0_scratch0
abbrev sC : Memref sig .scVector .vmem S24x128 .f32 := Memref.whole cc0_scratch1

variable [FloatOps F]

/-- Chunk `k` of tile `L`: its columns of the index array and of the count array, as the kernel slices them. -/
abbrev xtChunk (L : grid0.Coords) (k : Fin k0_t1_loop.trips) : Memref sig .scVector .hbm S200x128 .i32 :=
  (xtW).slice (Rect.unit (s := S200x16384) (k0_off1 L k) S200x128.size (k0_off1_inb L k)) (fun _ => rfl)
abbrev cntChunk (L : grid0.Coords) (k : Fin k0_t1_loop.trips) : Memref sig .scVector .hbm S24x128 .f32 :=
  (cntW).slice (Rect.unit (s := S24x16384) (k0_off202 L k) S24x128.size (k0_off202_inb L k)) (fun _ => rfl)

/-- The tile of the grid point `(c, s)`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The chunk's columns of the index array, held at `xt`. -/
abbrev xtChunkPts (d : Dev nD) (L : grid0.Coords) (k : Fin k0_t1_loop.trips) (xt : Buf (Elt F) (xtLoc d)) : sProp 𝕄 :=
  xtLoc d ↦[(xtChunk L k).view.set]{fullShare} xt

/-- What tile `L` is handed of chunk `k`: the chunk's columns of the index array at `xt`, and of the count array at
    whatever they hold. -/
def chunkIn (d : Dev nD) (L : grid0.Coords) (k : Fin k0_t1_loop.trips) (xt : Buf (Elt F) (xtLoc d)) : sProp 𝕄 :=
  iprop(xtChunkPts d L k xt ∗ ∃ f : Buf (Elt F) (cntLoc d), cntLoc d ↦[(cntChunk L k).view.set]{fullShare} f)

/-- The count array reads, through chunk `k` of tile `L`, as the vector `v`. -/
def ChunkIs (d : Dev nD) (L : grid0.Coords) (k : Fin k0_t1_loop.trips) (v : Vec F S24x128 .f32) (f : Buf (Elt F) (cntLoc d)) : Prop :=
  ∀ y : S24x128.Idx, f ((cntChunk L k).view.emb y) = v y

/-- What tile `L` hands back of chunk `k`: the index columns as they were, the count columns at contents that read as
    the chunk's count vector `CV L k`. -/
def chunkOut (CV : grid0.Coords → Fin k0_t1_loop.trips → Vec F S24x128 .f32) (d : Dev nD) (L : grid0.Coords) (k : Fin k0_t1_loop.trips)
    (xt : Buf (Elt F) (xtLoc d)) : sProp 𝕄 :=
  iprop(xtChunkPts d L k xt ∗ ∃ f : Buf (Elt F) (cntLoc d), ⌜ChunkIs d L k (CV L k) f⌝ ∗ cntLoc d ↦[(cntChunk L k).view.set]{fullShare} f)

/-- A tile's four chunks, handed and handed back. -/
def tileIn (d : Dev nD) (L : grid0.Coords) (xt : Buf (Elt F) (xtLoc d)) : sProp 𝕄 :=
  bigSep Finset.univ fun k : Fin k0_t1_loop.trips => chunkIn d L k xt
def tileOut (CV : grid0.Coords → Fin k0_t1_loop.trips → Vec F S24x128 .f32) (d : Dev nD) (L : grid0.Coords) (xt : Buf (Elt F) (xtLoc d)) : sProp 𝕄 :=
  bigSep Finset.univ fun k : Fin k0_t1_loop.trips => chunkOut CV d L k xt

/-- What the SparseCore call's handshakes carry, given the index array's contents at the call `xt` and the count vector
    `CV L k` each chunk is to end at: the TensorCore hands each SparseCore its sixteen tiles' chunks and the sequencer
    deals each tile its own; they come back with the count columns reading as `CV`. -/
def P (xt : (d : Dev nD) → Buf (Elt F) (xtLoc d)) (CV : grid0.Coords → Fin k0_t1_loop.trips → Vec F S24x128 .f32) :
    (K (F := F)).Pay (nD := nD) (Val := Elt F) (Name := ℕ) (U := UU) where
  st := fun q d c => match q with | 0 => bigSep Finset.univ fun i : Fin 16 => tileIn d (coordsV c i) (xt d)
  dn := fun q d c => match q with | 0 => bigSep Finset.univ fun i : Fin 16 => tileOut CV d (coordsV c i) (xt d)
  go := fun q d c i => match q with | 0 => tileIn d (coordsV c (Fin.cast nSub_zero i)) (xt d)
  td := fun q d c i => match q with | 0 => tileOut CV d (coordsV c (Fin.cast nSub_zero i)) (xt d)
  x := fun _ _ => iprop(emp)

instance P_storable (xt : (d : Dev nD) → Buf (Elt F) (xtLoc d)) (CV : grid0.Coords → Fin k0_t1_loop.trips → Vec F S24x128 .f32) :
    (P (F := F) xt CV).IsStorable where
  st q d c := match q with | 0 => by unfold P tileIn chunkIn; infer_instance
  dn q d c := match q with | 0 => by unfold P tileOut chunkOut; infer_instance
  go q d c i := match q with | 0 => by unfold P tileIn chunkIn; infer_instance
  td q d c i := match q with | 0 => by unfold P tileOut chunkOut; infer_instance

end Cert.Proof.Common

end
-- ==== Proof.HistF.lean ====
/-
  The counts a tile builds in its count scratch, as pure functions of the scratch of row numbers.

  The scratch of row numbers holds 200 rows of 128 words, each word a row number below 24. The count scratch has 24
  rows of 128 columns. The 128 columns are taken in 8 groups of 16. For group `g` the tile makes 200 indexed stores
  with add, one per row `j` of the row numbers: lane `k` of the store adds one at row `xs[j, 16 g + k]`, column
  `16 g + k`. The sixteen lanes of one store name sixteen different columns, so each lane's add lands alone, and after
  all eight groups entry `(v, r)` has grown by the number of rows `j` with `xs[j, r] = v`.
-/
import Idealize.ShloMosaic.PureOps
import Idealize.ShloMosaic.PureOps.Ideal
import Idealize.ShloMosaic.Lib.ValueIdx
import Idealize.ShloMosaic.Lib.IdealHost

noncomputable section

open scoped BigOperators

namespace Cert.Proof.HistF

open Idealize.ShloMosaic Idealize.ShloMosaic.ValueIdx

abbrev S200x128 : Shape := ⟨2, ![200, 128]⟩
abbrev S24x128 : Shape := ⟨2, ![24, 128]⟩
abbrev S16 : Shape := ⟨1, ![16]⟩

/-! ## An unmasked indexed store with add, read at one element -/

section Store

variable {F : FTy → Type} [FloatOps F] {s : Shape} {e : EltTy} {d : Fin 1 → Nat}

/-- Lane `k` of the index vectors names element `j`. -/
abbrev Names (idxs : Fin s.rank → IVec ⟨1, d⟩ 32) (k : Fin (d 0)) (j : s.Idx) : Prop :=
  ∀ a, (j a).val = (idxs a (Shape.ofLane k)).toNat

/-- What one lane of an unmasked indexed store with add does to the contents: the stored vector's element at the lane
    is added onto the element the lane names, and every other element is kept. -/
def step (idxs : Fin s.rank → IVec ⟨1, d⟩ 32) (v : Vec F ⟨1, d⟩ e) (h : ∀ a x, (idxs a x).toNat < s.size a) :
    Vec F s e → Fin (d 0) → Vec F s e := fun g k =>
  let x := Shape.ofLane k
  if (fun _ => 1#1 : IVec ⟨1, d⟩ 1) x = 1 then
    let i := idxAt idxs h x
    let y := if true = true then Elt.idxAdd e (g i) (v x) else v x
    fun j => if (∀ a, (j a).val = (i a).val) then y else g j
  else g

/-- An unmasked indexed store with add is the fold of `step` over the lanes in ascending order. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) true h = (List.finRange (d 0)).foldl (step idxs v h) f := rfl

/-- One lane's step at an element: the lane's value added on if the lane names the element, the old value otherwise. -/
theorem step_apply (idxs : Fin s.rank → IVec ⟨1, d⟩ 32) (v : Vec F ⟨1, d⟩ e) (h : ∀ a x, (idxs a x).toNat < s.size a)
    (g : Vec F s e) (k : Fin (d 0)) (j : s.Idx) :
    step idxs v h g k j = if Names idxs k j then Elt.idxAdd e (g j) (v (Shape.ofLane k)) else g j := by
  dsimp only [step]
  have h1 : (1#1 : BitVec 1) = 1 := rfl
  rw [if_pos h1]
  by_cases hn : Names idxs k j
  · have hi : idxAt idxs h (Shape.ofLane k) = j := funext fun a => Fin.ext (hn a).symm
    have hn' : ∀ a, (j a).val = (idxAt idxs h (Shape.ofLane k) a).val := hn
    show (if ∀ a, (j a).val = (idxAt idxs h (Shape.ofLane k) a).val then
        (if true = true then Elt.idxAdd e (g (idxAt idxs h (Shape.ofLane k))) (v (Shape.ofLane k)) else v (Shape.ofLane k))
      else g j) = _
    rw [if_pos hn', if_pos hn, if_pos rfl, hi]
  · have hn' : ¬∀ a, (j a).val = (idxAt idxs h (Shape.ofLane k) a).val := hn
    show (if ∀ a, (j a).val = (idxAt idxs h (Shape.ofLane k) a).val then
        (if true = true then Elt.idxAdd e (g (idxAt idxs h (Shape.ofLane k))) (v (Shape.ofLane k)) else v (Shape.ofLane k))
      else g j) = _
    rw [if_neg hn', if_neg hn]

/-- Lanes none of which names an element leave it as it was. -/
theorem foldl_step_not_named (idxs : Fin s.rank → IVec ⟨1, d⟩ 32) (v : Vec F ⟨1, d⟩ e)
    (h : ∀ a x, (idxs a x).toNat < s.size a) (j : s.Idx) :
    ∀ (l : List (Fin (d 0))) (g : Vec F s e), (∀ k ∈ l, ¬Names idxs k j) → l.foldl (step idxs v h) g j = g j
  | [], _, _ => rfl
  | k :: l, g, hl => by
    rw [List.foldl_cons, foldl_step_not_named idxs v h j l _ (fun k' hk' => hl k' (List.mem_cons_of_mem _ hk')),
      step_apply, if_neg (hl k List.mem_cons_self)]

/-- Lanes exactly one of which names an element add that lane's value onto it, once. -/
theorem foldl_step_named (idxs : Fin s.rank → IVec ⟨1, d⟩ 32) (v : Vec F ⟨1, d⟩ e)
    (h : ∀ a x, (idxs a x).toNat < s.size a) (j : s.Idx) (k : Fin (d 0)) (hk : Names idxs k j) :
    ∀ (l : List (Fin (d 0))) (g : Vec F s e), l.Nodup → k ∈ l → (∀ k' ∈ l, Names idxs k' j → k' = k) →
      l.foldl (step idxs v h) g j = Elt.idxAdd e (g j) (v (Shape.ofLane k))
  | [], _, _, hm, _ => absurd hm List.not_mem_nil
  | k0 :: l, g, hnd, hm, hu => by
    rw [List.foldl_cons]
    have hnd' := List.nodup_cons.mp hnd
    by_cases h0 : k0 = k
    · subst h0
      rw [foldl_step_not_named idxs v h j l _ (fun k' hk' hn' => hnd'.1 (hu k' (List.mem_cons_of_mem _ hk') hn' ▸ hk')),
        step_apply, if_pos hk]
    · have hml : k ∈ l := (List.mem_cons.mp hm).resolve_left (fun hh => h0 hh.symm)
      have hn0 : ¬Names idxs k0 j := fun hn => h0 (hu k0 List.mem_cons_self hn)
      rw [foldl_step_named idxs v h j k hk l _ hnd'.2 hml (fun k' hk' => hu k' (List.mem_cons_of_mem _ hk')),
        step_apply, if_neg hn0]

/-- An unmasked indexed store with add, at an element no lane names: kept. -/
theorem storeIdx_not_named (f : Vec F s e) (idxs : Fin s.rank → IVec ⟨1, d⟩ 32) (v : Vec F ⟨1, d⟩ e)
    (h : ∀ a x, (idxs a x).toNat < s.size a) (j : s.Idx) (hn : ∀ k, ¬Names idxs k j) :
    storeIdx f idxs v (fun _ => 1#1) true h j = f j := by
  rw [storeIdx_eq_foldl]
  exact foldl_step_not_named idxs v h j _ f fun k _ => hn k

/-- An unmasked indexed store with add, at an element exactly one lane names: that lane's value added on. -/
theorem storeIdx_named (f : Vec F s e) (idxs : Fin s.rank → IVec ⟨1, d⟩ 32) (v : Vec F ⟨1, d⟩ e)
    (h : ∀ a x, (idxs a x).toNat < s.size a) (j : s.Idx) (k : Fin (d 0)) (hk : Names idxs k j)
    (hu : ∀ k', Names idxs k' j → k' = k) :
    storeIdx f idxs v (fun _ => 1#1) true h j = Elt.idxAdd e (f j) (v (Shape.ofLane k)) := by
  rw [storeIdx_eq_foldl]
  exact foldl_step_named idxs v h j k hk _ f (List.nodup_finRange _) (List.mem_finRange k) fun k' _ => hu k'

/-- The same store from equal contents and equal index vectors. -/
theorem storeIdx_congr {f f' : Vec F s e} {idxs idxs' : Fin s.rank → IVec ⟨1, d⟩ 32} {v v' : Vec F ⟨1, d⟩ e}
    (hf : f = f') (hi : idxs = idxs') (hv : v = v') (mask : IVec ⟨1, d⟩ 1) (add : Bool)
    (h : ∀ a x, (idxs a x).toNat < s.size a) (h' : ∀ a x, (idxs' a x).toNat < s.size a) :
    storeIdx f idxs v mask add h = storeIdx f' idxs' v' mask add h' := by
  subst hf hi hv; rfl

end Store

/-! ## The stores of one group, of all groups -/

variable {F : FTy → Type} [FloatOps F]

/-- Every word of the scratch of row numbers is a row number of the count scratch. -/
def InRange (xs : IVec S200x128 32) : Prop := ∀ i, (xs i).toNat < 24

/-- Column `16 g + k` of the 128. -/
def colIx (g : Fin 8) (k : Fin 16) : Fin 128 := ⟨16 * g.val + k.val, by omega⟩

/-- The sixteen column numbers of group `g`, as words. -/
def cols (g : Fin 8) : IVec S16 32 := fun x => BitVec.ofNat 32 (16 * g.val + (x 0).val)

/-- Row `j` of the row numbers at the columns of group `g` (zero for a `j` that is no row). -/
def rowN (xs : IVec S200x128 32) (g : Fin 8) (j : ℕ) : IVec S16 32 :=
  fun x => if h : j < 200 then xs (ix2 ⟨j, h⟩ (colIx g (x 0))) else 0#32

/-- The stored vector: one in every lane. -/
def ones : FVec F S16 .f32 := broadcast S16 (Scalar.ofBits .f32 0x3F800000#32)

/-- The index vectors of the store for row `j` of group `g` are inside the count scratch. -/
theorem idx_inb (xs : IVec S200x128 32) (hxs : InRange xs) (g : Fin 8) (j : ℕ) :
    ∀ a x, ((![rowN xs g j, cols g] : Fin 2 → IVec S16 32) a x).toNat < S24x128.size a := by
  intro a x
  match a with
  | ⟨0, _⟩ =>
    show (rowN xs g j x).toNat < 24
    unfold rowN
    split
    · exact hxs _
    · decide
  | ⟨1, _⟩ =>
    show (cols g x).toNat < 128
    have hx : (x 0).val < 16 := (x 0).isLt
    have hg : g.val < 8 := g.isLt
    unfold cols
    rw [BitVec.toNat_ofNat]
    omega

/-- The first `n` indexed stores of group `g`, in program order: store `j` adds one at `(xs[j, 16 g + k], 16 g + k)` for
    each lane `k`. -/
def grpUpto (xs : IVec S200x128 32) (hxs : InRange xs) (g : Fin 8) : ℕ → Vec F S24x128 .f32 → Vec F S24x128 .f32
  | 0, f => f
  | n + 1, f => storeIdx (grpUpto xs hxs g n f) ![rowN xs g n, cols g] (ones (F := F)) (fun _ => 1#1) true (idx_inb xs hxs g n)

theorem grpUpto_zero (xs : IVec S200x128 32) (hxs : InRange xs) (g : Fin 8) (f : Vec F S24x128 .f32) :
    grpUpto xs hxs g 0 f = f := rfl

theorem grpUpto_succ (xs : IVec S200x128 32) (hxs : InRange xs) (g : Fin 8) (n : ℕ) (f : Vec F S24x128 .f32) :
    grpUpto xs hxs g (n + 1) f
      = storeIdx (grpUpto xs hxs g n f) ![rowN xs g n, cols g] (ones (F := F)) (fun _ => 1#1) true (idx_inb xs hxs g n) := rfl

/-- One more store of group `g`, from index vectors and a stored vector that are the group's. -/
theorem grpUpto_store (xs : IVec S200x128 32) (hxs : InRange xs) (g : Fin 8) (n : ℕ) (f : Vec F S24x128 .f32)
    (c : Vec F S24x128 .f32) (row col : IVec S16 32) (v : FVec F S16 .f32)
    (hc : c = grpUpto xs hxs g n f) (hrow : row = rowN xs g n) (hcol : col = cols g) (hv : v = ones (F := F))
    (h : ∀ a x, ((![row, col] : Fin 2 → IVec S16 32) a x).toNat < S24x128.size a) :
    storeIdx c ![row, col] v (fun _ => 1#1) true h = grpUpto xs hxs g (n + 1) f := by
  subst hc hrow hcol hv; rfl

/-- All 200 indexed stores of group `g`. -/
def grp (xs : IVec S200x128 32) (hxs : InRange xs) (g : Fin 8) (f : Vec F S24x128 .f32) : Vec F S24x128 .f32 :=
  grpUpto xs hxs g 200 f

/-- Groups `0 … n-1` in order. -/
def upto (xs : IVec S200x128 32) (hxs : InRange xs) : ℕ → Vec F S24x128 .f32 → Vec F S24x128 .f32
  | 0, f => f
  | n + 1, f => if h : n < 8 then grp xs hxs ⟨n, h⟩ (upto xs hxs n f) else upto xs hxs n f

theorem upto_zero (xs : IVec S200x128 32) (hxs : InRange xs) (f : Vec F S24x128 .f32) : upto xs hxs 0 f = f := rfl

theorem upto_succ (xs : IVec S200x128 32) (hxs : InRange xs) (n : ℕ) (h : n < 8) (f : Vec F S24x128 .f32) :
    upto xs hxs (n + 1) f = grp xs hxs ⟨n, h⟩ (upto xs hxs n f) := by
  show (if h : n < 8 then grp xs hxs ⟨n, h⟩ (upto xs hxs n f) else upto xs hxs n f) = _
  rw [dif_pos h]

/-! ## The value, at the exact reals -/

/-- How many of the rows `i < n` hold the row number `v` in column `r`. -/
def cntN (xs : IVec S200x128 32) (r : Fin 128) (v : ℕ) (n : ℕ) : ℕ :=
  ∑ i ∈ Finset.range n, if ∃ h : i < 200, (xs (ix2 ⟨i, h⟩ r)).toNat = v then 1 else 0

theorem cntN_succ (xs : IVec S200x128 32) (r : Fin 128) (v : ℕ) (n : ℕ) (hn : n < 200) :
    cntN xs r v (n + 1) = cntN xs r v n + if (xs (ix2 ⟨n, hn⟩ r)).toNat = v then 1 else 0 := by
  unfold cntN
  rw [Finset.sum_range_succ]
  congr 1
  by_cases hv : (xs (ix2 ⟨n, hn⟩ r)).toNat = v
  · rw [if_pos hv, if_pos ⟨hn, hv⟩]
  · rw [if_neg hv, if_neg (fun ⟨_, hh⟩ => hv hh)]

theorem cntN_eq_card (xs : IVec S200x128 32) (r : Fin 128) (v : ℕ) :
    cntN xs r v 200 = (Finset.univ.filter fun j : Fin 200 => (xs (ix2 j r)).toNat = v).card := by
  unfold cntN
  rw [Finset.card_filter, ← Fin.sum_univ_eq_sum_range (fun i => if ∃ h : i < 200, (xs (ix2 ⟨i, h⟩ r)).toNat = v then 1 else 0) 200]
  refine Finset.sum_congr rfl fun j _ => ?_
  by_cases hv : (xs (ix2 j r)).toNat = v
  · rw [if_pos hv, if_pos ⟨j.isLt, hv⟩]
  · rw [if_neg hv, if_neg (fun ⟨_, hh⟩ => hv hh)]

/-- The stored vector is one in every lane. -/
theorem ones_apply (x : S16.Idx) : ones (F := Ideal) x = (1 : EReal) := Ideal.ofBits_one_f32

/-- Lane `k` of store `n` of group `g` names `(v, r)` exactly when it is the lane of column `r` and row `n` holds `v` there. -/
theorem names_iff (xs : IVec S200x128 32) (g : Fin 8) (n : ℕ) (hn : n < 200) (k : Fin 16) (v : Fin 24) (r : Fin 128) :
    Names (s := S24x128) (d := ![16]) ![rowN xs g n, cols g] k (ix2 v r)
      ↔ v.val = (xs (ix2 ⟨n, hn⟩ (colIx g k))).toNat ∧ r.val = 16 * g.val + k.val := by
  have hk : k.val < 16 := k.isLt
  have hg : g.val < 8 := g.isLt
  have hcol : (cols g (Shape.ofLane (d := ![16]) k)).toNat = 16 * g.val + k.val := by
    show (BitVec.ofNat 32 (16 * g.val + k.val)).toNat = _
    rw [BitVec.toNat_ofNat]; omega
  have hrow : (rowN xs g n (Shape.ofLane (d := ![16]) k)).toNat = (xs (ix2 ⟨n, hn⟩ (colIx g k))).toNat := by
    show (if h : n < 200 then xs (ix2 ⟨n, h⟩ (colIx g k)) else 0#32).toNat = _
    rw [dif_pos hn]
  constructor
  · intro h
    have h0 : v.val = (rowN xs g n (Shape.ofLane (d := ![16]) k)).toNat := h 0
    have h1 : r.val = (cols g (Shape.ofLane (d := ![16]) k)).toNat := h 1
    exact ⟨h0.trans hrow, h1.trans hcol⟩
  · rintro ⟨h0, h1⟩ a
    match a with
    | ⟨0, _⟩ => exact h0.trans hrow.symm
    | ⟨1, _⟩ => exact h1.trans hcol.symm

/-- After the first `n` stores of group `g`, entry `(v, r)` has grown by the number of rows below `n` holding `v` in
    column `r` if `r` is one of the group's columns, and is as it was otherwise. -/
theorem grpUpto_value (xs : IVec S200x128 32) (hxs : InRange xs) (g : Fin 8) (f : Vec Ideal S24x128 .f32)
    (v : Fin 24) (r : Fin 128) :
    ∀ n, n ≤ 200 → grpUpto (F := Ideal) xs hxs g n f (ix2 v r)
      = (f (ix2 v r) : EReal) + if r.val / 16 = g.val then ((cntN xs r v.val n : ℕ) : EReal) else 0
  | 0, _ => by
    show (f (ix2 v r) : EReal) = _
    unfold cntN
    rw [Finset.range_zero, Finset.sum_empty]
    split <;> simp
  | n + 1, hn1 => by
    have hn : n < 200 := hn1
    have ih := grpUpto_value xs hxs g f v r n (Nat.le_of_lt hn)
    have hr : r.val < 128 := r.isLt
    have hg : g.val < 8 := g.isLt
    rw [grpUpto_succ]
    by_cases hgr : r.val / 16 = g.val
    · -- the lane of column `r`
      have hk : r.val - 16 * g.val < 16 := by omega
      have hcol : colIx g ⟨r.val - 16 * g.val, hk⟩ = r := Fin.ext (by show 16 * g.val + (r.val - 16 * g.val) = r.val; omega)
      have hlane : ∀ k' : Fin 16, r.val = 16 * g.val + k'.val → colIx g k' = r := fun k' hk' => Fin.ext hk'.symm
      by_cases hv : (xs (ix2 ⟨n, hn⟩ r)).toNat = v.val
      · have hv' : v.val = (xs (ix2 ⟨n, hn⟩ (colIx g ⟨r.val - 16 * g.val, hk⟩))).toNat :=
          hv.symm.trans (congrArg (fun c => (xs (ix2 ⟨n, hn⟩ c)).toNat) hcol.symm)
        have hnm : Names (s := S24x128) (d := ![16]) ![rowN xs g n, cols g] (⟨r.val - 16 * g.val, hk⟩ : Fin 16) (ix2 v r) :=
          (names_iff xs g n hn ⟨r.val - 16 * g.val, hk⟩ v r).mpr ⟨hv', by show r.val = 16 * g.val + (r.val - 16 * g.val); omega⟩
        have hun : ∀ k' : Fin 16, Names (s := S24x128) (d := ![16]) ![rowN xs g n, cols g] k' (ix2 v r) → k' = (⟨r.val - 16 * g.val, hk⟩ : Fin 16) :=
          fun k' hk' => Fin.ext (by
            have := ((names_iff xs g n hn k' v r).mp hk').2
            show k'.val = r.val - 16 * g.val; omega)
        rw [storeIdx_named (s := S24x128) (d := ![16]) _ _ _ _ (ix2 v r) (⟨r.val - 16 * g.val, hk⟩ : Fin 16) hnm hun]
        rw [ih, if_pos hgr, if_pos hgr, cntN_succ xs r v.val n hn, if_pos hv]
        show (f (ix2 v r) : EReal) + _ + ones (F := Ideal) _ = _
        rw [ones_apply, add_assoc, Nat.cast_add, Nat.cast_one]
      · have hno : ∀ k' : Fin 16, ¬Names (s := S24x128) (d := ![16]) ![rowN xs g n, cols g] k' (ix2 v r) := fun k' hk' => by
          have h2 := (names_iff xs g n hn k' v r).mp hk'
          have hc : colIx g k' = r := hlane k' h2.2
          exact hv ((congrArg (fun c => (xs (ix2 ⟨n, hn⟩ c)).toNat) hc.symm).trans h2.1.symm)
        rw [storeIdx_not_named (s := S24x128) (d := ![16]) _ _ _ _ (ix2 v r) hno]
        rw [ih, if_pos hgr, if_pos hgr, cntN_succ xs r v.val n hn, if_neg hv, add_zero]
    · have hno : ∀ k' : Fin 16, ¬Names (s := S24x128) (d := ![16]) ![rowN xs g n, cols g] k' (ix2 v r) := fun k' hk' => by
        have h2 := ((names_iff xs g n hn k' v r).mp hk').2
        have hk16 : k'.val < 16 := k'.isLt
        omega
      rw [storeIdx_not_named (s := S24x128) (d := ![16]) _ _ _ _ (ix2 v r) hno]
      rw [ih, if_neg hgr, if_neg hgr]

/-- After groups `0 … n-1`, entry `(v, r)` has grown by the number of rows holding `v` in column `r` if `r` is a column
    of one of those groups, and is as it was otherwise. -/
theorem upto_value_aux (xs : IVec S200x128 32) (hxs : InRange xs) (f : Vec Ideal S24x128 .f32) (v : Fin 24) (r : Fin 128) :
    ∀ n, n ≤ 8 → upto (F := Ideal) xs hxs n f (ix2 v r)
      = (f (ix2 v r) : EReal) + if r.val < 16 * n then ((cntN xs r v.val 200 : ℕ) : EReal) else 0
  | 0, _ => by
    show (f (ix2 v r) : EReal) = _
    rw [if_neg (by omega), add_zero]
  | n + 1, hn1 => by
    have hn : n < 8 := hn1
    have ih := upto_value_aux xs hxs f v r n (Nat.le_of_lt hn)
    rw [upto_succ xs hxs n hn, grp, grpUpto_value xs hxs ⟨n, hn⟩ _ v r 200 le_rfl, ih]
    show _ + (if r.val / 16 = n then _ else _) = _
    by_cases h1 : r.val < 16 * n
    · rw [if_pos h1, if_neg (by omega), if_pos (by omega), add_zero]
    · rw [if_neg h1, add_zero]
      by_cases h2 : r.val / 16 = n
      · rw [if_pos h2, if_pos (by omega)]
      · rw [if_neg h2, if_neg (by omega)]

/-- From a count scratch of zeros, all eight groups leave at `(v, r)` the number of rows holding `v` in column `r`. -/
theorem upto_value (xs : IVec S200x128 32) (hxs : InRange xs) (v : Fin 24) (r : Fin 128) :
    upto (F := Ideal) xs hxs 8 (fun _ => (0 : EReal)) (ix2 v r)
      = (((Finset.univ.filter fun j : Fin 200 => (xs (ix2 j r)).toNat = v.val).card : ℝ) : EReal) := by
  have hr : r.val < 128 := r.isLt
  rw [upto_value_aux xs hxs _ v r 8 le_rfl, if_pos (by omega), zero_add, cntN_eq_card, EReal.coe_natCast]

end Cert.Proof.HistF

end
-- ==== Proof.ChunkDefs.lean ====
/-
  What a chunk's trip computes, as pure data: the chunk's columns of the index array as the index scratch holds them
  after the copy in, the zero the count scratch is cleared to, and the chunk's count vector — the adds of all eight
  groups of sixteen columns on top of the cleared scratch.
-/
import proofs.«205141_g56023553409622_cont_9to1c4b_756_25_alg».proof.Proof.Common
import proofs.«205141_g56023553409622_cont_9to1c4b_756_25_alg».proof.Proof.HistF

noncomputable section

namespace Cert.Proof.ChunkDefs

open Cert.KernelIdeal Cert.KernelIdeal.Gen Cert.Proof.Common
open Idealize.ShloMosaic
open Idealize.SL.Sem

variable {F : FTy → Type} [FloatOps F]

/-- What the copy in leaves in the index scratch: chunk `k` of tile `L`'s columns of the index array. -/
def chunkXs (d : Dev nD) (L : grid0.Coords) (k : Fin k0_t1_loop.trips) (xt : Buf (Elt F) (xtLoc d)) : IVec HistF.S200x128 32 :=
  (xtChunk L k).view.read (Elt F) xt

/-- The zero the count scratch is cleared to. -/
def zF : Elt F .f32 := Scalar.ofBits .f32 0x00000000#32

/-- Every entry of the index array is a row number of the count scratch. -/
def XtOk (d : Dev nD) (xt : Buf (Elt F) (xtLoc d)) : Prop := ∀ i, (xt i).toNat < 24

theorem chunkXs_inRange (d : Dev nD) (L : grid0.Coords) (k : Fin k0_t1_loop.trips) (xt : Buf (Elt F) (xtLoc d)) (h : XtOk d xt) :
    HistF.InRange (chunkXs d L k xt) := fun i => by
  unfold chunkXs
  rw [View.read_apply]
  exact h _

/-- The chunk's count vector. -/
def chunkCV (d : Dev nD) (xt : Buf (Elt F) (xtLoc d)) (h : XtOk d xt) (L : grid0.Coords) (k : Fin k0_t1_loop.trips) : Vec F S24x128 .f32 :=
  HistF.upto (chunkXs d L k xt) (chunkXs_inRange d L k xt h) 8 (fun _ => zF)

end Cert.Proof.ChunkDefs

end
-- ==== Proof.TileBody.lean ====
/-
  One tile's task: for each of its four chunks, copy the chunk's 128 columns of the index array into the index scratch,
  clear the count scratch, add one at (row number, column) for every entry of the chunk, copy the count scratch out to
  the chunk's columns of the count array. The invariant of the loop over chunks: the chunks before the trip are handed
  back (their count columns read as their count vectors), the others are as handed; both scratches and both copy
  semaphores are the tile's, the semaphores' counters at zero.
-/
import proofs.«205141_g56023553409622_cont_9to1c4b_756_25_alg».proof.Proof.Common
import proofs.«205141_g56023553409622_cont_9to1c4b_756_25_alg».proof.Proof.ChunkDefs
import Idealize.ShloMosaic.Lib.Writes

noncomputable section

namespace Cert.Proof.TileBody

open Cert.KernelIdeal Cert.KernelIdeal.Gen Cert.Proof.Common Cert.Proof.ChunkDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

/-- The tile's thread. -/
abbrev thr : Thread nD τ := V d (cV L) (jV L)

/-- The tile's two copy semaphores: the copy in's and the copy out's. -/
abbrev inCell : GSem nD τ sig := (thr d L, .dma cc0_scoped0.sem)
abbrev outCell : GSem nD τ sig := (thr d L, .dma cc0_scoped1.sem)

theorem ownSems0_V :
    (ownSems0 (thr d L) : sProp 𝕄)
      = iprop(semVal (inCell d L) 0 ∗ semVal (outCell d L) 0
          ∗ bigSep (((ownCells (thr d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩)]

/-- The two scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The invariant of the loop over the tile's chunks, before trip `k`: the chunks below `k` handed back, the others as
    handed; the two scratches at anything; the two copy semaphores' counters at zero; what the tile owes, with the waits
    recorded so far. -/
def inv (CV : grid0.Coords → Fin k0_t1_loop.trips → Vec F S24x128 .f32) (xt : Buf (Elt F) (xtLoc d))
    (O : CellTallies nD τ sig (HIx 1)) (W : Waits sig (HIx 1)) (k : Nat) (_ : Unit) : sProp 𝕄 :=
  iprop(Transfers.MayWaits (thr d L) (none : HIx 1) O
    ∗ (bigSep (Finset.univ.filter fun j : Fin k0_t1_loop.trips => j.val < k) fun j => chunkOut CV d L j xt)
    ∗ (bigSep (Finset.univ.filter fun j : Fin k0_t1_loop.trips => k ≤ j.val) fun j => chunkIn d L j xt)
    ∗ (∃ f, (sX).view.loc (thr d L) ↦{fullShare} f)
    ∗ (∃ f, (sC).view.loc (thr d L) ↦{fullShare} f)
    ∗ semVal (inCell d L) 0 ∗ semVal (outCell d L) 0
    ∗ ∃ W', ⌜∀ p ∈ W', p ∈ W ∨ p.2 = none⌝ ∗ owes (thr d L) O W')

/-- Chunk `k` is the first of the chunks still to do, and the last of the chunks done after its trip. -/
theorem todo_cons : ∀ k : Fin k0_t1_loop.trips,
    (Finset.univ.filter fun j : Fin k0_t1_loop.trips => k.val ≤ j.val)
      = insert k (Finset.univ.filter fun j : Fin k0_t1_loop.trips => k.val + 1 ≤ j.val) := by decide
theorem todo_not_mem : ∀ k : Fin k0_t1_loop.trips, k ∉ (Finset.univ.filter fun j : Fin k0_t1_loop.trips => k.val + 1 ≤ j.val) := by decide
theorem done_snoc : ∀ k : Fin k0_t1_loop.trips,
    (Finset.univ.filter fun j : Fin k0_t1_loop.trips => j.val < k.val + 1)
      = insert k (Finset.univ.filter fun j : Fin k0_t1_loop.trips => j.val < k.val) := by decide
theorem done_not_mem : ∀ k : Fin k0_t1_loop.trips, k ∉ (Finset.univ.filter fun j : Fin k0_t1_loop.trips => j.val < k.val) := by decide

theorem todo_eq (Φ : Fin k0_t1_loop.trips → sProp 𝕄) (k : Fin k0_t1_loop.trips) :
    (bigSep (Finset.univ.filter fun j : Fin k0_t1_loop.trips => k.val ≤ j.val) Φ)
      = iprop(Φ k ∗ bigSep (Finset.univ.filter fun j : Fin k0_t1_loop.trips => k.val + 1 ≤ j.val) Φ) := by
  rw [todo_cons k, SparseCore.bigSep_insert' (todo_not_mem k)]
theorem done_eq (Φ : Fin k0_t1_loop.trips → sProp 𝕄) (k : Fin k0_t1_loop.trips) :
    (bigSep (Finset.univ.filter fun j : Fin k0_t1_loop.trips => j.val < k.val + 1) Φ)
      = iprop(Φ k ∗ bigSep (Finset.univ.filter fun j : Fin k0_t1_loop.trips => j.val < k.val) Φ) := by
  rw [done_snoc k, SparseCore.bigSep_insert' (done_not_mem k)]

variable [FloatOps F]

/-- The chunk's columns of the two arrays, as the tile's slice memrefs address them. -/
theorem pts_xtChunk (k : Fin k0_t1_loop.trips) (f : Buf (Elt F) (xtLoc d)) :
    (xtLoc d ↦[(xtChunk L k).view.set]{fullShare} f : sProp 𝕄)
      = ((xtChunk L k).view.loc (thr d L) ↦[(xtChunk L k).view.set]{fullShare} f) := rfl
theorem pts_cntChunk (k : Fin k0_t1_loop.trips) (f : Buf (Elt F) (cntLoc d)) :
    (cntLoc d ↦[(cntChunk L k).view.set]{fullShare} f : sProp 𝕄)
      = ((cntChunk L k).view.loc (thr d L) ↦[(cntChunk L k).view.set]{fullShare} f) := rfl

/-- Every piece of a list of stores into the count scratch stores zeros. -/
def AllZ (Lp : List (View.Piece (Elt F) S24x128 .f32)) : Prop := ∀ p ∈ Lp, ∀ x : p.1.shape.Idx, p.2 x = zF
theorem allZ_nil : AllZ ([] : List (View.Piece (Elt F) S24x128 .f32)) := fun p hp => absurd hp (List.not_mem_nil)
theorem allZ_cons (r : Rect S24x128) (w : r.shape.Idx → Elt F .f32) (Lp : List (View.Piece (Elt F) S24x128 .f32))
    (hw : ∀ x, w x = zF) (h : AllZ Lp) : AllZ (⟨r, w⟩ :: Lp) := by
  intro p hp x
  rcases List.mem_cons.mp hp with rfl | hp
  · exact hw x
  · exact h p hp x
/-- A sixteen-lane row of the zero vector is zero at every lane. -/
theorem zero_piece (h : S16.ShapeCasts S1x16) (x : S1x16.Idx) : shapeCast S1x16 (k0_pay2 (F := F)) h x = zF := rfl

/-- Stores of zeros whose rectangles tile the count scratch leave it zero everywhere, whatever it held. -/
theorem zeros_of (Lp : List (View.Piece (Elt F) S24x128 .f32)) (hz : AllZ Lp) (ht : View.Piece.tiled Lp ![1, 16] = true) :
    (sC).view.writes (Elt F) (sC).view.junk Lp = fun _ => zF := by
  funext y
  have h := View.read_writes_apply_of_pieces (v := (sC).view) (Val := Elt F) (f := (sC).view.junk) (G := fun _ => zF) Lp hz y
    (View.cover_of_tiled Lp _ ht y)
  simpa only [Memref.view_whole, View.read_whole] using h

/-- The count array after a copy of the vector `w` onto chunk `k`'s columns reads, through the chunk, as `w`. -/
theorem chunkIs_of_copy (k : Fin k0_t1_loop.trips) (f0 : Buf (Elt F) (cntLoc d)) (w : S24x128.Idx → Elt F .f32) :
    ChunkIs d L k w ((cntChunk L k).view.writes (Elt F) f0 [⟨Rect.whole S24x128, w⟩]) := by
  intro y
  have h1 := View.read_writes_cons_emb (v := (cntChunk L k).view) (Val := Elt F) (f := f0) (Rect.whole S24x128) w [] y
  rw [Rect.emb_whole_apply] at h1
  exact ((View.read_apply _ _).trans (cast_eq _ _)).symm.trans h1

/-- The invariant of the loop over the chunk's eight groups of sixteen columns, before group `g`: the index scratch
    holds the chunk, the count scratch the adds of the groups below `g` on top of what it held at the loop's entry. -/
def inv2 (xs : IVec HistF.S200x128 32) (hxs : HistF.InRange xs) (f0 : Vec F HistF.S24x128 .f32) (g : Nat) (_ : Unit) : sProp 𝕄 :=
  iprop(((sX).view.loc (thr d L) ↦{fullShare} xs) ∗ ((sC).view.loc (thr d L) ↦{fullShare} HistF.upto xs hxs g f0))

set_option maxHeartbeats 4000000 in
theorem tile_body (hF : (K (F := F)).Facts) (CV : grid0.Coords → Fin k0_t1_loop.trips → Vec F S24x128 .f32) (xt : Buf (Elt F) (xtLoc d))
    (hxs : ∀ k, HistF.InRange (chunkXs d L k xt))
    (hCV : ∀ k, CV L k = HistF.upto (chunkXs d L k xt) (hxs k) 8 (fun _ => zF))
    (htrip : ∀ (xs : IVec HistF.S200x128 32) (hx : HistF.InRange xs) (f0 : Vec F HistF.S24x128 .f32) (v1 : BitVec 32) (k : Fin k0_t1_loop.trips)
        (g : Fin k0_t2_loop.trips) (a : PUnit),
      inv2 d L xs hx f0 g.val a
        ⊢ wp frame (wpE (defs₀ (F := F)) 𝒱₀ (thr d L) none) Set.univ
            (k0_t2_body L xtW (Memref.isWhole_whole _) cntW (Memref.isWhole_whole _) sX (Memref.isWhole_whole _) sC (Memref.isWhole_whole _)
              cc0_scoped0 cc0_scoped1 v1 (iota .scVector S16 32 [0] iota_S16_d0_w32_scVector) k0_pay1 k0_pay2 0#32 1#32 k g a)
            (inv2 d L xs hx f0 (g.val + 1)))
    (O : CellTallies nD τ sig (HIx 1)) (W : Waits sig (HIx 1)) (hO : ∀ g, O g none = 0) :
    iprop(levAts (K (F := F)).L (K (F := F)).lev ∗ emp ∗ tileIn d L xt
        ∗ scopedBufs (thr d L) ∗ scopedSems0 (thr d L) ∗ owes (thr d L) O W)
      ⊢ wp frame (wpE (defs₀ (F := F)) 𝒱₀ (thr d L) none) Set.univ
          (cc0__histogram_sc L xtW (Memref.isWhole_whole _) cntW (Memref.isWhole_whole _) sX (Memref.isWhole_whole _) sC (Memref.isWhole_whole _) cc0_scoped0 cc0_scoped1)
          fun _ => iprop(tileOut CV d L xt ∗ scopedBufs (thr d L) ∗ scopedSems0 (thr d L)
            ∗ ∃ W', ⌜∀ p ∈ W', p ∈ W ∨ p.2 = none⌝ ∗ owes (thr d L) O W') := by
  simp only [cc0__histogram_sc_eq_skeleton]; unfold cc0__histogram_sc_skel
  rw [(K (F := F)).scopedBufs_V hF d (cV L) (jV L), SparseCore.Cfg.scopedSems0_V (Val := Elt F) d (cV L) (jV L), ownSems0_V, ownBufs_V]
  iintro ⟨#Hlv, -, Hin, ⟨⟨%fx, Hsx⟩, ⟨%fc, Hsc⟩, Hbufs⟩, ⟨Hsem0, Hsem1, Hsems⟩, HO⟩
  ihave Hmw := ((K (F := F)).mayWaits_none (thr := thr d L) hO) $$ Hlv
  sl_exec
  sl_for (inv d L CV xt O W) $$ [Hin Hsx Hsc Hsem0 Hsem1 HO]
  case region =>
    intro k _
    unfold inv
    iintro ⟨#Hmw', Hdone, Htodo, ⟨%fx', Hsx⟩, ⟨%fc', Hsc⟩, Hsem0, Hsem1, %W', %hW', HO⟩
    ihave Htodo' := (Entails.of_eq (todo_eq (F := F) (fun j => chunkIn d L j xt) k)) $$ Htodo
    icases Htodo' with ⟨Hk, Htodo⟩
    unfold chunkIn
    icases Hk with ⟨Hxt, %f0, Hcnt⟩
    ihave Hxt' := (Entails.of_eq (pts_xtChunk (F := F) d L k xt)) $$ Hxt
    ihave Hcnt' := (Entails.of_eq (pts_cntChunk (F := F) d L k f0)) $$ Hcnt
    sl_exec_parts
    have eX : View.write (Elt F) sX.view fx' (tile_body.sl.dma0 d L xt k) Finset.univ = chunkXs d L k xt := View.write_whole_univ _ _ _
    rw [eX]
    sl_for (inv2 d L (chunkXs d L k xt) (hxs k) (sC.view.writes (Elt F) sC.view.junk tile_body.sl.Hsc_192)) $$ [Hsx Hsc]
    case region =>
      intro g a
      exact htrip _ _ _ _ k g a
    · unfold inv2
      rw [HistF.upto_zero]
      isplitl [Hsx]; · iexact Hsx
      iexact Hsc
    iintro %_ HI
    unfold inv2
    icases HI with ⟨Hsx, Hsc⟩
    sl_exec
    sl_step
    -- the cleared scratch is zero everywhere, so what was copied out is the chunk's count vector
    have hAZ : AllZ (tile_body.sl.Hsc_192 (F := F)) := by
      repeat' (first | exact allZ_nil | refine allZ_cons _ _ _ (zero_piece _) ?_)
    have hZ := zeros_of (tile_body.sl.Hsc_192 (F := F)) hAZ rfl
    have hw : tile_body.sl.dma0_1 d L xt hxs k = CV L k :=
      (rfl : tile_body.sl.dma0_1 d L xt hxs k
          = HistF.upto (chunkXs d L k xt) (hxs k) 8 ((sC).view.writes (Elt F) (sC).view.junk (tile_body.sl.Hsc_192 (F := F)))).trans
        ((congrArg (HistF.upto (chunkXs d L k xt) (hxs k) 8) hZ).trans (hCV k).symm)
    have hck : ChunkIs d L k (CV L k)
        ((cntChunk L k).view.writes (Elt F) f0 [⟨Rect.whole S24x128, tile_body.sl.dma0_1 d L xt hxs k⟩]) :=
      fun y => (chunkIs_of_copy d L k f0 _ y).trans (congrFun hw y)
    isplitr; · iexact Hmw'
    isplitl [Hdone Hxt' Hcnt']
    · iapply (Entails.of_eq (done_eq (F := F) (fun j => chunkOut CV d L j xt) k).symm)
      isplitl [Hxt' Hcnt']
      · unfold chunkOut
        isplitl [Hxt']; · iapply (Entails.of_eq (pts_xtChunk (F := F) d L k xt).symm); iexact Hxt'
        iexists _
        isplitr; · ipureintro; exact hck
        iapply (Entails.of_eq (pts_cntChunk (F := F) d L k _).symm); iexact Hcnt'
      · iexact Hdone
    isplitl [Htodo]; · iexact Htodo
    isplitl [Hsx]; · iexists _; iexact Hsx
    isplitl [Hsc]; · iexists _; iexact Hsc
    isplitl [Hsem0]; · iexact Hsem0
    isplitl [Hsem1]; · iexact Hsem1
    iexists (insert (SemLoc.dma cc0_scoped1.sem, (default : HIx 1)) (insert (SemLoc.dma cc0_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold inv
    isplitr; · iexact Hmw
    isplitr
    · rw [show (Finset.univ.filter fun j : Fin k0_t1_loop.trips => j.val < 0) = ∅ from by decide, bigSep_empty]; iempintro
    isplitl [Hin]
    · unfold tileIn
      rw [show (Finset.univ.filter fun j : Fin k0_t1_loop.trips => 0 ≤ j.val) = Finset.univ from by decide]
      iexact Hin
    isplitl [Hsx]; · iexists _; iexact Hsx
    isplitl [Hsc]; · iexists _; iexact Hsc
    isplitl [Hsem0]; · iexact Hsem0
    isplitl [Hsem1]; · iexact Hsem1
    iexists W; isplitr
    · ipureintro; exact fun p hp => .inl hp
    · iexact HO
  iintro %_ HI
  unfold inv
  icases HI with ⟨-, Hdone, -, ⟨%fx2, Hsx⟩, ⟨%fc2, Hsc⟩, Hsem0, Hsem1, %W', %hW', HO⟩
  sl_exec
  sl_step
  isplitl [Hdone]
  · unfold tileOut
    rw [show (Finset.univ.filter fun j : Fin k0_t1_loop.trips => j.val < Scf.trips k0_t1_loop.lb k0_t1_loop.ub k0_t1_loop.st) = Finset.univ from by decide]
    iexact Hdone
  isplitl [Hsx Hsc Hbufs]
  · isplitl [Hsx]; · iexists _; iexact Hsx
    isplitl [Hsc]; · iexists _; iexact Hsc
    iexact Hbufs
  isplitl [Hsem0 Hsem1 Hsems]
  · isplitl [Hsem0]; · iexact Hsem0
    isplitl [Hsem1]; · iexact Hsem1
    iexact Hsems
  iexists W'; isplitr
  · ipureintro; exact hW'
  · iexact HO

end Tile

end Cert.Proof.TileBody

end
-- ==== Proof.TileObl.lean ====
/-
  The launch theorem's obligations for the SparseCore call: each tile's task, from its four chunks as handed to the four
  handed back, and the deal of a SparseCore's sixteen tiles' chunks, which is the identity (the call's payload for a
  SparseCore is already the tiles' payloads side by side).
-/
import proofs.«205141_g56023553409622_cont_9to1c4b_756_25_alg».proof.Proof.TileBody

noncomputable section

namespace Cert.Proof.TileObl

open Cert.KernelIdeal Cert.KernelIdeal.Gen Cert.Proof.Common Cert.Proof.ChunkDefs Cert.Proof.TileBody

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

theorem defs₀_vector (c : Fin τ.nSC) (s : Fin τ.nSub) :
    defs₀ (F := F) (.scVector c s) 0 ()
      = SparseCore.onTile hcore0 hsub0 (fun c s => cc0__histogram_sc (coordsV c s)
          xtW (Memref.isWhole_whole _) cntW (Memref.isWhole_whole _) sX (Memref.isWhole_whole _) sC (Memref.isWhole_whole _)
          cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's trip over one group of sixteen columns, as `tile_body` takes it. -/
abbrev TripHyp : Prop :=
  ∀ (d : Dev nD) (L : grid0.Coords) (xs : IVec HistF.S200x128 32) (hx : HistF.InRange xs) (f0 : Vec F HistF.S24x128 .f32) (v1 : BitVec 32)
      (k : Fin k0_t1_loop.trips) (g : Fin k0_t2_loop.trips) (a : PUnit),
    inv2 d L xs hx f0 g.val a
      ⊢ wp frame (wpE (defs₀ (F := F)) 𝒱₀ (thr d L) none) Set.univ
          (k0_t2_body L xtW (Memref.isWhole_whole _) cntW (Memref.isWhole_whole _) sX (Memref.isWhole_whole _) sC (Memref.isWhole_whole _)
            cc0_scoped0 cc0_scoped1 v1 (iota .scVector S16 32 [0] iota_S16_d0_w32_scVector) k0_pay1 k0_pay2 0#32 1#32 k g a)
          (inv2 d L xs hx f0 (g.val + 1))

theorem tileObl (hF : (K (F := F)).Facts) (htrip : TripHyp (F := F)) (xt : (d : Dev nD) → Buf (Elt F) (xtLoc d)) (hxt : ∀ d, XtOk d (xt d))
    (CV : grid0.Coords → Fin k0_t1_loop.trips → Vec F S24x128 .f32) (hCV : ∀ d L k, CV L k = chunkCV d (xt d) (hxt d) L k) :
    (K (F := F)).TileObl (D (F := F)) 𝒱 (P xt CV) v₀ 0 := by
  intro d c i O W hO _ _
  simp only [show (P xt CV).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF CV (xt d) (fun k => chunkXs_inRange d _ k (xt d) (hxt d)) (fun k => hCV d _ k)
    (htrip d _) O W hO).trans (wp_mono frame _ _ fun _ => obl_post)

omit [FloatOps F] in
/-- A family over a SparseCore's tiles, numbered by the call's own subcore count, is the family over the sixteen tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (xt : (d : Dev nD) → Buf (Elt F) (xtLoc d)) (CV : grid0.Coords → Fin k0_t1_loop.trips → Vec F S24x128 .f32) :
    (K (F := F)).VecSplit' (P xt CV) 0 := by
  intro d c
  have e1 : (bigSep Finset.univ fun i : Fin ((K (F := F)).nSub 0) => (P xt CV).go 0 d c i) = (P xt CV).st 0 d c :=
    bigSep_tasks (F := F) (fun i => tileIn d (coordsV c i) (xt d))
  have e2 : (bigSep Finset.univ fun i : Fin ((K (F := F)).nSub 0) => (P xt CV).td 0 d c i) = (P xt CV).dn 0 d c :=
    bigSep_tasks (F := F) (fun i => tileOut CV d (coordsV c i) (xt d))
  iintro H; imodintro
  isplitl [H]; · iapply (Entails.of_eq e1.symm); iexact H
  iintro H; iapply (Entails.of_eq e2); iexact H

end Cert.Proof.TileObl

end
-- ==== Proof.TripBody.lean ====
/-
  One trip of a tile's loop over the eight groups of sixteen columns.

  The trip computes the group's sixteen column numbers, reads the 200 rows of the scratch of row numbers at those
  columns, sixteen words at a time, and for each row makes one indexed store with add of sixteen ones into the count
  scratch, at the row the word names and the lane's column; the reads run 25 rows ahead of the stores. Every word read
  is a row number below 24 and every column number is below 128, which is what each store asks of its indices. The
  trip leaves the row numbers as they were and takes the count scratch from its contents after the groups before this
  one to its contents after this group too (`HistF.upto`).
-/
import proofs.«205141_g56023553409622_cont_9to1c4b_756_25_alg».proof.Proof.Common
import proofs.«205141_g56023553409622_cont_9to1c4b_756_25_alg».proof.Proof.HistF
import Idealize.ShloMosaic.Lib.Pipeline.Value

noncomputable section

namespace Cert.Proof.TripBody

open Cert.KernelIdeal Cert.KernelIdeal.Gen
open Cert.Proof.Common

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

abbrev thr (d : Dev nD) (L : grid0.Coords) : Thread nD τ := V d (cV L) (jV L)

/-- A trip of the loop over the groups, as one of the eight groups. -/
def g8 (g : Fin k0_t2_loop.trips) : Fin 8 := ⟨g.val, lt_of_lt_of_le g.isLt k0_t2_abs.2.1⟩

/-- The iota of the sixteen lanes. -/
abbrev lanes : IVec S16 32 := iota .scVector S16 32 [0] iota_S16_d0_w32_scVector

omit [FloatOps F] in
/-- The column numbers the trip computes are the group's. -/
theorem col_eq (g : Fin k0_t2_loop.trips) : k0_pay3 lanes 0#32 1#32 g = HistF.cols (g8 g) := by
  have hg : g.val < 8 := (g8 g).isLt
  funext x
  have hx : (x 0).val < 16 := (x 0).isLt
  show (0#32 + BitVec.ofNat 32 g.val * 1#32) * 16#32 + BitVec.ofNat 32 (0 * 16 + (x 0).val) = BitVec.ofNat 32 (16 * g.val + (x 0).val)
  apply BitVec.eq_of_toNat_eq
  simp only [BitVec.toNat_add, BitVec.toNat_mul, BitVec.toNat_ofNat, BitVec.toNat_ofNat]
  omega

omit [FloatOps F] in
/-- Every column number of a group is below 128. -/
theorem cols_lt (g : Fin 8) (x : S16.Idx) : (HistF.cols g x).toNat < 128 := by
  have hx : (x 0).val < 16 := (x 0).isLt
  have hg : g.val < 8 := g.isLt
  unfold HistF.cols
  rw [BitVec.toNat_ofNat]
  omega

omit [FloatOps F] in
/-- The side condition of an indexed store: rows below 24, the group's columns. -/
theorem chk_ok (g : Fin 8) (col row : IVec S16 32) (hrow : ∀ x, (row x).toNat < 24) (hcol : col = HistF.cols g) :
    ∀ a x, ((![row, col] : Fin 2 → IVec S16 32) a x).toNat < S24x128.size a := by
  subst hcol
  intro a x
  match a with
  | ⟨0, _⟩ => exact hrow x
  | ⟨1, _⟩ => exact cols_lt g x

/-- A load of sixteen words of row `n` of the row numbers at the columns of group `g`, as the tile reads them. -/
theorem row_read (xs : IVec S200x128 32) (g : Fin 8) (off : Fin 2 → ℕ) [c : ClosedOff off]
    (hinb : ∀ a, off a + S1x16.size a ≤ S200x128.size a) (n : ℕ) (hform : ClosedOff.form off = ![n, 16 * g.val]) :
    shapeCast S16 (View.readAt (Elt F) (sX).view (Rect.unit (s := S200x128) off S1x16.size hinb).toLoadRect xs) shapeCasts_S1x16_S16
      = HistF.rowN xs g n := by
  have hoff : off = ![n, 16 * g.val] := (ClosedOff.eq (off := off)).trans hform
  subst hoff
  have hn : n < 200 := by have := hinb 0; simpa using this
  funext x
  refine (shapeCast_apply (s := S1x16) _ shapeCasts_S1x16_S16 x (ValueIdx.ix2 (0 : Fin 1) (x 0)) ?_).trans ?_
  · simp [Shape.rowMajor_val_one, Shape.rowMajor_val_two]
  show xs _ = _
  unfold HistF.rowN
  rw [dif_pos hn]
  refine congrArg xs (funext fun a => Fin.ext ?_)
  match a with
  | ⟨0, _⟩ => show n + 0 = n; rfl
  | ⟨1, _⟩ => show 16 * g.val + 1 * (x 0).val = 16 * g.val + (x 0).val; omega

/-- The count scratch after one more store of group `g`: the whole buffer rewritten to the indexed store of what it
    read is the buffer after the group's first `n + 1` stores. -/
theorem store_eq (xs : IVec S200x128 32) (hxs : HistF.InRange xs) (g : Fin 8) (f0 : Vec F S24x128 .f32) (n : ℕ)
    (c : Vec F S24x128 .f32) (row col : IVec S16 32) (v : FVec F S16 .f32)
    (h : ∀ a x, ((![row, col] : Fin 2 → IVec S16 32) a x).toNat < S24x128.size a)
    (hc : c = HistF.grpUpto xs hxs g n f0)
    (hrow : row = HistF.rowN xs g n) (hcol : col = HistF.cols g) (hv : v = HistF.ones (F := F)) :
    (sC).view.writes (Elt F) (HistF.grpUpto xs hxs g n f0)
        [⟨Rect.whole S24x128, storeIdx c ![row, col] v (fun _ => 1#1) true h⟩]
      = HistF.grpUpto xs hxs g (n + 1) f0 := by
  rw [View.writes_singleton]
  refine (Memref.write_access_whole_univ (Elt F) cc0_scratch1 _ _).trans ?_
  exact HistF.grpUpto_store xs hxs g n f0 c row col v hc hrow hcol hv h

omit [FloatOps F] in
/-- Every word of the row numbers is below 24. -/
theorem in_lt (xs : IVec S200x128 32) (hxs : HistF.InRange xs) (i : S200x128.Idx) : (xs i).toNat < 24 := hxs i

set_option maxHeartbeats 4000000 in
set_option maxRecDepth 65536 in
/-- One trip of the loop over the groups: from the count scratch after groups `0 … g-1` to the count scratch after
    groups `0 … g`, the row numbers kept. -/
theorem trip (d : Dev nD) (L : grid0.Coords) (xs : IVec S200x128 32) (hxs : HistF.InRange xs) (f0 : Vec F S24x128 .f32)
    (v1 : BitVec 32) (k0_t1 : Fin k0_t1_loop.trips) (g : Fin k0_t2_loop.trips) :
    (iprop(((sX).view.loc (thr d L) ↦{fullShare} xs) ∗ ((sC).view.loc (thr d L) ↦{fullShare} HistF.upto xs hxs g.val f0)) : sProp 𝕄)
      ⊢ wp frame (wpE (defs₀ (F := F)) 𝒱₀ (thr d L) none) Set.univ
          (k0_t2_body L xtW (Memref.isWhole_whole _) cntW (Memref.isWhole_whole _) sX (Memref.isWhole_whole _) sC (Memref.isWhole_whole _)
            cc0_scoped0 cc0_scoped1 v1 lanes (k0_pay1 (F := F)) (k0_pay2 (F := F)) 0#32 1#32 k0_t1 g ())
          fun _ => iprop(((sX).view.loc (thr d L) ↦{fullShare} xs) ∗ ((sC).view.loc (thr d L) ↦{fullShare} HistF.upto xs hxs (g.val + 1) f0)) := by
  rw [← HistF.grpUpto_zero xs hxs (g8 g) (HistF.upto xs hxs g.val f0)]
  iintro ⟨Hx, Hc⟩
  sl_exec (disch := exact @id _ (chk_ok (g8 g) _ _ (fun x => in_lt xs hxs _) (col_eq g)))
  repeat (
    rw [SparseCore.vectorStoreIdx_bind (thr d L)]
    sl_exec (disch := exact @id _ (chk_ok (g8 g) _ _ (fun x => in_lt xs hxs _) (col_eq g)))
    rw [store_eq xs hxs (g8 g) _ _ _ _ _ _ _ (by exact Memref.readAt_whole (Elt F) cc0_scratch1 _) (by exact row_read xs (g8 g) _ _ _ rfl) (by exact col_eq g) (by rfl)])
  sl_step
  isplitl [Hx]
  · iexact Hx
  · rw [HistF.upto_succ xs hxs g.val (g8 g).isLt f0]
    iexact Hc

end Cert.Proof.TripBody

end
-- ==== Proof.TcBody.lean ====
/-
  The TensorCore kernel's body, run once on whole staging buffers.

  The body loads its two input blocks whole — a block of the count array, 24 rows by 2048 columns, and the padded table,
  24 rows by 128 columns —, contracts them over their 24 rows into a zero accumulator, takes the hyperbolic tangent and
  stores the 2048 by 128 result over the whole output block. So whatever the output's buffer held, it ends at the one
  payload of the two loaded blocks; the inputs' buffers are only read.
-/
import proofs.«205141_g56023553409622_cont_9to1c4b_756_25_alg».proof.Proof.Gen.KernelIdeal.Launch
import proofs.«205141_g56023553409622_cont_9to1c4b_756_25_alg».proof.Proof.Gen.KernelIdeal.Skeleton
import proofs.«205141_g56023553409622_cont_9to1c4b_756_25_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.TcBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U]

local notation "𝕄" => MT nD τ sig Ix (Elt F) ℕ U ℕ

/-! ## The body's accesses: each the whole of its buffer -/

abbrev rC : Rect S24x2048 := Rect.unit (s := S24x2048) ![0, 0] S24x2048.size inb_S24x2048_S24x2048_0_0
abbrev rT : Rect S24x128 := Rect.unit (s := S24x128) ![0, 0] S24x128.size inb_S24x128_S24x128_0_0
abbrev rO : Rect S2048x128 := Rect.unit (s := S2048x128) ![0, 0] S2048x128.size inb_S2048x128_S2048x128_0_0

/-- What the body leaves in the output's buffer, from the two input blocks: its one store. -/
def outBlk (x0 : Vec F S24x2048 .f32) (x1 : Vec F S24x128 .f32) : Vec F S2048x128 .f32 :=
  View.canon [⟨rO, k1_pay1 (View.ld x0 rC) (View.ld x1 rT)⟩]

/-- The store covers the buffer. -/
theorem coverO (p0 : Vec F S2048x128 .f32) (y : S2048x128.Idx) :
    ∃ pc ∈ ([⟨rO, p0⟩] : List (View.Piece (Elt F) S2048x128 .f32)), y ∈ pc.1.set :=
  View.cover_of_tiled [⟨rO, p0⟩] S2048x128.size (by rfl) y

set_option maxHeartbeats 1000000 in
/-- The body on whole staging memrefs, the inputs' at contents `x0`, `x1` and the output's at anything, runs to the
    continuation holding the inputs' as they were and the output's at `outBlk x0 x1`. -/
theorem sound_kernel (c : Dev nD) (E : Set ℕ) (i : grid1.Coords)
    (arg1 : Memref sig .tc .vmem S24x2048 .f32) (harg1 : arg1.IsWhole) (arg2 : Memref sig .tc .vmem S24x128 .f32) (harg2 : arg2.IsWhole)
    (arg3 : Memref sig .tc .vmem S2048x128 .f32) (harg3 : arg3.IsWhole)
    (x0 : Vec F S24x2048 .f32) (x1 : Vec F S24x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc1__matmul_tanh_body i arg1 harg1 arg2 harg2 arg3 harg3) K := by
  simp only [cc1__matmul_tanh_body_eq_skeleton]; unfold cc1__matmul_tanh_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

end Cert.Proof.TcBody

end
-- ==== Proof.TcRegion.lean ====
/-
  The TensorCore region: the pipelined matrix product over the count array.

  The region runs the TensorCore kernel at the 8 points of its grid. At point `t` the pipeline stages block `t` of the
  count array (24 rows, columns 2048 t to 2048 t + 2047) and the whole padded table, the body stores its payload over the
  whole output block, and the pipeline writes that block back to rows 2048 t to 2048 t + 2047 of the result. Here: the
  proof data of the pipeline over ANY contents `V` of the TensorCore's buffers at the region's entry, the body obligation,
  and the region as one step of the TensorCore's program — entered holding every unscoped buffer at `V` and owing
  nothing, left holding the three arrays of the pipeline at their final contents and every other unscoped buffer as it
  was.
-/
import proofs.«205141_g56023553409622_cont_9to1c4b_756_25_alg».proof.Proof.Common
import proofs.«205141_g56023553409622_cont_9to1c4b_756_25_alg».proof.Proof.TcBody
import Idealize.ShloMosaic.Lib.Pipeline.Regions

set_option maxRecDepth 16384

noncomputable section

namespace Cert.Proof.TcRegion

open Cert.KernelIdeal Cert.KernelIdeal.Gen
open Cert.Proof.Common Cert.Proof.TcBody

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The prefetched tables' admissible contents: the pipeline has no table. -/
abbrev adm : (p : Fin 1) → (pcfgs (F := F) p).Adm := fun p => (cfgs p).toPCfg_adm

-- the TensorCore's buffers when the region is entered, per core
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pairs a wait may have recorded when the region is entered: those at most at the level the SparseCore call left. -/
def recd (c : Dev nD) : Set (SemLoc sig × HIx 1) := {p | (K (F := F)).lev ((SparseCore.T c : Thread nD τ), p.1) p.2 ≤ 8}

/-! ## The pipeline's proof data -/

/-- The proof data on core `c`: the arrays as the region finds them; after the body at point `t` each input's buffer at
    its block and the output's at the body's store over the two input blocks; the invariant the scoped buffers no window
    stages; nothing owed; full shares. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => outBlk (iblk V c 0 t) (iblk V c 1 t)
  Φ _ := Pipeline.scopedRest (Ix := HIx 1) (Name := ℕ) (U := UU) (Lvl := ℕ) (Val := Elt F) spec1 c
  q _ := fullShare
  owed _ := 0
  recorded _ := recd (F := F) c

theorem A_eq (c : Dev nD) (w : Fin cfg1.W) : (dats V 0 c).A w = V c (Pipeline.arrRef spec1 w) := by
  dsimp only [dats]

theorem after1_0 (c : Dev nD) (t : Fin cfg1.N) : (dats V 0 c).after 0 t = iblk V c 0 t := by dsimp only [dats]
theorem after1_1 (c : Dev nD) (t : Fin cfg1.N) : (dats V 0 c).after 1 t = iblk V c 1 t := by dsimp only [dats]
theorem after1_2 (c : Dev nD) (t : Fin cfg1.N) : (dats V 0 c).after 2 t = outBlk (iblk V c 0 t) (iblk V c 1 t) := by dsimp only [dats]

/-- Each input's current staging buffer holds its block at every point, fetched there or not: unfetched, the block's
    index has not moved. -/
theorem before1_0 (c : Dev nD) (t : Fin cfg1.N) (d) : (dats V 0 c).before 0 t d = iblk V c 0 t :=
  ((dats V 0 c).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats V 0 c).before 1 t d = iblk V c 1 t :=
  ((dats V 0 c).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t)
    ∗ owns (c : Thread nD τ) (st1_2 t) fullShare ((dats V 0 c).after 2 t))

/-- The body at any point: the inputs' buffers hold their blocks, so the body's run applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dats V 0 c).Φ t.succ = (dats V 0 c).Φ t.castSucc from rfl,
    show (dats V 0 c).owesAt none t.succ = (dats V 0 c).owesAt none t.castSucc from rfl,
    after1_0, after1_1, after1_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) V 0 c) (defs₀ (F := F)) Variants.none (none : HIx 1) Set.univ := fun t => by
  rw [bigSep_W1, bigSep_W1]
  exact sound_body V c t

/-! ## The region as a step of the TensorCore's program -/

/-- What the core owes beside the buffers: nothing, its recorded pairs at most at the level the SparseCore call left. -/
abbrev owesR (c : Dev nD) : sProp 𝕄 :=
  iprop(∃ W, ⌜(K (F := F)).WBelow (SparseCore.T c) W 8⌝ ∗ owes (c : Thread nD τ) (0 : CellTallies nD τ sig (HIx 1)) W)

/-- What the region is entered from, -/
abbrev regPre (c : Dev nD) : sProp 𝕄 := iprop(unscopedBufs c (V c) ∗ owesR (F := F) c)
/-- and what it leaves: the pipeline's arrays at their final contents, every other unscoped buffer as it was. -/
abbrev regPost (c : Dev nD) : sProp 𝕄 :=
  iprop((dats V 0 c).arrays ((dats V 0 c).arrAt · cfg1.N) ∗ Pipeline.unscopedRest spec1 c (V c) ∗ owesR (F := F) c)

set_option backward.isDefEq.respectTransparency.types false in
/-- The region: the decided layout, no semaphore of the kernel's own, the body obligation; the three arrays enter the
    pipeline, the other unscoped buffers bypass it. -/
def reg : Pipeline.RegionSeg (pcfgs (F := F)) adm (dats V) (none : HIx 1) defs₀ 𝒱₀ (K (F := F)).L (K (F := F)).lev 0 where
  win := launch1.win.to₀
  block_pos := launch1.block_pos
  stage_whole := launch1.stage_whole
  K := PEmpty
  osem := fun k : PEmpty => k.elim
  ho := Pipeline.OwnSemFacts.none _
  hbody c := (body_obligation V c).loose
  hwaits := Pipeline.hwaits_of_owed_zero _ _ _ _ _ _ 0 fun _ _ => rfl
  pre c := regPre V c
  post c := regPost V c
  X c := iprop(emp)
  Y c := iprop(emp)
  Z c := Pipeline.unscopedRest spec1 c (V c)
  hentry c := by
    have hsplit := Pipeline.arrays_of_unscopedBufs (pcfgs (F := F)) adm (dats V) launch1.win launch1.arr_whole c
      ((dats V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr; · iempintro
    iexact Hrest
  hin c := by
    rw [show (dats V 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (dats V 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, HZ⟩
    imodintro
    isplitl [Ha]; · iexact Ha
    isplitl [HZ]; · iexact HZ
    unfold Pipeline.Dat.owesAt Pipeline.owesWithin
    icases HO with ⟨%W, %hW, HO⟩
    iexists W; isplitr
    · ipureintro
      intro p hp
      rcases hW hp with h | ⟨w, s, rfl⟩
      · exact h
      · exact Nat.zero_le _
    iexact HO

set_option backward.isDefEq.respectTransparency.types false in
/-- The region at the head of a program over the pipeline's body table: from the region boundary, the entry state, the
    level facts and the staging cells' launch ghost state, to the boundary and the exit state. -/
theorem wp_region (c : Dev nD) {α : Type} (k : PUnit → Prog (TpuEff nD τ sig (Elt F) (ΛP (F := F)) .tc) α) (Q : α → sProp 𝕄) :
    iprop((iprop(boundary (c.tc : Thread nD τ) ∗ regPost V c) -∗ wp frame (wpE (D (F := F)) 𝒱 (c.tc : Thread nD τ) none) Set.univ (k ⟨⟩) Q)
        ∗ boundary (c.tc : Thread nD τ) ∗ regPre V c ∗ levAts (K (F := F)).L (K (F := F)).lev
        ∗ Pipeline.cellsGhost (Pipeline.pin (pcfgs (F := F)) adm) ER 0 c ∗ Pipeline.toksInit (Pipeline.pin (pcfgs (F := F)) adm) ER 0 c)
      ⊢ wp frame (wpE (D (F := F)) 𝒱 (c.tc : Thread nD τ) none) Set.univ (.op (.customCall (Pipeline.entry 0) ()) k) Q :=
  Pipeline.RegionSeg.wp (pcfgs (F := F)) adm (dats V) (none : HIx 1) cellOf_inj ER defs₀ 𝒱₀ (K (F := F)).L (K (F := F)).lev (reg V) c none
    (fun _ h => nomatch h) k Q

end Cert.Proof.TcRegion

end
-- ==== Proof.TcValue.lean ====
/-
  What the TensorCore region leaves in the result array, as one function of the count array and the padded table.

  Point `t` of the grid writes, to rows 2048 t to 2048 t + 2047 of the result, the body's payload of block `t` of the count
  array (all 24 rows, columns 2048 t to 2048 t + 2047) and of the whole padded table. The 8 blocks tile the result's
  16384 rows, so the result ends as the function `mmF`: entry `(b, d)` is the payload, of the count block holding column
  `b` and of the table, at row `b mod 2048` and column `d`.
-/
import proofs.«205141_g56023553409622_cont_9to1c4b_756_25_alg».proof.Proof.TcRegion
import Idealize.ShloMosaic.Lib.Pipeline.Value
import Idealize.ShloMosaic.Lib.ValueIdx

set_option maxRecDepth 16384

noncomputable section

namespace Cert.Proof.TcValue

open Cert.KernelIdeal Cert.KernelIdeal.Gen
open Cert.Proof.Common Cert.Proof.TcBody Cert.Proof.TcRegion

open Idealize.ShloMosaic Idealize.ShloMosaic.TcCoe Idealize.SL.Sem
open Idealize.ShloMosaic.SparseCore.Cfg (HIx)
open Idealize.ShloMosaic.Pipeline (Dat)

variable {F : FTy → Type} [FloatOps F]

/-- An index of a 24 by 2048 block as an index of the count array: row `r`, column `2048 t + q`. -/
def colIdx (t : ℕ) (j : S24x2048.Idx) : S24x16384.Idx :=
  fun | ⟨0, _⟩ => ⟨(j 0).val, by have := (j 0).isLt; show (j 0).val < 24; exact this⟩
      | ⟨1, _⟩ => ⟨(2048 * t + (j 1).val) % 16384, Nat.mod_lt _ (by decide)⟩

/-- Block `t` of the count array. -/
def cblk (cnt : S24x16384.Idx → Elt F .f32) (t : ℕ) : Vec F S24x2048 .f32 := fun j => cnt (colIdx t j)

/-- An index of the result as an index of its 2048 by 128 block. -/
def rowIdx (i : S16384x128.Idx) : S2048x128.Idx :=
  fun | ⟨0, _⟩ => ⟨(i 0).val % 2048, Nat.mod_lt _ (by decide)⟩
      | ⟨1, _⟩ => ⟨(i 1).val, by have := (i 1).isLt; show (i 1).val < 128; exact this⟩

/-- The result of the region: entry `(b, d)` is the body's payload of the count block holding column `b` and of the padded
    table, read at row `b mod 2048`, column `d`. -/
def mmF (cnt : S24x16384.Idx → Elt F .f32) (tp : S24x128.Idx → Elt F .f32) : S16384x128.Idx → Elt F .f32 :=
  fun i => k1_pay1 (cblk cnt ((i 0).val / 2048)) tp (rowIdx i)

theorem hz2 : (![0, 0] : Fin 2 → Nat) = fun _ => 0 := funext fun a => by fin_cases a <;> rfl

/-- The printed index maps, decided over the grid: the count window moves along the columns with the point, the table
    window stays, the result window moves along the rows. -/
theorem idx_facts : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-- What point `t` writes back is block `t` of `mmF` of the count array and the padded table as the region finds them. -/
theorem flushed_eq (c : Dev nD) (t : Fin cfg1.N) :
    (dats V 0 c).flushed 2 t = ((cfg1.win 2).blk t).view.read (Elt F) (mmF (V c main_v1) (V c main_v5)) := by
  show (cfg1.win 2).cut (grid1.coords t) ((dats V 0 c).after 2 t) = _
  rw [after1_2]
  unfold outBlk
  rw [View.canon_unit_zero hz2]
  simp only [View.ld_unit_zero (S := S24x2048) hz2, View.ld_unit_zero (S := S24x128) hz2]
  obtain ⟨e0, e1, e2, e3, e4, e5⟩ := idx_facts t
  have ht : t.val < 8 := by have := t.isLt; have hN : cfg1.N = 8 := N_1; omega
  funext j
  show k1_pay1 (iblk V c 0 t) (iblk V c 1 t) j = mmF (V c main_v1) (V c main_v5) (((cfg1.win 2).blk t).view.emb j)
  have hj0 : (j 0).val < 2048 := (j 0).isLt
  have hj1 : (j 1).val < 128 := (j 1).isLt
  have hr0 : ((((cfg1.win 2).blk t).view.emb j) 0).val = t.val * 2048 + (j 0).val := by
    show win1_2.index t (0 : Fin 2) * 2048 + 1 * (j 0).val = _; omega
  have hr1 : ((((cfg1.win 2).blk t).view.emb j) 1).val = (j 1).val := by
    show win1_2.index t (1 : Fin 2) * 128 + 1 * (j 1).val = _; omega
  unfold mmF
  have hA : iblk V c 0 t = cblk (V c main_v1) (((((cfg1.win 2).blk t).view.emb j) 0).val / 2048) := by
    funext y
    show V c main_v1 (((cfg1.win 0).blk t).view.emb y) = V c main_v1 (colIdx _ y)
    congr 1
    funext a; apply Fin.ext
    have hy0 : (y 0).val < 24 := (y 0).isLt
    have hy1 : (y 1).val < 2048 := (y 1).isLt
    match a with
    | ⟨0, _⟩ => show win1_0.index t (0 : Fin 2) * 24 + 1 * (y 0).val = (y 0).val; omega
    | ⟨1, _⟩ =>
      show win1_0.index t (1 : Fin 2) * 2048 + 1 * (y 1).val = (2048 * (((((cfg1.win 2).blk t).view.emb j) 0).val / 2048) + (y 1).val) % 16384
      rw [hr0]; omega
  have hB : iblk V c 1 t = V c main_v5 := by
    funext y
    show V c main_v5 (((cfg1.win 1).blk t).view.emb y) = V c main_v5 y
    congr 1
    funext a; apply Fin.ext
    match a with
    | ⟨0, _⟩ => show win1_1.index t (0 : Fin 2) * 24 + 1 * (y 0).val = (y 0).val; omega
    | ⟨1, _⟩ => show win1_1.index t (1 : Fin 2) * 128 + 1 * (y 1).val = (y 1).val; omega
  have hJ : rowIdx (((cfg1.win 2).blk t).view.emb j) = j := by
    funext a; apply Fin.ext
    match a with
    | ⟨0, _⟩ => show ((((cfg1.win 2).blk t).view.emb j) 0).val % 2048 = (j 0).val; rw [hr0]; omega
    | ⟨1, _⟩ => show ((((cfg1.win 2).blk t).view.emb j) 1).val = (j 1).val; exact hr1
  rw [hA, hB, hJ]

/-- An index of the result is in point `t`'s block iff each coordinate is in the block's range on its axis. -/
theorem mem_blk (t : Fin cfg1.N) (i : S16384x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v6).slice (win1_2.rect t)).set ↔ _
  rw [View.set_slice_whole, Rect.mem_set_unit]
  exact Iff.rfl

/-- Every index of the result is in the block of the point its row falls in. -/
theorem cover (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  let t : Fin cfg1.N := ⟨(i 0).val / 2048, by have hN : cfg1.N = 8 := N_1; omega⟩
  obtain ⟨e0, e1, e2, e3, e4, e5⟩ := idx_facts t
  have e4' : win1_2.index t (0 : Fin 2) = (i 0).val / 2048 := e4
  refine ⟨t, flush1_2 t, ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 128 ≤ (i 1).val ∧ (i 1).val < win1_2.index t (1 : Fin 2) * 128 + 128; omega

/-- The result array after the region. -/
theorem final (c : Dev nD) : (dats V 0 c).arrAt 2 cfg1.N = mmF (V c main_v1) (V c main_v5) :=
  (dats V 0 c).arrAt_eq_of_cover 2 (mmF (V c main_v1) (V c main_v5)) (fun t _ => flushed_eq V c t) cover

/-- The two input arrays are as the region found them. -/
theorem final_in0 (c : Dev nD) : (dats V 0 c).arrAt 0 cfg1.N = V c main_v1 :=
  ((dats V 0 c).arrAt_in 0 rfl _).trans (A_eq V c 0)
theorem final_in1 (c : Dev nD) : (dats V 0 c).arrAt 1 cfg1.N = V c main_v5 :=
  ((dats V 0 c).arrAt_in 1 rfl _).trans (A_eq V c 1)

end Cert.Proof.TcValue

end
-- ==== Proof.HostTail.lean ====
/-
  The host operations of the kernel program around its two calls.

  Before the SparseCore call the program transposes the index array. After it, it builds the padded table: a 24 by 128
  array of zeros into which rows 1 to 22 of the table are written at row offset 1 (a scatter of one 22 by 128 window at
  the one start index 1, the combiner taking the update). Then it enters the TensorCore region. Here: the program spelt
  as those stretches in order, what each stretch writes, and the padded table as one function of the table.
-/
import proofs.«205141_g56023553409622_cont_9to1c4b_756_25_alg».proof.Proof.Common
import Idealize.ShloMosaic.Lib.StableHlo.Run
import Idealize.ShloMosaic.Lib.Pipeline.Frame

noncomputable section

namespace Cert.Proof.HostTail

open Cert.KernelIdeal Cert.KernelIdeal.Gen
open Cert.Proof.Common

open Idealize.ShloMosaic Idealize.SL.Sem
open Idealize.ShloMosaic.StableHlo (after seq)

variable {F : FTy → Type} [FloatOps F]

/-! ## The stretches -/

/-- The index array transposed: what the SparseCore call reads. -/
def xtF (x : (⟨S16384x200, .i32⟩ : BufTy).Contents (Elt F)) : (⟨S200x16384, .i32⟩ : BufTy).Contents (Elt F) :=
  transpose S200x16384 [1, 0] x transposes_S16384x200_S200x16384_1_0

/-- The table padded to 24 rows: zeros, with rows 1 to 22 of the table written at row offset 1. -/
def tpadF (t : (⟨S23x128, .f32⟩ : BufTy).Contents (Elt F)) : (⟨S24x128, .f32⟩ : BufTy).Contents (Elt F) :=
  Host.scatter scatter_S24x128_S1_S22x128_01_n_0_0 (fun _ b => b)
    (broadcastInDim S24x128 ![] bcast_S_S24x128 (constant S_ .f32 0x00000000#32 : (⟨S_, .f32⟩ : BufTy).Contents (Elt F)))
    (broadcastInDim S1 ![] bcast_S_S1 (constantI S_ 32 1#32 : (⟨S_, .i32⟩ : BufTy).Contents (Elt F)))
    (extractStridedSlice S22x128 ![1, 0] t slices_S23x128_S22x128_1_0)

/-- The one operation before the SparseCore call. -/
def opT : HloOp τ sig (Elt F) :=
  StableHlo.unary main_arg0 main_v0 (xtF : (⟨S16384x200, .i32⟩ : BufTy).Contents (Elt F) → (⟨S200x16384, .i32⟩ : BufTy).Contents (Elt F))

/-- The six operations between the two calls. -/
def tailOps : List (HloOp τ sig (Elt F)) :=
  [ StableHlo.nullary main_cst (constant S_ .f32 0x00000000#32),
    StableHlo.unary main_cst main_v2 (broadcastInDim S24x128 ![] bcast_S_S24x128 : (⟨S_, .f32⟩ : BufTy).Contents (Elt F) → (⟨S24x128, .f32⟩ : BufTy).Contents (Elt F)),
    StableHlo.unary main_arg1 main_v3 ((extractStridedSlice S22x128 ![1, 0] · slices_S23x128_S22x128_1_0) : (⟨S23x128, .f32⟩ : BufTy).Contents (Elt F) → (⟨S22x128, .f32⟩ : BufTy).Contents (Elt F)),
    StableHlo.nullary main_c (constantI S_ 32 1#32),
    StableHlo.unary main_c main_v4 (broadcastInDim S1 ![] bcast_S_S1 : (⟨S_, .i32⟩ : BufTy).Contents (Elt F) → (⟨S1, .i32⟩ : BufTy).Contents (Elt F)),
    StableHlo.ternary main_v2 main_v4 main_v3 main_v5 ((fun x i u => Host.scatter scatter_S24x128_S1_S22x128_01_n_0_0 (fun _ b => b) x i u) : (⟨S24x128, .f32⟩ : BufTy).Contents (Elt F) → (⟨S1, .i32⟩ : BufTy).Contents (Elt F) → (⟨S22x128, .f32⟩ : BufTy).Contents (Elt F) → (⟨S24x128, .f32⟩ : BufTy).Contents (Elt F)) ]

/-- The program in order: the transposition, the SparseCore call, the six operations, the TensorCore region, the return. -/
theorem main_eq (d : Dev nD) :
    main (F := F) d = (seq [opT (F := F)] >>= fun _ => (K (F := F)).run d 0 >>= fun _ => seq (tailOps (F := F)) >>= fun _ =>
      Prog.lift (.customCall (SparseCore.inner (Pipeline.entry 0)) ()) >>= fun _ => pure ⟨⟩) := rfl

/-! ## What the stretches touch and write -/

theorem opT_sub : ∀ op ∈ [opT (F := F)], op.bufs ⊆ Pipeline.ucRefs τ sig := by
  intro op h
  simp only [List.mem_cons, List.mem_nil_iff, or_false] at h
  subst h
  exact Pipeline.sub_ucRefs _ (by unfold opT; simp)

theorem opT_fresh : ∀ op ∈ [opT (F := F)], op.fresh = ∅ := by
  intro op h
  simp only [List.mem_cons, List.mem_nil_iff, or_false] at h
  subst h; rfl

theorem tailOps_sub : ∀ op ∈ tailOps (F := F), op.bufs ⊆ Pipeline.ucRefs τ sig := by
  intro op h
  simp only [tailOps, List.mem_cons, List.mem_nil_iff, or_false] at h
  rcases h with rfl | rfl | rfl | rfl | rfl | rfl <;> exact Pipeline.sub_ucRefs _ (by simp)

theorem tailOps_fresh : ∀ op ∈ tailOps (F := F), op.fresh = ∅ := by
  intro op h
  simp only [tailOps, List.mem_cons, List.mem_nil_iff, or_false] at h
  rcases h with rfl | rfl | rfl | rfl | rfl | rfl <;> rfl

/-- The references the six operations write. -/
abbrev tailW : List (Ref sig .tc) := [main_cst, main_v2, main_v3, main_c, main_v4, main_v5]

theorem tailOps_writes : (tailOps (F := F)).Forall fun op => op.writes ⊆ (tailW.map (Proc.devRef (τ := τ) .tc)).toFinset := by
  simp only [tailOps, List.Forall]
  exact (by simp only [StableHlo.nullary_writes, StableHlo.unary_writes, StableHlo.ternary_writes, Finset.singleton_subset_iff, List.mem_toFinset]; refine ⟨?_, ?_, ?_, ?_, ?_, ?_⟩ <;> exact List.mem_map_of_mem (by decide))

variable (W : Valuation τ sig (Elt F))

/-- The transposition writes the transposed array and nothing else. -/
theorem afterT_v0 : after [opT (F := F)] W (Proc.devRef .tc main_v0) = xtF (W (Proc.devRef .tc main_arg0)) := by
  unfold opT; after_results
theorem afterT_of (r : Ref sig .tc) (h : r ≠ main_v0) : after [opT (F := F)] W (Proc.devRef .tc r) = W (Proc.devRef .tc r) := by
  unfold opT; simp only [StableHlo.after_cons, StableHlo.after_nil]; exact StableHlo.unary_result_ne _ _ _ _ _ W h

/-- After the six operations the padded table's buffer holds the table padded, -/
theorem afterTail_v5 : after (tailOps (F := F)) W (Proc.devRef .tc main_v5) = tpadF (W (Proc.devRef .tc main_arg1)) := by
  unfold tailOps; after_results; rfl
/-- and every buffer they do not write is as it was. -/
theorem afterTail_of (r : Ref sig .tc) (h : r ∉ tailW) : after (tailOps (F := F)) W (Proc.devRef .tc r) = W (Proc.devRef .tc r) :=
  StableHlo.after_of_writes_sub (tailOps (F := F)) W tailOps_writes h

end Cert.Proof.HostTail

end
-- ==== Proof.Main.lean ====
/-
  The kernel program's main line on the TensorCore.

  The TensorCore transposes the index array, starts the SparseCore call on the transposed array and the count array and
  waits for it, builds the padded table, runs the pipelined matrix product over the count array and the padded table,
  and returns. Here that line is run from what the launch deals the TensorCore: the host stretches over the unscoped
  buffers held whole, the SparseCore call by the launch's rule for it (handing the two arrays over and taking them back
  with the count array at contents that read, chunk by chunk, as the chunks' count vectors), the region by the pipeline
  library's rule lifted to the extended body table. It ends holding the two argument arrays as launched and the result
  array at the matrix product's function of the count array and the padded table.
-/
import proofs.«205141_g56023553409622_cont_9to1c4b_756_25_alg».proof.Proof.Common
import proofs.«205141_g56023553409622_cont_9to1c4b_756_25_alg».proof.Proof.TcRegion
import proofs.«205141_g56023553409622_cont_9to1c4b_756_25_alg».proof.Proof.TcValue
import proofs.«205141_g56023553409622_cont_9to1c4b_756_25_alg».proof.Proof.HostTail

set_option maxRecDepth 16384

noncomputable section

namespace Cert.Proof.Main

open Cert.KernelIdeal Cert.KernelIdeal.Gen
open Cert.Proof.Common Cert.Proof.TcRegion Cert.Proof.TcValue Cert.Proof.HostTail

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents along the line -/

abbrev arg0' : DevRef τ sig := Proc.devRef .tc (main_arg0 : Ref sig .tc)
abbrev arg1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)

/-- At launch; -/
abbrev W0 (d : Dev nD) : Valuation τ sig (Elt F) := fun b => m (d, b)
/-- after the transposition; -/
def W1 (d : Dev nD) : Valuation τ sig (Elt F) := after [opT (F := F)] (W0 m d)
/-- after the SparseCore call, the count array at `f`; -/
def W2 (d : Dev nD) (f : Buf (Elt F) (cntLoc d)) : Valuation τ sig (Elt F) := Function.update (W1 m d) v1' f
/-- when the region is entered. -/
def W3 (d : Dev nD) (f : Buf (Elt F) (cntLoc d)) : Valuation τ sig (Elt F) := after (tailOps (F := F)) (W2 m d f)

/-- The count arrays of all cores, core `d`'s at `f`. -/
def fAll (d : Dev nD) (f : Buf (Elt F) (cntLoc d)) : (c : Dev nD) → Buf (Elt F) (cntLoc c) :=
  Function.update (fun c => m (cntLoc c)) d f

theorem fAll_self (d : Dev nD) (f : Buf (Elt F) (cntLoc d)) : fAll m d f d = f := by
  unfold fAll; exact Function.update_self (β := fun c : Dev nD => Buf (Elt F) (cntLoc c)) d f _

/-- The TensorCores' buffers when the region is entered. -/
def Vreg (d : Dev nD) (f : Buf (Elt F) (cntLoc d)) : (c : Dev nD) → (b : Ref sig .tc) → Buf (Elt F) ((c : Thread nD τ).loc b) :=
  fun c b => W3 m c (fAll m d f c) (Proc.devRef .tc b)

theorem Vreg_self (d : Dev nD) (f : Buf (Elt F) (cntLoc d)) (b : Ref sig .tc) : Vreg m d f d b = W3 m d f (Proc.devRef .tc b) := by
  unfold Vreg; rw [fAll_self]

theorem Vreg_arg0 (d : Dev nD) (f : Buf (Elt F) (cntLoc d)) : Vreg m d f d main_arg0 = m ((SparseCore.T d).loc main_arg0) := by
  rw [Vreg_self]; unfold W3
  rw [afterTail_of _ main_arg0 (by decide)]; unfold W2
  rw [Function.update_of_ne (show arg0' ≠ v1' by decide)]; unfold W1
  exact afterT_of _ main_arg0 (by decide)
theorem Vreg_arg1 (d : Dev nD) (f : Buf (Elt F) (cntLoc d)) : Vreg m d f d main_arg1 = m ((SparseCore.T d).loc main_arg1) := by
  rw [Vreg_self]; unfold W3
  rw [afterTail_of _ main_arg1 (by decide)]; unfold W2
  rw [Function.update_of_ne (show arg1' ≠ v1' by decide)]; unfold W1
  exact afterT_of _ main_arg1 (by decide)
theorem Vreg_v1 (d : Dev nD) (f : Buf (Elt F) (cntLoc d)) : Vreg m d f d main_v1 = f := by
  rw [Vreg_self]; unfold W3
  rw [afterTail_of _ main_v1 (by decide)]; unfold W2
  exact Function.update_self _ _ _
theorem Vreg_v5 (d : Dev nD) (f : Buf (Elt F) (cntLoc d)) : Vreg m d f d main_v5 = tpadF (m ((SparseCore.T d).loc main_arg1)) := by
  rw [Vreg_self]; unfold W3
  rw [afterTail_v5]; unfold W2
  rw [Function.update_of_ne (show arg1' ≠ v1' by decide)]; unfold W1
  rw [afterT_of _ main_arg1 (by decide)]

theorem W1_v0 (d : Dev nD) : W1 m d v0' = xtF (m ((SparseCore.T d).loc main_arg0)) := by
  unfold W1; exact afterT_v0 _

theorem W2_v0 (d : Dev nD) (f : Buf (Elt F) (cntLoc d)) : W2 m d f v0' = xtF (m ((SparseCore.T d).loc main_arg0)) := by
  unfold W2; rw [Function.update_of_ne (show v0' ≠ v1' by decide)]; exact W1_v0 m d
theorem W2_v1 (d : Dev nD) (f : Buf (Elt F) (cntLoc d)) : W2 m d f v1' = f := by
  unfold W2; exact Function.update_self _ _ _

/-! ## The two arrays of the SparseCore call, out of the unscoped buffers and back -/

theorem v01_sub : ({v0', v1'} : Finset (DevRef τ sig)) ⊆ Pipeline.ucRefs τ sig :=
  Finset.insert_subset (Finset.mem_filter.mpr ⟨StableHlo.devRef_mem_tcRefs main_v0, by decide⟩)
    (Finset.singleton_subset_iff.mpr (Finset.mem_filter.mpr ⟨StableHlo.devRef_mem_tcRefs main_v1, by decide⟩))

omit [FloatOps F] in
theorem held_call (d : Dev nD) (W : Valuation τ sig (Elt F)) :
    (held (SparseCore.T d) (Pipeline.ucRefs τ sig) W : sProp 𝕄)
      = iprop(((xtLoc d ↦{fullShare} W v0') ∗ (cntLoc d ↦{fullShare} W v1')) ∗ held (SparseCore.T d) (Pipeline.ucRefs τ sig \ {v0', v1'}) W) := by
  rw [StableHlo.held_sub_split (SparseCore.T d) v01_sub W]
  congr 1
  unfold held
  rw [SparseCore.bigSep_insert' (by decide), bigSep_singleton]

theorem held_rest_update (d : Dev nD) (f : Buf (Elt F) (cntLoc d)) :
    (held (SparseCore.T d) (Pipeline.ucRefs τ sig \ {v0', v1'}) (W1 m d) : sProp 𝕄)
      = held (SparseCore.T d) (Pipeline.ucRefs τ sig \ {v0', v1'}) (W2 m d f) :=
  StableHlo.held_congr (SparseCore.T d) fun b hb => by
    unfold W2
    rw [Function.update_of_ne]
    rintro rfl
    simp at hb

/-- After the call: the transposed array as it was, the count array at `f`, the other buffers untouched. -/
theorem held_after_call (d : Dev nD) (f : Buf (Elt F) (cntLoc d)) :
    iprop((xtLoc d ↦{fullShare} xtF (m ((SparseCore.T d).loc main_arg0))) ∗ (cntLoc d ↦{fullShare} f)
        ∗ held (SparseCore.T d) (Pipeline.ucRefs τ sig \ {v0', v1'}) (W1 m d))
      ⊢ (held (SparseCore.T d) (Pipeline.ucRefs τ sig) (W2 m d f) : sProp 𝕄) := by
  rw [held_call d (W2 m d f), ← held_rest_update, W2_v0, W2_v1]
  iintro ⟨Hx, Hc, Hr⟩
  isplitl [Hx Hc]
  · isplitl [Hx] <;> iassumption
  iexact Hr

/-! ## The region, lifted to the extended body table -/

/-- What the launch deals each TensorCore for the region: its staging cells' launch ghost state and duty tokens. -/
abbrev G (d : Dev nD) : sProp 𝕄 :=
  iprop(Pipeline.cellsGhost (Pipeline.pin (pcfgs (F := F)) adm) ER 0 d ∗ Pipeline.toksInit (Pipeline.pin (pcfgs (F := F)) adm) ER 0 d)

/-- The region's call and the return after it are a program of the pipeline's table, lifted. -/
theorem region_prog_eq :
    (Prog.lift (.customCall (SparseCore.inner (Pipeline.entry 0)) ()) >>= fun _ => pure ⟨⟩ :
        Prog (TpuEff nD τ sig (Elt F) (SparseCore.Sig (ΛP (F := F)) 1) .tc) PUnit)
      = SparseCore.liftProg (Prog.op (.customCall (Pipeline.entry 0) ()) fun _ => Prog.ret ⟨⟩) := rfl

/-- A proof about that program over the pipeline's table is one over the extended table. -/
theorem lifted_step (c : Dev nD) (Φ : PUnit → sProp 𝕄) :
    wp frame (wpE (D (F := F)) 𝒱 (SparseCore.T c) none) Set.univ (Prog.op (.customCall (Pipeline.entry 0) ()) fun _ => Prog.ret ⟨⟩) Φ
      ⊢ wp frame (wpE ((K (F := F)).defs (D (F := F))) 𝒱 (SparseCore.T c) none) Set.univ
          (SparseCore.liftProg (Prog.op (.customCall (Pipeline.entry 0) ()) fun _ => Prog.ret ⟨⟩)) Φ :=
  (K (F := F)).wp_liftProg (D (F := F)) 𝒱 (SparseCore.T c) Set.univ none _ Φ

/-- The region and the return that follows it, in the extended body table: a proof over the pipeline's table is one over
    the extended table. -/
theorem wp_region_lifted (V : (c : Dev nD) → (b : Ref sig .tc) → Buf (Elt F) ((c : Thread nD τ).loc b)) (c : Dev nD) (Φ : PUnit → sProp 𝕄) :
    iprop((iprop(boundary (SparseCore.T c) ∗ regPost V c) -∗ Φ ⟨⟩) ∗ boundary (SparseCore.T c) ∗ regPre V c
        ∗ levAts (K (F := F)).L (K (F := F)).lev ∗ G (F := F) c)
      ⊢ wp frame (wpE ((K (F := F)).defs (D (F := F))) 𝒱 (SparseCore.T c) none) Set.univ
          (Prog.lift (.customCall (SparseCore.inner (Pipeline.entry 0)) ()) >>= fun _ => pure ⟨⟩) Φ := by
  rw [region_prog_eq]
  have h1 := lifted_step (F := F) c Φ
  have h2 := wp_region (F := F) V c (fun _ => Prog.ret ⟨⟩) Φ
  have h3 : iprop((iprop(boundary (SparseCore.T c) ∗ regPost V c) -∗ Φ ⟨⟩) ∗ boundary (SparseCore.T c) ∗ regPre V c
        ∗ levAts (K (F := F)).L (K (F := F)).lev ∗ G (F := F) c)
      ⊢ iprop((iprop(boundary (c.tc : Thread nD τ) ∗ regPost V c) -∗ wp frame (wpE (D (F := F)) 𝒱 (c.tc : Thread nD τ) none) Set.univ (Prog.ret (⟨⟩ : PUnit)) Φ)
        ∗ boundary (c.tc : Thread nD τ) ∗ regPre V c ∗ levAts (K (F := F)).L (K (F := F)).lev
        ∗ Pipeline.cellsGhost (Pipeline.pin (pcfgs (F := F)) adm) ER 0 c ∗ Pipeline.toksInit (Pipeline.pin (pcfgs (F := F)) adm) ER 0 c) := by
    iintro ⟨Hk, Hb, Hpre, Hlv, Hcg, Htk⟩
    isplitl [Hk]
    · iintro H
      rw [wp_ret]
      imodintro
      iapply Hk; iexact H
    isplitl [Hb]; · iexact Hb
    isplitl [Hpre]; · iexact Hpre
    isplitl [Hlv]; · iexact Hlv
    isplitl [Hcg]; · iexact Hcg
    iexact Htk
  exact h3.trans (h2.trans h1)

/-! ## The TensorCore's handshake state around the region -/

/-- After the one SparseCore call the TensorCore owes nothing: its `owes` can be taken out of its handshake state and put
    back. -/
theorem tcSt_open (d : Dev nD) :
    (K (F := F)).tcSt EH d ((0 : Fin 1).val + 1) ⊢ (iprop(owesR (F := F) d ∗ (owesR (F := F) d -∗ (K (F := F)).tcSt EH d 1)) : sProp 𝕄) := by
  show (K (F := F)).tcSt EH d 1 ⊢ _
  unfold SparseCore.Cfg.tcSt
  rw [(K (F := F)).Otc_end d (le_refl 1)]
  iintro ⟨⟨%W, %hW, HO⟩, Hrest⟩
  isplitl [HO]
  · iexists W; isplitr; · ipureintro; exact hW
    iexact HO
  iintro ⟨%W', %hW', HO'⟩
  isplitl [HO']
  · iexists W'; isplitr; · ipureintro; exact hW'
    iexact HO'
  iexact Hrest

/-! ## The main line -/

variable (xt : (d : Dev nD) → Buf (Elt F) (xtLoc d)) (CV : grid0.Coords → Fin k0_t1_loop.trips → Vec F S24x128 .f32)

/-- What the main line leaves: the two argument arrays as launched, and the result array at the matrix product's function of
    a count array that reads, chunk by chunk, as the chunks' count vectors, and of the padded table. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ∃ f : Buf (Elt F) (cntLoc d), ⌜∀ L k, ChunkIs d L k (CV L k) f⌝
        ∗ ((SparseCore.T d).loc main_v6 ↦{fullShare} mmF f (tpadF (m ((SparseCore.T d).loc main_arg1)))))

/-- What the region leaves is what the main line leaves. -/
theorem fin_of_regPost (d : Dev nD) (f : Buf (Elt F) (cntLoc d)) (hf : ∀ L k, ChunkIs d L k (CV L k) f) :
    iprop((dats (Vreg m d f) 0 d).arrays ((dats (Vreg m d f) 0 d).arrAt · cfg1.N) ∗ Pipeline.unscopedRest spec1 d (Vreg m d f d))
      ⊢ (FIN m CV d : sProp 𝕄) := by
  rw [Pipeline.arrays_eq (Pipeline.pin (pcfgs (F := F)) adm) (dats (Vreg m d f)) 0 d launch1.arr_whole ((dats (Vreg m d f) 0 d).share_full fun _ => rfl),
    bigSep_W1, unscopedRest1_eq d (Vreg m d f d)]
  dsimp only
  rw [TcValue.final, Vreg_arg0, Vreg_arg1, Vreg_v1, Vreg_v5]
  iintro ⟨⟨-, -, H6⟩, H0, H1, -, -, -, -, -, -⟩
  isplitl [H0]; · iexact H0
  isplitl [H1]; · iexact H1
  iexists f; isplitr; · ipureintro; exact hf
  iexact H6

omit [FloatOps F] in
theorem regPre_held (d : Dev nD) (W : Valuation τ sig (Elt F)) :
    (unscopedBufs d (fun b => W (Proc.devRef .tc b)) : sProp 𝕄) = held (SparseCore.T d) (Pipeline.ucRefs τ sig) W :=
  Pipeline.unscopedBufs_held d W

set_option backward.isDefEq.respectTransparency.types false in
/-- **The main line on device `d`'s TensorCore.** -/
theorem hmain
    (hin : ∀ d, iprop((xtLoc d ↦{fullShare} xt d) ∗ ∃ f : Buf (Elt F) (cntLoc d), cntLoc d ↦{fullShare} f)
      ⊢ (bigSep Finset.univ fun c : Fin ((K (F := F)).nCore 0) => (P xt CV).st 0 d c : sProp 𝕄))
    (hout : ∀ d, (bigSep Finset.univ fun c : Fin ((K (F := F)).nCore 0) => (P xt CV).dn 0 d c : sProp 𝕄)
      ⊢ iprop((xtLoc d ↦{fullShare} xt d) ∗ ∃ f : Buf (Elt F) (cntLoc d), ⌜∀ L k, ChunkIs d L k (CV L k) f⌝ ∗ cntLoc d ↦{fullShare} f))
    (hxt : ∀ d, xt d = xtF (m ((SparseCore.T d).loc main_arg0)))
    (κ : GSem nD τ sig → ℕ) (d : Dev nD) :
    iprop((K (F := F)).ctx EH (P xt CV) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m CV d) := by
  rw [main_eq]
  unfold SparseCore.Cfg.tcRes
  rw [show (unscopedBufs d (fun b => m ((SparseCore.T d).loc b)) : sProp 𝕄) = held (SparseCore.T d) (Pipeline.ucRefs τ sig) (W0 m d) from
    Pipeline.unscopedBufs_held d (W0 m d)]
  iintro ⟨#Hctx, Hst, ⟨Hb, Hheld, -, -⟩, HG⟩
  -- the transposition
  iapply (StableHlo.wp_seq 𝒱 none Set.univ d (Pipeline.ucRefs τ sig) _ [opT (F := F)] opT_sub opT_fresh (W0 m d)) $$ [Hb Hheld]
  · isplitl [Hb]; · iexact Hb
    iexact Hheld
  iintro ⟨Hb, Hheld⟩
  ihave Hh := (Entails.of_eq (held_call (F := F) d (after [opT (F := F)] (W0 m d)))) $$ Hheld
  icases Hh with ⟨⟨Hx, Hc⟩, Hrest⟩
  -- the SparseCore call: the transposed array and the count array out, and back
  rw [wp_bind]
  iapply ((K (F := F)).wp_run (D (F := F)) 𝒱 (EH := EH) (P := P xt CV) κ d 0) $$ [Hst Hx Hc Hb Hrest HG]
  isplitr; · iexact Hctx
  isplitl [Hst]; · iexact Hst
  isplitl [Hx Hc]
  · iapply (hin d)
    isplitl [Hx]
    · rw [hxt d, ← W1_v0 m d]; iexact Hx
    iexists _; iexact Hc
  iintro ⟨Hst, Hdn⟩
  ihave Hdn' := (hout d) $$ Hdn
  icases Hdn' with ⟨Hx, %f, %hf, Hc⟩
  ihave Hheld := (held_after_call (F := F) m d f) $$ [Hx Hc Hrest]
  · isplitl [Hx]; · rw [← hxt d]; iexact Hx
    isplitl [Hc]; · iexact Hc
    iexact Hrest
  -- the six host operations
  iapply (StableHlo.wp_seq 𝒱 none Set.univ d (Pipeline.ucRefs τ sig) _ (tailOps (F := F)) tailOps_sub tailOps_fresh (W2 m d f)) $$ [Hb Hheld]
  · isplitl [Hb]; · iexact Hb
    iexact Hheld
  iintro ⟨Hb, Hheld⟩
  -- the region
  ihave Hst' := (tcSt_open (F := F) d) $$ Hst
  icases Hst' with ⟨HO, Hback⟩
  ihave Hlv := (SparseCore.Cfg.ctx_levAts κ) $$ Hctx
  iapply (wp_region_lifted (F := F) (Vreg m d f) d _) $$ [Hb Hheld HO Hback Hlv HG]
  isplitl [Hback]
  · iintro ⟨-, Ha, Hr, HO⟩
    isplitl [Hback HO]
    · iapply Hback; iexact HO
    iapply (fin_of_regPost (F := F) m CV d f hf)
    isplitl [Ha]; · iexact Ha
    iexact Hr
  isplitl [Hb]; · iexact Hb
  isplitl [Hheld HO]
  · isplitl [Hheld]
    · rw [show Vreg m d f d = fun b => W3 m d f (Proc.devRef .tc b) from funext fun b => Vreg_self m d f b, regPre_held]
      iexact Hheld
    iexact HO
  isplitl [Hlv]; · iexact Hlv
  iexact HG

/-! ## The final assertion read against a final state -/

/-- What the claim reads off device `d`'s final memory. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ ∃ f : Buf (Elt F) (cntLoc d), (∀ L k, ChunkIs d L k (CV L k) f)
      ∧ s'.mem.mem ((SparseCore.T d).loc main_v6) = mmF f (tpadF (m ((SparseCore.T d).loc main_arg1)))

theorem hfin (d : Dev nD) (s' : Phys nD τ sig (Elt F)) : iprop(FIN m CV d ∗ SI s') ⊢ (⌜fq m CV d s'⌝ : sProp 𝕄) := by
  iintro ⟨⟨H0, H1, %f, %hf, H6⟩, HSI⟩
  icombine HSI H0 gives %h0
  icombine HSI H1 gives %h1
  icombine HSI H6 gives %h6
  ipureintro
  exact ⟨Buf.eq_of_forall_mem_univ h0, Buf.eq_of_forall_mem_univ h1, f, hf, Buf.eq_of_forall_mem_univ h6⟩

/-! ## The launch element's part for the region -/

/-- From the rounds library's launch element at the staging cells and the pipeline's transfers: every TensorCore's staging
    cells' launch ghost state and duty tokens. -/
theorem fund_G :
    (BI.own ((ER (F := F)) (initOf (Pipeline.cells cfgs cellOf_inj) (Pipeline.launchToks cfgs cellOf_inj))) : sProp 𝕄)
      ⊢ iprop(|==> bigSep Finset.univ fun d : Dev nD => G (F := F) d) := by
  have h := Pipeline.fund_ghost (nD := nD) (τ := τ) (Ix := HIx 1) (Val := Elt F) (Name := ℕ) (U := UU) (Lvl := ℕ) cfgs (ER (F := F)) cellOf_inj
  refine h.trans (BI.bupd_mono ?_)
  rw [← bigSep_sep']
  refine bigSep_mono fun d _ => ?_
  rw [show (Finset.univ : Finset (Fin 1)) = {0} from rfl, bigSep_singleton, bigSep_singleton]
  exact BI.Entails.refl _

end Cert.Proof.Main

end
-- ==== Proof.LibShareJoin.lean ====
/-
  Pieces of a share held at contents not known to be the same.

  A points-to at a share q is the same as points-tos at the pieces of q, all at ONE contents. When the pieces come back
  each at contents of its own — every holder only knowing that its contents satisfy some property — they still join:
  two points-tos of one location agree where both hold, so all the contents are the contents of the first piece.
-/
import Idealize.ShloMosaic.Lib.SparseCore.Stream
import Idealize.SL.ProofMode

noncomputable section

namespace Cert.Lib.ShareJoin

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Two holders of every element of a location, at the two halves of a share and at contents of their own, are one
    holder at the share: the contents agree. -/
theorem halves_join {ℓ : Loc nD τ sig} (q : PosShare TreeShare) (f g : Buf Val ℓ) :
    iprop((ℓ ↦{q.left} f) ∗ ℓ ↦{q.right} g) ⊢ (iprop(⌜g = f⌝ ∗ ℓ ↦{q} f) : sProp 𝕄) := by
  iintro ⟨Hf, Hg⟩
  icombine Hf Hg gives %h
  have e : g = f := funext fun i => ((h i (by simp)).1).symm
  subst e
  isplitr; · ipureintro; rfl
  iapply (pointsTo_share (PosShare.mem_left_op_right q)).2
  isplitl [Hf] <;> iassumption

/-- The pieces of a share, each held at some contents with the property Φ, are the share held at some contents with Φ. -/
theorem pieces_join {ℓ : Loc nD τ sig} (Φ : Buf Val ℓ → Prop) :
    ∀ (n : ℕ) (q : PosShare TreeShare),
      (bigSep Finset.univ fun k : Fin (n + 1) => iprop(∃ g : Buf Val ℓ, ⌜Φ g⌝ ∗ ℓ ↦{piece q n k} g))
        ⊢ (iprop(∃ g : Buf Val ℓ, ⌜Φ g⌝ ∗ ℓ ↦{q} g) : sProp 𝕄)
  | 0, q => by
    rw [BI.bigSep_univ_of_subsingleton (0 : Fin 1)]
    exact BI.Entails.refl _
  | n + 1, q => by
    rw [bigSep_univ_succ (Ix := Ix) (Name := Name) (U := U) (Lvl := Lvl) (m := n + 1)]
    iintro ⟨⟨%g₀, %h₀, H₀⟩, Hrest⟩
    ihave Hr := (pieces_join Φ n q.right) $$ [Hrest]
    · iexact Hrest
    icases Hr with ⟨%g₁, -, H₁⟩
    ihave H := (halves_join q g₀ g₁) $$ [H₀ H₁]
    · isplitl [H₀]
      · iexact H₀
      · iexact H₁
    icases H with ⟨-, H⟩
    iexists g₀
    isplitr; · ipureintro; exact h₀
    iexact H

/-- The same over `pieceOf`'s numbering. -/
theorem piecesOf_join {ℓ : Loc nD τ sig} (Φ : Buf Val ℓ → Prop) {o : ℕ} (ho : 0 < o) (q : PosShare TreeShare) :
    (bigSep Finset.univ fun j : Fin o => iprop(∃ g : Buf Val ℓ, ⌜Φ g⌝ ∗ ℓ ↦{pieceOf q o ho j} g))
      ⊢ (iprop(∃ g : Buf Val ℓ, ⌜Φ g⌝ ∗ ℓ ↦{q} g) : sProp 𝕄) := by
  obtain ⟨n, rfl⟩ : ∃ n, o = n + 1 := ⟨o - 1, by omega⟩
  exact pieces_join Φ n q

/-- Disjoint parts of a location, each held at some contents with a property that only reads the part, are their union
    held at some contents with every part's property. -/
theorem parts_join {ℓ : Loc nD τ sig} {q : PosShare TreeShare} {T : Type} [DecidableEq T] (S : Finset T) (Kset : T → Finset (Idx ℓ))
    (φ : T → Buf Val ℓ → Prop) (hφ : ∀ t (f g : Buf Val ℓ), (∀ i ∈ Kset t, g i = f i) → φ t f → φ t g)
    (hd : ∀ t ∈ S, ∀ t' ∈ S, t ≠ t' → Disjoint (Kset t) (Kset t')) (f₀ : Buf Val ℓ) :
    (bigSep S fun t => iprop(∃ f : Buf Val ℓ, ⌜φ t f⌝ ∗ ℓ ↦[Kset t]{q} f))
      ⊢ (iprop(∃ g : Buf Val ℓ, ⌜∀ t ∈ S, φ t g⌝ ∗ ℓ ↦[S.biUnion Kset]{q} g) : sProp 𝕄) := by
  haveI : Nonempty (Buf Val ℓ) := ⟨f₀⟩
  refine (bigSep_exists_pi S (fun t (f : Buf Val ℓ) => iprop(⌜φ t f⌝ ∗ ℓ ↦[Kset t]{q} f))).trans ?_
  iintro ⟨%fs, H⟩
  ihave H' := (bigSep_pure_sep S (fun t => φ t (fs t)) (fun t => ℓ ↦[Kset t]{q} fs t)) $$ H
  icases H' with ⟨%hfs, H⟩
  ihave H'' := (pointsTo_biUnion_join S Kset fs f₀ hd) $$ H
  icases H'' with ⟨%g, %hg, Hg⟩
  iexists g
  isplitr
  · ipureintro; exact fun t ht => hφ t (fs t) g (hg t ht) (hfs t ht)
  · iexact Hg

end Cert.Lib.ShareJoin

end
-- ==== Proof.Split.lean ====
/-
  The 16384 columns of the two arrays of the SparseCore call are the disjoint union of the 128 chunks the tiles work on:
  chunk `k` of tile `(c, s)` is the columns `[128 n, 128 n + 128)` for `n = 8 s + 4 c + k`. So the arrays held whole
  are the chunks dealt to the tiles, and the chunks handed back — each at contents of its own that read as its count
  vector — are the count array held whole at contents that read so through every chunk.
-/
import proofs.«205141_g56023553409622_cont_9to1c4b_756_25_alg».proof.Proof.Common
import proofs.«205141_g56023553409622_cont_9to1c4b_756_25_alg».proof.Proof.LibShareJoin

noncomputable section

namespace Cert.Proof.Split

open Cert.KernelIdeal Cert.KernelIdeal.Gen Cert.Proof.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The chunks, numbered -/

/-- A chunk: SparseCore, tile, chunk of the tile. -/
abbrev CIx : Type := Fin (grid0.bound 0) × Fin (grid0.bound 1) × Fin k0_t1_loop.trips

/-- The chunk's number among the 128. -/
def num (t : CIx) : ℕ := 8 * t.2.1.val + 4 * t.1.val + t.2.2.val

theorem num_lt (t : CIx) : num t < 128 := by
  have h0 : t.1.val < 2 := t.1.isLt
  have h1 : t.2.1.val < 16 := t.2.1.isLt
  have h2 : t.2.2.val < 4 := t.2.2.isLt
  unfold num; omega

/-- Different chunks have different numbers. -/
theorem num_inj {t t' : CIx} (h : num t = num t') : t = t' := by
  obtain ⟨c, i, k⟩ := t; obtain ⟨c', i', k'⟩ := t'
  have h0 : c.val < 2 := c.isLt
  have h1 : i.val < 16 := i.isLt
  have h2 : k.val < 4 := k.isLt
  have h0' : c'.val < 2 := c'.isLt
  have h1' : i'.val < 16 := i'.isLt
  have h2' : k'.val < 4 := k'.isLt
  have h' : 8 * i.val + 4 * c.val + k.val = 8 * i'.val + 4 * c'.val + k'.val := h
  have hc : c.val = c'.val := by omega
  have hi : i.val = i'.val := by omega
  have hk : k.val = k'.val := by omega
  exact Prod.ext (Fin.ext hc) (Prod.ext (Fin.ext hi) (Fin.ext hk))

/-- Every number below 128 is a chunk's. -/
theorem exists_num (n : ℕ) (hn : n < 128) : ∃ t : CIx, num t = n := by
  refine ⟨(⟨n % 8 / 4, ?_⟩, ⟨n / 8, ?_⟩, ⟨n % 4, ?_⟩), ?_⟩
  · show n % 8 / 4 < 2; omega
  · show n / 8 < 16; omega
  · show n % 4 < 4; omega
  · show 8 * (n / 8) + 4 * (n % 8 / 4) + n % 4 = n; omega

/-- The chunk's tile. -/
def tileOf (t : CIx) : grid0.Coords := coordsV t.1 t.2.1

/-- A tile's chunk `k` is the chunk `(L 0, L 1, k)`. -/
theorem tileOf_mk (L : grid0.Coords) (k : Fin k0_t1_loop.trips) : tileOf (L 0, L 1, k) = L := by
  funext a
  match a with
  | ⟨0, _⟩ => rfl
  | ⟨1, _⟩ => rfl

/-- The chunk's first column, as the copies' offsets spell it. -/
theorem off_eq (t : CIx) : 1024 * (tileOf t 1).val + 512 * (tileOf t 0).val + 128 * t.2.2.val = 128 * num t := by
  show 1024 * t.2.1.val + 512 * t.1.val + 128 * t.2.2.val = 128 * (8 * t.2.1.val + 4 * t.1.val + t.2.2.val)
  omega

/-! ## The chunks' columns of the two arrays -/

/-- The chunk's columns of the index array and of the count array. -/
def setX (d : Dev nD) (t : CIx) : Finset (Idx (xtLoc d)) := (xtChunk (tileOf t) t.2.2).view.set
def setC (d : Dev nD) (t : CIx) : Finset (Idx (cntLoc d)) := (cntChunk (tileOf t) t.2.2).view.set

theorem mem_setX (d : Dev nD) (t : CIx) (j : S200x16384.Idx) :
    j ∈ setX d t ↔ 128 * num t ≤ (j 1).val ∧ (j 1).val < 128 * num t + 128 := by
  unfold setX
  have e : ((xtChunk (tileOf t) t.2.2).view.set : Finset S200x16384.Idx)
      = (Rect.unit (s := S200x16384) (k0_off1 (tileOf t) t.2.2) S200x128.size (k0_off1_inb (tileOf t) t.2.2)).set :=
    View.set_slice_whole main_v0_scv _
  rw [e, Rect.mem_set_unit, k0_off1_eq]
  have ho := off_eq t
  constructor
  · intro h
    have h1 : 1024 * (tileOf t 1).val + 512 * (tileOf t 0).val + 128 * t.2.2.val ≤ (j 1).val
        ∧ (j 1).val < 1024 * (tileOf t 1).val + 512 * (tileOf t 0).val + 128 * t.2.2.val + 128 := h (1 : Fin 2)
    omega
  · rintro ⟨h1, h2⟩ a
    match a with
    | ⟨0, _⟩ =>
      have hj : (j 0).val < 200 := (j 0).isLt
      show 0 ≤ (j 0).val ∧ (j 0).val < 0 + 200
      omega
    | ⟨1, _⟩ =>
      show 1024 * (tileOf t 1).val + 512 * (tileOf t 0).val + 128 * t.2.2.val ≤ (j 1).val
        ∧ (j 1).val < 1024 * (tileOf t 1).val + 512 * (tileOf t 0).val + 128 * t.2.2.val + 128
      omega

theorem mem_setC (d : Dev nD) (t : CIx) (j : S24x16384.Idx) :
    j ∈ setC d t ↔ 128 * num t ≤ (j 1).val ∧ (j 1).val < 128 * num t + 128 := by
  unfold setC
  have e : ((cntChunk (tileOf t) t.2.2).view.set : Finset S24x16384.Idx)
      = (Rect.unit (s := S24x16384) (k0_off202 (tileOf t) t.2.2) S24x128.size (k0_off202_inb (tileOf t) t.2.2)).set :=
    View.set_slice_whole main_v1_scv _
  rw [e, Rect.mem_set_unit, k0_off202_eq]
  have ho := off_eq t
  constructor
  · intro h
    have h1 : 1024 * (tileOf t 1).val + 512 * (tileOf t 0).val + 128 * t.2.2.val ≤ (j 1).val
        ∧ (j 1).val < 1024 * (tileOf t 1).val + 512 * (tileOf t 0).val + 128 * t.2.2.val + 128 := h (1 : Fin 2)
    omega
  · rintro ⟨h1, h2⟩ a
    match a with
    | ⟨0, _⟩ =>
      have hj : (j 0).val < 24 := (j 0).isLt
      show 0 ≤ (j 0).val ∧ (j 0).val < 0 + 24
      omega
    | ⟨1, _⟩ =>
      show 1024 * (tileOf t 1).val + 512 * (tileOf t 0).val + 128 * t.2.2.val ≤ (j 1).val
        ∧ (j 1).val < 1024 * (tileOf t 1).val + 512 * (tileOf t 0).val + 128 * t.2.2.val + 128
      omega

/-- Different chunks have no column in common. -/
theorem disjX (d : Dev nD) {t t' : CIx} (h : t ≠ t') : Disjoint (setX d t) (setX d t') :=
  Finset.disjoint_left.mpr fun j hj hj' => h (num_inj (by
    have h1 := (mem_setX d t j).1 hj
    have h2 := (mem_setX d t' j).1 hj'
    omega))

theorem disjC (d : Dev nD) {t t' : CIx} (h : t ≠ t') : Disjoint (setC d t) (setC d t') :=
  Finset.disjoint_left.mpr fun j hj hj' => h (num_inj (by
    have h1 := (mem_setC d t j).1 hj
    have h2 := (mem_setC d t' j).1 hj'
    omega))

/-- Every column lies in a chunk. -/
theorem coverX (d : Dev nD) : (Finset.univ : Finset CIx).biUnion (setX d) = Finset.univ := by
  refine Finset.eq_univ_iff_forall.mpr fun j => Finset.mem_biUnion.mpr ?_
  have hj : ((j : S200x16384.Idx) 1).val < 16384 := ((j : S200x16384.Idx) 1).isLt
  obtain ⟨t, ht⟩ := exists_num (((j : S200x16384.Idx) 1).val / 128) (by omega)
  exact ⟨t, Finset.mem_univ _, (mem_setX d t j).2 (by omega)⟩

theorem coverC (d : Dev nD) : (Finset.univ : Finset CIx).biUnion (setC d) = Finset.univ := by
  refine Finset.eq_univ_iff_forall.mpr fun j => Finset.mem_biUnion.mpr ?_
  have hj : ((j : S24x16384.Idx) 1).val < 16384 := ((j : S24x16384.Idx) 1).isLt
  obtain ⟨t, ht⟩ := exists_num (((j : S24x16384.Idx) 1).val / 128) (by omega)
  exact ⟨t, Finset.mem_univ _, (mem_setC d t j).2 (by omega)⟩

/-! ## The arrays held whole are the chunks -/

/-- The index array held whole is its chunks' columns, each held at the same contents. -/
theorem wholeX (d : Dev nD) (g : Buf (Elt F) (xtLoc d)) :
    (xtLoc d ↦{fullShare} g : sProp 𝕄) = bigSep Finset.univ fun t : CIx => xtLoc d ↦[setX d t]{fullShare} g := by
  rw [← pointsTo_biUnion Finset.univ (setX d) (fun t _ t' _ h => disjX d h), coverX]

theorem wholeC (d : Dev nD) (g : Buf (Elt F) (cntLoc d)) :
    (cntLoc d ↦{fullShare} g : sProp 𝕄) = bigSep Finset.univ fun t : CIx => cntLoc d ↦[setC d t]{fullShare} g := by
  rw [← pointsTo_biUnion Finset.univ (setC d) (fun t _ t' _ h => disjC d h), coverC]

/-! ## What the handshakes carry, chunk by chunk -/

variable (xt : (d : Dev nD) → Buf (Elt F) (xtLoc d)) (CV : grid0.Coords → Fin k0_t1_loop.trips → Vec F S24x128 .f32)

/-- What the SparseCores are handed, all told, is every chunk handed. -/
theorem shape_st (d : Dev nD) :
    (bigSep Finset.univ fun c : Fin ((K (F := F)).nCore 0) => (P xt CV).st 0 d c)
      = bigSep (Finset.univ : Finset CIx) fun t => chunkIn d (tileOf t) t.2.2 (xt d) := by
  symm
  rw [bigSep_univ_prod]
  refine (bigSep_congr fun c _ => ?_ :
    _ = bigSep (Finset.univ : Finset (Fin (grid0.bound 0))) fun c => (P xt CV).st 0 d c)
  rw [bigSep_univ_prod]
  rfl

/-- What the SparseCores hand back, all told, is every chunk handed back. -/
theorem shape_dn (d : Dev nD) :
    (bigSep Finset.univ fun c : Fin ((K (F := F)).nCore 0) => (P xt CV).dn 0 d c)
      = bigSep (Finset.univ : Finset CIx) fun t => chunkOut CV d (tileOf t) t.2.2 (xt d) := by
  symm
  rw [bigSep_univ_prod]
  refine (bigSep_congr fun c _ => ?_ :
    _ = bigSep (Finset.univ : Finset (Fin (grid0.bound 0))) fun c => (P xt CV).dn 0 d c)
  rw [bigSep_univ_prod]
  rfl

/-- A chunk's columns of the two arrays, the count columns at any contents, are the chunk handed. -/
theorem chunk_in_one (d : Dev nD) (f : Buf (Elt F) (cntLoc d)) (t : CIx) :
    iprop((xtLoc d ↦[setX d t]{fullShare} xt d) ∗ cntLoc d ↦[setC d t]{fullShare} f)
      ⊢ (chunkIn d (tileOf t) t.2.2 (xt d) : sProp 𝕄) := by
  unfold chunkIn setX setC
  iintro ⟨Hx, Hc⟩
  isplitl [Hx]
  · iexact Hx
  · iexists f
    iexact Hc

/-- The two arrays held whole, the count array at any contents, are every chunk handed. -/
theorem chunks_in (d : Dev nD) (f : Buf (Elt F) (cntLoc d)) :
    iprop((xtLoc d ↦{fullShare} xt d) ∗ cntLoc d ↦{fullShare} f)
      ⊢ (bigSep (Finset.univ : Finset CIx) fun t => chunkIn d (tileOf t) t.2.2 (xt d) : sProp 𝕄) := by
  rw [wholeX, wholeC, ← bigSep_sep']
  exact bigSep_mono fun t _ => chunk_in_one xt d f t

/-- **Dealing**: the index array held whole and the count array held whole at some contents are what the SparseCores are
    handed. -/
theorem hin (d : Dev nD) :
    iprop((xtLoc d ↦{fullShare} xt d) ∗ ∃ f, cntLoc d ↦{fullShare} f)
      ⊢ (bigSep Finset.univ fun c : Fin ((K (F := F)).nCore 0) => (P xt CV).st 0 d c : sProp 𝕄) := by
  rw [shape_st]
  iintro ⟨Hx, ⟨%f, Hc⟩⟩
  iapply (chunks_in xt d f)
  isplitl [Hx]
  · iexact Hx
  · iexact Hc

/-- Reading the count array through a chunk only looks at the chunk's columns. -/
theorem chunkIs_congr (d : Dev nD) (t : CIx) (v : Vec F S24x128 .f32) (f g : Buf (Elt F) (cntLoc d))
    (h : ∀ i ∈ setC d t, g i = f i) (hf : ChunkIs d (tileOf t) t.2.2 v f) : ChunkIs d (tileOf t) t.2.2 v g :=
  fun y => (h _ (View.emb_mem_set _ y)).trans (hf y)

/-- **Collecting**: what the SparseCores hand back is the index array held whole as it was, and the count array held whole
    at contents that read, through every chunk, as that chunk's count vector. -/
theorem hout (d : Dev nD) :
    (bigSep Finset.univ fun c : Fin ((K (F := F)).nCore 0) => (P xt CV).dn 0 d c : sProp 𝕄)
      ⊢ iprop((xtLoc d ↦{fullShare} xt d) ∗ ∃ f, ⌜∀ L k, ChunkIs d L k (CV L k) f⌝ ∗ cntLoc d ↦{fullShare} f) := by
  rw [shape_dn]
  have e : (bigSep (Finset.univ : Finset CIx) fun t => chunkOut CV d (tileOf t) t.2.2 (xt d) : sProp 𝕄)
      = iprop((bigSep Finset.univ fun t : CIx => xtLoc d ↦[setX d t]{fullShare} xt d)
          ∗ bigSep Finset.univ fun t : CIx =>
              iprop(∃ f : Buf (Elt F) (cntLoc d), ⌜ChunkIs d (tileOf t) t.2.2 (CV (tileOf t) t.2.2) f⌝ ∗ cntLoc d ↦[setC d t]{fullShare} f)) := by
    rw [← bigSep_sep']
    rfl
  rw [e, ← wholeX]
  iintro ⟨Hx, Hc⟩
  isplitl [Hx]
  · iexact Hx
  ihave H := (Cert.Lib.ShareJoin.parts_join (Finset.univ : Finset CIx) (setC d)
      (fun t f => ChunkIs d (tileOf t) t.2.2 (CV (tileOf t) t.2.2) f)
      (fun t f g h hf => chunkIs_congr d t _ f g h hf)
      (fun t _ t' _ h => disjC d h)
      (fun _ => (Scalar.ofBits .f32 0x00000000#32 : Elt F .f32))) $$ Hc
  icases H with ⟨%g, %hg, Hg⟩
  iexists g
  isplitr
  · ipureintro
    intro L k
    have := hg (L 0, L 1, k) (Finset.mem_univ _)
    rw [tileOf_mk] at this
    exact this
  · rw [coverC]
    iexact Hg

end Cert.Proof.Split

end
-- ==== Proof.Launch.lean ====
/-
  The whole program's run, generic in the float instance: from a launch memory whose index input holds row numbers
  below 23, every weakly fair execution of the device's threads — the TensorCore's @main, the two sequencers, the
  thirty-two tiles — terminates without a fault, the two inputs unchanged, and the result array holds the TensorCore
  kernel's function of a count array that reads, through every chunk, as the chunk's count vector and of the padded
  table. The launch theorem for the SparseCore call, at: each tile's task (the tile obligation), the identity deal of
  a SparseCore's tiles, @main on the TensorCore (the transposition, the call, the padded table, the TensorCore region),
  and a launch element holding the handshakes' rounds and the region's staging cells.
-/
import proofs.«205141_g56023553409622_cont_9to1c4b_756_25_alg».proof.Proof.TileObl
import proofs.«205141_g56023553409622_cont_9to1c4b_756_25_alg».proof.Proof.TripBody
import proofs.«205141_g56023553409622_cont_9to1c4b_756_25_alg».proof.Proof.Main
import proofs.«205141_g56023553409622_cont_9to1c4b_756_25_alg».proof.Proof.Split

noncomputable section

namespace Cert.Proof.Launch

open Cert.KernelIdeal Cert.KernelIdeal.Gen Cert.Proof.Common Cert.Proof.ChunkDefs

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The index input and the table, as locations of device `d`. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v6

/-- What the proof asks of the launch memory: every entry of the index input is a row number below 23. -/
def InputOk : Prop := ∀ (d : Dev nD) i, ((m (xLoc d)) i).toNat < 23

/-- The index array at the call: the transposed index input. -/
abbrev xt (d : Dev nD) : Buf (Elt F) (xtLoc d) := HostTail.xtF (m (xLoc d))

theorem xtOk (h : InputOk m) (d : Dev nD) : XtOk d (xt m d) :=
  fun i => Nat.lt_trans (h d _) (by decide)

/-- The one device. -/
def d0 : Dev nD := ⟨0, by decide⟩

/-- Each chunk's count vector. -/
def CV (h : InputOk m) : grid0.Coords → Fin k0_t1_loop.trips → Vec F S24x128 .f32 :=
  fun L k => chunkCV d0 (xt m d0) (xtOk m h d0) L k

theorem hCV (h : InputOk m) : ∀ d L k, CV m h L k = chunkCV d (xt m d) (xtOk m h d) L k := by
  intro d L k
  obtain rfl : d = d0 := Subsingleton.elim _ _
  rfl

/-! ## The launch element -/

def u₀ : UU :=
  (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

omit [FloatOps F] in
/-- The staging cells' part of the launch element, apart from the counters' part. -/
theorem own_R_split (b : UR) (c : Counters) :
    (BI.own ((embR : Emb (UR × Counters) (MT nD τ sig (HIx 1) (Elt F) ℕ UU ℕ)) (b, c)) : sProp 𝕄)
      ⊢ iprop(BI.own (ER (F := F) b) ∗ BI.own ((embR : Emb (UR × Counters) (MT nD τ sig (HIx 1) (Elt F) ℕ UU ℕ)) (1, c))) :=
  BI.own_op_elim ((embR : Emb (UR × Counters) (MT nD τ sig (HIx 1) (Elt F) ℕ UU ℕ)).op_of_mem
    (Prod.mk_mem_op (URA.mem_op_one b) (URA.mem_one_op c)))

theorem hu₀ (xt : (d : Dev nD) → Buf (Elt F) (xtLoc d)) (CV : grid0.Coords → Fin k0_t1_loop.trips → Vec F S24x128 .f32) :
    (ownU (u₀ (F := F)) : sProp 𝕄)
    ⊢ |={Set.univ}=> iprop(BI.own (EH (initOf (K (F := F)).hsCells (K (F := F)).hsToks)) ∗ (bigSep Finset.univ (Main.G (F := F)))
        ∗ bigSep Finset.univ fun thr : Thread nD τ => bigSep Finset.univ fun q : Fin 1 => (P xt CV).x q thr) := by
  unfold u₀
  iintro Hu
  ihave H := (ownU_pair _ _) $$ Hu
  icases H with ⟨HH, HR⟩
  ihave HR' := (own_R_split (F := F) _ _) $$ HR
  icases HR' with ⟨HR, -⟩
  imod (Main.fund_G (F := F)) $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The run -/

/-- One trip of the loop over a chunk's groups of sixteen columns, in the form the tile's task takes it. -/
theorem trip_hyp : TileObl.TripHyp (F := F) :=
  fun d L xs hx f0 v1 k g _ => TripBody.trip d L xs hx f0 v1 k g

/-- What the run leaves: the inputs unchanged, and the result array the TensorCore kernel's function of a count array
    that reads as the chunks' count vectors and of the padded table. -/
def QC (h : InputOk m) : PUnit × MemSt nD τ sig (Elt F) → Prop := fun r => ∀ d : Dev nD,
  r.2.mem (xLoc d) = m (xLoc d) ∧ r.2.mem (tLoc d) = m (tLoc d)
    ∧ ∃ f : Buf (Elt F) (cntLoc d), (∀ L k, ChunkIs d L k (CV m h L k) f)
        ∧ r.2.mem (oLoc d) = TcValue.mmF f (HostTail.tpadF (m (tLoc d)))

theorem run_main [∀ e, Nonempty (Elt F e)] (h : InputOk m) :
    θ_run (Cert.KernelIdeal.defs (F := F)) (Cert.KernelIdeal.threads (F := F)) ⟨m, fun _ => 0, ρ⟩ (QC m h) :=
  SparseCore.Cfg.θ_run_sc (K := K (F := F)) (D := D (F := F)) (𝒱 := 𝒱) (EH := EH) (P := P (xt m) (CV m h)) facts v₀
    (fun q hq => match q with | 0 => nomatch hq)
    (fun q _ => match q with | 0 => TileObl.tileObl facts (trip_hyp (F := F)) (xt m) (xtOk m h) (CV m h) (hCV m h))
    (fun q _ => match q with | 0 => SparseCore.Cfg.VecSplit.of_plain (TileObl.vecSplit (xt m) (CV m h)))
    m ρ main (Main.G (F := F)) (Main.FIN (F := F) m (CV m h)) (u₀ (F := F)) (sep_elim_left.trans (hu₀ (xt m) (CV m h)))
    (Main.hmain (F := F) m ρ (xt m) (CV m h) (Split.hin (xt m) (CV m h)) (Split.hout (xt m) (CV m h)) (fun _ => rfl))
    (Main.fq (F := F) m (CV m h)) (Main.hfin (F := F) m (CV m h)) (QC m h) (fun _ h => h)

end Cert.Proof.Launch

end
-- ==== Proof.BCommon.lean ====
/-
  The kernel program as the launch theorem sees it, generic in the float instance: the SparseCore configuration and its
  facts, the resource algebra (the handshakes' rounds, the TensorCore region's staging cells, the counters of the tiles'
  local copies), the arrays the SparseCore call reads and writes, and what the call's handshakes carry.

  The call reads the transposed index array (200 rows, 16384 columns) and writes the count array (24 rows, 16384 columns).
  The 16384 columns are cut into 128 chunks of 128 columns; tile `(c, s)` works on the four chunks `8 s + 4 c + k`,
  `k < 4`: it copies the chunk of the index array into its scratch, builds the chunk's counts in a second scratch and
  copies them out. So a tile is handed, per chunk, the chunk's columns of the index array (read) and of the count array
  (written), and hands them back with the count columns reading as the chunk's count vector.
-/
import proofs.«205141_g56023553409622_cont_9to1c4b_756_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205141_g56023553409622_cont_9to1c4b_756_25_alg».proof.Proof.Gen.Kernel
import proofs.«205141_g56023553409622_cont_9to1c4b_756_25_alg».proof.Proof.Gen.Kernel.Skeleton

noncomputable section

namespace Cert.Proof.BCommon

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the local copies' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore region's staging cells' rounds: the left factor of the right factor. -/
def ER : Emb UR (MT nD τ sig (HIx 1) (Elt F) ℕ UU ℕ) :=
  (Emb.inl : Emb UR (UR × Counters)).trans (embR : Emb (UR × Counters) (MT nD τ sig (HIx 1) (Elt F) ℕ UU ℕ))

instance ER_landsIn : (ER (F := F)).LandsIn (upEmb : UEmb _ (MT nD τ sig (HIx 1) (Elt F) ℕ UU ℕ)) := by
  unfold ER; infer_instance

/-! ## The arrays of the SparseCore call -/

/-- The transposed index array and the count array, as locations of device `d`. -/
abbrev xtLoc (d : Dev nD) : Loc nD τ sig := (SparseCore.T d).loc main_v0
abbrev cntLoc (d : Dev nD) : Loc nD τ sig := (SparseCore.T d).loc main_v1

/-- The two arrays as a tile's kernel addresses them, and its two scratch buffers. -/
abbrev xtW : Memref sig .scVector .hbm S200x16384 .i32 := Memref.whole main_v0_scv
abbrev cntW : Memref sig .scVector .hbm S24x16384 .f32 := Memref.whole main_v1_scv
abbrev sX : Memref sig .scVector .vmem S200x128 .i32 := Memref.whole cc0_scratch0
abbrev sC : Memref sig .scVector .vmem S24x128 .f32 := Memref.whole cc0_scratch1

variable [FloatOps F]

/-- Chunk `k` of tile `L`: its columns of the index array and of the count array, as the kernel slices them. -/
abbrev xtChunk (L : grid0.Coords) (k : Fin k0_t1_loop.trips) : Memref sig .scVector .hbm S200x128 .i32 :=
  (xtW).slice (Rect.unit (s := S200x16384) (k0_off1 L k) S200x128.size (k0_off1_inb L k)) (fun _ => rfl)
abbrev cntChunk (L : grid0.Coords) (k : Fin k0_t1_loop.trips) : Memref sig .scVector .hbm S24x128 .f32 :=
  (cntW).slice (Rect.unit (s := S24x16384) (k0_off202 L k) S24x128.size (k0_off202_inb L k)) (fun _ => rfl)

/-- The tile of the grid point `(c, s)`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The chunk's columns of the index array, held at `xt`. -/
abbrev xtChunkPts (d : Dev nD) (L : grid0.Coords) (k : Fin k0_t1_loop.trips) (xt : Buf (Elt F) (xtLoc d)) : sProp 𝕄 :=
  xtLoc d ↦[(xtChunk L k).view.set]{fullShare} xt

/-- What tile `L` is handed of chunk `k`: the chunk's columns of the index array at `xt`, and of the count array at
    whatever they hold. -/
def chunkIn (d : Dev nD) (L : grid0.Coords) (k : Fin k0_t1_loop.trips) (xt : Buf (Elt F) (xtLoc d)) : sProp 𝕄 :=
  iprop(xtChunkPts d L k xt ∗ ∃ f : Buf (Elt F) (cntLoc d), cntLoc d ↦[(cntChunk L k).view.set]{fullShare} f)

/-- The count array reads, through chunk `k` of tile `L`, as the vector `v`. -/
def ChunkIs (d : Dev nD) (L : grid0.Coords) (k : Fin k0_t1_loop.trips) (v : Vec F S24x128 .f32) (f : Buf (Elt F) (cntLoc d)) : Prop :=
  ∀ y : S24x128.Idx, f ((cntChunk L k).view.emb y) = v y

/-- What tile `L` hands back of chunk `k`: the index columns as they were, the count columns at contents that read as
    the chunk's count vector `CV L k`. -/
def chunkOut (CV : grid0.Coords → Fin k0_t1_loop.trips → Vec F S24x128 .f32) (d : Dev nD) (L : grid0.Coords) (k : Fin k0_t1_loop.trips)
    (xt : Buf (Elt F) (xtLoc d)) : sProp 𝕄 :=
  iprop(xtChunkPts d L k xt ∗ ∃ f : Buf (Elt F) (cntLoc d), ⌜ChunkIs d L k (CV L k) f⌝ ∗ cntLoc d ↦[(cntChunk L k).view.set]{fullShare} f)

/-- A tile's four chunks, handed and handed back. -/
def tileIn (d : Dev nD) (L : grid0.Coords) (xt : Buf (Elt F) (xtLoc d)) : sProp 𝕄 :=
  bigSep Finset.univ fun k : Fin k0_t1_loop.trips => chunkIn d L k xt
def tileOut (CV : grid0.Coords → Fin k0_t1_loop.trips → Vec F S24x128 .f32) (d : Dev nD) (L : grid0.Coords) (xt : Buf (Elt F) (xtLoc d)) : sProp 𝕄 :=
  bigSep Finset.univ fun k : Fin k0_t1_loop.trips => chunkOut CV d L k xt

/-- What the SparseCore call's handshakes carry, given the index array's contents at the call `xt` and the count vector
    `CV L k` each chunk is to end at: the TensorCore hands each SparseCore its sixteen tiles' chunks and the sequencer
    deals each tile its own; they come back with the count columns reading as `CV`. -/
def P (xt : (d : Dev nD) → Buf (Elt F) (xtLoc d)) (CV : grid0.Coords → Fin k0_t1_loop.trips → Vec F S24x128 .f32) :
    (K (F := F)).Pay (nD := nD) (Val := Elt F) (Name := ℕ) (U := UU) where
  st := fun q d c => match q with | 0 => bigSep Finset.univ fun i : Fin 16 => tileIn d (coordsV c i) (xt d)
  dn := fun q d c => match q with | 0 => bigSep Finset.univ fun i : Fin 16 => tileOut CV d (coordsV c i) (xt d)
  go := fun q d c i => match q with | 0 => tileIn d (coordsV c (Fin.cast nSub_zero i)) (xt d)
  td := fun q d c i => match q with | 0 => tileOut CV d (coordsV c (Fin.cast nSub_zero i)) (xt d)
  x := fun _ _ => iprop(emp)

instance P_storable (xt : (d : Dev nD) → Buf (Elt F) (xtLoc d)) (CV : grid0.Coords → Fin k0_t1_loop.trips → Vec F S24x128 .f32) :
    (P (F := F) xt CV).IsStorable where
  st q d c := match q with | 0 => by unfold P tileIn chunkIn; infer_instance
  dn q d c := match q with | 0 => by unfold P tileOut chunkOut; infer_instance
  go q d c i := match q with | 0 => by unfold P tileIn chunkIn; infer_instance
  td q d c i := match q with | 0 => by unfold P tileOut chunkOut; infer_instance

end Cert.Proof.BCommon

end
-- ==== Proof.BChunkDefs.lean ====
/-
  What a chunk's trip computes, as pure data: the chunk's columns of the index array as the index scratch holds them
  after the copy in, the zero the count scratch is cleared to, and the chunk's count vector — the adds of all eight
  groups of sixteen columns on top of the cleared scratch.
-/
import proofs.«205141_g56023553409622_cont_9to1c4b_756_25_alg».proof.Proof.BCommon
import proofs.«205141_g56023553409622_cont_9to1c4b_756_25_alg».proof.Proof.HistF

noncomputable section

namespace Cert.Proof.BChunkDefs

open Cert.Kernel Cert.Kernel.Gen Cert.Proof.BCommon
open Idealize.ShloMosaic
open Idealize.SL.Sem

variable {F : FTy → Type} [FloatOps F]

/-- What the copy in leaves in the index scratch: chunk `k` of tile `L`'s columns of the index array. -/
def chunkXs (d : Dev nD) (L : grid0.Coords) (k : Fin k0_t1_loop.trips) (xt : Buf (Elt F) (xtLoc d)) : IVec HistF.S200x128 32 :=
  (xtChunk L k).view.read (Elt F) xt

/-- The zero the count scratch is cleared to. -/
def zF : Elt F .f32 := Scalar.ofBits .f32 0x00000000#32

/-- Every entry of the index array is a row number of the count scratch. -/
def XtOk (d : Dev nD) (xt : Buf (Elt F) (xtLoc d)) : Prop := ∀ i, (xt i).toNat < 24

theorem chunkXs_inRange (d : Dev nD) (L : grid0.Coords) (k : Fin k0_t1_loop.trips) (xt : Buf (Elt F) (xtLoc d)) (h : XtOk d xt) :
    HistF.InRange (chunkXs d L k xt) := fun i => by
  unfold chunkXs
  rw [View.read_apply]
  exact h _

/-- The chunk's count vector. -/
def chunkCV (d : Dev nD) (xt : Buf (Elt F) (xtLoc d)) (h : XtOk d xt) (L : grid0.Coords) (k : Fin k0_t1_loop.trips) : Vec F S24x128 .f32 :=
  HistF.upto (chunkXs d L k xt) (chunkXs_inRange d L k xt h) 8 (fun _ => zF)

end Cert.Proof.BChunkDefs

end
-- ==== Proof.BTileBody.lean ====
/-
  One tile's task: for each of its four chunks, copy the chunk's 128 columns of the index array into the index scratch,
  clear the count scratch, add one at (row number, column) for every entry of the chunk, copy the count scratch out to
  the chunk's columns of the count array. The invariant of the loop over chunks: the chunks before the trip are handed
  back (their count columns read as their count vectors), the others are as handed; both scratches and both copy
  semaphores are the tile's, the semaphores' counters at zero.
-/
import proofs.«205141_g56023553409622_cont_9to1c4b_756_25_alg».proof.Proof.BCommon
import proofs.«205141_g56023553409622_cont_9to1c4b_756_25_alg».proof.Proof.BChunkDefs
import Idealize.ShloMosaic.Lib.Writes

noncomputable section

namespace Cert.Proof.BTileBody

open Cert.Kernel Cert.Kernel.Gen Cert.Proof.BCommon Cert.Proof.BChunkDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

/-- The tile's thread. -/
abbrev thr : Thread nD τ := V d (cV L) (jV L)

/-- The tile's two copy semaphores: the copy in's and the copy out's. -/
abbrev inCell : GSem nD τ sig := (thr d L, .dma cc0_scoped0.sem)
abbrev outCell : GSem nD τ sig := (thr d L, .dma cc0_scoped1.sem)

theorem ownSems0_V :
    (ownSems0 (thr d L) : sProp 𝕄)
      = iprop(semVal (inCell d L) 0 ∗ semVal (outCell d L) 0
          ∗ bigSep (((ownCells (thr d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩)]

/-- The two scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The invariant of the loop over the tile's chunks, before trip `k`: the chunks below `k` handed back, the others as
    handed; the two scratches at anything; the two copy semaphores' counters at zero; what the tile owes, with the waits
    recorded so far. -/
def inv (CV : grid0.Coords → Fin k0_t1_loop.trips → Vec F S24x128 .f32) (xt : Buf (Elt F) (xtLoc d))
    (O : CellTallies nD τ sig (HIx 1)) (W : Waits sig (HIx 1)) (k : Nat) (_ : Unit) : sProp 𝕄 :=
  iprop(Transfers.MayWaits (thr d L) (none : HIx 1) O
    ∗ (bigSep (Finset.univ.filter fun j : Fin k0_t1_loop.trips => j.val < k) fun j => chunkOut CV d L j xt)
    ∗ (bigSep (Finset.univ.filter fun j : Fin k0_t1_loop.trips => k ≤ j.val) fun j => chunkIn d L j xt)
    ∗ (∃ f, (sX).view.loc (thr d L) ↦{fullShare} f)
    ∗ (∃ f, (sC).view.loc (thr d L) ↦{fullShare} f)
    ∗ semVal (inCell d L) 0 ∗ semVal (outCell d L) 0
    ∗ ∃ W', ⌜∀ p ∈ W', p ∈ W ∨ p.2 = none⌝ ∗ owes (thr d L) O W')

/-- Chunk `k` is the first of the chunks still to do, and the last of the chunks done after its trip. -/
theorem todo_cons : ∀ k : Fin k0_t1_loop.trips,
    (Finset.univ.filter fun j : Fin k0_t1_loop.trips => k.val ≤ j.val)
      = insert k (Finset.univ.filter fun j : Fin k0_t1_loop.trips => k.val + 1 ≤ j.val) := by decide
theorem todo_not_mem : ∀ k : Fin k0_t1_loop.trips, k ∉ (Finset.univ.filter fun j : Fin k0_t1_loop.trips => k.val + 1 ≤ j.val) := by decide
theorem done_snoc : ∀ k : Fin k0_t1_loop.trips,
    (Finset.univ.filter fun j : Fin k0_t1_loop.trips => j.val < k.val + 1)
      = insert k (Finset.univ.filter fun j : Fin k0_t1_loop.trips => j.val < k.val) := by decide
theorem done_not_mem : ∀ k : Fin k0_t1_loop.trips, k ∉ (Finset.univ.filter fun j : Fin k0_t1_loop.trips => j.val < k.val) := by decide

theorem todo_eq (Φ : Fin k0_t1_loop.trips → sProp 𝕄) (k : Fin k0_t1_loop.trips) :
    (bigSep (Finset.univ.filter fun j : Fin k0_t1_loop.trips => k.val ≤ j.val) Φ)
      = iprop(Φ k ∗ bigSep (Finset.univ.filter fun j : Fin k0_t1_loop.trips => k.val + 1 ≤ j.val) Φ) := by
  rw [todo_cons k, SparseCore.bigSep_insert' (todo_not_mem k)]
theorem done_eq (Φ : Fin k0_t1_loop.trips → sProp 𝕄) (k : Fin k0_t1_loop.trips) :
    (bigSep (Finset.univ.filter fun j : Fin k0_t1_loop.trips => j.val < k.val + 1) Φ)
      = iprop(Φ k ∗ bigSep (Finset.univ.filter fun j : Fin k0_t1_loop.trips => j.val < k.val) Φ) := by
  rw [done_snoc k, SparseCore.bigSep_insert' (done_not_mem k)]

variable [FloatOps F]

/-- The chunk's columns of the two arrays, as the tile's slice memrefs address them. -/
theorem pts_xtChunk (k : Fin k0_t1_loop.trips) (f : Buf (Elt F) (xtLoc d)) :
    (xtLoc d ↦[(xtChunk L k).view.set]{fullShare} f : sProp 𝕄)
      = ((xtChunk L k).view.loc (thr d L) ↦[(xtChunk L k).view.set]{fullShare} f) := rfl
theorem pts_cntChunk (k : Fin k0_t1_loop.trips) (f : Buf (Elt F) (cntLoc d)) :
    (cntLoc d ↦[(cntChunk L k).view.set]{fullShare} f : sProp 𝕄)
      = ((cntChunk L k).view.loc (thr d L) ↦[(cntChunk L k).view.set]{fullShare} f) := rfl

/-- Every piece of a list of stores into the count scratch stores zeros. -/
def AllZ (Lp : List (View.Piece (Elt F) S24x128 .f32)) : Prop := ∀ p ∈ Lp, ∀ x : p.1.shape.Idx, p.2 x = zF
theorem allZ_nil : AllZ ([] : List (View.Piece (Elt F) S24x128 .f32)) := fun p hp => absurd hp (List.not_mem_nil)
theorem allZ_cons (r : Rect S24x128) (w : r.shape.Idx → Elt F .f32) (Lp : List (View.Piece (Elt F) S24x128 .f32))
    (hw : ∀ x, w x = zF) (h : AllZ Lp) : AllZ (⟨r, w⟩ :: Lp) := by
  intro p hp x
  rcases List.mem_cons.mp hp with rfl | hp
  · exact hw x
  · exact h p hp x
/-- A sixteen-lane row of the zero vector is zero at every lane. -/
theorem zero_piece (h : S16.ShapeCasts S1x16) (x : S1x16.Idx) : shapeCast S1x16 (k0_pay2 (F := F)) h x = zF := rfl

/-- Stores of zeros whose rectangles tile the count scratch leave it zero everywhere, whatever it held. -/
theorem zeros_of (Lp : List (View.Piece (Elt F) S24x128 .f32)) (hz : AllZ Lp) (ht : View.Piece.tiled Lp ![1, 16] = true) :
    (sC).view.writes (Elt F) (sC).view.junk Lp = fun _ => zF := by
  funext y
  have h := View.read_writes_apply_of_pieces (v := (sC).view) (Val := Elt F) (f := (sC).view.junk) (G := fun _ => zF) Lp hz y
    (View.cover_of_tiled Lp _ ht y)
  simpa only [Memref.view_whole, View.read_whole] using h

/-- The count array after a copy of the vector `w` onto chunk `k`'s columns reads, through the chunk, as `w`. -/
theorem chunkIs_of_copy (k : Fin k0_t1_loop.trips) (f0 : Buf (Elt F) (cntLoc d)) (w : S24x128.Idx → Elt F .f32) :
    ChunkIs d L k w ((cntChunk L k).view.writes (Elt F) f0 [⟨Rect.whole S24x128, w⟩]) := by
  intro y
  have h1 := View.read_writes_cons_emb (v := (cntChunk L k).view) (Val := Elt F) (f := f0) (Rect.whole S24x128) w [] y
  rw [Rect.emb_whole_apply] at h1
  exact ((View.read_apply _ _).trans (cast_eq _ _)).symm.trans h1

/-- The invariant of the loop over the chunk's eight groups of sixteen columns, before group `g`: the index scratch
    holds the chunk, the count scratch the adds of the groups below `g` on top of what it held at the loop's entry. -/
def inv2 (xs : IVec HistF.S200x128 32) (hxs : HistF.InRange xs) (f0 : Vec F HistF.S24x128 .f32) (g : Nat) (_ : Unit) : sProp 𝕄 :=
  iprop(((sX).view.loc (thr d L) ↦{fullShare} xs) ∗ ((sC).view.loc (thr d L) ↦{fullShare} HistF.upto xs hxs g f0))

set_option maxHeartbeats 4000000 in
theorem tile_body (hF : (K (F := F)).Facts) (CV : grid0.Coords → Fin k0_t1_loop.trips → Vec F S24x128 .f32) (xt : Buf (Elt F) (xtLoc d))
    (hxs : ∀ k, HistF.InRange (chunkXs d L k xt))
    (hCV : ∀ k, CV L k = HistF.upto (chunkXs d L k xt) (hxs k) 8 (fun _ => zF))
    (htrip : ∀ (xs : IVec HistF.S200x128 32) (hx : HistF.InRange xs) (f0 : Vec F HistF.S24x128 .f32) (v1 : BitVec 32) (k : Fin k0_t1_loop.trips)
        (g : Fin k0_t2_loop.trips) (a : PUnit),
      inv2 d L xs hx f0 g.val a
        ⊢ wp frame (wpE (defs₀ (F := F)) 𝒱₀ (thr d L) none) Set.univ
            (k0_t2_body L xtW (Memref.isWhole_whole _) cntW (Memref.isWhole_whole _) sX (Memref.isWhole_whole _) sC (Memref.isWhole_whole _)
              cc0_scoped0 cc0_scoped1 v1 (iota .scVector S16 32 [0] iota_S16_d0_w32_scVector) k0_pay1 k0_pay2 0#32 1#32 k g a)
            (inv2 d L xs hx f0 (g.val + 1)))
    (O : CellTallies nD τ sig (HIx 1)) (W : Waits sig (HIx 1)) (hO : ∀ g, O g none = 0) :
    iprop(levAts (K (F := F)).L (K (F := F)).lev ∗ emp ∗ tileIn d L xt
        ∗ scopedBufs (thr d L) ∗ scopedSems0 (thr d L) ∗ owes (thr d L) O W)
      ⊢ wp frame (wpE (defs₀ (F := F)) 𝒱₀ (thr d L) none) Set.univ
          (cc0__histogram_sc L xtW (Memref.isWhole_whole _) cntW (Memref.isWhole_whole _) sX (Memref.isWhole_whole _) sC (Memref.isWhole_whole _) cc0_scoped0 cc0_scoped1)
          fun _ => iprop(tileOut CV d L xt ∗ scopedBufs (thr d L) ∗ scopedSems0 (thr d L)
            ∗ ∃ W', ⌜∀ p ∈ W', p ∈ W ∨ p.2 = none⌝ ∗ owes (thr d L) O W') := by
  simp only [cc0__histogram_sc_eq_skeleton]; unfold cc0__histogram_sc_skel
  rw [(K (F := F)).scopedBufs_V hF d (cV L) (jV L), SparseCore.Cfg.scopedSems0_V (Val := Elt F) d (cV L) (jV L), ownSems0_V, ownBufs_V]
  iintro ⟨#Hlv, -, Hin, ⟨⟨%fx, Hsx⟩, ⟨%fc, Hsc⟩, Hbufs⟩, ⟨Hsem0, Hsem1, Hsems⟩, HO⟩
  ihave Hmw := ((K (F := F)).mayWaits_none (thr := thr d L) hO) $$ Hlv
  sl_exec
  sl_for (inv d L CV xt O W) $$ [Hin Hsx Hsc Hsem0 Hsem1 HO]
  case region =>
    intro k _
    unfold inv
    iintro ⟨#Hmw', Hdone, Htodo, ⟨%fx', Hsx⟩, ⟨%fc', Hsc⟩, Hsem0, Hsem1, %W', %hW', HO⟩
    ihave Htodo' := (Entails.of_eq (todo_eq (F := F) (fun j => chunkIn d L j xt) k)) $$ Htodo
    icases Htodo' with ⟨Hk, Htodo⟩
    unfold chunkIn
    icases Hk with ⟨Hxt, %f0, Hcnt⟩
    ihave Hxt' := (Entails.of_eq (pts_xtChunk (F := F) d L k xt)) $$ Hxt
    ihave Hcnt' := (Entails.of_eq (pts_cntChunk (F := F) d L k f0)) $$ Hcnt
    sl_exec_parts
    have eX : View.write (Elt F) sX.view fx' (tile_body.sl.dma0 d L xt k) Finset.univ = chunkXs d L k xt := View.write_whole_univ _ _ _
    rw [eX]
    sl_for (inv2 d L (chunkXs d L k xt) (hxs k) (sC.view.writes (Elt F) sC.view.junk tile_body.sl.Hsc_192)) $$ [Hsx Hsc]
    case region =>
      intro g a
      exact htrip _ _ _ _ k g a
    · unfold inv2
      rw [HistF.upto_zero]
      isplitl [Hsx]; · iexact Hsx
      iexact Hsc
    iintro %_ HI
    unfold inv2
    icases HI with ⟨Hsx, Hsc⟩
    sl_exec
    sl_step
    -- the cleared scratch is zero everywhere, so what was copied out is the chunk's count vector
    have hAZ : AllZ (tile_body.sl.Hsc_192 (F := F)) := by
      repeat' (first | exact allZ_nil | refine allZ_cons _ _ _ (zero_piece _) ?_)
    have hZ := zeros_of (tile_body.sl.Hsc_192 (F := F)) hAZ rfl
    have hw : tile_body.sl.dma0_1 d L xt hxs k = CV L k :=
      (rfl : tile_body.sl.dma0_1 d L xt hxs k
          = HistF.upto (chunkXs d L k xt) (hxs k) 8 ((sC).view.writes (Elt F) (sC).view.junk (tile_body.sl.Hsc_192 (F := F)))).trans
        ((congrArg (HistF.upto (chunkXs d L k xt) (hxs k) 8) hZ).trans (hCV k).symm)
    have hck : ChunkIs d L k (CV L k)
        ((cntChunk L k).view.writes (Elt F) f0 [⟨Rect.whole S24x128, tile_body.sl.dma0_1 d L xt hxs k⟩]) :=
      fun y => (chunkIs_of_copy d L k f0 _ y).trans (congrFun hw y)
    isplitr; · iexact Hmw'
    isplitl [Hdone Hxt' Hcnt']
    · iapply (Entails.of_eq (done_eq (F := F) (fun j => chunkOut CV d L j xt) k).symm)
      isplitl [Hxt' Hcnt']
      · unfold chunkOut
        isplitl [Hxt']; · iapply (Entails.of_eq (pts_xtChunk (F := F) d L k xt).symm); iexact Hxt'
        iexists _
        isplitr; · ipureintro; exact hck
        iapply (Entails.of_eq (pts_cntChunk (F := F) d L k _).symm); iexact Hcnt'
      · iexact Hdone
    isplitl [Htodo]; · iexact Htodo
    isplitl [Hsx]; · iexists _; iexact Hsx
    isplitl [Hsc]; · iexists _; iexact Hsc
    isplitl [Hsem0]; · iexact Hsem0
    isplitl [Hsem1]; · iexact Hsem1
    iexists (insert (SemLoc.dma cc0_scoped1.sem, (default : HIx 1)) (insert (SemLoc.dma cc0_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold inv
    isplitr; · iexact Hmw
    isplitr
    · rw [show (Finset.univ.filter fun j : Fin k0_t1_loop.trips => j.val < 0) = ∅ from by decide, bigSep_empty]; iempintro
    isplitl [Hin]
    · unfold tileIn
      rw [show (Finset.univ.filter fun j : Fin k0_t1_loop.trips => 0 ≤ j.val) = Finset.univ from by decide]
      iexact Hin
    isplitl [Hsx]; · iexists _; iexact Hsx
    isplitl [Hsc]; · iexists _; iexact Hsc
    isplitl [Hsem0]; · iexact Hsem0
    isplitl [Hsem1]; · iexact Hsem1
    iexists W; isplitr
    · ipureintro; exact fun p hp => .inl hp
    · iexact HO
  iintro %_ HI
  unfold inv
  icases HI with ⟨-, Hdone, -, ⟨%fx2, Hsx⟩, ⟨%fc2, Hsc⟩, Hsem0, Hsem1, %W', %hW', HO⟩
  sl_exec
  sl_step
  isplitl [Hdone]
  · unfold tileOut
    rw [show (Finset.univ.filter fun j : Fin k0_t1_loop.trips => j.val < Scf.trips k0_t1_loop.lb k0_t1_loop.ub k0_t1_loop.st) = Finset.univ from by decide]
    iexact Hdone
  isplitl [Hsx Hsc Hbufs]
  · isplitl [Hsx]; · iexists _; iexact Hsx
    isplitl [Hsc]; · iexists _; iexact Hsc
    iexact Hbufs
  isplitl [Hsem0 Hsem1 Hsems]
  · isplitl [Hsem0]; · iexact Hsem0
    isplitl [Hsem1]; · iexact Hsem1
    iexact Hsems
  iexists W'; isplitr
  · ipureintro; exact hW'
  · iexact HO

end Tile

end Cert.Proof.BTileBody

end
-- ==== Proof.BTileObl.lean ====
/-
  The launch theorem's obligations for the SparseCore call: each tile's task, from its four chunks as handed to the four
  handed back, and the deal of a SparseCore's sixteen tiles' chunks, which is the identity (the call's payload for a
  SparseCore is already the tiles' payloads side by side).
-/
import proofs.«205141_g56023553409622_cont_9to1c4b_756_25_alg».proof.Proof.BTileBody

noncomputable section

namespace Cert.Proof.BTileObl

open Cert.Kernel Cert.Kernel.Gen Cert.Proof.BCommon Cert.Proof.BChunkDefs Cert.Proof.BTileBody

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

theorem defs₀_vector (c : Fin τ.nSC) (s : Fin τ.nSub) :
    defs₀ (F := F) (.scVector c s) 0 ()
      = SparseCore.onTile hcore0 hsub0 (fun c s => cc0__histogram_sc (coordsV c s)
          xtW (Memref.isWhole_whole _) cntW (Memref.isWhole_whole _) sX (Memref.isWhole_whole _) sC (Memref.isWhole_whole _)
          cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's trip over one group of sixteen columns, as `tile_body` takes it. -/
abbrev TripHyp : Prop :=
  ∀ (d : Dev nD) (L : grid0.Coords) (xs : IVec HistF.S200x128 32) (hx : HistF.InRange xs) (f0 : Vec F HistF.S24x128 .f32) (v1 : BitVec 32)
      (k : Fin k0_t1_loop.trips) (g : Fin k0_t2_loop.trips) (a : PUnit),
    inv2 d L xs hx f0 g.val a
      ⊢ wp frame (wpE (defs₀ (F := F)) 𝒱₀ (thr d L) none) Set.univ
          (k0_t2_body L xtW (Memref.isWhole_whole _) cntW (Memref.isWhole_whole _) sX (Memref.isWhole_whole _) sC (Memref.isWhole_whole _)
            cc0_scoped0 cc0_scoped1 v1 (iota .scVector S16 32 [0] iota_S16_d0_w32_scVector) k0_pay1 k0_pay2 0#32 1#32 k g a)
          (inv2 d L xs hx f0 (g.val + 1))

theorem tileObl (hF : (K (F := F)).Facts) (htrip : TripHyp (F := F)) (xt : (d : Dev nD) → Buf (Elt F) (xtLoc d)) (hxt : ∀ d, XtOk d (xt d))
    (CV : grid0.Coords → Fin k0_t1_loop.trips → Vec F S24x128 .f32) (hCV : ∀ d L k, CV L k = chunkCV d (xt d) (hxt d) L k) :
    (K (F := F)).TileObl (D (F := F)) 𝒱 (P xt CV) v₀ 0 := by
  intro d c i O W hO _ _
  simp only [show (P xt CV).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF CV (xt d) (fun k => chunkXs_inRange d _ k (xt d) (hxt d)) (fun k => hCV d _ k)
    (htrip d _) O W hO).trans (wp_mono frame _ _ fun _ => obl_post)

omit [FloatOps F] in
/-- A family over a SparseCore's tiles, numbered by the call's own subcore count, is the family over the sixteen tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (xt : (d : Dev nD) → Buf (Elt F) (xtLoc d)) (CV : grid0.Coords → Fin k0_t1_loop.trips → Vec F S24x128 .f32) :
    (K (F := F)).VecSplit' (P xt CV) 0 := by
  intro d c
  have e1 : (bigSep Finset.univ fun i : Fin ((K (F := F)).nSub 0) => (P xt CV).go 0 d c i) = (P xt CV).st 0 d c :=
    bigSep_tasks (F := F) (fun i => tileIn d (coordsV c i) (xt d))
  have e2 : (bigSep Finset.univ fun i : Fin ((K (F := F)).nSub 0) => (P xt CV).td 0 d c i) = (P xt CV).dn 0 d c :=
    bigSep_tasks (F := F) (fun i => tileOut CV d (coordsV c i) (xt d))
  iintro H; imodintro
  isplitl [H]; · iapply (Entails.of_eq e1.symm); iexact H
  iintro H; iapply (Entails.of_eq e2); iexact H

end Cert.Proof.BTileObl

end
-- ==== Proof.BTripBody.lean ====
/-
  One trip of a tile's loop over the eight groups of sixteen columns.

  The trip computes the group's sixteen column numbers, reads the 200 rows of the scratch of row numbers at those
  columns, sixteen words at a time, and for each row makes one indexed store with add of sixteen ones into the count
  scratch, at the row the word names and the lane's column; the reads run 25 rows ahead of the stores. Every word read
  is a row number below 24 and every column number is below 128, which is what each store asks of its indices. The
  trip leaves the row numbers as they were and takes the count scratch from its contents after the groups before this
  one to its contents after this group too (`HistF.upto`).
-/
import proofs.«205141_g56023553409622_cont_9to1c4b_756_25_alg».proof.Proof.BCommon
import proofs.«205141_g56023553409622_cont_9to1c4b_756_25_alg».proof.Proof.HistF
import Idealize.ShloMosaic.Lib.Pipeline.Value

noncomputable section

namespace Cert.Proof.BTripBody

open Cert.Kernel Cert.Kernel.Gen
open Cert.Proof.BCommon

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

abbrev thr (d : Dev nD) (L : grid0.Coords) : Thread nD τ := V d (cV L) (jV L)

/-- A trip of the loop over the groups, as one of the eight groups. -/
def g8 (g : Fin k0_t2_loop.trips) : Fin 8 := ⟨g.val, lt_of_lt_of_le g.isLt k0_t2_abs.2.1⟩

/-- The iota of the sixteen lanes. -/
abbrev lanes : IVec S16 32 := iota .scVector S16 32 [0] iota_S16_d0_w32_scVector

omit [FloatOps F] in
/-- The column numbers the trip computes are the group's. -/
theorem col_eq (g : Fin k0_t2_loop.trips) : k0_pay3 lanes 0#32 1#32 g = HistF.cols (g8 g) := by
  have hg : g.val < 8 := (g8 g).isLt
  funext x
  have hx : (x 0).val < 16 := (x 0).isLt
  show (0#32 + BitVec.ofNat 32 g.val * 1#32) * 16#32 + BitVec.ofNat 32 (0 * 16 + (x 0).val) = BitVec.ofNat 32 (16 * g.val + (x 0).val)
  apply BitVec.eq_of_toNat_eq
  simp only [BitVec.toNat_add, BitVec.toNat_mul, BitVec.toNat_ofNat, BitVec.toNat_ofNat]
  omega

omit [FloatOps F] in
/-- Every column number of a group is below 128. -/
theorem cols_lt (g : Fin 8) (x : S16.Idx) : (HistF.cols g x).toNat < 128 := by
  have hx : (x 0).val < 16 := (x 0).isLt
  have hg : g.val < 8 := g.isLt
  unfold HistF.cols
  rw [BitVec.toNat_ofNat]
  omega

omit [FloatOps F] in
/-- The side condition of an indexed store: rows below 24, the group's columns. -/
theorem chk_ok (g : Fin 8) (col row : IVec S16 32) (hrow : ∀ x, (row x).toNat < 24) (hcol : col = HistF.cols g) :
    ∀ a x, ((![row, col] : Fin 2 → IVec S16 32) a x).toNat < S24x128.size a := by
  subst hcol
  intro a x
  match a with
  | ⟨0, _⟩ => exact hrow x
  | ⟨1, _⟩ => exact cols_lt g x

/-- A load of sixteen words of row `n` of the row numbers at the columns of group `g`, as the tile reads them. -/
theorem row_read (xs : IVec S200x128 32) (g : Fin 8) (off : Fin 2 → ℕ) [c : ClosedOff off]
    (hinb : ∀ a, off a + S1x16.size a ≤ S200x128.size a) (n : ℕ) (hform : ClosedOff.form off = ![n, 16 * g.val]) :
    shapeCast S16 (View.readAt (Elt F) (sX).view (Rect.unit (s := S200x128) off S1x16.size hinb).toLoadRect xs) shapeCasts_S1x16_S16
      = HistF.rowN xs g n := by
  have hoff : off = ![n, 16 * g.val] := (ClosedOff.eq (off := off)).trans hform
  subst hoff
  have hn : n < 200 := by have := hinb 0; simpa using this
  funext x
  refine (shapeCast_apply (s := S1x16) _ shapeCasts_S1x16_S16 x (ValueIdx.ix2 (0 : Fin 1) (x 0)) ?_).trans ?_
  · simp [Shape.rowMajor_val_one, Shape.rowMajor_val_two]
  show xs _ = _
  unfold HistF.rowN
  rw [dif_pos hn]
  refine congrArg xs (funext fun a => Fin.ext ?_)
  match a with
  | ⟨0, _⟩ => show n + 0 = n; rfl
  | ⟨1, _⟩ => show 16 * g.val + 1 * (x 0).val = 16 * g.val + (x 0).val; omega

/-- The count scratch after one more store of group `g`: the whole buffer rewritten to the indexed store of what it
    read is the buffer after the group's first `n + 1` stores. -/
theorem store_eq (xs : IVec S200x128 32) (hxs : HistF.InRange xs) (g : Fin 8) (f0 : Vec F S24x128 .f32) (n : ℕ)
    (c : Vec F S24x128 .f32) (row col : IVec S16 32) (v : FVec F S16 .f32)
    (h : ∀ a x, ((![row, col] : Fin 2 → IVec S16 32) a x).toNat < S24x128.size a)
    (hc : c = HistF.grpUpto xs hxs g n f0)
    (hrow : row = HistF.rowN xs g n) (hcol : col = HistF.cols g) (hv : v = HistF.ones (F := F)) :
    (sC).view.writes (Elt F) (HistF.grpUpto xs hxs g n f0)
        [⟨Rect.whole S24x128, storeIdx c ![row, col] v (fun _ => 1#1) true h⟩]
      = HistF.grpUpto xs hxs g (n + 1) f0 := by
  rw [View.writes_singleton]
  refine (Memref.write_access_whole_univ (Elt F) cc0_scratch1 _ _).trans ?_
  exact HistF.grpUpto_store xs hxs g n f0 c row col v hc hrow hcol hv h

omit [FloatOps F] in
/-- Every word of the row numbers is below 24. -/
theorem in_lt (xs : IVec S200x128 32) (hxs : HistF.InRange xs) (i : S200x128.Idx) : (xs i).toNat < 24 := hxs i

set_option maxHeartbeats 4000000 in
set_option maxRecDepth 65536 in
/-- One trip of the loop over the groups: from the count scratch after groups `0 … g-1` to the count scratch after
    groups `0 … g`, the row numbers kept. -/
theorem trip (d : Dev nD) (L : grid0.Coords) (xs : IVec S200x128 32) (hxs : HistF.InRange xs) (f0 : Vec F S24x128 .f32)
    (v1 : BitVec 32) (k0_t1 : Fin k0_t1_loop.trips) (g : Fin k0_t2_loop.trips) :
    (iprop(((sX).view.loc (thr d L) ↦{fullShare} xs) ∗ ((sC).view.loc (thr d L) ↦{fullShare} HistF.upto xs hxs g.val f0)) : sProp 𝕄)
      ⊢ wp frame (wpE (defs₀ (F := F)) 𝒱₀ (thr d L) none) Set.univ
          (k0_t2_body L xtW (Memref.isWhole_whole _) cntW (Memref.isWhole_whole _) sX (Memref.isWhole_whole _) sC (Memref.isWhole_whole _)
            cc0_scoped0 cc0_scoped1 v1 lanes (k0_pay1 (F := F)) (k0_pay2 (F := F)) 0#32 1#32 k0_t1 g ())
          fun _ => iprop(((sX).view.loc (thr d L) ↦{fullShare} xs) ∗ ((sC).view.loc (thr d L) ↦{fullShare} HistF.upto xs hxs (g.val + 1) f0)) := by
  rw [← HistF.grpUpto_zero xs hxs (g8 g) (HistF.upto xs hxs g.val f0)]
  iintro ⟨Hx, Hc⟩
  sl_exec (disch := exact @id _ (chk_ok (g8 g) _ _ (fun x => in_lt xs hxs _) (col_eq g)))
  repeat (
    rw [SparseCore.vectorStoreIdx_bind (thr d L)]
    sl_exec (disch := exact @id _ (chk_ok (g8 g) _ _ (fun x => in_lt xs hxs _) (col_eq g)))
    rw [store_eq xs hxs (g8 g) _ _ _ _ _ _ _ (by exact Memref.readAt_whole (Elt F) cc0_scratch1 _) (by exact row_read xs (g8 g) _ _ _ rfl) (by exact col_eq g) (by rfl)])
  sl_step
  isplitl [Hx]
  · iexact Hx
  · rw [HistF.upto_succ xs hxs g.val (g8 g).isLt f0]
    iexact Hc

end Cert.Proof.BTripBody

end
-- ==== Proof.BTcBody.lean ====
/-
  The TensorCore kernel's body, run once on whole staging buffers.

  The body loads its two input blocks whole — a block of the count array, 24 rows by 2048 columns, and the padded table,
  24 rows by 128 columns —, contracts them over their 24 rows into a zero accumulator, takes the hyperbolic tangent and
  stores the 2048 by 128 result over the whole output block. So whatever the output's buffer held, it ends at the one
  payload of the two loaded blocks; the inputs' buffers are only read.
-/
import proofs.«205141_g56023553409622_cont_9to1c4b_756_25_alg».proof.Proof.Gen.Kernel.Launch
import proofs.«205141_g56023553409622_cont_9to1c4b_756_25_alg».proof.Proof.Gen.Kernel.Skeleton
import proofs.«205141_g56023553409622_cont_9to1c4b_756_25_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.BTcBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U]

local notation "𝕄" => MT nD τ sig Ix (Elt F) ℕ U ℕ

/-! ## The body's accesses: each the whole of its buffer -/

abbrev rC : Rect S24x2048 := Rect.unit (s := S24x2048) ![0, 0] S24x2048.size inb_S24x2048_S24x2048_0_0
abbrev rT : Rect S24x128 := Rect.unit (s := S24x128) ![0, 0] S24x128.size inb_S24x128_S24x128_0_0
abbrev rO : Rect S2048x128 := Rect.unit (s := S2048x128) ![0, 0] S2048x128.size inb_S2048x128_S2048x128_0_0

/-- What the body leaves in the output's buffer, from the two input blocks: its one store. -/
def outBlk (x0 : Vec F S24x2048 .f32) (x1 : Vec F S24x128 .f32) : Vec F S2048x128 .f32 :=
  View.canon [⟨rO, k1_pay1 (View.ld x0 rC) (View.ld x1 rT)⟩]

/-- The store covers the buffer. -/
theorem coverO (p0 : Vec F S2048x128 .f32) (y : S2048x128.Idx) :
    ∃ pc ∈ ([⟨rO, p0⟩] : List (View.Piece (Elt F) S2048x128 .f32)), y ∈ pc.1.set :=
  View.cover_of_tiled [⟨rO, p0⟩] S2048x128.size (by rfl) y

set_option maxHeartbeats 1000000 in
/-- The body on whole staging memrefs, the inputs' at contents `x0`, `x1` and the output's at anything, runs to the
    continuation holding the inputs' as they were and the output's at `outBlk x0 x1`. -/
theorem sound_kernel (c : Dev nD) (E : Set ℕ) (i : grid1.Coords)
    (arg1 : Memref sig .tc .vmem S24x2048 .f32) (harg1 : arg1.IsWhole) (arg2 : Memref sig .tc .vmem S24x128 .f32) (harg2 : arg2.IsWhole)
    (arg3 : Memref sig .tc .vmem S2048x128 .f32) (harg3 : arg3.IsWhole)
    (x0 : Vec F S24x2048 .f32) (x1 : Vec F S24x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc1__matmul_tanh_body i arg1 harg1 arg2 harg2 arg3 harg3) K := by
  simp only [cc1__matmul_tanh_body_eq_skeleton]; unfold cc1__matmul_tanh_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

end Cert.Proof.BTcBody

end
-- ==== Proof.BTcRegion.lean ====
/-
  The TensorCore region: the pipelined matrix product over the count array.

  The region runs the TensorCore kernel at the 8 points of its grid. At point `t` the pipeline stages block `t` of the
  count array (24 rows, columns 2048 t to 2048 t + 2047) and the whole padded table, the body stores its payload over the
  whole output block, and the pipeline writes that block back to rows 2048 t to 2048 t + 2047 of the result. Here: the
  proof data of the pipeline over ANY contents `V` of the TensorCore's buffers at the region's entry, the body obligation,
  and the region as one step of the TensorCore's program — entered holding every unscoped buffer at `V` and owing
  nothing, left holding the three arrays of the pipeline at their final contents and every other unscoped buffer as it
  was.
-/
import proofs.«205141_g56023553409622_cont_9to1c4b_756_25_alg».proof.Proof.BCommon
import proofs.«205141_g56023553409622_cont_9to1c4b_756_25_alg».proof.Proof.BTcBody
import Idealize.ShloMosaic.Lib.Pipeline.Regions

set_option maxRecDepth 16384

noncomputable section

namespace Cert.Proof.BTcRegion

open Cert.Kernel Cert.Kernel.Gen
open Cert.Proof.BCommon Cert.Proof.BTcBody

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The prefetched tables' admissible contents: the pipeline has no table. -/
abbrev adm : (p : Fin 1) → (pcfgs (F := F) p).Adm := fun p => (cfgs p).toPCfg_adm

-- the TensorCore's buffers when the region is entered, per core
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pairs a wait may have recorded when the region is entered: those at most at the level the SparseCore call left. -/
def recd (c : Dev nD) : Set (SemLoc sig × HIx 1) := {p | (K (F := F)).lev ((SparseCore.T c : Thread nD τ), p.1) p.2 ≤ 8}

/-! ## The pipeline's proof data -/

/-- The proof data on core `c`: the arrays as the region finds them; after the body at point `t` each input's buffer at
    its block and the output's at the body's store over the two input blocks; the invariant the scoped buffers no window
    stages; nothing owed; full shares. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => outBlk (iblk V c 0 t) (iblk V c 1 t)
  Φ _ := Pipeline.scopedRest (Ix := HIx 1) (Name := ℕ) (U := UU) (Lvl := ℕ) (Val := Elt F) spec1 c
  q _ := fullShare
  owed _ := 0
  recorded _ := recd (F := F) c

theorem A_eq (c : Dev nD) (w : Fin cfg1.W) : (dats V 0 c).A w = V c (Pipeline.arrRef spec1 w) := by
  dsimp only [dats]

theorem after1_0 (c : Dev nD) (t : Fin cfg1.N) : (dats V 0 c).after 0 t = iblk V c 0 t := by dsimp only [dats]
theorem after1_1 (c : Dev nD) (t : Fin cfg1.N) : (dats V 0 c).after 1 t = iblk V c 1 t := by dsimp only [dats]
theorem after1_2 (c : Dev nD) (t : Fin cfg1.N) : (dats V 0 c).after 2 t = outBlk (iblk V c 0 t) (iblk V c 1 t) := by dsimp only [dats]

/-- Each input's current staging buffer holds its block at every point, fetched there or not: unfetched, the block's
    index has not moved. -/
theorem before1_0 (c : Dev nD) (t : Fin cfg1.N) (d) : (dats V 0 c).before 0 t d = iblk V c 0 t :=
  ((dats V 0 c).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats V 0 c).before 1 t d = iblk V c 1 t :=
  ((dats V 0 c).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t)
    ∗ owns (c : Thread nD τ) (st1_2 t) fullShare ((dats V 0 c).after 2 t))

/-- The body at any point: the inputs' buffers hold their blocks, so the body's run applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dats V 0 c).Φ t.succ = (dats V 0 c).Φ t.castSucc from rfl,
    show (dats V 0 c).owesAt none t.succ = (dats V 0 c).owesAt none t.castSucc from rfl,
    after1_0, after1_1, after1_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) V 0 c) (defs₀ (F := F)) Variants.none (none : HIx 1) Set.univ := fun t => by
  rw [bigSep_W1, bigSep_W1]
  exact sound_body V c t

/-! ## The region as a step of the TensorCore's program -/

/-- What the core owes beside the buffers: nothing, its recorded pairs at most at the level the SparseCore call left. -/
abbrev owesR (c : Dev nD) : sProp 𝕄 :=
  iprop(∃ W, ⌜(K (F := F)).WBelow (SparseCore.T c) W 8⌝ ∗ owes (c : Thread nD τ) (0 : CellTallies nD τ sig (HIx 1)) W)

/-- What the region is entered from, -/
abbrev regPre (c : Dev nD) : sProp 𝕄 := iprop(unscopedBufs c (V c) ∗ owesR (F := F) c)
/-- and what it leaves: the pipeline's arrays at their final contents, every other unscoped buffer as it was. -/
abbrev regPost (c : Dev nD) : sProp 𝕄 :=
  iprop((dats V 0 c).arrays ((dats V 0 c).arrAt · cfg1.N) ∗ Pipeline.unscopedRest spec1 c (V c) ∗ owesR (F := F) c)

set_option backward.isDefEq.respectTransparency.types false in
/-- The region: the decided layout, no semaphore of the kernel's own, the body obligation; the three arrays enter the
    pipeline, the other unscoped buffers bypass it. -/
def reg : Pipeline.RegionSeg (pcfgs (F := F)) adm (dats V) (none : HIx 1) defs₀ 𝒱₀ (K (F := F)).L (K (F := F)).lev 0 where
  win := launch1.win.to₀
  block_pos := launch1.block_pos
  stage_whole := launch1.stage_whole
  K := PEmpty
  osem := fun k : PEmpty => k.elim
  ho := Pipeline.OwnSemFacts.none _
  hbody c := (body_obligation V c).loose
  hwaits := Pipeline.hwaits_of_owed_zero _ _ _ _ _ _ 0 fun _ _ => rfl
  pre c := regPre V c
  post c := regPost V c
  X c := iprop(emp)
  Y c := iprop(emp)
  Z c := Pipeline.unscopedRest spec1 c (V c)
  hentry c := by
    have hsplit := Pipeline.arrays_of_unscopedBufs (pcfgs (F := F)) adm (dats V) launch1.win launch1.arr_whole c
      ((dats V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr; · iempintro
    iexact Hrest
  hin c := by
    rw [show (dats V 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (dats V 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, HZ⟩
    imodintro
    isplitl [Ha]; · iexact Ha
    isplitl [HZ]; · iexact HZ
    unfold Pipeline.Dat.owesAt Pipeline.owesWithin
    icases HO with ⟨%W, %hW, HO⟩
    iexists W; isplitr
    · ipureintro
      intro p hp
      rcases hW hp with h | ⟨w, s, rfl⟩
      · exact h
      · exact Nat.zero_le _
    iexact HO

set_option backward.isDefEq.respectTransparency.types false in
/-- The region at the head of a program over the pipeline's body table: from the region boundary, the entry state, the
    level facts and the staging cells' launch ghost state, to the boundary and the exit state. -/
theorem wp_region (c : Dev nD) {α : Type} (k : PUnit → Prog (TpuEff nD τ sig (Elt F) (ΛP (F := F)) .tc) α) (Q : α → sProp 𝕄) :
    iprop((iprop(boundary (c.tc : Thread nD τ) ∗ regPost V c) -∗ wp frame (wpE (D (F := F)) 𝒱 (c.tc : Thread nD τ) none) Set.univ (k ⟨⟩) Q)
        ∗ boundary (c.tc : Thread nD τ) ∗ regPre V c ∗ levAts (K (F := F)).L (K (F := F)).lev
        ∗ Pipeline.cellsGhost (Pipeline.pin (pcfgs (F := F)) adm) ER 0 c ∗ Pipeline.toksInit (Pipeline.pin (pcfgs (F := F)) adm) ER 0 c)
      ⊢ wp frame (wpE (D (F := F)) 𝒱 (c.tc : Thread nD τ) none) Set.univ (.op (.customCall (Pipeline.entry 0) ()) k) Q :=
  Pipeline.RegionSeg.wp (pcfgs (F := F)) adm (dats V) (none : HIx 1) cellOf_inj ER defs₀ 𝒱₀ (K (F := F)).L (K (F := F)).lev (reg V) c none
    (fun _ h => nomatch h) k Q

end Cert.Proof.BTcRegion

end
-- ==== Proof.BTcValue.lean ====
/-
  What the TensorCore region leaves in the result array, as one function of the count array and the padded table.

  Point `t` of the grid writes, to rows 2048 t to 2048 t + 2047 of the result, the body's payload of block `t` of the count
  array (all 24 rows, columns 2048 t to 2048 t + 2047) and of the whole padded table. The 8 blocks tile the result's
  16384 rows, so the result ends as the function `mmF`: entry `(b, d)` is the payload, of the count block holding column
  `b` and of the table, at row `b mod 2048` and column `d`.
-/
import proofs.«205141_g56023553409622_cont_9to1c4b_756_25_alg».proof.Proof.BTcRegion
import Idealize.ShloMosaic.Lib.Pipeline.Value
import Idealize.ShloMosaic.Lib.ValueIdx

set_option maxRecDepth 16384

noncomputable section

namespace Cert.Proof.BTcValue

open Cert.Kernel Cert.Kernel.Gen
open Cert.Proof.BCommon Cert.Proof.BTcBody Cert.Proof.BTcRegion

open Idealize.ShloMosaic Idealize.ShloMosaic.TcCoe Idealize.SL.Sem
open Idealize.ShloMosaic.SparseCore.Cfg (HIx)
open Idealize.ShloMosaic.Pipeline (Dat)

variable {F : FTy → Type} [FloatOps F]

/-- An index of a 24 by 2048 block as an index of the count array: row `r`, column `2048 t + q`. -/
def colIdx (t : ℕ) (j : S24x2048.Idx) : S24x16384.Idx :=
  fun | ⟨0, _⟩ => ⟨(j 0).val, by have := (j 0).isLt; show (j 0).val < 24; exact this⟩
      | ⟨1, _⟩ => ⟨(2048 * t + (j 1).val) % 16384, Nat.mod_lt _ (by decide)⟩

/-- Block `t` of the count array. -/
def cblk (cnt : S24x16384.Idx → Elt F .f32) (t : ℕ) : Vec F S24x2048 .f32 := fun j => cnt (colIdx t j)

/-- An index of the result as an index of its 2048 by 128 block. -/
def rowIdx (i : S16384x128.Idx) : S2048x128.Idx :=
  fun | ⟨0, _⟩ => ⟨(i 0).val % 2048, Nat.mod_lt _ (by decide)⟩
      | ⟨1, _⟩ => ⟨(i 1).val, by have := (i 1).isLt; show (i 1).val < 128; exact this⟩

/-- The result of the region: entry `(b, d)` is the body's payload of the count block holding column `b` and of the padded
    table, read at row `b mod 2048`, column `d`. -/
def mmF (cnt : S24x16384.Idx → Elt F .f32) (tp : S24x128.Idx → Elt F .f32) : S16384x128.Idx → Elt F .f32 :=
  fun i => k1_pay1 (cblk cnt ((i 0).val / 2048)) tp (rowIdx i)

theorem hz2 : (![0, 0] : Fin 2 → Nat) = fun _ => 0 := funext fun a => by fin_cases a <;> rfl

/-- The printed index maps, decided over the grid: the count window moves along the columns with the point, the table
    window stays, the result window moves along the rows. -/
theorem idx_facts : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-- What point `t` writes back is block `t` of `mmF` of the count array and the padded table as the region finds them. -/
theorem flushed_eq (c : Dev nD) (t : Fin cfg1.N) :
    (dats V 0 c).flushed 2 t = ((cfg1.win 2).blk t).view.read (Elt F) (mmF (V c main_v1) (V c main_v5)) := by
  show (cfg1.win 2).cut (grid1.coords t) ((dats V 0 c).after 2 t) = _
  rw [after1_2]
  unfold outBlk
  rw [View.canon_unit_zero hz2]
  simp only [View.ld_unit_zero (S := S24x2048) hz2, View.ld_unit_zero (S := S24x128) hz2]
  obtain ⟨e0, e1, e2, e3, e4, e5⟩ := idx_facts t
  have ht : t.val < 8 := by have := t.isLt; have hN : cfg1.N = 8 := N_1; omega
  funext j
  show k1_pay1 (iblk V c 0 t) (iblk V c 1 t) j = mmF (V c main_v1) (V c main_v5) (((cfg1.win 2).blk t).view.emb j)
  have hj0 : (j 0).val < 2048 := (j 0).isLt
  have hj1 : (j 1).val < 128 := (j 1).isLt
  have hr0 : ((((cfg1.win 2).blk t).view.emb j) 0).val = t.val * 2048 + (j 0).val := by
    show win1_2.index t (0 : Fin 2) * 2048 + 1 * (j 0).val = _; omega
  have hr1 : ((((cfg1.win 2).blk t).view.emb j) 1).val = (j 1).val := by
    show win1_2.index t (1 : Fin 2) * 128 + 1 * (j 1).val = _; omega
  unfold mmF
  have hA : iblk V c 0 t = cblk (V c main_v1) (((((cfg1.win 2).blk t).view.emb j) 0).val / 2048) := by
    funext y
    show V c main_v1 (((cfg1.win 0).blk t).view.emb y) = V c main_v1 (colIdx _ y)
    congr 1
    funext a; apply Fin.ext
    have hy0 : (y 0).val < 24 := (y 0).isLt
    have hy1 : (y 1).val < 2048 := (y 1).isLt
    match a with
    | ⟨0, _⟩ => show win1_0.index t (0 : Fin 2) * 24 + 1 * (y 0).val = (y 0).val; omega
    | ⟨1, _⟩ =>
      show win1_0.index t (1 : Fin 2) * 2048 + 1 * (y 1).val = (2048 * (((((cfg1.win 2).blk t).view.emb j) 0).val / 2048) + (y 1).val) % 16384
      rw [hr0]; omega
  have hB : iblk V c 1 t = V c main_v5 := by
    funext y
    show V c main_v5 (((cfg1.win 1).blk t).view.emb y) = V c main_v5 y
    congr 1
    funext a; apply Fin.ext
    match a with
    | ⟨0, _⟩ => show win1_1.index t (0 : Fin 2) * 24 + 1 * (y 0).val = (y 0).val; omega
    | ⟨1, _⟩ => show win1_1.index t (1 : Fin 2) * 128 + 1 * (y 1).val = (y 1).val; omega
  have hJ : rowIdx (((cfg1.win 2).blk t).view.emb j) = j := by
    funext a; apply Fin.ext
    match a with
    | ⟨0, _⟩ => show ((((cfg1.win 2).blk t).view.emb j) 0).val % 2048 = (j 0).val; rw [hr0]; omega
    | ⟨1, _⟩ => show ((((cfg1.win 2).blk t).view.emb j) 1).val = (j 1).val; exact hr1
  rw [hA, hB, hJ]

/-- An index of the result is in point `t`'s block iff each coordinate is in the block's range on its axis. -/
theorem mem_blk (t : Fin cfg1.N) (i : S16384x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v6).slice (win1_2.rect t)).set ↔ _
  rw [View.set_slice_whole, Rect.mem_set_unit]
  exact Iff.rfl

/-- Every index of the result is in the block of the point its row falls in. -/
theorem cover (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  let t : Fin cfg1.N := ⟨(i 0).val / 2048, by have hN : cfg1.N = 8 := N_1; omega⟩
  obtain ⟨e0, e1, e2, e3, e4, e5⟩ := idx_facts t
  have e4' : win1_2.index t (0 : Fin 2) = (i 0).val / 2048 := e4
  refine ⟨t, flush1_2 t, ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 128 ≤ (i 1).val ∧ (i 1).val < win1_2.index t (1 : Fin 2) * 128 + 128; omega

/-- The result array after the region. -/
theorem final (c : Dev nD) : (dats V 0 c).arrAt 2 cfg1.N = mmF (V c main_v1) (V c main_v5) :=
  (dats V 0 c).arrAt_eq_of_cover 2 (mmF (V c main_v1) (V c main_v5)) (fun t _ => flushed_eq V c t) cover

/-- The two input arrays are as the region found them. -/
theorem final_in0 (c : Dev nD) : (dats V 0 c).arrAt 0 cfg1.N = V c main_v1 :=
  ((dats V 0 c).arrAt_in 0 rfl _).trans (A_eq V c 0)
theorem final_in1 (c : Dev nD) : (dats V 0 c).arrAt 1 cfg1.N = V c main_v5 :=
  ((dats V 0 c).arrAt_in 1 rfl _).trans (A_eq V c 1)

end Cert.Proof.BTcValue

end
-- ==== Proof.BHostTail.lean ====
/-
  The host operations of the kernel program around its two calls.

  Before the SparseCore call the program transposes the index array. After it, it builds the padded table: a 24 by 128
  array of zeros into which rows 1 to 22 of the table are written at row offset 1 (a scatter of one 22 by 128 window at
  the one start index 1, the combiner taking the update). Then it enters the TensorCore region. Here: the program spelt
  as those stretches in order, what each stretch writes, and the padded table as one function of the table.
-/
import proofs.«205141_g56023553409622_cont_9to1c4b_756_25_alg».proof.Proof.BCommon
import Idealize.ShloMosaic.Lib.StableHlo.Run
import Idealize.ShloMosaic.Lib.Pipeline.Frame

noncomputable section

namespace Cert.Proof.BHostTail

open Cert.Kernel Cert.Kernel.Gen
open Cert.Proof.BCommon

open Idealize.ShloMosaic Idealize.SL.Sem
open Idealize.ShloMosaic.StableHlo (after seq)

variable {F : FTy → Type} [FloatOps F]

/-! ## The stretches -/

/-- The index array transposed: what the SparseCore call reads. -/
def xtF (x : (⟨S16384x200, .i32⟩ : BufTy).Contents (Elt F)) : (⟨S200x16384, .i32⟩ : BufTy).Contents (Elt F) :=
  transpose S200x16384 [1, 0] x transposes_S16384x200_S200x16384_1_0

/-- The table padded to 24 rows: zeros, with rows 1 to 22 of the table written at row offset 1. -/
def tpadF (t : (⟨S23x128, .f32⟩ : BufTy).Contents (Elt F)) : (⟨S24x128, .f32⟩ : BufTy).Contents (Elt F) :=
  Host.scatter scatter_S24x128_S1_S22x128_01_n_0_0 (fun _ b => b)
    (broadcastInDim S24x128 ![] bcast_S_S24x128 (constant S_ .f32 0x00000000#32 : (⟨S_, .f32⟩ : BufTy).Contents (Elt F)))
    (broadcastInDim S1 ![] bcast_S_S1 (constantI S_ 32 1#32 : (⟨S_, .i32⟩ : BufTy).Contents (Elt F)))
    (extractStridedSlice S22x128 ![1, 0] t slices_S23x128_S22x128_1_0)

/-- The one operation before the SparseCore call. -/
def opT : HloOp τ sig (Elt F) :=
  StableHlo.unary main_arg0 main_v0 (xtF : (⟨S16384x200, .i32⟩ : BufTy).Contents (Elt F) → (⟨S200x16384, .i32⟩ : BufTy).Contents (Elt F))

/-- The six operations between the two calls. -/
def tailOps : List (HloOp τ sig (Elt F)) :=
  [ StableHlo.nullary main_cst (constant S_ .f32 0x00000000#32),
    StableHlo.unary main_cst main_v2 (broadcastInDim S24x128 ![] bcast_S_S24x128 : (⟨S_, .f32⟩ : BufTy).Contents (Elt F) → (⟨S24x128, .f32⟩ : BufTy).Contents (Elt F)),
    StableHlo.unary main_arg1 main_v3 ((extractStridedSlice S22x128 ![1, 0] · slices_S23x128_S22x128_1_0) : (⟨S23x128, .f32⟩ : BufTy).Contents (Elt F) → (⟨S22x128, .f32⟩ : BufTy).Contents (Elt F)),
    StableHlo.nullary main_c (constantI S_ 32 1#32),
    StableHlo.unary main_c main_v4 (broadcastInDim S1 ![] bcast_S_S1 : (⟨S_, .i32⟩ : BufTy).Contents (Elt F) → (⟨S1, .i32⟩ : BufTy).Contents (Elt F)),
    StableHlo.ternary main_v2 main_v4 main_v3 main_v5 ((fun x i u => Host.scatter scatter_S24x128_S1_S22x128_01_n_0_0 (fun _ b => b) x i u) : (⟨S24x128, .f32⟩ : BufTy).Contents (Elt F) → (⟨S1, .i32⟩ : BufTy).Contents (Elt F) → (⟨S22x128, .f32⟩ : BufTy).Contents (Elt F) → (⟨S24x128, .f32⟩ : BufTy).Contents (Elt F)) ]

/-- The program in order: the transposition, the SparseCore call, the six operations, the TensorCore region, the return. -/
theorem main_eq (d : Dev nD) :
    main (F := F) d = (seq [opT (F := F)] >>= fun _ => (K (F := F)).run d 0 >>= fun _ => seq (tailOps (F := F)) >>= fun _ =>
      Prog.lift (.customCall (SparseCore.inner (Pipeline.entry 0)) ()) >>= fun _ => pure ⟨⟩) := rfl

/-! ## What the stretches touch and write -/

theorem opT_sub : ∀ op ∈ [opT (F := F)], op.bufs ⊆ Pipeline.ucRefs τ sig := by
  intro op h
  simp only [List.mem_cons, List.mem_nil_iff, or_false] at h
  subst h
  exact Pipeline.sub_ucRefs _ (by unfold opT; simp)

theorem opT_fresh : ∀ op ∈ [opT (F := F)], op.fresh = ∅ := by
  intro op h
  simp only [List.mem_cons, List.mem_nil_iff, or_false] at h
  subst h; rfl

theorem tailOps_sub : ∀ op ∈ tailOps (F := F), op.bufs ⊆ Pipeline.ucRefs τ sig := by
  intro op h
  simp only [tailOps, List.mem_cons, List.mem_nil_iff, or_false] at h
  rcases h with rfl | rfl | rfl | rfl | rfl | rfl <;> exact Pipeline.sub_ucRefs _ (by simp)

theorem tailOps_fresh : ∀ op ∈ tailOps (F := F), op.fresh = ∅ := by
  intro op h
  simp only [tailOps, List.mem_cons, List.mem_nil_iff, or_false] at h
  rcases h with rfl | rfl | rfl | rfl | rfl | rfl <;> rfl

/-- The references the six operations write. -/
abbrev tailW : List (Ref sig .tc) := [main_cst, main_v2, main_v3, main_c, main_v4, main_v5]

theorem tailOps_writes : (tailOps (F := F)).Forall fun op => op.writes ⊆ (tailW.map (Proc.devRef (τ := τ) .tc)).toFinset := by
  simp only [tailOps, List.Forall]
  exact (by simp only [StableHlo.nullary_writes, StableHlo.unary_writes, StableHlo.ternary_writes, Finset.singleton_subset_iff, List.mem_toFinset]; refine ⟨?_, ?_, ?_, ?_, ?_, ?_⟩ <;> exact List.mem_map_of_mem (by decide))

variable (W : Valuation τ sig (Elt F))

/-- The transposition writes the transposed array and nothing else. -/
theorem afterT_v0 : after [opT (F := F)] W (Proc.devRef .tc main_v0) = xtF (W (Proc.devRef .tc main_arg0)) := by
  unfold opT; after_results
theorem afterT_of (r : Ref sig .tc) (h : r ≠ main_v0) : after [opT (F := F)] W (Proc.devRef .tc r) = W (Proc.devRef .tc r) := by
  unfold opT; simp only [StableHlo.after_cons, StableHlo.after_nil]; exact StableHlo.unary_result_ne _ _ _ _ _ W h

/-- After the six operations the padded table's buffer holds the table padded, -/
theorem afterTail_v5 : after (tailOps (F := F)) W (Proc.devRef .tc main_v5) = tpadF (W (Proc.devRef .tc main_arg1)) := by
  unfold tailOps; after_results; rfl
/-- and every buffer they do not write is as it was. -/
theorem afterTail_of (r : Ref sig .tc) (h : r ∉ tailW) : after (tailOps (F := F)) W (Proc.devRef .tc r) = W (Proc.devRef .tc r) :=
  StableHlo.after_of_writes_sub (tailOps (F := F)) W tailOps_writes h

end Cert.Proof.BHostTail

end
-- ==== Proof.BMain.lean ====
/-
  The kernel program's main line on the TensorCore.

  The TensorCore transposes the index array, starts the SparseCore call on the transposed array and the count array and
  waits for it, builds the padded table, runs the pipelined matrix product over the count array and the padded table,
  and returns. Here that line is run from what the launch deals the TensorCore: the host stretches over the unscoped
  buffers held whole, the SparseCore call by the launch's rule for it (handing the two arrays over and taking them back
  with the count array at contents that read, chunk by chunk, as the chunks' count vectors), the region by the pipeline
  library's rule lifted to the extended body table. It ends holding the two argument arrays as launched and the result
  array at the matrix product's function of the count array and the padded table.
-/
import proofs.«205141_g56023553409622_cont_9to1c4b_756_25_alg».proof.Proof.BCommon
import proofs.«205141_g56023553409622_cont_9to1c4b_756_25_alg».proof.Proof.BTcRegion
import proofs.«205141_g56023553409622_cont_9to1c4b_756_25_alg».proof.Proof.BTcValue
import proofs.«205141_g56023553409622_cont_9to1c4b_756_25_alg».proof.Proof.BHostTail

set_option maxRecDepth 16384

noncomputable section

namespace Cert.Proof.BMain

open Cert.Kernel Cert.Kernel.Gen
open Cert.Proof.BCommon Cert.Proof.BTcRegion Cert.Proof.BTcValue Cert.Proof.BHostTail

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents along the line -/

abbrev arg0' : DevRef τ sig := Proc.devRef .tc (main_arg0 : Ref sig .tc)
abbrev arg1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)

/-- At launch; -/
abbrev W0 (d : Dev nD) : Valuation τ sig (Elt F) := fun b => m (d, b)
/-- after the transposition; -/
def W1 (d : Dev nD) : Valuation τ sig (Elt F) := after [opT (F := F)] (W0 m d)
/-- after the SparseCore call, the count array at `f`; -/
def W2 (d : Dev nD) (f : Buf (Elt F) (cntLoc d)) : Valuation τ sig (Elt F) := Function.update (W1 m d) v1' f
/-- when the region is entered. -/
def W3 (d : Dev nD) (f : Buf (Elt F) (cntLoc d)) : Valuation τ sig (Elt F) := after (tailOps (F := F)) (W2 m d f)

/-- The count arrays of all cores, core `d`'s at `f`. -/
def fAll (d : Dev nD) (f : Buf (Elt F) (cntLoc d)) : (c : Dev nD) → Buf (Elt F) (cntLoc c) :=
  Function.update (fun c => m (cntLoc c)) d f

theorem fAll_self (d : Dev nD) (f : Buf (Elt F) (cntLoc d)) : fAll m d f d = f := by
  unfold fAll; exact Function.update_self (β := fun c : Dev nD => Buf (Elt F) (cntLoc c)) d f _

/-- The TensorCores' buffers when the region is entered. -/
def Vreg (d : Dev nD) (f : Buf (Elt F) (cntLoc d)) : (c : Dev nD) → (b : Ref sig .tc) → Buf (Elt F) ((c : Thread nD τ).loc b) :=
  fun c b => W3 m c (fAll m d f c) (Proc.devRef .tc b)

theorem Vreg_self (d : Dev nD) (f : Buf (Elt F) (cntLoc d)) (b : Ref sig .tc) : Vreg m d f d b = W3 m d f (Proc.devRef .tc b) := by
  unfold Vreg; rw [fAll_self]

theorem Vreg_arg0 (d : Dev nD) (f : Buf (Elt F) (cntLoc d)) : Vreg m d f d main_arg0 = m ((SparseCore.T d).loc main_arg0) := by
  rw [Vreg_self]; unfold W3
  rw [afterTail_of _ main_arg0 (by decide)]; unfold W2
  rw [Function.update_of_ne (show arg0' ≠ v1' by decide)]; unfold W1
  exact afterT_of _ main_arg0 (by decide)
theorem Vreg_arg1 (d : Dev nD) (f : Buf (Elt F) (cntLoc d)) : Vreg m d f d main_arg1 = m ((SparseCore.T d).loc main_arg1) := by
  rw [Vreg_self]; unfold W3
  rw [afterTail_of _ main_arg1 (by decide)]; unfold W2
  rw [Function.update_of_ne (show arg1' ≠ v1' by decide)]; unfold W1
  exact afterT_of _ main_arg1 (by decide)
theorem Vreg_v1 (d : Dev nD) (f : Buf (Elt F) (cntLoc d)) : Vreg m d f d main_v1 = f := by
  rw [Vreg_self]; unfold W3
  rw [afterTail_of _ main_v1 (by decide)]; unfold W2
  exact Function.update_self _ _ _
theorem Vreg_v5 (d : Dev nD) (f : Buf (Elt F) (cntLoc d)) : Vreg m d f d main_v5 = tpadF (m ((SparseCore.T d).loc main_arg1)) := by
  rw [Vreg_self]; unfold W3
  rw [afterTail_v5]; unfold W2
  rw [Function.update_of_ne (show arg1' ≠ v1' by decide)]; unfold W1
  rw [afterT_of _ main_arg1 (by decide)]

theorem W1_v0 (d : Dev nD) : W1 m d v0' = xtF (m ((SparseCore.T d).loc main_arg0)) := by
  unfold W1; exact afterT_v0 _

theorem W2_v0 (d : Dev nD) (f : Buf (Elt F) (cntLoc d)) : W2 m d f v0' = xtF (m ((SparseCore.T d).loc main_arg0)) := by
  unfold W2; rw [Function.update_of_ne (show v0' ≠ v1' by decide)]; exact W1_v0 m d
theorem W2_v1 (d : Dev nD) (f : Buf (Elt F) (cntLoc d)) : W2 m d f v1' = f := by
  unfold W2; exact Function.update_self _ _ _

/-! ## The two arrays of the SparseCore call, out of the unscoped buffers and back -/

theorem v01_sub : ({v0', v1'} : Finset (DevRef τ sig)) ⊆ Pipeline.ucRefs τ sig :=
  Finset.insert_subset (Finset.mem_filter.mpr ⟨StableHlo.devRef_mem_tcRefs main_v0, by decide⟩)
    (Finset.singleton_subset_iff.mpr (Finset.mem_filter.mpr ⟨StableHlo.devRef_mem_tcRefs main_v1, by decide⟩))

omit [FloatOps F] in
theorem held_call (d : Dev nD) (W : Valuation τ sig (Elt F)) :
    (held (SparseCore.T d) (Pipeline.ucRefs τ sig) W : sProp 𝕄)
      = iprop(((xtLoc d ↦{fullShare} W v0') ∗ (cntLoc d ↦{fullShare} W v1')) ∗ held (SparseCore.T d) (Pipeline.ucRefs τ sig \ {v0', v1'}) W) := by
  rw [StableHlo.held_sub_split (SparseCore.T d) v01_sub W]
  congr 1
  unfold held
  rw [SparseCore.bigSep_insert' (by decide), bigSep_singleton]

theorem held_rest_update (d : Dev nD) (f : Buf (Elt F) (cntLoc d)) :
    (held (SparseCore.T d) (Pipeline.ucRefs τ sig \ {v0', v1'}) (W1 m d) : sProp 𝕄)
      = held (SparseCore.T d) (Pipeline.ucRefs τ sig \ {v0', v1'}) (W2 m d f) :=
  StableHlo.held_congr (SparseCore.T d) fun b hb => by
    unfold W2
    rw [Function.update_of_ne]
    rintro rfl
    simp at hb

/-- After the call: the transposed array as it was, the count array at `f`, the other buffers untouched. -/
theorem held_after_call (d : Dev nD) (f : Buf (Elt F) (cntLoc d)) :
    iprop((xtLoc d ↦{fullShare} xtF (m ((SparseCore.T d).loc main_arg0))) ∗ (cntLoc d ↦{fullShare} f)
        ∗ held (SparseCore.T d) (Pipeline.ucRefs τ sig \ {v0', v1'}) (W1 m d))
      ⊢ (held (SparseCore.T d) (Pipeline.ucRefs τ sig) (W2 m d f) : sProp 𝕄) := by
  rw [held_call d (W2 m d f), ← held_rest_update, W2_v0, W2_v1]
  iintro ⟨Hx, Hc, Hr⟩
  isplitl [Hx Hc]
  · isplitl [Hx] <;> iassumption
  iexact Hr

/-! ## The region, lifted to the extended body table -/

/-- What the launch deals each TensorCore for the region: its staging cells' launch ghost state and duty tokens. -/
abbrev G (d : Dev nD) : sProp 𝕄 :=
  iprop(Pipeline.cellsGhost (Pipeline.pin (pcfgs (F := F)) adm) ER 0 d ∗ Pipeline.toksInit (Pipeline.pin (pcfgs (F := F)) adm) ER 0 d)

/-- The region's call and the return after it are a program of the pipeline's table, lifted. -/
theorem region_prog_eq :
    (Prog.lift (.customCall (SparseCore.inner (Pipeline.entry 0)) ()) >>= fun _ => pure ⟨⟩ :
        Prog (TpuEff nD τ sig (Elt F) (SparseCore.Sig (ΛP (F := F)) 1) .tc) PUnit)
      = SparseCore.liftProg (Prog.op (.customCall (Pipeline.entry 0) ()) fun _ => Prog.ret ⟨⟩) := rfl

/-- A proof about that program over the pipeline's table is one over the extended table. -/
theorem lifted_step (c : Dev nD) (Φ : PUnit → sProp 𝕄) :
    wp frame (wpE (D (F := F)) 𝒱 (SparseCore.T c) none) Set.univ (Prog.op (.customCall (Pipeline.entry 0) ()) fun _ => Prog.ret ⟨⟩) Φ
      ⊢ wp frame (wpE ((K (F := F)).defs (D (F := F))) 𝒱 (SparseCore.T c) none) Set.univ
          (SparseCore.liftProg (Prog.op (.customCall (Pipeline.entry 0) ()) fun _ => Prog.ret ⟨⟩)) Φ :=
  (K (F := F)).wp_liftProg (D (F := F)) 𝒱 (SparseCore.T c) Set.univ none _ Φ

/-- The region and the return that follows it, in the extended body table: a proof over the pipeline's table is one over
    the extended table. -/
theorem wp_region_lifted (V : (c : Dev nD) → (b : Ref sig .tc) → Buf (Elt F) ((c : Thread nD τ).loc b)) (c : Dev nD) (Φ : PUnit → sProp 𝕄) :
    iprop((iprop(boundary (SparseCore.T c) ∗ regPost V c) -∗ Φ ⟨⟩) ∗ boundary (SparseCore.T c) ∗ regPre V c
        ∗ levAts (K (F := F)).L (K (F := F)).lev ∗ G (F := F) c)
      ⊢ wp frame (wpE ((K (F := F)).defs (D (F := F))) 𝒱 (SparseCore.T c) none) Set.univ
          (Prog.lift (.customCall (SparseCore.inner (Pipeline.entry 0)) ()) >>= fun _ => pure ⟨⟩) Φ := by
  rw [region_prog_eq]
  have h1 := lifted_step (F := F) c Φ
  have h2 := wp_region (F := F) V c (fun _ => Prog.ret ⟨⟩) Φ
  have h3 : iprop((iprop(boundary (SparseCore.T c) ∗ regPost V c) -∗ Φ ⟨⟩) ∗ boundary (SparseCore.T c) ∗ regPre V c
        ∗ levAts (K (F := F)).L (K (F := F)).lev ∗ G (F := F) c)
      ⊢ iprop((iprop(boundary (c.tc : Thread nD τ) ∗ regPost V c) -∗ wp frame (wpE (D (F := F)) 𝒱 (c.tc : Thread nD τ) none) Set.univ (Prog.ret (⟨⟩ : PUnit)) Φ)
        ∗ boundary (c.tc : Thread nD τ) ∗ regPre V c ∗ levAts (K (F := F)).L (K (F := F)).lev
        ∗ Pipeline.cellsGhost (Pipeline.pin (pcfgs (F := F)) adm) ER 0 c ∗ Pipeline.toksInit (Pipeline.pin (pcfgs (F := F)) adm) ER 0 c) := by
    iintro ⟨Hk, Hb, Hpre, Hlv, Hcg, Htk⟩
    isplitl [Hk]
    · iintro H
      rw [wp_ret]
      imodintro
      iapply Hk; iexact H
    isplitl [Hb]; · iexact Hb
    isplitl [Hpre]; · iexact Hpre
    isplitl [Hlv]; · iexact Hlv
    isplitl [Hcg]; · iexact Hcg
    iexact Htk
  exact h3.trans (h2.trans h1)

/-! ## The TensorCore's handshake state around the region -/

/-- After the one SparseCore call the TensorCore owes nothing: its `owes` can be taken out of its handshake state and put
    back. -/
theorem tcSt_open (d : Dev nD) :
    (K (F := F)).tcSt EH d ((0 : Fin 1).val + 1) ⊢ (iprop(owesR (F := F) d ∗ (owesR (F := F) d -∗ (K (F := F)).tcSt EH d 1)) : sProp 𝕄) := by
  show (K (F := F)).tcSt EH d 1 ⊢ _
  unfold SparseCore.Cfg.tcSt
  rw [(K (F := F)).Otc_end d (le_refl 1)]
  iintro ⟨⟨%W, %hW, HO⟩, Hrest⟩
  isplitl [HO]
  · iexists W; isplitr; · ipureintro; exact hW
    iexact HO
  iintro ⟨%W', %hW', HO'⟩
  isplitl [HO']
  · iexists W'; isplitr; · ipureintro; exact hW'
    iexact HO'
  iexact Hrest

/-! ## The main line -/

variable (xt : (d : Dev nD) → Buf (Elt F) (xtLoc d)) (CV : grid0.Coords → Fin k0_t1_loop.trips → Vec F S24x128 .f32)

/-- What the main line leaves: the two argument arrays as launched, and the result array at the matrix product's function of
    a count array that reads, chunk by chunk, as the chunks' count vectors, and of the padded table. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ∃ f : Buf (Elt F) (cntLoc d), ⌜∀ L k, ChunkIs d L k (CV L k) f⌝
        ∗ ((SparseCore.T d).loc main_v6 ↦{fullShare} mmF f (tpadF (m ((SparseCore.T d).loc main_arg1)))))

/-- What the region leaves is what the main line leaves. -/
theorem fin_of_regPost (d : Dev nD) (f : Buf (Elt F) (cntLoc d)) (hf : ∀ L k, ChunkIs d L k (CV L k) f) :
    iprop((dats (Vreg m d f) 0 d).arrays ((dats (Vreg m d f) 0 d).arrAt · cfg1.N) ∗ Pipeline.unscopedRest spec1 d (Vreg m d f d))
      ⊢ (FIN m CV d : sProp 𝕄) := by
  rw [Pipeline.arrays_eq (Pipeline.pin (pcfgs (F := F)) adm) (dats (Vreg m d f)) 0 d launch1.arr_whole ((dats (Vreg m d f) 0 d).share_full fun _ => rfl),
    bigSep_W1, unscopedRest1_eq d (Vreg m d f d)]
  dsimp only
  rw [BTcValue.final, Vreg_arg0, Vreg_arg1, Vreg_v1, Vreg_v5]
  iintro ⟨⟨-, -, H6⟩, H0, H1, -, -, -, -, -, -⟩
  isplitl [H0]; · iexact H0
  isplitl [H1]; · iexact H1
  iexists f; isplitr; · ipureintro; exact hf
  iexact H6

omit [FloatOps F] in
theorem regPre_held (d : Dev nD) (W : Valuation τ sig (Elt F)) :
    (unscopedBufs d (fun b => W (Proc.devRef .tc b)) : sProp 𝕄) = held (SparseCore.T d) (Pipeline.ucRefs τ sig) W :=
  Pipeline.unscopedBufs_held d W

set_option backward.isDefEq.respectTransparency.types false in
/-- **The main line on device `d`'s TensorCore.** -/
theorem hmain
    (hin : ∀ d, iprop((xtLoc d ↦{fullShare} xt d) ∗ ∃ f : Buf (Elt F) (cntLoc d), cntLoc d ↦{fullShare} f)
      ⊢ (bigSep Finset.univ fun c : Fin ((K (F := F)).nCore 0) => (P xt CV).st 0 d c : sProp 𝕄))
    (hout : ∀ d, (bigSep Finset.univ fun c : Fin ((K (F := F)).nCore 0) => (P xt CV).dn 0 d c : sProp 𝕄)
      ⊢ iprop((xtLoc d ↦{fullShare} xt d) ∗ ∃ f : Buf (Elt F) (cntLoc d), ⌜∀ L k, ChunkIs d L k (CV L k) f⌝ ∗ cntLoc d ↦{fullShare} f))
    (hxt : ∀ d, xt d = xtF (m ((SparseCore.T d).loc main_arg0)))
    (κ : GSem nD τ sig → ℕ) (d : Dev nD) :
    iprop((K (F := F)).ctx EH (P xt CV) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m CV d) := by
  rw [main_eq]
  unfold SparseCore.Cfg.tcRes
  rw [show (unscopedBufs d (fun b => m ((SparseCore.T d).loc b)) : sProp 𝕄) = held (SparseCore.T d) (Pipeline.ucRefs τ sig) (W0 m d) from
    Pipeline.unscopedBufs_held d (W0 m d)]
  iintro ⟨#Hctx, Hst, ⟨Hb, Hheld, -, -⟩, HG⟩
  -- the transposition
  iapply (StableHlo.wp_seq 𝒱 none Set.univ d (Pipeline.ucRefs τ sig) _ [opT (F := F)] opT_sub opT_fresh (W0 m d)) $$ [Hb Hheld]
  · isplitl [Hb]; · iexact Hb
    iexact Hheld
  iintro ⟨Hb, Hheld⟩
  ihave Hh := (Entails.of_eq (held_call (F := F) d (after [opT (F := F)] (W0 m d)))) $$ Hheld
  icases Hh with ⟨⟨Hx, Hc⟩, Hrest⟩
  -- the SparseCore call: the transposed array and the count array out, and back
  rw [wp_bind]
  iapply ((K (F := F)).wp_run (D (F := F)) 𝒱 (EH := EH) (P := P xt CV) κ d 0) $$ [Hst Hx Hc Hb Hrest HG]
  isplitr; · iexact Hctx
  isplitl [Hst]; · iexact Hst
  isplitl [Hx Hc]
  · iapply (hin d)
    isplitl [Hx]
    · rw [hxt d, ← W1_v0 m d]; iexact Hx
    iexists _; iexact Hc
  iintro ⟨Hst, Hdn⟩
  ihave Hdn' := (hout d) $$ Hdn
  icases Hdn' with ⟨Hx, %f, %hf, Hc⟩
  ihave Hheld := (held_after_call (F := F) m d f) $$ [Hx Hc Hrest]
  · isplitl [Hx]; · rw [← hxt d]; iexact Hx
    isplitl [Hc]; · iexact Hc
    iexact Hrest
  -- the six host operations
  iapply (StableHlo.wp_seq 𝒱 none Set.univ d (Pipeline.ucRefs τ sig) _ (tailOps (F := F)) tailOps_sub tailOps_fresh (W2 m d f)) $$ [Hb Hheld]
  · isplitl [Hb]; · iexact Hb
    iexact Hheld
  iintro ⟨Hb, Hheld⟩
  -- the region
  ihave Hst' := (tcSt_open (F := F) d) $$ Hst
  icases Hst' with ⟨HO, Hback⟩
  ihave Hlv := (SparseCore.Cfg.ctx_levAts κ) $$ Hctx
  iapply (wp_region_lifted (F := F) (Vreg m d f) d _) $$ [Hb Hheld HO Hback Hlv HG]
  isplitl [Hback]
  · iintro ⟨-, Ha, Hr, HO⟩
    isplitl [Hback HO]
    · iapply Hback; iexact HO
    iapply (fin_of_regPost (F := F) m CV d f hf)
    isplitl [Ha]; · iexact Ha
    iexact Hr
  isplitl [Hb]; · iexact Hb
  isplitl [Hheld HO]
  · isplitl [Hheld]
    · rw [show Vreg m d f d = fun b => W3 m d f (Proc.devRef .tc b) from funext fun b => Vreg_self m d f b, regPre_held]
      iexact Hheld
    iexact HO
  isplitl [Hlv]; · iexact Hlv
  iexact HG

/-! ## The final assertion read against a final state -/

/-- What the claim reads off device `d`'s final memory. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ ∃ f : Buf (Elt F) (cntLoc d), (∀ L k, ChunkIs d L k (CV L k) f)
      ∧ s'.mem.mem ((SparseCore.T d).loc main_v6) = mmF f (tpadF (m ((SparseCore.T d).loc main_arg1)))

theorem hfin (d : Dev nD) (s' : Phys nD τ sig (Elt F)) : iprop(FIN m CV d ∗ SI s') ⊢ (⌜fq m CV d s'⌝ : sProp 𝕄) := by
  iintro ⟨⟨H0, H1, %f, %hf, H6⟩, HSI⟩
  icombine HSI H0 gives %h0
  icombine HSI H1 gives %h1
  icombine HSI H6 gives %h6
  ipureintro
  exact ⟨Buf.eq_of_forall_mem_univ h0, Buf.eq_of_forall_mem_univ h1, f, hf, Buf.eq_of_forall_mem_univ h6⟩

/-! ## The launch element's part for the region -/

/-- From the rounds library's launch element at the staging cells and the pipeline's transfers: every TensorCore's staging
    cells' launch ghost state and duty tokens. -/
theorem fund_G :
    (BI.own ((ER (F := F)) (initOf (Pipeline.cells cfgs cellOf_inj) (Pipeline.launchToks cfgs cellOf_inj))) : sProp 𝕄)
      ⊢ iprop(|==> bigSep Finset.univ fun d : Dev nD => G (F := F) d) := by
  have h := Pipeline.fund_ghost (nD := nD) (τ := τ) (Ix := HIx 1) (Val := Elt F) (Name := ℕ) (U := UU) (Lvl := ℕ) cfgs (ER (F := F)) cellOf_inj
  refine h.trans (BI.bupd_mono ?_)
  rw [← bigSep_sep']
  refine bigSep_mono fun d _ => ?_
  rw [show (Finset.univ : Finset (Fin 1)) = {0} from rfl, bigSep_singleton, bigSep_singleton]
  exact BI.Entails.refl _

end Cert.Proof.BMain

end
-- ==== Proof.BSplit.lean ====
/-
  The 16384 columns of the two arrays of the SparseCore call are the disjoint union of the 128 chunks the tiles work on:
  chunk `k` of tile `(c, s)` is the columns `[128 n, 128 n + 128)` for `n = 8 s + 4 c + k`. So the arrays held whole
  are the chunks dealt to the tiles, and the chunks handed back — each at contents of its own that read as its count
  vector — are the count array held whole at contents that read so through every chunk.
-/
import proofs.«205141_g56023553409622_cont_9to1c4b_756_25_alg».proof.Proof.BCommon
import proofs.«205141_g56023553409622_cont_9to1c4b_756_25_alg».proof.Proof.LibShareJoin

noncomputable section

namespace Cert.Proof.BSplit

open Cert.Kernel Cert.Kernel.Gen Cert.Proof.BCommon

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The chunks, numbered -/

/-- A chunk: SparseCore, tile, chunk of the tile. -/
abbrev CIx : Type := Fin (grid0.bound 0) × Fin (grid0.bound 1) × Fin k0_t1_loop.trips

/-- The chunk's number among the 128. -/
def num (t : CIx) : ℕ := 8 * t.2.1.val + 4 * t.1.val + t.2.2.val

theorem num_lt (t : CIx) : num t < 128 := by
  have h0 : t.1.val < 2 := t.1.isLt
  have h1 : t.2.1.val < 16 := t.2.1.isLt
  have h2 : t.2.2.val < 4 := t.2.2.isLt
  unfold num; omega

/-- Different chunks have different numbers. -/
theorem num_inj {t t' : CIx} (h : num t = num t') : t = t' := by
  obtain ⟨c, i, k⟩ := t; obtain ⟨c', i', k'⟩ := t'
  have h0 : c.val < 2 := c.isLt
  have h1 : i.val < 16 := i.isLt
  have h2 : k.val < 4 := k.isLt
  have h0' : c'.val < 2 := c'.isLt
  have h1' : i'.val < 16 := i'.isLt
  have h2' : k'.val < 4 := k'.isLt
  have h' : 8 * i.val + 4 * c.val + k.val = 8 * i'.val + 4 * c'.val + k'.val := h
  have hc : c.val = c'.val := by omega
  have hi : i.val = i'.val := by omega
  have hk : k.val = k'.val := by omega
  exact Prod.ext (Fin.ext hc) (Prod.ext (Fin.ext hi) (Fin.ext hk))

/-- Every number below 128 is a chunk's. -/
theorem exists_num (n : ℕ) (hn : n < 128) : ∃ t : CIx, num t = n := by
  refine ⟨(⟨n % 8 / 4, ?_⟩, ⟨n / 8, ?_⟩, ⟨n % 4, ?_⟩), ?_⟩
  · show n % 8 / 4 < 2; omega
  · show n / 8 < 16; omega
  · show n % 4 < 4; omega
  · show 8 * (n / 8) + 4 * (n % 8 / 4) + n % 4 = n; omega

/-- The chunk's tile. -/
def tileOf (t : CIx) : grid0.Coords := coordsV t.1 t.2.1

/-- A tile's chunk `k` is the chunk `(L 0, L 1, k)`. -/
theorem tileOf_mk (L : grid0.Coords) (k : Fin k0_t1_loop.trips) : tileOf (L 0, L 1, k) = L := by
  funext a
  match a with
  | ⟨0, _⟩ => rfl
  | ⟨1, _⟩ => rfl

/-- The chunk's first column, as the copies' offsets spell it. -/
theorem off_eq (t : CIx) : 1024 * (tileOf t 1).val + 512 * (tileOf t 0).val + 128 * t.2.2.val = 128 * num t := by
  show 1024 * t.2.1.val + 512 * t.1.val + 128 * t.2.2.val = 128 * (8 * t.2.1.val + 4 * t.1.val + t.2.2.val)
  omega

/-! ## The chunks' columns of the two arrays -/

/-- The chunk's columns of the index array and of the count array. -/
def setX (d : Dev nD) (t : CIx) : Finset (Idx (xtLoc d)) := (xtChunk (tileOf t) t.2.2).view.set
def setC (d : Dev nD) (t : CIx) : Finset (Idx (cntLoc d)) := (cntChunk (tileOf t) t.2.2).view.set

theorem mem_setX (d : Dev nD) (t : CIx) (j : S200x16384.Idx) :
    j ∈ setX d t ↔ 128 * num t ≤ (j 1).val ∧ (j 1).val < 128 * num t + 128 := by
  unfold setX
  have e : ((xtChunk (tileOf t) t.2.2).view.set : Finset S200x16384.Idx)
      = (Rect.unit (s := S200x16384) (k0_off1 (tileOf t) t.2.2) S200x128.size (k0_off1_inb (tileOf t) t.2.2)).set :=
    View.set_slice_whole main_v0_scv _
  rw [e, Rect.mem_set_unit, k0_off1_eq]
  have ho := off_eq t
  constructor
  · intro h
    have h1 : 1024 * (tileOf t 1).val + 512 * (tileOf t 0).val + 128 * t.2.2.val ≤ (j 1).val
        ∧ (j 1).val < 1024 * (tileOf t 1).val + 512 * (tileOf t 0).val + 128 * t.2.2.val + 128 := h (1 : Fin 2)
    omega
  · rintro ⟨h1, h2⟩ a
    match a with
    | ⟨0, _⟩ =>
      have hj : (j 0).val < 200 := (j 0).isLt
      show 0 ≤ (j 0).val ∧ (j 0).val < 0 + 200
      omega
    | ⟨1, _⟩ =>
      show 1024 * (tileOf t 1).val + 512 * (tileOf t 0).val + 128 * t.2.2.val ≤ (j 1).val
        ∧ (j 1).val < 1024 * (tileOf t 1).val + 512 * (tileOf t 0).val + 128 * t.2.2.val + 128
      omega

theorem mem_setC (d : Dev nD) (t : CIx) (j : S24x16384.Idx) :
    j ∈ setC d t ↔ 128 * num t ≤ (j 1).val ∧ (j 1).val < 128 * num t + 128 := by
  unfold setC
  have e : ((cntChunk (tileOf t) t.2.2).view.set : Finset S24x16384.Idx)
      = (Rect.unit (s := S24x16384) (k0_off202 (tileOf t) t.2.2) S24x128.size (k0_off202_inb (tileOf t) t.2.2)).set :=
    View.set_slice_whole main_v1_scv _
  rw [e, Rect.mem_set_unit, k0_off202_eq]
  have ho := off_eq t
  constructor
  · intro h
    have h1 : 1024 * (tileOf t 1).val + 512 * (tileOf t 0).val + 128 * t.2.2.val ≤ (j 1).val
        ∧ (j 1).val < 1024 * (tileOf t 1).val + 512 * (tileOf t 0).val + 128 * t.2.2.val + 128 := h (1 : Fin 2)
    omega
  · rintro ⟨h1, h2⟩ a
    match a with
    | ⟨0, _⟩ =>
      have hj : (j 0).val < 24 := (j 0).isLt
      show 0 ≤ (j 0).val ∧ (j 0).val < 0 + 24
      omega
    | ⟨1, _⟩ =>
      show 1024 * (tileOf t 1).val + 512 * (tileOf t 0).val + 128 * t.2.2.val ≤ (j 1).val
        ∧ (j 1).val < 1024 * (tileOf t 1).val + 512 * (tileOf t 0).val + 128 * t.2.2.val + 128
      omega

/-- Different chunks have no column in common. -/
theorem disjX (d : Dev nD) {t t' : CIx} (h : t ≠ t') : Disjoint (setX d t) (setX d t') :=
  Finset.disjoint_left.mpr fun j hj hj' => h (num_inj (by
    have h1 := (mem_setX d t j).1 hj
    have h2 := (mem_setX d t' j).1 hj'
    omega))

theorem disjC (d : Dev nD) {t t' : CIx} (h : t ≠ t') : Disjoint (setC d t) (setC d t') :=
  Finset.disjoint_left.mpr fun j hj hj' => h (num_inj (by
    have h1 := (mem_setC d t j).1 hj
    have h2 := (mem_setC d t' j).1 hj'
    omega))

/-- Every column lies in a chunk. -/
theorem coverX (d : Dev nD) : (Finset.univ : Finset CIx).biUnion (setX d) = Finset.univ := by
  refine Finset.eq_univ_iff_forall.mpr fun j => Finset.mem_biUnion.mpr ?_
  have hj : ((j : S200x16384.Idx) 1).val < 16384 := ((j : S200x16384.Idx) 1).isLt
  obtain ⟨t, ht⟩ := exists_num (((j : S200x16384.Idx) 1).val / 128) (by omega)
  exact ⟨t, Finset.mem_univ _, (mem_setX d t j).2 (by omega)⟩

theorem coverC (d : Dev nD) : (Finset.univ : Finset CIx).biUnion (setC d) = Finset.univ := by
  refine Finset.eq_univ_iff_forall.mpr fun j => Finset.mem_biUnion.mpr ?_
  have hj : ((j : S24x16384.Idx) 1).val < 16384 := ((j : S24x16384.Idx) 1).isLt
  obtain ⟨t, ht⟩ := exists_num (((j : S24x16384.Idx) 1).val / 128) (by omega)
  exact ⟨t, Finset.mem_univ _, (mem_setC d t j).2 (by omega)⟩

/-! ## The arrays held whole are the chunks -/

/-- The index array held whole is its chunks' columns, each held at the same contents. -/
theorem wholeX (d : Dev nD) (g : Buf (Elt F) (xtLoc d)) :
    (xtLoc d ↦{fullShare} g : sProp 𝕄) = bigSep Finset.univ fun t : CIx => xtLoc d ↦[setX d t]{fullShare} g := by
  rw [← pointsTo_biUnion Finset.univ (setX d) (fun t _ t' _ h => disjX d h), coverX]

theorem wholeC (d : Dev nD) (g : Buf (Elt F) (cntLoc d)) :
    (cntLoc d ↦{fullShare} g : sProp 𝕄) = bigSep Finset.univ fun t : CIx => cntLoc d ↦[setC d t]{fullShare} g := by
  rw [← pointsTo_biUnion Finset.univ (setC d) (fun t _ t' _ h => disjC d h), coverC]

/-! ## What the handshakes carry, chunk by chunk -/

variable (xt : (d : Dev nD) → Buf (Elt F) (xtLoc d)) (CV : grid0.Coords → Fin k0_t1_loop.trips → Vec F S24x128 .f32)

/-- What the SparseCores are handed, all told, is every chunk handed. -/
theorem shape_st (d : Dev nD) :
    (bigSep Finset.univ fun c : Fin ((K (F := F)).nCore 0) => (P xt CV).st 0 d c)
      = bigSep (Finset.univ : Finset CIx) fun t => chunkIn d (tileOf t) t.2.2 (xt d) := by
  symm
  rw [bigSep_univ_prod]
  refine (bigSep_congr fun c _ => ?_ :
    _ = bigSep (Finset.univ : Finset (Fin (grid0.bound 0))) fun c => (P xt CV).st 0 d c)
  rw [bigSep_univ_prod]
  rfl

/-- What the SparseCores hand back, all told, is every chunk handed back. -/
theorem shape_dn (d : Dev nD) :
    (bigSep Finset.univ fun c : Fin ((K (F := F)).nCore 0) => (P xt CV).dn 0 d c)
      = bigSep (Finset.univ : Finset CIx) fun t => chunkOut CV d (tileOf t) t.2.2 (xt d) := by
  symm
  rw [bigSep_univ_prod]
  refine (bigSep_congr fun c _ => ?_ :
    _ = bigSep (Finset.univ : Finset (Fin (grid0.bound 0))) fun c => (P xt CV).dn 0 d c)
  rw [bigSep_univ_prod]
  rfl

/-- A chunk's columns of the two arrays, the count columns at any contents, are the chunk handed. -/
theorem chunk_in_one (d : Dev nD) (f : Buf (Elt F) (cntLoc d)) (t : CIx) :
    iprop((xtLoc d ↦[setX d t]{fullShare} xt d) ∗ cntLoc d ↦[setC d t]{fullShare} f)
      ⊢ (chunkIn d (tileOf t) t.2.2 (xt d) : sProp 𝕄) := by
  unfold chunkIn setX setC
  iintro ⟨Hx, Hc⟩
  isplitl [Hx]
  · iexact Hx
  · iexists f
    iexact Hc

/-- The two arrays held whole, the count array at any contents, are every chunk handed. -/
theorem chunks_in (d : Dev nD) (f : Buf (Elt F) (cntLoc d)) :
    iprop((xtLoc d ↦{fullShare} xt d) ∗ cntLoc d ↦{fullShare} f)
      ⊢ (bigSep (Finset.univ : Finset CIx) fun t => chunkIn d (tileOf t) t.2.2 (xt d) : sProp 𝕄) := by
  rw [wholeX, wholeC, ← bigSep_sep']
  exact bigSep_mono fun t _ => chunk_in_one xt d f t

/-- **Dealing**: the index array held whole and the count array held whole at some contents are what the SparseCores are
    handed. -/
theorem hin (d : Dev nD) :
    iprop((xtLoc d ↦{fullShare} xt d) ∗ ∃ f, cntLoc d ↦{fullShare} f)
      ⊢ (bigSep Finset.univ fun c : Fin ((K (F := F)).nCore 0) => (P xt CV).st 0 d c : sProp 𝕄) := by
  rw [shape_st]
  iintro ⟨Hx, ⟨%f, Hc⟩⟩
  iapply (chunks_in xt d f)
  isplitl [Hx]
  · iexact Hx
  · iexact Hc

/-- Reading the count array through a chunk only looks at the chunk's columns. -/
theorem chunkIs_congr (d : Dev nD) (t : CIx) (v : Vec F S24x128 .f32) (f g : Buf (Elt F) (cntLoc d))
    (h : ∀ i ∈ setC d t, g i = f i) (hf : ChunkIs d (tileOf t) t.2.2 v f) : ChunkIs d (tileOf t) t.2.2 v g :=
  fun y => (h _ (View.emb_mem_set _ y)).trans (hf y)

/-- **Collecting**: what the SparseCores hand back is the index array held whole as it was, and the count array held whole
    at contents that read, through every chunk, as that chunk's count vector. -/
theorem hout (d : Dev nD) :
    (bigSep Finset.univ fun c : Fin ((K (F := F)).nCore 0) => (P xt CV).dn 0 d c : sProp 𝕄)
      ⊢ iprop((xtLoc d ↦{fullShare} xt d) ∗ ∃ f, ⌜∀ L k, ChunkIs d L k (CV L k) f⌝ ∗ cntLoc d ↦{fullShare} f) := by
  rw [shape_dn]
  have e : (bigSep (Finset.univ : Finset CIx) fun t => chunkOut CV d (tileOf t) t.2.2 (xt d) : sProp 𝕄)
      = iprop((bigSep Finset.univ fun t : CIx => xtLoc d ↦[setX d t]{fullShare} xt d)
          ∗ bigSep Finset.univ fun t : CIx =>
              iprop(∃ f : Buf (Elt F) (cntLoc d), ⌜ChunkIs d (tileOf t) t.2.2 (CV (tileOf t) t.2.2) f⌝ ∗ cntLoc d ↦[setC d t]{fullShare} f)) := by
    rw [← bigSep_sep']
    rfl
  rw [e, ← wholeX]
  iintro ⟨Hx, Hc⟩
  isplitl [Hx]
  · iexact Hx
  ihave H := (Cert.Lib.ShareJoin.parts_join (Finset.univ : Finset CIx) (setC d)
      (fun t f => ChunkIs d (tileOf t) t.2.2 (CV (tileOf t) t.2.2) f)
      (fun t f g h hf => chunkIs_congr d t _ f g h hf)
      (fun t _ t' _ h => disjC d h)
      (fun _ => (Scalar.ofBits .f32 0x00000000#32 : Elt F .f32))) $$ Hc
  icases H with ⟨%g, %hg, Hg⟩
  iexists g
  isplitr
  · ipureintro
    intro L k
    have := hg (L 0, L 1, k) (Finset.mem_univ _)
    rw [tileOf_mk] at this
    exact this
  · rw [coverC]
    iexact Hg

end Cert.Proof.BSplit

end
-- ==== Proof.BLaunch.lean ====
/-
  The whole program's run, generic in the float instance: from a launch memory whose index input holds row numbers
  below 23, every weakly fair execution of the device's threads — the TensorCore's @main, the two sequencers, the
  thirty-two tiles — terminates without a fault, the two inputs unchanged, and the result array holds the TensorCore
  kernel's function of a count array that reads, through every chunk, as the chunk's count vector and of the padded
  table. The launch theorem for the SparseCore call, at: each tile's task (the tile obligation), the identity deal of
  a SparseCore's tiles, @main on the TensorCore (the transposition, the call, the padded table, the TensorCore region),
  and a launch element holding the handshakes' rounds and the region's staging cells.
-/
import proofs.«205141_g56023553409622_cont_9to1c4b_756_25_alg».proof.Proof.BTileObl
import proofs.«205141_g56023553409622_cont_9to1c4b_756_25_alg».proof.Proof.BTripBody
import proofs.«205141_g56023553409622_cont_9to1c4b_756_25_alg».proof.Proof.BMain
import proofs.«205141_g56023553409622_cont_9to1c4b_756_25_alg».proof.Proof.BSplit

noncomputable section

namespace Cert.Proof.BLaunch

open Cert.Kernel Cert.Kernel.Gen Cert.Proof.BCommon Cert.Proof.BChunkDefs

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The index input and the table, as locations of device `d`. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v6

/-- What the proof asks of the launch memory: every entry of the index input is a row number below 23. -/
def InputOk : Prop := ∀ (d : Dev nD) i, ((m (xLoc d)) i).toNat < 23

/-- The index array at the call: the transposed index input. -/
abbrev xt (d : Dev nD) : Buf (Elt F) (xtLoc d) := BHostTail.xtF (m (xLoc d))

theorem xtOk (h : InputOk m) (d : Dev nD) : XtOk d (xt m d) :=
  fun i => Nat.lt_trans (h d _) (by decide)

/-- The one device. -/
def d0 : Dev nD := ⟨0, by decide⟩

/-- Each chunk's count vector. -/
def CV (h : InputOk m) : grid0.Coords → Fin k0_t1_loop.trips → Vec F S24x128 .f32 :=
  fun L k => chunkCV d0 (xt m d0) (xtOk m h d0) L k

theorem hCV (h : InputOk m) : ∀ d L k, CV m h L k = chunkCV d (xt m d) (xtOk m h d) L k := by
  intro d L k
  obtain rfl : d = d0 := Subsingleton.elim _ _
  rfl

/-! ## The launch element -/

def u₀ : UU :=
  (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

omit [FloatOps F] in
/-- The staging cells' part of the launch element, apart from the counters' part. -/
theorem own_R_split (b : UR) (c : Counters) :
    (BI.own ((embR : Emb (UR × Counters) (MT nD τ sig (HIx 1) (Elt F) ℕ UU ℕ)) (b, c)) : sProp 𝕄)
      ⊢ iprop(BI.own (ER (F := F) b) ∗ BI.own ((embR : Emb (UR × Counters) (MT nD τ sig (HIx 1) (Elt F) ℕ UU ℕ)) (1, c))) :=
  BI.own_op_elim ((embR : Emb (UR × Counters) (MT nD τ sig (HIx 1) (Elt F) ℕ UU ℕ)).op_of_mem
    (Prod.mk_mem_op (URA.mem_op_one b) (URA.mem_one_op c)))

theorem hu₀ (xt : (d : Dev nD) → Buf (Elt F) (xtLoc d)) (CV : grid0.Coords → Fin k0_t1_loop.trips → Vec F S24x128 .f32) :
    (ownU (u₀ (F := F)) : sProp 𝕄)
    ⊢ |={Set.univ}=> iprop(BI.own (EH (initOf (K (F := F)).hsCells (K (F := F)).hsToks)) ∗ (bigSep Finset.univ (BMain.G (F := F)))
        ∗ bigSep Finset.univ fun thr : Thread nD τ => bigSep Finset.univ fun q : Fin 1 => (P xt CV).x q thr) := by
  unfold u₀
  iintro Hu
  ihave H := (ownU_pair _ _) $$ Hu
  icases H with ⟨HH, HR⟩
  ihave HR' := (own_R_split (F := F) _ _) $$ HR
  icases HR' with ⟨HR, -⟩
  imod (BMain.fund_G (F := F)) $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The run -/

/-- One trip of the loop over a chunk's groups of sixteen columns, in the form the tile's task takes it. -/
theorem trip_hyp : BTileObl.TripHyp (F := F) :=
  fun d L xs hx f0 v1 k g _ => BTripBody.trip d L xs hx f0 v1 k g

/-- What the run leaves: the inputs unchanged, and the result array the TensorCore kernel's function of a count array
    that reads as the chunks' count vectors and of the padded table. -/
def QC (h : InputOk m) : PUnit × MemSt nD τ sig (Elt F) → Prop := fun r => ∀ d : Dev nD,
  r.2.mem (xLoc d) = m (xLoc d) ∧ r.2.mem (tLoc d) = m (tLoc d)
    ∧ ∃ f : Buf (Elt F) (cntLoc d), (∀ L k, ChunkIs d L k (CV m h L k) f)
        ∧ r.2.mem (oLoc d) = BTcValue.mmF f (BHostTail.tpadF (m (tLoc d)))

theorem run_main [∀ e, Nonempty (Elt F e)] (h : InputOk m) :
    θ_run (Cert.Kernel.defs (F := F)) (Cert.Kernel.threads (F := F)) ⟨m, fun _ => 0, ρ⟩ (QC m h) :=
  SparseCore.Cfg.θ_run_sc (K := K (F := F)) (D := D (F := F)) (𝒱 := 𝒱) (EH := EH) (P := P (xt m) (CV m h)) facts v₀
    (fun q hq => match q with | 0 => nomatch hq)
    (fun q _ => match q with | 0 => BTileObl.tileObl facts (trip_hyp (F := F)) (xt m) (xtOk m h) (CV m h) (hCV m h))
    (fun q _ => match q with | 0 => SparseCore.Cfg.VecSplit.of_plain (BTileObl.vecSplit (xt m) (CV m h)))
    m ρ main (BMain.G (F := F)) (BMain.FIN (F := F) m (CV m h)) (u₀ (F := F)) (sep_elim_left.trans (hu₀ (xt m) (CV m h)))
    (BMain.hmain (F := F) m ρ (xt m) (CV m h) (BSplit.hin (xt m) (CV m h)) (BSplit.hout (xt m) (CV m h)) (fun _ => rfl))
    (BMain.fq (F := F) m (CV m h)) (BMain.hfin (F := F) m (CV m h)) (QC m h) (fun _ h => h)

end Cert.Proof.BLaunch

end
-- ==== Proof.ValueMm.lean ====
/-
  The TensorCore region's result read at an index, at the extended reals.

  The body's payload contracts its two blocks over their 24 rows into a zero accumulator and takes the hyperbolic tangent:
  at row `r`, column `q` it is `tanh` of the sum over `v` of the count block's entry `(v, r)` times the table's entry `(v, q)`.
  The result array puts block `b / 2048` of the count array under row `b`, so entry `(b, d)` of the result is `tanh` of the
  sum over `v` of the count array's entry `(v, b)` times the padded table's entry `(v, d)`.
-/
import proofs.«205141_g56023553409622_cont_9to1c4b_756_25_alg».proof.Proof.TcValue
import Idealize.ShloMosaic.PureOps.Ideal.Laws
import Idealize.ShloMosaic.Lib.ValueIdx
import Idealize.ShloMosaic.Lib.Pipeline.Value

noncomputable section

open scoped BigOperators

namespace Cert.Proof.ValueMm

open Cert.KernelIdeal Cert.KernelIdeal.Gen
open Cert.Proof.TcValue
open Idealize.ShloMosaic Idealize.ShloMosaic.ValueIdx

/-- The contraction's one axis has 24 positions. -/
abbrev cE : dot_S24x2048_S24x128_S2048x128_0_0_1_1_n_n.contr.Idx ≃ Fin 24 :=
  contrEquiv1 dot_S24x2048_S24x128_S2048x128_0_0_1_1_n_n 24 rfl rfl

/-- The payload at row `r`, column `q`. -/
theorem pay_apply (x0 : FVec Ideal S24x2048 .f32) (x1 : FVec Ideal S24x128 .f32) (r : Fin 2048) (q : Fin 128) :
    k1_pay1 (F := Ideal) x0 x1 (ix2 r q) = Ideal.tanh (∑ v : Fin 24, x0 (ix2 v r) * x1 (ix2 v q)) := by
  unfold k1_pay1
  show Ideal.tanh (FloatOps.matmul dot_S24x2048_S24x128_S2048x128_0_0_1_1_n_n (some .fp32)
    (shapeCast S24x2048 x0 shapeCasts_S24x2048_S24x2048) (shapeCast S24x128 x1 shapeCasts_S24x128_S24x128)
    (constant S2048x128 .f32 0x00000000#32) (ix2 r q)) = _
  rw [shapeCast_self, shapeCast_self, Ideal.matmul_constant_zero_apply]
  congr 1
  rw [← Equiv.sum_comp cE.symm]
  refine Finset.sum_congr rfl fun v _ => ?_
  have hl : dot_S24x2048_S24x128_S2048x128_0_0_1_1_n_n.lhsIdx (ix2 r q) (cE.symm v) = ix2 v r := by
    funext a; apply Fin.ext
    match a with
    | ⟨0, _⟩ =>
      exact (dot_S24x2048_S24x128_S2048x128_0_0_1_1_n_n.lhsIdx_val_of_single (cl := 0) rfl _ _).trans
        (contrEquiv1_symm_val dot_S24x2048_S24x128_S2048x128_0_0_1_1_n_n 24 rfl rfl v)
    | ⟨1, _⟩ => rfl
  have hr : dot_S24x2048_S24x128_S2048x128_0_0_1_1_n_n.rhsIdx (ix2 r q) (cE.symm v) = ix2 v q := by
    funext a; apply Fin.ext
    match a with
    | ⟨0, _⟩ =>
      exact (dot_S24x2048_S24x128_S2048x128_0_0_1_1_n_n.rhsIdx_val_of_single (cr := 0) rfl _ _).trans
        (contrEquiv1_symm_val dot_S24x2048_S24x128_S2048x128_0_0_1_1_n_n 24 rfl rfl v)
    | ⟨1, _⟩ => rfl
  rw [hl, hr]

/-- **The region's result at an index.** -/
theorem mmF_apply (c : S24x16384.Idx → EReal) (p : S24x128.Idx → EReal) (b : Fin 16384) (d : Fin 128) :
    mmF (F := Ideal) c p (ix2 b d) = Ideal.tanh (∑ v : Fin 24, c (ix2 v b) * p (ix2 v d)) := by
  unfold mmF
  have hrow : rowIdx (ix2 b d) = ix2 (⟨b.val % 2048, Nat.mod_lt _ (by decide)⟩ : Fin 2048) d := by
    funext a; apply Fin.ext
    match a with
    | ⟨0, _⟩ => rfl
    | ⟨1, _⟩ => rfl
  rw [hrow, pay_apply]
  congr 1
  refine Finset.sum_congr rfl fun v _ => ?_
  congr 1
  show c (colIdx (b.val / 2048) (ix2 v (⟨b.val % 2048, Nat.mod_lt _ (by decide)⟩ : Fin 2048))) = c (ix2 v b)
  congr 1
  funext a; apply Fin.ext
  have hb : b.val < 16384 := b.isLt
  match a with
  | ⟨0, _⟩ => rfl
  | ⟨1, _⟩ => show (2048 * (b.val / 2048) + b.val % 2048) % 16384 = b.val; omega

end Cert.Proof.ValueMm

end
-- ==== Proof.LibScatterWindow.lean ====
/-
  A scatter whose combiner returns the update and whose update indices land on pairwise distinct elements. Each element
  is then written at most once, so the order of the writes does not matter: the result at an element is the update's
  value at the one update index that lands on it, and the operand's element when none does.
-/
import Idealize.ShloMosaic.PureOps

noncomputable section

namespace Cert.Proof.LibScatterWindow

open Idealize.ShloMosaic

variable {α : Type} {s si u : Shape} {w : Nat}

/-- A left fold of a step that leaves every element as it was unless the update lands on it: at an element no update of
    the list lands on, the starting value's element. -/
theorem foldl_miss (d : ScatterDims s si u) (idx : IVec si w)
    (step : (s.Idx → α) → Fin u.numel → (s.Idx → α))
    (hmiss : ∀ r n i i', d.resultIdx? (u.rowMajor.symm n) idx = some i → i' ≠ i → step r n i' = r i')
    (hnone : ∀ r n, d.resultIdx? (u.rowMajor.symm n) idx = none → step r n = r)
    (i' : s.Idx) : ∀ (l : List (Fin u.numel)) (x : s.Idx → α),
      (∀ n ∈ l, d.resultIdx? (u.rowMajor.symm n) idx ≠ some i') → l.foldl step x i' = x i' := by
  intro l
  induction l with
  | nil => intro x _; rfl
  | cons n l ih =>
    intro x h
    rw [List.foldl_cons, ih _ fun m hm => h m (List.mem_cons_of_mem _ hm)]
    cases hn : d.resultIdx? (u.rowMajor.symm n) idx with
    | none => rw [hnone x n hn]
    | some i =>
      refine hmiss x n i i' hn fun e => h n List.mem_cons_self ?_
      rw [hn, e]

/-- The same fold at an element some update of the list lands on, no two updates landing on one element: the value
    that update writes. -/
theorem foldl_hit (d : ScatterDims s si u) (idx : IVec si w) (upd : u.Idx → α)
    (step : (s.Idx → α) → Fin u.numel → (s.Idx → α))
    (hhit : ∀ r n i, d.resultIdx? (u.rowMajor.symm n) idx = some i → step r n i = upd (u.rowMajor.symm n))
    (hmiss : ∀ r n i i', d.resultIdx? (u.rowMajor.symm n) idx = some i → i' ≠ i → step r n i' = r i')
    (hnone : ∀ r n, d.resultIdx? (u.rowMajor.symm n) idx = none → step r n = r)
    (hinj : ∀ n n' i, d.resultIdx? (u.rowMajor.symm n) idx = some i → d.resultIdx? (u.rowMajor.symm n') idx = some i → n = n')
    (i' : s.Idx) : ∀ (l : List (Fin u.numel)) (x : s.Idx → α) (n : Fin u.numel),
      n ∈ l → d.resultIdx? (u.rowMajor.symm n) idx = some i' → l.foldl step x i' = upd (u.rowMajor.symm n) := by
  classical
  intro l
  induction l with
  | nil => intro x n hn; cases hn
  | cons m l ih =>
    intro x n hn e
    rw [List.foldl_cons]
    by_cases h : ∃ m' ∈ l, d.resultIdx? (u.rowMajor.symm m') idx = some i'
    · obtain ⟨m', hm', e'⟩ := h
      obtain rfl := hinj n m' i' e e'
      exact ih _ n hm' e
    · have hl : ∀ m' ∈ l, d.resultIdx? (u.rowMajor.symm m') idx ≠ some i' := fun m' hm' e' => h ⟨m', hm', e'⟩
      rw [foldl_miss d idx step hmiss hnone i' l _ hl]
      rcases List.mem_cons.1 hn with rfl | hn
      · exact hhit x n i' e
      · exact absurd e (hl n hn)

/-- **A scatter with the combiner "take the update"**, no two update indices landing on one element, read at an element
    update index `j` lands on: the update's value at `j`. -/
theorem scatter_set_hit (d : ScatterDims s si u) (x : s.Idx → α) (idx : IVec si w) (upd : u.Idx → α)
    (hinj : ∀ j j' i, d.resultIdx? j idx = some i → d.resultIdx? j' idx = some i → j = j')
    (i' : s.Idx) (j : u.Idx) (hj : d.resultIdx? j idx = some i') :
    Host.scatter d (fun _ b => b) x idx upd i' = upd j := by
  unfold Host.scatter
  have := foldl_hit d idx upd
    (fun r n => match d.resultIdx? (u.rowMajor.symm n) idx with
      | some i => fun i' => if i' = i then (fun _ b => b) (r i) (upd (u.rowMajor.symm n)) else r i'
      | none => r)
    (fun r n i h => by simp only [h, if_true])
    (fun r n i i' h hne => by simp only [h, if_neg hne])
    (fun r n h => by simp only [h])
    (fun n n' i h h' => by
      have := hinj _ _ i h h'
      exact u.rowMajor.symm.injective this)
    i' (List.finRange u.numel) x (u.rowMajor j) (List.mem_finRange _) (by rw [Equiv.symm_apply_apply]; exact hj)
  rw [Equiv.symm_apply_apply] at this
  exact this

/-- The same scatter at an element no update index lands on: the operand's element. -/
theorem scatter_set_miss (d : ScatterDims s si u) (x : s.Idx → α) (idx : IVec si w) (upd : u.Idx → α)
    (i' : s.Idx) (h : ∀ j, d.resultIdx? j idx ≠ some i') :
    Host.scatter d (fun _ b => b) x idx upd i' = x i' := by
  unfold Host.scatter
  exact foldl_miss d idx
    (fun r n => match d.resultIdx? (u.rowMajor.symm n) idx with
      | some i => fun i' => if i' = i then (fun _ b => b) (r i) (upd (u.rowMajor.symm n)) else r i'
      | none => r)
    (fun r n i i' h hne => by simp only [h, if_neg hne])
    (fun r n h => by simp only [h])
    i' (List.finRange u.numel) x fun n _ => h _

/-- **Where an update index lands**: on `i'` exactly when, on every axis, the start read off the scatter indices plus
    the window coordinate is `i'`'s coordinate. -/
theorem resultIdx?_eq_some_iff (d : ScatterDims s si u) (j : u.Idx) (idx : IVec si w) (i' : s.Idx) :
    d.resultIdx? j idx = some i' ↔ ∀ a, d.start j idx a + (d.window j a : Int) = ((i' a).val : Int) := by
  unfold ScatterDims.resultIdx?
  split
  · next h =>
    constructor
    · intro e a
      have e' := congrArg (fun f : s.Idx => (f a).val) (Option.some.inj e)
      simp only at e'
      have h0 := (h a).1
      omega
    · intro e
      congr 1
      funext a
      apply Fin.ext
      have := e a
      simp only
      omega
  · next h =>
    constructor
    · intro e; cases e
    · intro e
      exact absurd (fun a => ⟨by have := e a; omega, by have := e a; have := (i' a).isLt; omega⟩) h

end Cert.Proof.LibScatterWindow

end
-- ==== Proof.Spec.lean ====
/-
  The function both programs compute, and the two intermediate arrays of the kernel's arrangement, stated once over
  literal shapes and importing no program.

  Inputs: `x`, 16384 rows of 200 row numbers into a table `t` of 23 rows of 128 reals. Both programs read row 0 of the
  table as zero. The reference sums, for each row `b` of `x`, the 200 table rows it names, and applies `tanh`. The kernel
  first counts, for each `b`, how often each row number `v` occurs (`cnt`), pads the table to 24 rows (`tpad`: rows
  1..22 the table's, rows 0 and 23 zero), and takes `tanh` of the product of the counts with the padded table.
-/
import Idealize.ShloMosaic.PureOps.Ideal
import Idealize.ShloMosaic.Lib.ValueIdx

noncomputable section

open scoped BigOperators

namespace Cert.Proof.Spec

open Idealize.ShloMosaic

abbrev SX : Shape := ⟨2, ![16384, 200]⟩
abbrev ST : Shape := ⟨2, ![23, 128]⟩
abbrev SO : Shape := ⟨2, ![16384, 128]⟩
abbrev SC : Shape := ⟨2, ![24, 16384]⟩
abbrev SP : Shape := ⟨2, ![24, 128]⟩

/-- Row `v` of the table as both programs read it: rows 1..22 are the table's, every other row is zero. -/
def trow (t : FVec Ideal ST .f32) (v : ℕ) (d : Fin 128) : EReal :=
  if h : 1 ≤ v ∧ v < 23 then t (ValueIdx.ix2 ⟨v, h.2⟩ d) else 0

/-- The result: entry `(b, d)` is `tanh` of the sum over the 200 positions `l` of the table row `x[b, l]` at column `d`. -/
def G (x : IVec SX 32) (t : FVec Ideal ST .f32) : FVec Ideal SO .f32 :=
  fun i => Ideal.tanh (∑ l : Fin 200, trow t (x (ValueIdx.ix2 (i 0) l)).toNat (i 1))

/-- The histogram: how many of the 200 positions of row `b` of `x` hold the row number `v`. -/
def cnt (x : IVec SX 32) (v : Fin 24) (b : Fin 16384) : ℕ :=
  (Finset.univ.filter fun l : Fin 200 => (x (ValueIdx.ix2 b l)).toNat = v.val).card

/-- The table padded to 24 rows: rows 1..22 the table's, rows 0 and 23 zero. -/
def tpad (t : FVec Ideal ST .f32) : FVec Ideal SP .f32 := fun i => trow t (i 0).val (i 1)

end Cert.Proof.Spec

end
-- ==== Proof.ValueTpad.lean ====
/-
  The padded table read at an index, at the extended reals.

  The host builds the padded table by scattering one 22 by 128 window — rows 1 to 22 of the table — into a 24 by 128 array
  of zeros at the one start index 1, the combiner taking the update. Update index `(r, q)` lands on element `(r + 1, q)`, so
  no two updates land on one element: element `(v, q)` of the result is the table's `(v, q)` for `1 ≤ v ≤ 22` and zero for
  `v = 0` and `v = 23` — the row of the table both programs read.
-/
import proofs.«205141_g56023553409622_cont_9to1c4b_756_25_alg».proof.Proof.HostTail
import proofs.«205141_g56023553409622_cont_9to1c4b_756_25_alg».proof.Proof.LibScatterWindow
import proofs.«205141_g56023553409622_cont_9to1c4b_756_25_alg».proof.Proof.Spec
import Idealize.ShloMosaic.Lib.ValueIdx
import Idealize.ShloMosaic.PureOps.Ideal.Laws
import Idealize.ShloMosaic.Lib.Pipeline.Value

noncomputable section

namespace Cert.Proof.ValueTpad

open Cert.KernelIdeal Cert.KernelIdeal.Gen
open Cert.Proof.HostTail Cert.Proof.LibScatterWindow
open Idealize.ShloMosaic Idealize.ShloMosaic.ValueIdx

/-- The scatter's one start index: 1. -/
def idx1 : IVec S1 32 := broadcastInDim S1 ![] bcast_S_S1 (constantI S_ 32 1#32 : (⟨S_, .i32⟩ : BufTy).Contents (Elt Ideal))

theorem start0 (j : S22x128.Idx) : scatter_S24x128_S1_S22x128_01_n_0_0.start j idx1 (0 : Fin 2) = 1 := by
  unfold ScatterDims.start
  rw [dif_pos (show (0 : Fin 2) ∈ scatter_S24x128_S1_S22x128_01_n_0_0.scatterDimsToOperandDims from by decide)]
  rfl
theorem start1 (j : S22x128.Idx) : scatter_S24x128_S1_S22x128_01_n_0_0.start j idx1 (1 : Fin 2) = 0 := by
  unfold ScatterDims.start
  rw [dif_neg (show (1 : Fin 2) ∉ scatter_S24x128_S1_S22x128_01_n_0_0.scatterDimsToOperandDims from by decide)]
theorem win0 (j : S22x128.Idx) : scatter_S24x128_S1_S22x128_01_n_0_0.window j (0 : Fin 2) = (j 0).val := by
  unfold ScatterDims.window
  rw [dif_pos (show (0 : Fin 2) ∈ scatter_S24x128_S1_S22x128_01_n_0_0.sKept from by decide)]
  rfl
theorem win1 (j : S22x128.Idx) : scatter_S24x128_S1_S22x128_01_n_0_0.window j (1 : Fin 2) = (j 1).val := by
  unfold ScatterDims.window
  rw [dif_pos (show (1 : Fin 2) ∈ scatter_S24x128_S1_S22x128_01_n_0_0.sKept from by decide)]
  rfl

/-- Update index `(r, q)` lands on element `(r + 1, q)`. -/
theorem land (j : S22x128.Idx) (i' : S24x128.Idx) :
    scatter_S24x128_S1_S22x128_01_n_0_0.resultIdx? j idx1 = some i' ↔ (i' 0).val = (j 0).val + 1 ∧ (i' 1).val = (j 1).val := by
  rw [resultIdx?_eq_some_iff]
  constructor
  · intro h
    have h0 := h 0; have h1 := h 1
    rw [start0, win0] at h0; rw [start1, win1] at h1
    omega
  · rintro ⟨e0, e1⟩ a
    match a with
    | ⟨0, _⟩ => show scatter_S24x128_S1_S22x128_01_n_0_0.start j idx1 (0 : Fin 2) + (scatter_S24x128_S1_S22x128_01_n_0_0.window j (0 : Fin 2) : Int) = ((i' 0).val : Int); rw [start0, win0]; omega
    | ⟨1, _⟩ => show scatter_S24x128_S1_S22x128_01_n_0_0.start j idx1 (1 : Fin 2) + (scatter_S24x128_S1_S22x128_01_n_0_0.window j (1 : Fin 2) : Int) = ((i' 1).val : Int); rw [start1, win1]; omega

theorem land_inj (j j' : S22x128.Idx) (i : S24x128.Idx)
    (h : scatter_S24x128_S1_S22x128_01_n_0_0.resultIdx? j idx1 = some i) (h' : scatter_S24x128_S1_S22x128_01_n_0_0.resultIdx? j' idx1 = some i) : j = j' := by
  obtain ⟨a0, a1⟩ := (land j i).mp h
  obtain ⟨b0, b1⟩ := (land j' i).mp h'
  funext a; apply Fin.ext
  match a with
  | ⟨0, _⟩ => show (j 0).val = (j' 0).val; omega
  | ⟨1, _⟩ => show (j 1).val = (j' 1).val; omega

/-- The scatter at the start index 1, read at an element: the update's entry one row up where there is one, the operand's
    element in rows 0 and 23. -/
theorem scatter_read {α : Type} (X : S24x128.Idx → α) (upd : S22x128.Idx → α) (i' : S24x128.Idx) :
    Host.scatter scatter_S24x128_S1_S22x128_01_n_0_0 (fun _ b => b) X idx1 upd i'
      = if h : 1 ≤ (i' 0).val ∧ (i' 0).val < 23 then
          upd (ix2 (⟨(i' 0).val - 1, by omega⟩ : Fin 22) (⟨(i' 1).val, (i' 1).isLt⟩ : Fin 128))
        else X i' := by
  have hi0 : (i' 0).val < 24 := (i' 0).isLt
  have hi1 : (i' 1).val < 128 := (i' 1).isLt
  by_cases h : 1 ≤ (i' 0).val ∧ (i' 0).val < 23
  · rw [dif_pos h]
    refine scatter_set_hit _ X idx1 upd land_inj i' _ ((land _ i').mpr ⟨?_, rfl⟩)
    show (i' 0).val = (i' 0).val - 1 + 1
    omega
  · rw [dif_neg h]
    refine scatter_set_miss _ X idx1 upd i' fun j hj => h ?_
    obtain ⟨e0, _⟩ := (land j i').mp hj
    have : (j 0).val < 22 := (j 0).isLt
    omega

/-- **The padded table is the table's rows 1 to 22 between two zero rows.** -/
theorem tpadF_eq (t : FVec Ideal S23x128 .f32) : tpadF (F := Ideal) t = Spec.tpad t := by
  funext i'
  unfold tpadF
  refine (scatter_read _ _ i').trans ?_
  unfold Spec.tpad Spec.trow
  by_cases h : 1 ≤ (i' 0).val ∧ (i' 0).val < 23
  · rw [dif_pos h, dif_pos h]
    unfold extractStridedSlice
    congr 1
    funext a; apply Fin.ext
    match a with
    | ⟨0, _⟩ => show 1 + ((i' 0).val - 1) = (i' 0).val; omega
    | ⟨1, _⟩ => show 0 + (i' 1).val = (i' 1).val; omega
  · rw [dif_neg h, dif_neg h]
    exact Ideal.ofBits_zero_f32

end Cert.Proof.ValueTpad

end
-- ==== Proof.HistAlgebra.lean ====
/-
  The law that joins the two arrangements of the sum. The reference adds, for a row `b` of `x`, the 200 table rows that
  row names, one position at a time. The kernel first counts how often each row number `v` occurs among the 200
  positions and then adds, over the 24 row numbers, the count times the (padded) table row. Grouping the 200 positions
  by the row number they hold turns one sum into the other: a count times an entry is that many copies of the entry.
  That last step is arithmetic of real numbers, so it is carried out in ℝ; the entries are real because the table is
  finite, and a row number below 23 is in particular one of the 24 the histogram counts.
-/
import proofs.«205141_g56023553409622_cont_9to1c4b_756_25_alg».proof.Proof.Spec

noncomputable section

open scoped BigOperators

namespace Cert.Proof.HistAlgebra

open Idealize.ShloMosaic Cert.Proof

/-- The embedding of the reals in the extended reals commutes with a finite sum. -/
theorem coe_sum {ι : Type*} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- Grouping by value, over abstract finite index types: the sum of `f (g i)` over all `i` is the sum over the values
    `k` of (the number of `i` with `g i = k`) times `f k`. -/
theorem sum_count_mul {ι κ : Type*} [Fintype ι] [Fintype κ] [DecidableEq κ] (g : ι → κ) (f : κ → ℝ) :
    ∑ k, ((Finset.univ.filter fun i => g i = k).card : ℝ) * f k = ∑ i, f (g i) := by
  rw [← Finset.sum_fiberwise_of_maps_to (s := Finset.univ) (t := Finset.univ) (g := g) (fun _ _ => Finset.mem_univ _)]
  refine Finset.sum_congr rfl fun k _ => ?_
  rw [Finset.sum_congr rfl (fun i hi => by rw [(Finset.mem_filter.mp hi).2] :
      ∀ i ∈ Finset.univ.filter (fun i => g i = k), f (g i) = f k), Finset.sum_const, nsmul_eq_mul]

/-- Every row of the table as the programs read it is real when the table is: a table entry, or zero. -/
theorem trow_real (t : FVec Ideal Spec.ST .f32) (ht : ∀ i, ∃ r : ℝ, t i = (r : EReal)) (v : ℕ) (d : Fin 128) :
    ∃ r : ℝ, Spec.trow t v d = (r : EReal) := by
  unfold Spec.trow
  split
  · exact ht _
  · exact ⟨0, EReal.coe_zero.symm⟩

/-- The histogram against the padded table is the sum over the positions: for a row `b` of `x` whose entries are row
    numbers below 23, and a table of reals, the sum over the 24 row numbers `v` of (how often `v` occurs in row `b`)
    times row `v` of the padded table is the sum over the 200 positions of the table row found there. -/
theorem hist_dot (x : IVec Spec.SX 32) (t : FVec Ideal Spec.ST .f32) (hx : ∀ i, (x i).toNat < 23)
    (ht : ∀ i, ∃ r : ℝ, t i = (r : EReal)) (b : Fin 16384) (d : Fin 128) :
    (∑ v : Fin 24, (((Spec.cnt x v b : ℕ) : ℝ) : EReal) * Spec.tpad t (ValueIdx.ix2 v d))
      = ∑ l : Fin 200, Spec.trow t (x (ValueIdx.ix2 b l)).toNat d := by
  choose f hf using fun v : ℕ => trow_real t ht v d
  -- the row number at position `l`, as one of the 24 the histogram counts
  let g : Fin 200 → Fin 24 := fun l => ⟨(x (ValueIdx.ix2 b l)).toNat, by have := hx (ValueIdx.ix2 b l); omega⟩
  have hcnt : ∀ v : Fin 24, Spec.cnt x v b = (Finset.univ.filter fun l => g l = v).card := by
    intro v
    unfold Spec.cnt
    congr 1
    ext l
    simp only [Finset.mem_filter, Finset.mem_univ, true_and, g, Fin.ext_iff]
  calc (∑ v : Fin 24, (((Spec.cnt x v b : ℕ) : ℝ) : EReal) * Spec.tpad t (ValueIdx.ix2 v d))
      = ∑ v : Fin 24, ((((Finset.univ.filter fun l => g l = v).card : ℝ) * f v.val : ℝ) : EReal) :=
        Finset.sum_congr rfl (fun v _ => by
          rw [EReal.coe_mul, hcnt v]
          exact congrArg _ (hf v.val))
    _ = ((∑ v : Fin 24, ((Finset.univ.filter fun l => g l = v).card : ℝ) * f v.val : ℝ) : EReal) := (coe_sum _ _).symm
    _ = ((∑ l : Fin 200, f (g l).val : ℝ) : EReal) := congrArg _ (sum_count_mul g (fun k => f k.val))
    _ = ∑ l : Fin 200, (f (g l).val : EReal) := coe_sum _ _
    _ = ∑ l : Fin 200, Spec.trow t (x (ValueIdx.ix2 b l)).toNat d := Finset.sum_congr rfl (fun l _ => (hf _).symm)

end Cert.Proof.HistAlgebra

end
-- ==== Proof.KernelValue.lean ====
/-
  The kernel's result is the specification's function.

  The count array the SparseCore call leaves reads, through every chunk, as that chunk's count vector. Column `b` of the
  array lies in chunk `b / 128` at position `b mod 128`, and the chunk's count vector there, at row `v`, is the number of
  rows of the chunk's index columns that hold `v` at that position. Those index columns are columns of the transposed
  index array, so that number is the number of positions `l` with `x[b, l] = v`: the histogram `Spec.cnt`. The TensorCore
  region then takes `tanh` of the histogram's product with the padded table, and grouping the positions by the row number
  they hold turns that product into the sum the specification states.
-/
import proofs.«205141_g56023553409622_cont_9to1c4b_756_25_alg».proof.Proof.ChunkDefs
import proofs.«205141_g56023553409622_cont_9to1c4b_756_25_alg».proof.Proof.HostTail
import proofs.«205141_g56023553409622_cont_9to1c4b_756_25_alg».proof.Proof.ValueMm
import proofs.«205141_g56023553409622_cont_9to1c4b_756_25_alg».proof.Proof.ValueTpad
import proofs.«205141_g56023553409622_cont_9to1c4b_756_25_alg».proof.Proof.HistAlgebra
import proofs.«205141_g56023553409622_cont_9to1c4b_756_25_alg».proof.Proof.Split
import Idealize.ShloMosaic.Lib.ValueLayout

noncomputable section

open scoped BigOperators

namespace Cert.Proof.KernelValue

open Cert.KernelIdeal Cert.KernelIdeal.Gen Cert.Proof.Common Cert.Proof.ChunkDefs Cert.Proof
open Idealize.ShloMosaic Idealize.ShloMosaic.ValueIdx Idealize.SL.Sem

/-! ## A chunk's positions as entries of the two arrays -/

/-- Position `(v, r)` of chunk `t` of the count array is the array's entry `(v, 128 n + r)`, `n` the chunk's number. -/
theorem cnt_emb (t : Split.CIx) (v : Fin 24) (r : Fin 128) (b : Fin 16384) (hb : b.val = 128 * Split.num t + r.val) :
    (cntChunk (Split.tileOf t) t.2.2).view.emb (ix2 v r) = ix2 v b := by
  have ho := Split.off_eq t
  have he := k0_off202_eq (Split.tileOf t) t.2.2
  funext a
  apply Fin.ext
  match a with
  | ⟨0, _⟩ =>
    show k0_off202 (Split.tileOf t) t.2.2 0 + 1 * v.val = v.val
    rw [he]
    show 0 + 1 * v.val = v.val
    omega
  | ⟨1, _⟩ =>
    show k0_off202 (Split.tileOf t) t.2.2 1 + 1 * r.val = b.val
    rw [he]
    show 1024 * (Split.tileOf t 1).val + 512 * (Split.tileOf t 0).val + 128 * t.2.2.val + 1 * r.val = b.val
    omega

/-- Position `(j, r)` of chunk `t` of the transposed index array is the array's entry `(j, 128 n + r)`. -/
theorem xt_emb (t : Split.CIx) (j : Fin 200) (r : Fin 128) (b : Fin 16384) (hb : b.val = 128 * Split.num t + r.val) :
    (xtChunk (Split.tileOf t) t.2.2).view.emb (ix2 j r) = ix2 j b := by
  have ho := Split.off_eq t
  have he := k0_off1_eq (Split.tileOf t) t.2.2
  funext a
  apply Fin.ext
  match a with
  | ⟨0, _⟩ =>
    show k0_off1 (Split.tileOf t) t.2.2 0 + 1 * j.val = j.val
    rw [he]
    show 0 + 1 * j.val = j.val
    omega
  | ⟨1, _⟩ =>
    show k0_off1 (Split.tileOf t) t.2.2 1 + 1 * r.val = b.val
    rw [he]
    show 1024 * (Split.tileOf t 1).val + 512 * (Split.tileOf t 0).val + 128 * t.2.2.val + 1 * r.val = b.val
    omega

/-! ## The transposed index array -/

/-- The transposed index array at `(j, b)` is the index array at `(b, j)`. -/
theorem xtF_apply (x : IVec Spec.SX 32) (j : Fin 200) (b : Fin 16384) :
    HostTail.xtF (F := Ideal) x (ix2 j b) = x (ix2 b j) := by
  unfold HostTail.xtF
  exact transpose_ix2_apply x _ j b

/-- Row numbers below 23 are in particular rows of the count scratch. -/
theorem xtOk (d : Dev nD) (x : IVec Spec.SX 32) (hx : ∀ i, (x i).toNat < 23) (xt : Buf (Elt Ideal) (xtLoc d))
    (hxt : xt = HostTail.xtF (F := Ideal) x) : XtOk d xt := by
  intro i
  subst hxt
  obtain ⟨j, b, rfl⟩ : ∃ (j : Fin 200) (b : Fin 16384), i = ix2 j b := ⟨i 0, i 1, eq_ix2 i⟩
  rw [xtF_apply]
  have := hx (ix2 b j)
  omega

/-! ## The count array is the histogram -/

/-- The zero the count scratch is cleared to is the real zero. -/
theorem zF_eq : (zF (F := Ideal) : EReal) = 0 := Ideal.ofBits_zero_f32

/-- **The count array the SparseCore call leaves is the histogram.** -/
theorem cnt_of_chunks (d : Dev nD) (x : IVec Spec.SX 32) (xt : Buf (Elt Ideal) (xtLoc d))
    (hxt : xt = HostTail.xtF (F := Ideal) x) (h : XtOk d xt) (f : Buf (Elt Ideal) (cntLoc d))
    (hf : ∀ L k, ChunkIs d L k (chunkCV d xt h L k) f) :
    ∀ (v : Fin 24) (b : Fin 16384), f (ix2 v b) = (((Spec.cnt x v b : ℕ) : ℝ) : EReal) := by
  intro v b
  have hb : b.val < 16384 := b.isLt
  obtain ⟨t, ht⟩ := Split.exists_num (b.val / 128) (by omega)
  have hr : b.val % 128 < 128 := Nat.mod_lt _ (by decide)
  have hbn : b.val = 128 * Split.num t + (⟨b.val % 128, hr⟩ : Fin 128).val := by
    show b.val = 128 * Split.num t + b.val % 128
    omega
  have h1 := hf (Split.tileOf t) t.2.2 (ix2 v ⟨b.val % 128, hr⟩)
  rw [cnt_emb t v ⟨b.val % 128, hr⟩ b hbn] at h1
  rw [h1]
  unfold chunkCV
  have hz : (fun _ => zF (F := Ideal) : Vec Ideal S24x128 .f32) = fun _ => (0 : EReal) := funext fun _ => zF_eq
  rw [hz, HistF.upto_value]
  unfold Spec.cnt
  congr 3
  ext l
  simp only [Finset.mem_filter, Finset.mem_univ, true_and]
  have hxs : chunkXs d (Split.tileOf t) t.2.2 xt (ix2 l ⟨b.val % 128, hr⟩) = x (ix2 b l) := by
    unfold chunkXs
    rw [View.read_apply]
    show xt ((xtChunk (Split.tileOf t) t.2.2).view.emb (ix2 l ⟨b.val % 128, hr⟩)) = _
    rw [xt_emb t l ⟨b.val % 128, hr⟩ b hbn, hxt, xtF_apply]
  rw [hxs]

/-! ## The result -/

/-- The specification's function at `(b, d)`. -/
theorem G_apply (x : IVec Spec.SX 32) (t : FVec Ideal Spec.ST .f32) (b : Fin 16384) (d : Fin 128) :
    Spec.G x t (ix2 b d) = Ideal.tanh (∑ l : Fin 200, Spec.trow t (x (ix2 b l)).toNat d) := by
  unfold Spec.G
  rfl

/-- The TensorCore region's result, of a count array that is the histogram and of the padded table, is the
    specification's function. -/
theorem value_of_hist (x : IVec Spec.SX 32) (t : FVec Ideal Spec.ST .f32) (hx : ∀ i, (x i).toNat < 23)
    (ht : ∀ i, ∃ r : ℝ, t i = (r : EReal)) (f : S24x16384.Idx → EReal)
    (hf : ∀ (v : Fin 24) (b : Fin 16384), f (ix2 v b) = (((Spec.cnt x v b : ℕ) : ℝ) : EReal)) :
    TcValue.mmF (F := Ideal) f (HostTail.tpadF (F := Ideal) t) = Spec.G x t := by
  funext i
  obtain ⟨b, d, rfl⟩ : ∃ (b : Fin 16384) (d : Fin 128), i = ix2 b d := ⟨i 0, i 1, eq_ix2 i⟩
  rw [ValueMm.mmF_apply, G_apply, ValueTpad.tpadF_eq]
  refine congrArg Ideal.tanh ?_
  rw [← HistAlgebra.hist_dot x t hx ht b d]
  exact Finset.sum_congr rfl fun v _ => by rw [hf v b]

/-- **The kernel computes the specification's function**: if the count array reads, through every chunk, as the chunk's
    count vector of the transposed index array, then the TensorCore region's result of it and of the padded table is
    `Spec.G`. -/
theorem kernel_value (d : Dev nD) (x : IVec Spec.SX 32) (t : FVec Ideal Spec.ST .f32) (hx : ∀ i, (x i).toNat < 23)
    (ht : ∀ i, ∃ r : ℝ, t i = (r : EReal)) (f : Buf (Elt Ideal) (cntLoc d))
    (hok : XtOk d (HostTail.xtF (F := Ideal) x))
    (hf : ∀ L k, ChunkIs d L k (chunkCV d (HostTail.xtF (F := Ideal) x) hok L k) f) :
    TcValue.mmF (F := Ideal) f (HostTail.tpadF (F := Ideal) t) = Spec.G x t :=
  value_of_hist x t hx ht f (cnt_of_chunks d x (HostTail.xtF (F := Ideal) x) rfl hok f hf)

end Cert.Proof.KernelValue

end
-- ==== Proof.LibTypedRef.lean ====
/-
  Typed references: a value stored through a typed reference and read back through the same reference.

  A module-local function's body is printed over typed references: each carries a buffer and the proof that the buffer's
  type is the value's, and contents pass to and from the buffer by transport along that proof. Read at once, a line of such
  operations leaves a transport pair around every intermediate value. The pair cancels, for any signature and any values.
-/
import Idealize.ShloMosaic.Lib.StableHlo

noncomputable section

namespace Cert.TypedRef

open Idealize.ShloMosaic Idealize.ShloMosaic.StableHlo

/-- A value written to a typed reference's buffer and read back through the same reference is the value. -/
theorem ofBuf_toBuf {sig : RefSig} {Val : EltTy → Type} {T : BufTy} (x : TRef sig T) (v : T.Contents Val) :
    x.ofBuf (x.toBuf v) = v := by
  obtain ⟨r, h, _, _⟩ := x
  subst h
  rfl

end Cert.TypedRef

end
-- ==== Proof.RefRun.lean ====
/-
  The reference program's run, read back as one pure term of its two arguments.

  The reference is a straight line of array operations: the table with its row 0 set to zero; `jnp.take` of that table
  at `x` (an outlined function: indices below zero are wrapped by adding 23, the rows are gathered, and positions whose
  index is outside 0..22 are filled with a not-a-number word); the sum over the 200 positions; `tanh`. Listed in order,
  the operations of the outlined function in place of its call, the program is that list run from the launch contents,
  so every weakly fair execution ends with the result buffer at the operations' composed term `out` of the two argument
  arrays, and the argument arrays unchanged.
-/
import proofs.«205141_g56023553409622_cont_9to1c4b_756_25_alg».proof.Proof.Gen.ReferenceIdeal
import proofs.«205141_g56023553409622_cont_9to1c4b_756_25_alg».proof.Proof.Spec
import proofs.«205141_g56023553409622_cont_9to1c4b_756_25_alg».proof.Proof.LibTypedRef
import Idealize.ShloMosaic.Lib.StableHlo.Run

noncomputable section

namespace Cert.Proof.RefRun

open Cert.ReferenceIdeal Cert.ReferenceIdeal.Gen Idealize.ShloMosaic Idealize.ShloMosaic.TcCoe Idealize.SL.Sem
  Idealize.ShloMosaic.StableHlo Cert.Proof

/-! ## The stages, as pure functions of the arguments -/

/-- The table with row 0 overwritten by zeros: a scatter of one row of 128 zeros at the one start index 0. -/
def tz (t : FVec Ideal Spec.ST .f32) : FVec Ideal Spec.ST .f32 :=
  Host.scatter scatter_S23x128_S1_S128_0_0_0_0 (fun _ b => b) t
    (broadcastInDim S1 ![] bcast_S_S1 (constantI S_ 32 0#32))
    (broadcastInDim S128 ![] bcast_S_S128 (constant S_ .f32 0x00000000#32))

/-- The row numbers as `jnp.take` normalises them: a row number below zero has 23 added. -/
def wrapped (x : IVec Spec.SX 32) : IVec Spec.SX 32 :=
  select (cmpi .slt x (broadcastInDim S16384x200 ![] bcast_S_S16384x200 (constantI S_ 32 0#32)))
    (addi x (broadcastInDim S16384x200 ![] bcast_S_S16384x200 (constantI S_ 32 23#32))) x

/-- The normalised row numbers as an array of one-element index vectors. -/
def idx3 (x : IVec Spec.SX 32) : IVec S16384x200x1 32 :=
  broadcastInDim S16384x200x1 ![0, 1] bcast_S16384x200_S16384x200x1_0_1 (wrapped x)

/-- The positions whose index vector lies in 0..22: the conjunction over the (one-element) index vector of the two tests. -/
def inb (x : IVec Spec.SX 32) : IVec S16384x200 1 :=
  Host.reduce IntOp.andi
    (andi (cmpi .sge (idx3 x) (broadcastInDim S16384x200x1 ![] bcast_S_S16384x200x1 (constantI S_ 32 0#32)))
      (cmpi .sle (idx3 x)
        (broadcastInDim S16384x200x1 ![0, 1, 2] bcast_S1x1x1_S16384x200x1_0_1_2
          (broadcastInDim S1x1x1 ![2] bcast_S1_S1x1x1_2 (constantI S1 32 22#32)))))
    (constantI S_ 1 1#1) reducesTo_S16384x200x1_S16384x200_d2 h_S_

/-- `jnp.take`: the gathered rows where the index is in range, the fill word elsewhere. -/
def taken (x : IVec Spec.SX 32) (t : FVec Ideal Spec.ST .f32) : FVec Ideal S16384x200x128 .f32 :=
  select (broadcastInDim S16384x200x128 ![0, 1] bcast_S16384x200_S16384x200x128_0_1 (inb x))
    (Host.gather gather_S23x128_S16384x200x1_S16384x200x128_2_0_n_n_0_2_1128 (tz t) (idx3 x))
    (broadcastInDim S16384x200x128 ![] bcast_S_S16384x200x128 (constant S_ .f32 0x7FC00000#32))

/-- What the reference computes from its two arguments: `tanh` of the sum over the 200 positions of the taken rows. -/
def out (x : IVec Spec.SX 32) (t : FVec Ideal Spec.ST .f32) : FVec Ideal Spec.SO .f32 :=
  Host.tanh (Host.reduceAdd (taken x t) (constant S_ .f32 0x00000000#32) reducesTo_S16384x200x128_S16384x128_d1 h_S_)

/-! ## The program as a list of operations -/

variable {F : FTy → Type} [FloatOps F]

/-- The 31 operations in order: five of the main function (the zero start index and the zero row, each a constant and its
    broadcast, then the scatter), the 23 of `jnp.take` over the buffers of its one call (the select of the nested
    `where` among them), then the zero the sum starts from, the sum and `tanh`. -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    nullary main_cst (constant S_ .f32 0x00000000#32),
    unary main_cst main_v1 (broadcastInDim S128 ![] bcast_S_S128 : (⟨S_, .f32⟩ : BufTy).Contents (Elt F) → (⟨S128, .f32⟩ : BufTy).Contents (Elt F)),
    ternary main_arg1 main_v0 main_v1 main_v2 ((fun x i u => Host.scatter scatter_S23x128_S1_S128_0_0_0_0 (fun _ b => b) x i u) : (⟨S23x128, .f32⟩ : BufTy).Contents (Elt F) → (⟨S1, .i32⟩ : BufTy).Contents (Elt F) → (⟨S128, .f32⟩ : BufTy).Contents (Elt F) → (⟨S23x128, .f32⟩ : BufTy).Contents (Elt F)),
    TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 23#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 22#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_v2) main_call0.v5 main_call0.v13 (fun x i => Host.gather gather_S23x128_S16384x200x1_S16384x200x128_2_0_n_n_0_2_1128 x i),
    TRef.unary main_call0.v12 main_call0.v14 (broadcastInDim S16384x200x128 ![0, 1] bcast_S16384x200_S16384x200x128_0_1),
    TRef.nullary main_call0.cst (constant S_ .f32 0x7FC00000#32),
    TRef.unary main_call0.cst main_call0.v15 (broadcastInDim S16384x200x128 ![] bcast_S_S16384x200x128),
    TRef.ternary main_call0.v14 main_call0.v13 main_call0.v15 main_call0.v16 select,
    nullary main_cst_0 (constant S_ .f32 0x00000000#32),
    binary main_v3 main_cst_0 main_v4 ((fun x v => Host.reduceAdd x v reducesTo_S16384x200x128_S16384x128_d1 h_S_) : (⟨S16384x200x128, .f32⟩ : BufTy).Contents (Elt F) → (⟨S_, .f32⟩ : BufTy).Contents (Elt F) → (⟨S16384x128, .f32⟩ : BufTy).Contents (Elt F)),
    unary main_v4 main_v5 (Host.tanh : (⟨S16384x128, .f32⟩ : BufTy).Contents (Elt F) → (⟨S16384x128, .f32⟩ : BufTy).Contents (Elt F)) ]

set_option maxRecDepth 4096 in
/-- The main function is that straight line: the two outlined functions unfolded at their calls, both sides are one chain
    of steps once the sequencing is reassociated. -/
theorem main_eq (c : Dev nD) : main (F := F) c = seq ops := by
  simp only [main, fn_take.body, fn_where.body, seq, bind_assoc, pure_bind]

attribute [local irreducible] Host.reduce Host.gather Host.scatter Host.reduceAdd in
set_option maxRecDepth 8192 in
set_option maxHeartbeats 1000000 in
/-- The fold of the operations at the result buffer is `out` of the launch contents of the two arguments: each operation
    writes its own buffer and reads the ones written before it, so unrolling the fold composes the stages (a value
    written through a typed reference and read back through it is the value). The gather, the scatter and the two
    reductions stay folded: the equation never looks inside them. -/
theorem out_eq (V : Valuation τ sig (Elt Ideal)) :
    after (ops (F := Ideal)) V (main_v5 : DevRef τ sig) = out (V (main_arg0 : DevRef τ sig)) (V (main_arg1 : DevRef τ sig)) := by
  after_results_simp
  simp only [Cert.TypedRef.ofBuf_toBuf]
  rfl

theorem arg0_eq (V : Valuation τ sig (Elt F)) : after (ops (F := F)) V (main_arg0 : DevRef τ sig) = V (main_arg0 : DevRef τ sig) := by
  simp only [after_cons, after_nil]
  rfl

theorem arg1_eq (V : Valuation τ sig (Elt F)) : after (ops (F := F)) V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    nullary_bufs_sub .., binary_bufs_sub .., unary_bufs_sub ..⟩

/-- From any memory with zero counters, every weakly fair execution of the reference terminates with the result buffer at
    `out` of the two argument arrays as launched, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (out_eq _), (h c main_arg0).trans (arg0_eq _),
      (h c main_arg1).trans (arg1_eq _)⟩)
    (run_seq scopedRefs_eq scopedSems_eq defs main (fun _ => ops) main_eq (fun _ => ops_sub) m ρ)

end Cert.Proof.RefRun

end
-- ==== Proof.LibGatherRows.lean ====
/-
  Rows of a matrix gathered at an array of one-element index vectors, read at an index.

  What `x[idx]` of a matrix `x : [N, F]` at an integer array `idx : [R, C]` lowers to: a gather over the indices as
  `[R, C, 1]`, the one offset axis last (the row's F entries), the row axis collapsed, slice sizes `[1, F]`. Result
  element (r, c, e) is `x` at row `idx[r, c, 0]`, read as a signed integer and clamped into `[0, N - 1]`, and column
  `e`: on the row axis the slice's start is the clamped index and there is no offset, on the column axis the start
  is zero and the offset is the result's last coordinate.
-/
import Idealize.ShloMosaic.PureOps.Ideal
import Idealize.ShloMosaic.Lib.ValueIdx

noncomputable section

namespace Cert.GatherRows

open Idealize.ShloMosaic Idealize.ShloMosaic.ValueIdx

variable {α : Type}

/-- Those dimension numbers, for any proof that they are well formed. -/
abbrev rowDims (N F R C : Nat)
    (wf : GatherDims.WF ⟨2, ![N, F]⟩ ⟨3, ![R, C, 1]⟩ ⟨3, ![R, C, F]⟩ [2] [0] [] [0] [] 2 ![1, F]) :
    GatherDims ⟨2, ![N, F]⟩ ⟨3, ![R, C, 1]⟩ ⟨3, ![R, C, F]⟩ where
  offsetDims := [2]
  collapsedSliceDims := [0]
  operandBatchingDims := []
  startIndicesBatchingDims := []
  startIndexMap := [0]
  indexVectorDim := 2
  sliceSizes := ![1, F]
  wf := wf

/-- The gather read at (r, c, e): the matrix at the row `idx[r, c, 0]` names, read signed and clamped, and column `e`. -/
theorem gather_rows_apply {N F R C w : Nat} (hN : 0 < N)
    (wf : GatherDims.WF ⟨2, ![N, F]⟩ ⟨3, ![R, C, 1]⟩ ⟨3, ![R, C, F]⟩ [2] [0] [] [0] [] 2 ![1, F])
    (x : (⟨2, ![N, F]⟩ : Shape).Idx → α) (idx : IVec ⟨3, ![R, C, 1]⟩ w) (r : Fin R) (c : Fin C) (e : Fin F) :
    Host.gather (rowDims N F R C wf) x idx (ix3 r c e)
      = x (ix2 ⟨min (idx (ix3 r c (0 : Fin 1))).toInt.toNat (N - 1), by omega⟩ e) := by
  unfold Host.gather
  congr 1
  funext a
  refine Fin.ext ?_
  match a with
  | ⟨0, h0⟩ =>
    show (rowDims N F R C wf).start (ix3 r c e) idx ⟨0, h0⟩ + (rowDims N F R C wf).batchCoord (ix3 r c e) ⟨0, h0⟩
        + (rowDims N F R C wf).offCoord (ix3 r c e) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowDims N F R C wf).startIndexMap from List.mem_singleton.mpr rfl)]
    have hsi : (rowDims N F R C wf).siIdx (ix3 r c e) ⟨List.idxOf (⟨0, h0⟩ : Fin 2) (rowDims N F R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, h1⟩ =>
    show (rowDims N F R C wf).start (ix3 r c e) idx ⟨1, h1⟩ + (rowDims N F R C wf).batchCoord (ix3 r c e) ⟨1, h1⟩
        + (rowDims N F R C wf).offCoord (ix3 r c e) ⟨1, h1⟩ = e.val
    rw [GatherDims.batchCoord_eq_zero _ _ _ List.not_mem_nil]
    unfold GatherDims.start
    have hne : ¬ (⟨1, h1⟩ : Fin 2) ∈ ([0] : List (Fin 2)) := fun h =>
      absurd (congrArg Fin.val (List.mem_singleton.mp h)) Nat.one_ne_zero
    rw [dif_neg (show ¬ (⟨1, h1⟩ : Fin 2) ∈ (rowDims N F R C wf).startIndexMap from hne)]
    simp only [Nat.zero_add, Nat.add_zero]
    unfold GatherDims.offCoord
    rw [dif_pos (show (⟨1, h1⟩ : Fin 2) ∈ (rowDims N F R C wf).sKept from
      (GatherDims.mem_sKept _ _).mpr ⟨hne, List.not_mem_nil⟩)]
    rfl

end Cert.GatherRows

end
-- ==== Proof.LibScatterSet.lean ====
/-
  A scatter whose combiner returns the update and whose updates all hold one constant. Every write stores the same
  value, so the order of the writes does not matter: the result at an element is the constant when some update index
  lands on the element, and the operand's element otherwise. Also stated here: where an update index lands, by
  coordinates (start plus window coordinate on every axis, inside the operand).
-/
import Idealize.ShloMosaic.PureOps

noncomputable section

namespace Cert.Proof.LibScatterSet

open Idealize.ShloMosaic
open Classical

variable {α : Type} {s si u : Shape} {w : Nat}

/-- A left fold, over any list of update numbers, of a step that writes the constant `c` at the element the update
    lands on and leaves every other element (and, when the update lands nowhere, every element) as it was: the result at
    `i'` is `c` when some update of the list lands on `i'`, and the starting value's element otherwise. -/
theorem foldl_set_const (d : ScatterDims s si u) (idx : IVec si w) (c : α)
    (step : (s.Idx → α) → Fin u.numel → (s.Idx → α))
    (hhit : ∀ r n i, d.resultIdx? (u.rowMajor.symm n) idx = some i → step r n i = c)
    (hmiss : ∀ r n i i', d.resultIdx? (u.rowMajor.symm n) idx = some i → i' ≠ i → step r n i' = r i')
    (hnone : ∀ r n, d.resultIdx? (u.rowMajor.symm n) idx = none → step r n = r)
    (i' : s.Idx) : ∀ (l : List (Fin u.numel)) (x : s.Idx → α),
      l.foldl step x i' = if ∃ n ∈ l, d.resultIdx? (u.rowMajor.symm n) idx = some i' then c else x i' := by
  intro l
  induction l with
  | nil => intro x; simp
  | cons n l ih =>
    intro x
    rw [List.foldl_cons, ih]
    by_cases h1 : ∃ m ∈ l, d.resultIdx? (u.rowMajor.symm m) idx = some i'
    · obtain ⟨m, hm, e⟩ := h1
      rw [if_pos ⟨m, hm, e⟩, if_pos ⟨m, List.mem_cons_of_mem _ hm, e⟩]
    · rw [if_neg h1]
      cases hn : d.resultIdx? (u.rowMajor.symm n) idx with
      | none =>
        rw [hnone x n hn, if_neg]
        rintro ⟨m, hm, e⟩
        rcases List.mem_cons.1 hm with rfl | hm
        · rw [hn] at e; cases e
        · exact h1 ⟨m, hm, e⟩
      | some i =>
        by_cases hi : i' = i
        · subst hi
          rw [hhit x n i' hn, if_pos ⟨n, List.mem_cons_self, hn⟩]
        · rw [hmiss x n i i' hn hi, if_neg]
          rintro ⟨m, hm, e⟩
          rcases List.mem_cons.1 hm with rfl | hm
          · rw [hn] at e; exact hi (Option.some.inj e).symm
          · exact h1 ⟨m, hm, e⟩

/-- **A scatter of one constant with the combiner "take the update"**, read at an element: the constant when some
    update index lands on the element, the operand's element otherwise. -/
theorem scatter_set_const (d : ScatterDims s si u) (x : s.Idx → α) (idx : IVec si w) (c : α) (i' : s.Idx) :
    Host.scatter d (fun _ b => b) x idx (fun _ => c) i'
      = if ∃ j, d.resultIdx? j idx = some i' then c else x i' := by
  have hiff : (∃ n ∈ List.finRange u.numel, d.resultIdx? (u.rowMajor.symm n) idx = some i')
      ↔ ∃ j, d.resultIdx? j idx = some i' :=
    ⟨fun ⟨n, _, h⟩ => ⟨_, h⟩,
     fun ⟨j, h⟩ => ⟨u.rowMajor j, List.mem_finRange _, by rw [Equiv.symm_apply_apply]; exact h⟩⟩
  unfold Host.scatter
  rw [foldl_set_const d idx c _ ?_ ?_ ?_ i' (List.finRange u.numel) x]
  · by_cases h : ∃ j, d.resultIdx? j idx = some i'
    · rw [if_pos h, if_pos (hiff.2 h)]
    · rw [if_neg h, if_neg (mt hiff.1 h)]
  · intro r n i h
    simp only [h, if_true]
  · intro r n i i' h hne
    simp only [h, if_neg hne]
  · intro r n h
    simp only [h]

/-- **Where an update index lands**: on `i'` exactly when, on every axis, the start read off the scatter indices plus
    the window coordinate is `i'`'s coordinate. (An update whose sum leaves the operand on some axis lands nowhere,
    and then no `i'` has these coordinates.) -/
theorem resultIdx?_eq_some_iff (d : ScatterDims s si u) (j : u.Idx) (idx : IVec si w) (i' : s.Idx) :
    d.resultIdx? j idx = some i' ↔ ∀ a, d.start j idx a + (d.window j a : Int) = ((i' a).val : Int) := by
  unfold ScatterDims.resultIdx?
  split
  · next h =>
    constructor
    · intro e a
      have e' := congrArg (fun f : s.Idx => (f a).val) (Option.some.inj e)
      simp only at e'
      have h0 := (h a).1
      omega
    · intro e
      congr 1
      funext a
      apply Fin.ext
      have := e a
      simp only
      omega
  · next h =>
    constructor
    · intro e; cases e
    · intro e
      exact absurd (fun a => ⟨by have := e a; omega, by have := e a; have := (i' a).isLt; omega⟩) h

end Cert.Proof.LibScatterSet

end
-- ==== Proof.RefValue.lean ====
/-
  The reference's term is the specification's function, index by index.

  With every entry of `x` a row number below 23, each stage of the reference reads, at an index, as the specification
  says. The scatter that zeroes row 0 writes one constant, so the table it leaves has zero at row 0 and the table's own
  entry elsewhere. `jnp.take`'s wrap of negative indices does nothing to a row number that is not negative, its range
  test passes at every position, and its gather, whose clamp into 0..22 does nothing either, reads the zeroed table at
  row `x[b, l]`: that is `Spec.trow` (rows 1..22 the table's, row 0 zero). The sum over axis 1 from zero is the sum over the
  200 positions, and the last stage is `tanh`.
-/
import proofs.«205141_g56023553409622_cont_9to1c4b_756_25_alg».proof.Proof.RefRun
import proofs.«205141_g56023553409622_cont_9to1c4b_756_25_alg».proof.Proof.LibGatherRows
import proofs.«205141_g56023553409622_cont_9to1c4b_756_25_alg».proof.Proof.LibScatterSet
import Idealize.ShloMosaic.Lib.IdealHost
import Idealize.ShloMosaic.Lib.Pipeline.Value

noncomputable section

open scoped BigOperators

namespace Cert.Proof.RefValue

open Cert.ReferenceIdeal Cert.ReferenceIdeal.Gen Idealize.ShloMosaic Idealize.ShloMosaic.ValueIdx Cert.Proof

/-! ## Words -/

/-- A row number below 23 reads the same signed and unsigned. -/
theorem toInt_of_lt (w : BitVec 32) (h : w.toNat < 23) : w.toInt = (w.toNat : Int) :=
  BitVec.toInt_eq_toNat_of_lt (by omega)

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-! ## The index side of `jnp.take` -/

variable (x : IVec Spec.SX 32)

/-- A row number that is not negative is left as it is by the wrap. -/
theorem wrapped_apply (hx : ∀ i, (x i).toNat < 23) (b : Fin 16384) (l : Fin 200) :
    RefRun.wrapped x (ix2 b l) = x (ix2 b l) := by
  unfold RefRun.wrapped
  rw [select_apply]
  have h0 : cmpi .slt x (broadcastInDim S16384x200 ![] bcast_S_S16384x200 (constantI S_ 32 0#32)) (ix2 b l) = 0#1 := by
    refine eq_zero_of_ne_one fun h => ?_
    have h' := IntOp.cmpi_slt.1 h
    rw [broadcastInDim_scalar_apply, toInt_of_lt _ (hx (ix2 b l))] at h'
    have e0 : (constantI S_ 32 0#32 ix0 : BitVec 32).toInt = 0 := by decide
    rw [e0] at h'
    omega
  rw [h0, select_zero]

/-- The index vector at position `(b, l)` holds the wrapped row number. -/
theorem idx3_apply (b : Fin 16384) (l : Fin 200) (e : Fin 1) :
    RefRun.idx3 x (ix3 b l e) = RefRun.wrapped x (ix2 b l) := by
  unfold RefRun.idx3
  exact broadcastInDim_apply _ _ _ _ (ix2 b l) fun a => by
    match a with
    | ⟨0, _⟩ => rfl
    | ⟨1, _⟩ => rfl

/-- The range test passes at every position. -/
theorem inb_apply (hx : ∀ i, (x i).toNat < 23) (b : Fin 16384) (l : Fin 200) : RefRun.inb x (ix2 b l) = 1#1 := by
  unfold RefRun.inb
  rw [Host.reduce_eq_foldl]
  refine foldl_andi_one _ _ fun i _ => ?_
  obtain ⟨b', l', e', rfl⟩ : ∃ (b' : Fin 16384) (l' : Fin 200) (e' : Fin 1), i = ix3 b' l' e' := ⟨i 0, i 1, i 2, eq_ix3 i⟩
  refine IntOp.andi_eq_one.2 ⟨IntOp.cmpi_sge.2 ?_, IntOp.cmpi_sle.2 ?_⟩
  · rw [idx3_apply, wrapped_apply x hx, toInt_of_lt _ (hx _)]
    show ((0#32 : BitVec 32)).toInt ≤ _
    have e0 : (0#32 : BitVec 32).toInt = 0 := by decide
    rw [e0]; omega
  · rw [idx3_apply, wrapped_apply x hx, toInt_of_lt _ (hx _)]
    show _ ≤ ((22#32 : BitVec 32)).toInt
    have e22 : (22#32 : BitVec 32).toInt = 22 := by decide
    have := hx (ix2 b' l')
    rw [e22]; omega

/-! ## The table with row 0 zeroed -/

variable (t : FVec Ideal Spec.ST .f32)

/-- Where an update of the zero row lands: update `j` (a column) lands on row 0 at column `j`. -/
theorem zero_row_lands (j : S128.Idx) (v : Fin 23) (d : Fin 128) :
    scatter_S23x128_S1_S128_0_0_0_0.resultIdx? j (broadcastInDim S1 ![] bcast_S_S1 (constantI S_ 32 0#32)) = some (ix2 v d)
      ↔ v.val = 0 ∧ d.val = (j 0).val := by
  rw [LibScatterSet.resultIdx?_eq_some_iff]
  have s0 : scatter_S23x128_S1_S128_0_0_0_0.start j (broadcastInDim S1 ![] bcast_S_S1 (constantI S_ 32 0#32)) ⟨0, by decide⟩ = 0 := rfl
  have s1 : scatter_S23x128_S1_S128_0_0_0_0.start j (broadcastInDim S1 ![] bcast_S_S1 (constantI S_ 32 0#32)) ⟨1, by decide⟩ = 0 := rfl
  have w0 : scatter_S23x128_S1_S128_0_0_0_0.window j ⟨0, by decide⟩ = 0 := rfl
  have w1 : scatter_S23x128_S1_S128_0_0_0_0.window j ⟨1, by decide⟩ = (j 0).val := rfl
  constructor
  · intro h
    have h0 := h ⟨0, by decide⟩
    have h1 := h ⟨1, by decide⟩
    rw [s0, w0] at h0
    rw [s1, w1] at h1
    have e0 : ((ix2 v d : S23x128.Idx) ⟨0, by decide⟩).val = v.val := rfl
    have e1 : ((ix2 v d : S23x128.Idx) ⟨1, by decide⟩).val = d.val := rfl
    rw [e0] at h0
    rw [e1] at h1
    exact ⟨by omega, by omega⟩
  · rintro ⟨hv, hd⟩ a
    match a with
    | ⟨0, _⟩ =>
      show scatter_S23x128_S1_S128_0_0_0_0.start j _ ⟨0, by decide⟩ + (scatter_S23x128_S1_S128_0_0_0_0.window j ⟨0, by decide⟩ : Int) = (v.val : Int)
      rw [s0, w0]; omega
    | ⟨1, _⟩ =>
      show scatter_S23x128_S1_S128_0_0_0_0.start j _ ⟨1, by decide⟩ + (scatter_S23x128_S1_S128_0_0_0_0.window j ⟨1, by decide⟩ : Int) = (d.val : Int)
      rw [s1, w1]; omega

/-- The zeroed table at row `v`, column `d`: zero at row 0, the table's entry elsewhere. -/
theorem tz_apply (v : Fin 23) (d : Fin 128) : RefRun.tz t (ix2 v d) = if v.val = 0 then 0 else t (ix2 v d) := by
  unfold RefRun.tz
  have hupd : (broadcastInDim S128 ![] bcast_S_S128 (constant (F := Ideal) S_ .f32 0x00000000#32) : FVec Ideal S128 .f32)
      = fun _ => Ideal.ofBits .f32 0x00000000#32 := rfl
  rw [hupd, LibScatterSet.scatter_set_const, Ideal.ofBits_zero_f32]
  by_cases hv : v.val = 0
  · rw [if_pos hv, if_pos]
    exact ⟨ix1 d, (zero_row_lands _ v d).2 ⟨hv, rfl⟩⟩
  · rw [if_neg hv, if_neg]
    rintro ⟨j, hj⟩
    exact hv ((zero_row_lands j v d).1 hj).1

/-! ## `jnp.take` at an index, the sum, and the result -/

/-- The reference's gather record is the row gather's. -/
theorem gather_dims_eq :
    gather_S23x128_S16384x200x1_S16384x200x128_2_0_n_n_0_2_1128
      = GatherRows.rowDims 23 128 16384 200 gather_S23x128_S16384x200x1_S16384x200x128_2_0_n_n_0_2_1128_wf := rfl

/-- `jnp.take` at position `(b, l)`, column `d`: the table row `x[b, l]` as the specification reads it. -/
theorem taken_apply (hx : ∀ i, (x i).toNat < 23) (b : Fin 16384) (l : Fin 200) (d : Fin 128) :
    RefRun.taken x t (ix3 b l d) = Spec.trow t (x (ix2 b l)).toNat d := by
  unfold RefRun.taken
  rw [select_apply]
  have hm : broadcastInDim S16384x200x128 ![0, 1] bcast_S16384x200_S16384x200x128_0_1 (RefRun.inb x) (ix3 b l d) = 1#1 := by
    rw [broadcastInDim_apply _ _ _ _ (ix2 b l) fun a => by
      match a with
      | ⟨0, _⟩ => rfl
      | ⟨1, _⟩ => rfl]
    exact inb_apply x hx b l
  rw [hm, select_one, gather_dims_eq, GatherRows.gather_rows_apply (by decide)]
  have hw := hx (ix2 b l)
  have hval : min (RefRun.idx3 x (ix3 b l (0 : Fin 1))).toInt.toNat (23 - 1) = (x (ix2 b l)).toNat := by
    rw [idx3_apply, wrapped_apply x hx, toInt_of_lt _ hw, Int.toNat_natCast]; omega
  have hidx : ∀ p : min (RefRun.idx3 x (ix3 b l (0 : Fin 1))).toInt.toNat (23 - 1) < 23,
      (⟨min (RefRun.idx3 x (ix3 b l (0 : Fin 1))).toInt.toNat (23 - 1), p⟩ : Fin 23) = ⟨(x (ix2 b l)).toNat, hw⟩ :=
    fun _ => Fin.ext hval
  rw [hidx, tz_apply]
  unfold Spec.trow
  by_cases h0 : (x (ix2 b l)).toNat = 0
  · rw [if_pos h0, dif_neg (by omega)]
  · rw [if_neg h0, dif_pos ⟨by omega, hw⟩]

/-- The sum over axis 1 at `(b, d)` runs over the positions `(b, l, d)`. -/
theorem lift_eq (h : Shape.Reduces S16384x200x128 [1] S16384x128) (b : Fin 16384) (d : Fin 128) (l : Fin 200) :
    h.lift (ix2 b d) l = ix3 b l d := by
  funext a
  refine Fin.ext ?_
  match a with
  | ⟨0, _⟩ => rfl
  | ⟨1, _⟩ => rfl
  | ⟨2, _⟩ => rfl

/-- The reference's term at `(b, d)`: `tanh` of the sum over the 200 positions of what `jnp.take` put there. -/
theorem out_apply (b : Fin 16384) (d : Fin 128) :
    RefRun.out x t (ix2 b d) = Ideal.tanh (∑ l : Fin 200, RefRun.taken x t (ix3 b l d)) := by
  have h : Shape.Reduces S16384x200x128 [1] S16384x128 := by decide
  have tanh_apply : ∀ (f : FVec Ideal S16384x128 .f32) (i : S16384x128.Idx), Host.tanh f i = Ideal.tanh (f i) :=
    fun _ _ => rfl
  unfold RefRun.out
  rw [tanh_apply, hostReduceAdd_apply, Ideal.hostReduceAdd_single _ h, constant_apply, Ideal.ofBits_zero_f32, zero_add]
  refine congrArg Ideal.tanh ?_
  exact Finset.sum_congr rfl fun l _ => congrArg (RefRun.taken x t) (lift_eq h b d l)

/-- The specification's function at `(b, d)`. -/
theorem G_apply (b : Fin 16384) (d : Fin 128) :
    Spec.G x t (ix2 b d) = Ideal.tanh (∑ l : Fin 200, Spec.trow t (x (ix2 b l)).toNat d) := by
  unfold Spec.G
  rfl

/-- **The reference computes the specification's function** on inputs whose row numbers are below 23. -/
theorem out_eq (hx : ∀ i, (x i).toNat < 23) : RefRun.out x t = Spec.G x t := by
  funext i
  obtain ⟨b, d, rfl⟩ : ∃ (b : Fin 16384) (d : Fin 128), i = ix2 b d := ⟨i 0, i 1, eq_ix2 i⟩
  rw [out_apply, G_apply]
  refine congrArg Ideal.tanh ?_
  exact Finset.sum_congr rfl fun l _ => taken_apply x t hx b l d

end Cert.Proof.RefValue

end
-- ==== Proof.PreFacts.lean ====
/-
  What the precondition gives. The precondition is one bit: the conjunction of "every table entry has absolute value
  below +∞" (all 23 × 128 entries) and "every entry of `x` is at least 0 and at most 22, read signed" (all
  16384 × 200 entries). From the bit being 1 each conjunct holds at every index; a 32-bit word that reads, signed,
  between 0 and 22 reads the same unsigned, so as a row number it is below 23; and an extended real whose absolute
  value is below +∞ is neither infinity, hence a real.
-/
import proofs.«205141_g56023553409622_cont_9to1c4b_756_25_alg».proof.Pre_input_domain
import proofs.«205141_g56023553409622_cont_9to1c4b_756_25_alg».proof.Proof.Spec
import Idealize.ShloMosaic.Lib.ReduceAll
import Idealize.ShloMosaic.Lib.IdealHost

noncomputable section

namespace Cert.Proof.PreFacts

open Idealize.ShloMosaic Cert.Proof

/-- The rank-0 shape has one index. -/
instance : Subsingleton Cert.Pre_input_domain.S_.Idx := ⟨fun _ _ => funext fun d => d.elim0⟩

/-- A 32-bit word that reads, signed, between 0 and 22 is below 23 read unsigned. -/
theorem toNat_lt_of_signed_range (w : BitVec 32) (h0 : (0#32 : BitVec 32).toInt ≤ w.toInt)
    (h22 : w.toInt ≤ (22#32 : BitVec 32).toInt) : w.toNat < 23 := by
  have e0 : (0#32 : BitVec 32).toInt = 0 := by decide
  have e22 : (22#32 : BitVec 32).toInt = 22 := by decide
  rw [e0] at h0
  rw [e22] at h22
  have := BitVec.toInt_eq_toNat_cond w
  split at this <;> omega

/-- Under the precondition every entry of `x` is a row number below 23. Stated for every float instance: the integer
    conjunct does not look at the table. -/
theorem x_lt {F : FTy → Type} [FloatOps F] [Cert.Pre_input_domain.Facts] (x : IVec Spec.SX 32) (t : FVec F Spec.ST .f32)
    (h : Cert.Pre_input_domain.fn (F := F) x t = fun _ => 1#1) : ∀ i, (x i).toNat < 23 := by
  intro i
  have h0 := congrFun h ValueIdx.ix0
  dsimp only [Cert.Pre_input_domain.fn] at h0
  obtain ⟨_, h9⟩ := IntOp.andi_eq_one.1 h0
  have h8 := Host.reduce_andi_all _ _ _ _ _ h9 i
  obtain ⟨hge, hle⟩ := IntOp.andi_eq_one.1 h8
  have hge' := IntOp.cmpi_sge.1 hge
  have hle' := IntOp.cmpi_sle.1 hle
  rw [ValueIdx.broadcastInDim_scalar_apply] at hge' hle'
  exact toNat_lt_of_signed_range (x i) hge' hle'

/-- A one-bit word made from a Boolean is 1 only when the Boolean is true. -/
theorem ofBool_eq_one {b : Bool} (h : BitVec.ofBool b = 1#1) : b = true := by
  cases b
  · exact absurd h (by decide)
  · rfl

/-- An extended real whose absolute value is below +∞ is a real. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition, read at the exact instance, every table entry is a real. -/
theorem table_real [Cert.Pre_input_domain.Facts] (x : IVec Spec.SX 32) (t : FVec Ideal Spec.ST .f32)
    (h : Cert.Pre_input_domain.fn (F := Ideal) x t = fun _ => 1#1) : ∀ i, ∃ r : ℝ, t i = (r : EReal) := by
  intro i
  have h0 := congrFun h ValueIdx.ix0
  dsimp only [Cert.Pre_input_domain.fn] at h0
  obtain ⟨h3, _⟩ := IntOp.andi_eq_one.1 h0
  have h2 := Host.reduce_andi_all _ _ _ _ _ h3 i
  rw [ValueIdx.cmpf_apply, ValueIdx.broadcastInDim_scalar_apply] at h2
  have htop : Ideal.ofBits .f32 0x7F800000#32 = ⊤ := by simp [Ideal.ofBits, Ideal.ieee]
  have h2' : Ideal.cmp .olt (max (t i) (-(t i))) ⊤ = 1#1 := by rw [← htop]; exact h2
  exact real_of_abs_lt_top (t i) (of_decide_eq_true (ofBool_eq_one h2'))

end Cert.Proof.PreFacts

end
-- ==== Proof.lean ====
/-
  The certificate's five claims, assembled.

  The kernel computes, for 16384 rows of 200 row numbers `x[b, l]` into a table of 23 rows of 128 reals whose row 0
  counts as zero, `tanh (Σ_l table[x[b, l], d])` in two steps: a SparseCore kernel counts, per row `b`, how often each
  row number `v` occurs (thirty-two tiles, each four chunks of 128 rows of `x`, an indexed add of one per entry), and a
  TensorCore kernel multiplies the counts with the table padded to 24 rows and applies `tanh`. The reference gathers the
  200 table rows and sums them. On the extended reals the two agree because a count times a finite entry is that many
  copies of the entry: `Σ_v cnt[v, b] · t[v, d] = Σ_l t[x[b, l], d]`, which needs the table finite and every `x[b, l]`
  a row number of the table, both from the precondition.

  The three frames are the programs' runs with the values dropped; the kernel's run is the launch theorem for the
  SparseCore call over the tile's task, at both float instances; nothing was rewritten by the idealization, so
  `preserves` is trivial.
-/
import proofs.«205141_g56023553409622_cont_9to1c4b_756_25_alg».proof.Defs
import proofs.«205141_g56023553409622_cont_9to1c4b_756_25_alg».proof.Proof.Gen.Kernel
import proofs.«205141_g56023553409622_cont_9to1c4b_756_25_alg».proof.Proof.Gen.KernelIdeal
import proofs.«205141_g56023553409622_cont_9to1c4b_756_25_alg».proof.Proof.Gen.ReferenceIdeal
import proofs.«205141_g56023553409622_cont_9to1c4b_756_25_alg».proof.Proof.Gen.Pre_input_domain
import proofs.«205141_g56023553409622_cont_9to1c4b_756_25_alg».proof.Proof.Launch
import proofs.«205141_g56023553409622_cont_9to1c4b_756_25_alg».proof.Proof.BLaunch
import proofs.«205141_g56023553409622_cont_9to1c4b_756_25_alg».proof.Proof.KernelValue
import proofs.«205141_g56023553409622_cont_9to1c4b_756_25_alg».proof.Proof.RefValue
import proofs.«205141_g56023553409622_cont_9to1c4b_756_25_alg».proof.Proof.PreFacts
import Idealize.ShloMosaic.Adequacy
import Idealize.ShloMosaic.Init

noncomputable section

namespace Cert.Proof

open Idealize.ShloMosaic Idealize.SL.Sem

/-- The precondition makes every entry of the index input a row number below 23, at the word-level instance … -/
theorem inputOk_bits [Cert.Pre_input_domain.Facts] (m : (ℓ : Loc Cert.Kernel.nD Cert.Kernel.τ Cert.Kernel.sig) → Buf (Elt Bits) ℓ)
    (h : Cert.Pre_Kernel m) : BLaunch.InputOk (F := Bits) m :=
  fun d => PreFacts.x_lt (F := Bits) _ _ (h d)

/-- … and at the ideal instance. -/
theorem inputOk_ideal [Cert.Pre_input_domain.Facts] (m : (ℓ : Loc Cert.KernelIdeal.nD Cert.KernelIdeal.τ Cert.KernelIdeal.sig) → Buf (Elt Ideal) ℓ)
    (h : Cert.Pre_KernelIdeal m) : Launch.InputOk (F := Ideal) m :=
  fun d => PreFacts.x_lt (F := Ideal) _ _ (h d)

theorem claim : Cert.Claim := ⟨Cert.Kernel.Gen.facts, Cert.KernelIdeal.Gen.facts, Cert.ReferenceIdeal.Gen.facts, Cert.Pre_input_domain.Gen.facts, by
  letI := Cert.Pre_input_domain.Gen.facts
  refine ⟨?_, ?_, ?_, trivial, ?_⟩
  · -- the word-level kernel runs, its inputs unchanged
    intro m ρ hpre
    exact (θ_run Cert.Kernel.defs _ _).mono (fun _ h c => ⟨(h c).1, (h c).2.1⟩) (BLaunch.run_main (F := Bits) m ρ (inputOk_bits m hpre))
  · -- the idealized kernel runs, its inputs unchanged
    intro m ρ hpre
    exact (θ_run Cert.KernelIdeal.defs _ _).mono (fun _ h c => ⟨(h c).1, (h c).2.1⟩) (Launch.run_main (F := Ideal) m ρ (inputOk_ideal m hpre))
  · -- the reference runs, its inputs unchanged
    intro m ρ _
    exact (θ_run Cert.ReferenceIdeal.defs _ _).mono (fun _ h c => (h c).2) (RefRun.run m ρ)
  · -- both runs end at the one function of the inputs
    intro m ρ m' ρ' hpre hagree
    have hok := inputOk_ideal m hpre
    refine ⟨fun c => Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
    · refine (θ_run Cert.KernelIdeal.defs _ _).mono (fun r h c => ?_) (Launch.run_main (F := Ideal) m ρ hok)
      obtain ⟨h0, h1, f, hf, hv⟩ := h c
      refine ⟨?_, h0, h1⟩
      rw [hv]
      exact KernelValue.kernel_value c _ _ (hok c) (PreFacts.table_real _ _ (hpre c)) f (Launch.xtOk m hok c)
        (fun L k => Launch.hCV m hok c L k ▸ hf L k)
    · refine (θ_run Cert.ReferenceIdeal.defs _ _).mono (fun r h c => ⟨?_, (h c).2⟩) (RefRun.run m' ρ')
      rw [(h c).1, (hagree c).1, (hagree c).2]
      exact RefValue.out_eq _ _ (hok c)⟩

end Cert.Proof

end
